-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x512 : Shape := ⟨3, ![1024, 64, 512]⟩
abbrev S16x512x512 : Shape := ⟨3, ![16, 512, 512]⟩
abbrev S512 : Shape := ⟨1, ![512]⟩
abbrev S_ : Shape := ⟨0, ![]⟩

class Facts : Prop where
  bcast_S_S1024x64x512 : S_.BroadcastsInDim S1024x64x512 (![] : Fin 0 → Fin S1024x64x512.rank)
  reducesTo_S1024x64x512_S_d0_1_2 : S1024x64x512.ReducesTo [0, 1, 2] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x64x512 .f32) (main_arg1 : FVec F S16x512x512 .f32) (main_arg2 : FVec F S512 .f32) : IVec S_ 1 :=
  let main_v0 : FVec F S1024x64x512 .f32 := Host.absf main_arg0
  let main_cst : FVec F S_ .f32 := constant S_ .f32 0x7F800000#32
  let main_v1 : FVec F S1024x64x512 .f32 := broadcastInDim S1024x64x512 ![] bcast_S_S1024x64x512 main_cst
  let main_v2 : IVec S1024x64x512 1 := cmpf .olt main_v0 main_v1
  let main_c : IVec S_ 1 := constantI S_ 1 1#1
  let main_v3 : IVec S_ 1 := (fun x v => Host.reduce IntOp.andi x v reducesTo_S1024x64x512_S_d0_1_2 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x64x512 : Shape := ⟨3, ![1024, 64, 512]⟩
abbrev S16x512x512 : Shape := ⟨3, ![16, 512, 512]⟩
abbrev S512 : Shape := ⟨1, ![512]⟩
abbrev S64x64x512 : Shape := ⟨3, ![64, 64, 512]⟩
abbrev S1x64x512 : Shape := ⟨3, ![1, 64, 512]⟩
abbrev S4x64x512 : Shape := ⟨3, ![4, 64, 512]⟩
abbrev S256x512 : Shape := ⟨2, ![256, 512]⟩
abbrev S64x512 : Shape := ⟨2, ![64, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 5
  | .vmem => 132
  | .smem => 0
  | _ => 0

abbrev vmemTy0_0 (i : Nat) : BufTy := match i % 128 with
  | 0 => ⟨S1x64x512, .f32⟩
  | 1 => ⟨S1x64x512, .f32⟩
  | 2 => ⟨S1x64x512, .f32⟩
  | 3 => ⟨S1x64x512, .f32⟩
  | 4 => ⟨S1x64x512, .f32⟩
  | 5 => ⟨S1x64x512, .f32⟩
  | 6 => ⟨S1x64x512, .f32⟩
  | 7 => ⟨S1x64x512, .f32⟩
  | 8 => ⟨S1x64x512, .f32⟩
  | 9 => ⟨S1x64x512, .f32⟩
  | 10 => ⟨S1x64x512, .f32⟩
  | 11 => ⟨S1x64x512, .f32⟩
  | 12 => ⟨S1x64x512, .f32⟩
  | 13 => ⟨S1x64x512, .f32⟩
  | 14 => ⟨S1x64x512, .f32⟩
  | 15 => ⟨S1x64x512, .f32⟩
  | 16 => ⟨S1x64x512, .f32⟩
  | 17 => ⟨S1x64x512, .f32⟩
  | 18 => ⟨S1x64x512, .f32⟩
  | 19 => ⟨S1x64x512, .f32⟩
  | 20 => ⟨S1x64x512, .f32⟩
  | 21 => ⟨S1x64x512, .f32⟩
  | 22 => ⟨S1x64x512, .f32⟩
  | 23 => ⟨S1x64x512, .f32⟩
  | 24 => ⟨S1x64x512, .f32⟩
  | 25 => ⟨S1x64x512, .f32⟩
  | 26 => ⟨S1x64x512, .f32⟩
  | 27 => ⟨S1x64x512, .f32⟩
  | 28 => ⟨S1x64x512, .f32⟩
  | 29 => ⟨S1x64x512, .f32⟩
  | 30 => ⟨S1x64x512, .f32⟩
  | 31 => ⟨S1x64x512, .f32⟩
  | 32 => ⟨S1x64x512, .f32⟩
  | 33 => ⟨S1x64x512, .f32⟩
  | 34 => ⟨S1x64x512, .f32⟩
  | 35 => ⟨S1x64x512, .f32⟩
  | 36 => ⟨S1x64x512, .f32⟩
  | 37 => ⟨S1x64x512, .f32⟩
  | 38 => ⟨S1x64x512, .f32⟩
  | 39 => ⟨S1x64x512, .f32⟩
  | 40 => ⟨S1x64x512, .f32⟩
  | 41 => ⟨S1x64x512, .f32⟩
  | 42 => ⟨S1x64x512, .f32⟩
  | 43 => ⟨S1x64x512, .f32⟩
  | 44 => ⟨S1x64x512, .f32⟩
  | 45 => ⟨S1x64x512, .f32⟩
  | 46 => ⟨S1x64x512, .f32⟩
  | 47 => ⟨S1x64x512, .f32⟩
  | 48 => ⟨S1x64x512, .f32⟩
  | 49 => ⟨S1x64x512, .f32⟩
  | 50 => ⟨S1x64x512, .f32⟩
  | 51 => ⟨S1x64x512, .f32⟩
  | 52 => ⟨S1x64x512, .f32⟩
  | 53 => ⟨S1x64x512, .f32⟩
  | 54 => ⟨S1x64x512, .f32⟩
  | 55 => ⟨S1x64x512, .f32⟩
  | 56 => ⟨S1x64x512, .f32⟩
  | 57 => ⟨S1x64x512, .f32⟩
  | 58 => ⟨S1x64x512, .f32⟩
  | 59 => ⟨S1x64x512, .f32⟩
  | 60 => ⟨S1x64x512, .f32⟩
  | 61 => ⟨S1x64x512, .f32⟩
  | 62 => ⟨S1x64x512, .f32⟩
  | 63 => ⟨S1x64x512, .f32⟩
  | 64 => ⟨S1x64x512, .f32⟩
  | 65 => ⟨S1x64x512, .f32⟩
  | 66 => ⟨S1x64x512, .f32⟩
  | 67 => ⟨S1x64x512, .f32⟩
  | 68 => ⟨S1x64x512, .f32⟩
  | 69 => ⟨S1x64x512, .f32⟩
  | 70 => ⟨S1x64x512, .f32⟩
  | 71 => ⟨S1x64x512, .f32⟩
  | 72 => ⟨S1x64x512, .f32⟩
  | 73 => ⟨S1x64x512, .f32⟩
  | 74 => ⟨S1x64x512, .f32⟩
  | 75 => ⟨S1x64x512, .f32⟩
  | 76 => ⟨S1x64x512, .f32⟩
  | 77 => ⟨S1x64x512, .f32⟩
  | 78 => ⟨S1x64x512, .f32⟩
  | 79 => ⟨S1x64x512, .f32⟩
  | 80 => ⟨S1x64x512, .f32⟩
  | 81 => ⟨S1x64x512, .f32⟩
  | 82 => ⟨S1x64x512, .f32⟩
  | 83 => ⟨S1x64x512, .f32⟩
  | 84 => ⟨S1x64x512, .f32⟩
  | 85 => ⟨S1x64x512, .f32⟩
  | 86 => ⟨S1x64x512, .f32⟩
  | 87 => ⟨S1x64x512, .f32⟩
  | 88 => ⟨S1x64x512, .f32⟩
  | 89 => ⟨S1x64x512, .f32⟩
  | 90 => ⟨S1x64x512, .f32⟩
  | 91 => ⟨S1x64x512, .f32⟩
  | 92 => ⟨S1x64x512, .f32⟩
  | 93 => ⟨S1x64x512, .f32⟩
  | 94 => ⟨S1x64x512, .f32⟩
  | 95 => ⟨S1x64x512, .f32⟩
  | 96 => ⟨S1x64x512, .f32⟩
  | 97 => ⟨S1x64x512, .f32⟩
  | 98 => ⟨S1x64x512, .f32⟩
  | 99 => ⟨S1x64x512, .f32⟩
  | 100 => ⟨S1x64x512, .f32⟩
  | 101 => ⟨S1x64x512, .f32⟩
  | 102 => ⟨S1x64x512, .f32⟩
  | 103 => ⟨S1x64x512, .f32⟩
  | 104 => ⟨S1x64x512, .f32⟩
  | 105 => ⟨S1x64x512, .f32⟩
  | 106 => ⟨S1x64x512, .f32⟩
  | 107 => ⟨S1x64x512, .f32⟩
  | 108 => ⟨S1x64x512, .f32⟩
  | 109 => ⟨S1x64x512, .f32⟩
  | 110 => ⟨S1x64x512, .f32⟩
  | 111 => ⟨S1x64x512, .f32⟩
  | 112 => ⟨S1x64x512, .f32⟩
  | 113 => ⟨S1x64x512, .f32⟩
  | 114 => ⟨S1x64x512, .f32⟩
  | 115 => ⟨S1x64x512, .f32⟩
  | 116 => ⟨S1x64x512, .f32⟩
  | 117 => ⟨S1x64x512, .f32⟩
  | 118 => ⟨S1x64x512, .f32⟩
  | 119 => ⟨S1x64x512, .f32⟩
  | 120 => ⟨S1x64x512, .f32⟩
  | 121 => ⟨S1x64x512, .f32⟩
  | 122 => ⟨S1x64x512, .f32⟩
  | 123 => ⟨S1x64x512, .f32⟩
  | 124 => ⟨S1x64x512, .f32⟩
  | 125 => ⟨S1x64x512, .f32⟩
  | 126 => ⟨S1x64x512, .f32⟩
  | 127 => ⟨S1x64x512, .f32⟩
  | _ => ⟨S1024x64x512, .f32⟩

abbrev vmemTy0_1 (i : Nat) : BufTy := match i % 128 with
  | 0 => ⟨S16x512x512, .bf16⟩
  | 1 => ⟨S512, .f32⟩
  | 2 => ⟨S4x64x512, .f32⟩
  | 3 => ⟨S4x64x512, .f32⟩
  | _ => ⟨S1024x64x512, .f32⟩

abbrev vmemTy (i : Nat) : BufTy := match i / 128 with
  | 0 => vmemTy0_0 i
  | 1 => vmemTy0_1 i
  | _ => ⟨S1024x64x512, .f32⟩

abbrev bufTy : (tb : Table) → Fin (tcTables nBuf tb) → BufTy
  | .hbm, ⟨0, _⟩ => ⟨S1024x64x512, .f32⟩
  | .hbm, ⟨1, _⟩ => ⟨S16x512x512, .f32⟩
  | .hbm, ⟨2, _⟩ => ⟨S512, .f32⟩
  | .hbm, ⟨3, _⟩ => ⟨S16x512x512, .bf16⟩
  | .hbm, ⟨4, _⟩ => ⟨S64x64x512, .f32⟩
  | .local _ .vmem, ⟨i, _⟩ => vmemTy i
  | _, _ => ⟨S1024x64x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg65_0 : Ref sig .tc := ⟨.vmem, 129, rfl⟩
abbrev cc0_stg66_0 : Ref sig .tc := ⟨.vmem, 130, rfl⟩
abbrev cc0_stg66_1 : Ref sig .tc := ⟨.vmem, 131, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem65_0 : DmaSem sig := 129
abbrev cc0_sem66_0 : DmaSem sig := 130
abbrev cc0_sem66_1 : DmaSem sig := 131

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c1_i32_0 : BitVec 32 := 1#32
  let v3 : BitVec 32 := Scalar.muli v2 c1_i32_0
  let c1_i32_1 : BitVec 32 := 1#32
  let v4 : BitVec 32 := Scalar.subi v3 c1_i32_1
  let c0_i32_2 : BitVec 32 := 0#32
  let c0_i32_3 : BitVec 32 := 0#32
  let c0_i32_4 : BitVec 32 := 0#32
  ![v4.toNat, c0_i32_2.toNat, c0_i32_3.toNat]

def cc0_transform_1 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c2_i32 : BitVec 32 := 2#32
  let v3 : BitVec 32 := Scalar.muli v2 c2_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c3_i32 : BitVec 32 := 3#32
  let v3 : BitVec 32 := Scalar.muli v2 c3_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c4_i32_0 : BitVec 32 := 4#32
  let v3 : BitVec 32 := Scalar.muli v2 c4_i32_0
  let c1_i32_1 : BitVec 32 := 1#32
  let v4 : BitVec 32 := Scalar.subi v3 c1_i32_1
  let c0_i32_2 : BitVec 32 := 0#32
  let c0_i32_3 : BitVec 32 := 0#32
  let c0_i32_4 : BitVec 32 := 0#32
  ![v4.toNat, c0_i32_2.toNat, c0_i32_3.toNat]

def cc0_transform_4 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c5_i32 : BitVec 32 := 5#32
  let v3 : BitVec 32 := Scalar.muli v2 c5_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_5 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c6_i32 : BitVec 32 := 6#32
  let v3 : BitVec 32 := Scalar.muli v2 c6_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c7_i32 : BitVec 32 := 7#32
  let v3 : BitVec 32 := Scalar.muli v2 c7_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_7 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c8_i32 : BitVec 32 := 8#32
  let v3 : BitVec 32 := Scalar.muli v2 c8_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_8 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c9_i32 : BitVec 32 := 9#32
  let v3 : BitVec 32 := Scalar.muli v2 c9_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_9 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c10_i32 : BitVec 32 := 10#32
  let v3 : BitVec 32 := Scalar.muli v2 c10_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_10 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c11_i32 : BitVec 32 := 11#32
  let v3 : BitVec 32 := Scalar.muli v2 c11_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_11 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c12_i32 : BitVec 32 := 12#32
  let v3 : BitVec 32 := Scalar.muli v2 c12_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_12 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c13_i32 : BitVec 32 := 13#32
  let v3 : BitVec 32 := Scalar.muli v2 c13_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_13 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c14_i32 : BitVec 32 := 14#32
  let v3 : BitVec 32 := Scalar.muli v2 c14_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_14 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c15_i32 : BitVec 32 := 15#32
  let v3 : BitVec 32 := Scalar.muli v2 c15_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_15 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c1_i32 : BitVec 32 := 1#32
  let v2 : BitVec 32 := Scalar.addi v1 c1_i32
  let c16_i32 : BitVec 32 := 16#32
  let v3 : BitVec 32 := Scalar.muli v2 c16_i32
  let c1_i32_0 : BitVec 32 := 1#32
  let v4 : BitVec 32 := Scalar.subi v3 c1_i32_0
  let c0_i32_1 : BitVec 32 := 0#32
  let c0_i32_2 : BitVec 32 := 0#32
  let c0_i32_3 : BitVec 32 := 0#32
  ![v4.toNat, c0_i32_1.toNat, c0_i32_2.toNat]

def cc0_transform_16 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c1_i32_1 : BitVec 32 := 1#32
  let v3 : BitVec 32 := Scalar.muli v2 c1_i32_1
  let c1_i32_2 : BitVec 32 := 1#32
  let v4 : BitVec 32 := Scalar.subi v3 c1_i32_2
  let c0_i32 : BitVec 32 := 0#32
  let c0_i32_3 : BitVec 32 := 0#32
  let c0_i32_4 : BitVec 32 := 0#32
  ![v4.toNat, c0_i32.toNat, c0_i32_3.toNat]

def cc0_transform_17 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c2_i32 : BitVec 32 := 2#32
  let v3 : BitVec 32 := Scalar.muli v2 c2_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_18 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c3_i32 : BitVec 32 := 3#32
  let v3 : BitVec 32 := Scalar.muli v2 c3_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_19 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c4_i32_1 : BitVec 32 := 4#32
  let v3 : BitVec 32 := Scalar.muli v2 c4_i32_1
  let c1_i32_2 : BitVec 32 := 1#32
  let v4 : BitVec 32 := Scalar.subi v3 c1_i32_2
  let c0_i32 : BitVec 32 := 0#32
  let c0_i32_3 : BitVec 32 := 0#32
  let c0_i32_4 : BitVec 32 := 0#32
  ![v4.toNat, c0_i32.toNat, c0_i32_3.toNat]

def cc0_transform_20 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c5_i32 : BitVec 32 := 5#32
  let v3 : BitVec 32 := Scalar.muli v2 c5_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_21 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c6_i32 : BitVec 32 := 6#32
  let v3 : BitVec 32 := Scalar.muli v2 c6_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_22 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c7_i32 : BitVec 32 := 7#32
  let v3 : BitVec 32 := Scalar.muli v2 c7_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_23 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c8_i32 : BitVec 32 := 8#32
  let v3 : BitVec 32 := Scalar.muli v2 c8_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_24 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c9_i32 : BitVec 32 := 9#32
  let v3 : BitVec 32 := Scalar.muli v2 c9_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_25 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c10_i32 : BitVec 32 := 10#32
  let v3 : BitVec 32 := Scalar.muli v2 c10_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_26 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c11_i32 : BitVec 32 := 11#32
  let v3 : BitVec 32 := Scalar.muli v2 c11_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_27 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c12_i32 : BitVec 32 := 12#32
  let v3 : BitVec 32 := Scalar.muli v2 c12_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_28 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c13_i32 : BitVec 32 := 13#32
  let v3 : BitVec 32 := Scalar.muli v2 c13_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_29 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c14_i32 : BitVec 32 := 14#32
  let v3 : BitVec 32 := Scalar.muli v2 c14_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_30 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c15_i32 : BitVec 32 := 15#32
  let v3 : BitVec 32 := Scalar.muli v2 c15_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_31 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c1_i32_0 : BitVec 32 := 1#32
  let v2 : BitVec 32 := Scalar.addi v1 c1_i32_0
  let c16_i32 : BitVec 32 := 16#32
  let v3 : BitVec 32 := Scalar.muli v2 c16_i32
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_32 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c1_i32_0 : BitVec 32 := 1#32
  let v3 : BitVec 32 := Scalar.muli v2 c1_i32_0
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_33 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c2_i32_0 : BitVec 32 := 2#32
  let v3 : BitVec 32 := Scalar.muli v2 c2_i32_0
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_34 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c3_i32 : BitVec 32 := 3#32
  let v3 : BitVec 32 := Scalar.muli v2 c3_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_35 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c4_i32_0 : BitVec 32 := 4#32
  let v3 : BitVec 32 := Scalar.muli v2 c4_i32_0
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_36 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c5_i32 : BitVec 32 := 5#32
  let v3 : BitVec 32 := Scalar.muli v2 c5_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_37 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c6_i32 : BitVec 32 := 6#32
  let v3 : BitVec 32 := Scalar.muli v2 c6_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_38 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c7_i32 : BitVec 32 := 7#32
  let v3 : BitVec 32 := Scalar.muli v2 c7_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_39 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c8_i32 : BitVec 32 := 8#32
  let v3 : BitVec 32 := Scalar.muli v2 c8_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_40 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c9_i32 : BitVec 32 := 9#32
  let v3 : BitVec 32 := Scalar.muli v2 c9_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_41 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c10_i32 : BitVec 32 := 10#32
  let v3 : BitVec 32 := Scalar.muli v2 c10_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_42 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c11_i32 : BitVec 32 := 11#32
  let v3 : BitVec 32 := Scalar.muli v2 c11_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_43 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c12_i32 : BitVec 32 := 12#32
  let v3 : BitVec 32 := Scalar.muli v2 c12_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_44 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c13_i32 : BitVec 32 := 13#32
  let v3 : BitVec 32 := Scalar.muli v2 c13_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_45 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c14_i32 : BitVec 32 := 14#32
  let v3 : BitVec 32 := Scalar.muli v2 c14_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_46 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c15_i32 : BitVec 32 := 15#32
  let v3 : BitVec 32 := Scalar.muli v2 c15_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_47 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c1_i32 : BitVec 32 := 1#32
  let v2 : BitVec 32 := Scalar.addi v1 c1_i32
  let c16_i32 : BitVec 32 := 16#32
  let v3 : BitVec 32 := Scalar.muli v2 c16_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_48 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c1_i32_0 : BitVec 32 := 1#32
  let v3 : BitVec 32 := Scalar.muli v2 c1_i32_0
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_49 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c2_i32 : BitVec 32 := 2#32
  let v3 : BitVec 32 := Scalar.muli v2 c2_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_50 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c3_i32_0 : BitVec 32 := 3#32
  let v3 : BitVec 32 := Scalar.muli v2 c3_i32_0
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_51 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c4_i32_0 : BitVec 32 := 4#32
  let v3 : BitVec 32 := Scalar.muli v2 c4_i32_0
  let c1_i32_1 : BitVec 32 := 1#32
  let v4 : BitVec 32 := Scalar.subi v3 c1_i32_1
  let c0_i32 : BitVec 32 := 0#32
  let c0_i32_2 : BitVec 32 := 0#32
  let c0_i32_3 : BitVec 32 := 0#32
  ![v4.toNat, c0_i32.toNat, c0_i32_2.toNat]

def cc0_transform_52 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c5_i32 : BitVec 32 := 5#32
  let v3 : BitVec 32 := Scalar.muli v2 c5_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_53 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c6_i32 : BitVec 32 := 6#32
  let v3 : BitVec 32 := Scalar.muli v2 c6_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_54 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c7_i32 : BitVec 32 := 7#32
  let v3 : BitVec 32 := Scalar.muli v2 c7_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_55 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c8_i32 : BitVec 32 := 8#32
  let v3 : BitVec 32 := Scalar.muli v2 c8_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_56 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c9_i32 : BitVec 32 := 9#32
  let v3 : BitVec 32 := Scalar.muli v2 c9_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_57 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c10_i32 : BitVec 32 := 10#32
  let v3 : BitVec 32 := Scalar.muli v2 c10_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_58 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c11_i32 : BitVec 32 := 11#32
  let v3 : BitVec 32 := Scalar.muli v2 c11_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_59 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c12_i32 : BitVec 32 := 12#32
  let v3 : BitVec 32 := Scalar.muli v2 c12_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_60 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c13_i32 : BitVec 32 := 13#32
  let v3 : BitVec 32 := Scalar.muli v2 c13_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_61 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c14_i32 : BitVec 32 := 14#32
  let v3 : BitVec 32 := Scalar.muli v2 c14_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_62 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c15_i32 : BitVec 32 := 15#32
  let v3 : BitVec 32 := Scalar.muli v2 c15_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_63 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c1_i32 : BitVec 32 := 1#32
  let v2 : BitVec 32 := Scalar.addi v1 c1_i32
  let c16_i32 : BitVec 32 := 16#32
  let v3 : BitVec 32 := Scalar.muli v2 c16_i32
  let c1_i32_0 : BitVec 32 := 1#32
  let v4 : BitVec 32 := Scalar.subi v3 c1_i32_0
  let c0_i32 : BitVec 32 := 0#32
  let c0_i32_1 : BitVec 32 := 0#32
  let c0_i32_2 : BitVec 32 := 0#32
  ![v4.toNat, c0_i32.toNat, c0_i32_1.toNat]

def cc0_transform_64 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_65 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_66 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x64x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x64x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x64x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x64x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x64x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x64x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x64x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x64x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x64x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x64x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x64x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x64x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x64x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x64x512 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x64x512 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x64x512 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x64x512 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x64x512 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x64x512 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x64x512 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x64x512 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x64x512 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x64x512 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x64x512 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x64x512 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x64x512 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x64x512 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x64x512 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x64x512 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x64x512 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x64x512 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x64x512 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x64x512 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x64x512 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x64x512 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x64x512 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x64x512 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x64x512 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x64x512 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x64x512 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x64x512 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x64x512 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x64x512 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x64x512 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x64x512 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x64x512 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 1 → Memref sig .tc .vmem S16x512x512 .bf16 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))
abbrev reads0_64 : Fin grid0.rank → Bool := ![false]

abbrev stage0_65 : Fin 1 → Memref sig .tc .vmem S512 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))
abbrev reads0_65 : Fin grid0.rank → Bool := ![false]

abbrev stage0_66 : Fin 2 → Memref sig .tc .vmem S4x64x512 .f32 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]

class Facts₀ : Prop where
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  concatenates_S64x512_S64x512_S64x512_S64x512_S256x512_d0 : Shape.Concatenates [S64x512, S64x512, S64x512, S64x512] S256x512 0
  inb_S16x512x512_S1x512x512_0_0_0 : ∀ a, (![0, 0, 0] : Fin 3 → Nat) a + S1x512x512.size a ≤ S16x512x512.size a
  h_S1x512x512 : 0 < S1x512x512.numel
  shapeCasts_S1x512x512_S512x512 : S1x512x512.ShapeCasts S512x512
  inb_S16x512x512_S1x512x512_1_0_0 : ∀ a, (![1, 0, 0] : Fin 3 → Nat) a + S1x512x512.size a ≤ S16x512x512.size a
  inb_S16x512x512_S1x512x512_2_0_0 : ∀ a, (![2, 0, 0] : Fin 3 → Nat) a + S1x512x512.size a ≤ S16x512x512.size a
  inb_S16x512x512_S1x512x512_3_0_0 : ∀ a, (![3, 0, 0] : Fin 3 → Nat) a + S1x512x512.size a ≤ S16x512x512.size a
  inb_S16x512x512_S1x512x512_4_0_0 : ∀ a, (![4, 0, 0] : Fin 3 → Nat) a + S1x512x512.size a ≤ S16x512x512.size a
  inb_S16x512x512_S1x512x512_5_0_0 : ∀ a, (![5, 0, 0] : Fin 3 → Nat) a + S1x512x512.size a ≤ S16x512x512.size a
  inb_S16x512x512_S1x512x512_6_0_0 : ∀ a, (![6, 0, 0] : Fin 3 → Nat) a + S1x512x512.size a ≤ S16x512x512.size a
  inb_S16x512x512_S1x512x512_7_0_0 : ∀ a, (![7, 0, 0] : Fin 3 → Nat) a + S1x512x512.size a ≤ S16x512x512.size a
  inb_S16x512x512_S1x512x512_8_0_0 : ∀ a, (![8, 0, 0] : Fin 3 → Nat) a + S1x512x512.size a ≤ S16x512x512.size a
  inb_S16x512x512_S1x512x512_9_0_0 : ∀ a, (![9, 0, 0] : Fin 3 → Nat) a + S1x512x512.size a ≤ S16x512x512.size a
  inb_S16x512x512_S1x512x512_10_0_0 : ∀ a, (![10, 0, 0] : Fin 3 → Nat) a + S1x512x512.size a ≤ S16x512x512.size a
  inb_S16x512x512_S1x512x512_11_0_0 : ∀ a, (![11, 0, 0] : Fin 3 → Nat) a + S1x512x512.size a ≤ S16x512x512.size a
  inb_S16x512x512_S1x512x512_12_0_0 : ∀ a, (![12, 0, 0] : Fin 3 → Nat) a + S1x512x512.size a ≤ S16x512x512.size a
  inb_S16x512x512_S1x512x512_13_0_0 : ∀ a, (![13, 0, 0] : Fin 3 → Nat) a + S1x512x512.size a ≤ S16x512x512.size a
  inb_S16x512x512_S1x512x512_14_0_0 : ∀ a, (![14, 0, 0] : Fin 3 → Nat) a + S1x512x512.size a ≤ S16x512x512.size a
  inb_S16x512x512_S1x512x512_15_0_0 : ∀ a, (![15, 0, 0] : Fin 3 → Nat) a + S1x512x512.size a ≤ S16x512x512.size a
  inb_S512_S512_0 : ∀ a, (![0] : Fin 1 → Nat) a + S512.size a ≤ S512.size a
  h_S512 : 0 < S512.numel
  shapeCasts_S512_S1x512 : S512.ShapeCasts S1x512
  shapeCasts_S1x512_S1x512 : S1x512.ShapeCasts S1x512
  broadcasts_S1x512_S256x512 : S1x512.Broadcasts S256x512
  slices_S256x512_o0_0_S64x512 : S256x512.Slices ![0, 0] S64x512
  inb_S4x64x512_S1x64x512_0_0_0 : ∀ a, (![0, 0, 0] : Fin 3 → Nat) a + S1x64x512.size a ≤ S4x64x512.size a
  shapeCasts_S64x512_S1x64x512 : S64x512.ShapeCasts S1x64x512
  slices_S256x512_o64_0_S64x512 : S256x512.Slices ![64, 0] S64x512
  inb_S4x64x512_S1x64x512_1_0_0 : ∀ a, (![1, 0, 0] : Fin 3 → Nat) a + S1x64x512.size a ≤ S4x64x512.size a
  slices_S256x512_o128_0_S64x512 : S256x512.Slices ![128, 0] S64x512
  inb_S4x64x512_S1x64x512_2_0_0 : ∀ a, (![2, 0, 0] : Fin 3 → Nat) a + S1x64x512.size a ≤ S4x64x512.size a
  slices_S256x512_o192_0_S64x512 : S256x512.Slices ![192, 0] S64x512
  inb_S4x64x512_S1x64x512_3_0_0 : ∀ a, (![3, 0, 0] : Fin 3 → Nat) a + S1x64x512.size a ≤ S4x64x512.size a
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S1024x64x512.size a
  hwx0_0 : ∀ i : grid0.Coords, EltTy.bits .f32 = 32 ∨ (Rect.block (s := S1024x64x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S1024x64x512.size a
  hwx0_1 : ∀ i : grid0.Coords, EltTy.bits .f32 = 32 ∨ (Rect.block (s := S1024x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S1024x64x512.size a
  hwx0_2 : ∀ i : grid0.Coords, EltTy.bits .f32 = 32 ∨ (Rect.block (s := S1024x64x512) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S1024x64x512.size a
  hwx0_3 : ∀ i : grid0.Coords, EltTy.bits .f32 = 32 ∨ (Rect.block (s := S1024x64x512) S1x64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S1024x64x512.size a
  hwx0_4 : ∀ i : grid0.Coords, EltTy.bits .f32 = 32 ∨ (Rect.block (s := S1024x64x512) S1x64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x512.size a ≤ S1024x64x512.size a
  hwx0_5 : ∀ i : grid0.Coords, EltTy.bits .f32 = 32 ∨ (Rect.block (s := S1024x64x512) S1x64x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x512.size a ≤ S1024x64x512.size a
  hwx0_6 : ∀ i : grid0.Coords, EltTy.bits .f32 = 32 ∨ (Rect.block (s := S1024x64x512) S1x64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x512.size a ≤ S1024x64x512.size a
  hwx0_7 : ∀ i : grid0.Coords, EltTy.bits .f32 = 32 ∨ (Rect.block (s := S1024x64x512) S1x64x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x512.size a ≤ S1024x64x512.size a
  hwx0_8 : ∀ i : grid0.Coords, EltTy.bits .f32 = 32 ∨ (Rect.block (s := S1024x64x512) S1x64x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x512.size a ≤ S1024x64x512.size a
  hwx0_9 : ∀ i : grid0.Coords, EltTy.bits .f32 = 32 ∨ (Rect.block (s := S1024x64x512) S1x64x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x512.size a ≤ S1024x64x512.size a
  hwx0_10 : ∀ i : grid0.Coords, EltTy.bits .f32 = 32 ∨ (Rect.block (s := S1024x64x512) S1x64x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x64x512.size a ≤ S1024x64x512.size a
  hwx0_11 : ∀ i : grid0.Coords, EltTy.bits .f32 = 32 ∨ (Rect.block (s := S1024x64x512) S1x64x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x64x512.size a ≤ S1024x64x512.size a
  hwx0_12 : ∀ i : grid0.Coords, EltTy.bits .f32 = 32 ∨ (Rect.block (s := S1024x64x512) S1x64x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x64x512.size a ≤ S1024x64x512.size a
  hwx0_13 : ∀ i : grid0.Coords, EltTy.bits .f32 = 32 ∨ (Rect.block (s := S1024x64x512) S1x64x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x64x512.size a ≤ S1024x64x512.size a
  hwx0_14 : ∀ i : grid0.Coords, EltTy.bits .f32 = 32 ∨ (Rect.block (s := S1024x64x512) S1x64x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x64x512.size a ≤ S1024x64x512.size a
  hwx0_15 : ∀ i : grid0.Coords, EltTy.bits .f32 = 32 ∨ (Rect.block (s := S1024x64x512) S1x64x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x64x512.size a ≤ S1024x64x512.size a
  hwx0_16 : ∀ i : grid0.Coords, EltTy.bits .f32 = 32 ∨ (Rect.block (s := S1024x64x512) S1x64x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x64x512.size a ≤ S1024x64x512.size a
  hwx0_17 : ∀ i : grid0.Coords, EltTy.bits .f32 = 32 ∨ (Rect.block (s := S1024x64x512) S1x64x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x64x512.size a ≤ S1024x64x512.size a
  hwx0_18 : ∀ i : grid0.Coords, EltTy.bits .f32 = 32 ∨ (Rect.block (s := S1024x64x512) S1x64x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x64x512.size a ≤ S1024x64x512.size a
  hwx0_19 : ∀ i : grid0.Coords, EltTy.bits .f32 = 32 ∨ (Rect.block (s := S1024x64x512) S1x64x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x64x512.size a ≤ S1024x64x512.size a
  hwx0_20 : ∀ i : grid0.Coords, EltTy.bits .f32 = 32 ∨ (Rect.block (s := S1024x64x512) S1x64x512.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1x64x512.size a ≤ S1024x64x512.size a
  hwx0_21 : ∀ i : grid0.Coords, EltTy.bits .f32 = 32 ∨ (Rect.block (s := S1024x64x512) S1x64x512.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x64x512.size a ≤ S1024x64x512.size a
  hwx0_22 : ∀ i : grid0.Coords, EltTy.bits .f32 = 32 ∨ (Rect.block (s := S1024x64x512) S1x64x512.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x64x512.size a ≤ S1024x64x512.size a
  hwx0_23 : ∀ i : grid0.Coords, EltTy.bits .f32 = 32 ∨ (Rect.block (s := S1024x64x512) S1x64x512.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1x64x512.size a ≤ S1024x64x512.size a
  hwx0_24 : ∀ i : grid0.Coords, EltTy.bits .f32 = 32 ∨ (Rect.block (s := S1024x64x512) S1x64x512.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1x64x512.size a ≤ S1024x64x512.size a
  hwx0_25 : ∀ i : grid0.Coords, EltTy.bits .f32 = 32 ∨ (Rect.block (s := S1024x64x512) S1x64x512.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1x64x512.size a ≤ S1024x64x512.size a
  hwx0_26 : ∀ i : grid0.Coords, EltTy.bits .f32 = 32 ∨ (Rect.block (s := S1024x64x512) S1x64x512.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S1x64x512.size a ≤ S1024x64x512.size a
  hwx0_27 : ∀ i : grid0.Coords, EltTy.bits .f32 = 32 ∨ (Rect.block (s := S1024x64x512) S1x64x512.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S1x64x512.size a ≤ S1024x64x512.size a
  hwx0_28 : ∀ i : grid0.Coords, EltTy.bits .f32 = 32 ∨ (Rect.block (s := S1024x64x512) S1x64x512.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S1x64x512.size a ≤ S1024x64x512.size a
  hwx0_29 : ∀ i : grid0.Coords, EltTy.bits .f32 = 32 ∨ (Rect.block (s := S1024x64x512) S1x64x512.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S1x64x512.size a ≤ S1024x64x512.size a
  hwx0_30 : ∀ i : grid0.Coords, EltTy.bits .f32 = 32 ∨ (Rect.block (s := S1024x64x512) S1x64x512.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S1x64x512.size a ≤ S1024x64x512.size a
  hwx0_31 : ∀ i : grid0.Coords, EltTy.bits .f32 = 32 ∨ (Rect.block (s := S1024x64x512) S1x64x512.size (cc0_transform_31 i) (hinb0_31 i)).WholeWords (EltTy.packing .f32)
  hstage0_32 : ∀ j, (stage0_32 j).IsWhole
  nbuf0_32 : grid0.bufCount reads0_32 false = 2
  hreads0_32 : ∀ i i' : grid0.Coords, (∀ a, reads0_32 a = true → i a = i' a) → cc0_transform_32 i = cc0_transform_32 i'
  hinb0_32 : ∀ (i : grid0.Coords) a, (cc0_transform_32 i a + 1) * S1x64x512.size a ≤ S1024x64x512.size a
  hwx0_32 : ∀ i : grid0.Coords, EltTy.bits .f32 = 32 ∨ (Rect.block (s := S1024x64x512) S1x64x512.size (cc0_transform_32 i) (hinb0_32 i)).WholeWords (EltTy.packing .f32)
  hstage0_33 : ∀ j, (stage0_33 j).IsWhole
  nbuf0_33 : grid0.bufCount reads0_33 false = 2
  hreads0_33 : ∀ i i' : grid0.Coords, (∀ a, reads0_33 a = true → i a = i' a) → cc0_transform_33 i = cc0_transform_33 i'
  hinb0_33 : ∀ (i : grid0.Coords) a, (cc0_transform_33 i a + 1) * S1x64x512.size a ≤ S1024x64x512.size a
  hwx0_33 : ∀ i : grid0.Coords, EltTy.bits .f32 = 32 ∨ (Rect.block (s := S1024x64x512) S1x64x512.size (cc0_transform_33 i) (hinb0_33 i)).WholeWords (EltTy.packing .f32)
  hstage0_34 : ∀ j, (stage0_34 j).IsWhole
  nbuf0_34 : grid0.bufCount reads0_34 false = 2
  hreads0_34 : ∀ i i' : grid0.Coords, (∀ a, reads0_34 a = true → i a = i' a) → cc0_transform_34 i = cc0_transform_34 i'
  hinb0_34 : ∀ (i : grid0.Coords) a, (cc0_transform_34 i a + 1) * S1x64x512.size a ≤ S1024x64x512.size a
  hwx0_34 : ∀ i : grid0.Coords, EltTy.bits .f32 = 32 ∨ (Rect.block (s := S1024x64x512) S1x64x512.size (cc0_transform_34 i) (hinb0_34 i)).WholeWords (EltTy.packing .f32)
  hstage0_35 : ∀ j, (stage0_35 j).IsWhole
  nbuf0_35 : grid0.bufCount reads0_35 false = 2
  hreads0_35 : ∀ i i' : grid0.Coords, (∀ a, reads0_35 a = true → i a = i' a) → cc0_transform_35 i = cc0_transform_35 i'
  hinb0_35 : ∀ (i : grid0.Coords) a, (cc0_transform_35 i a + 1) * S1x64x512.size a ≤ S1024x64x512.size a
  hwx0_35 : ∀ i : grid0.Coords, EltTy.bits .f32 = 32 ∨ (Rect.block (s := S1024x64x512) S1x64x512.size (cc0_transform_35 i) (hinb0_35 i)).WholeWords (EltTy.packing .f32)
  hstage0_36 : ∀ j, (stage0_36 j).IsWhole
  nbuf0_36 : grid0.bufCount reads0_36 false = 2
  hreads0_36 : ∀ i i' : grid0.Coords, (∀ a, reads0_36 a = true → i a = i' a) → cc0_transform_36 i = cc0_transform_36 i'
  hinb0_36 : ∀ (i : grid0.Coords) a, (cc0_transform_36 i a + 1) * S1x64x512.size a ≤ S1024x64x512.size a
  hwx0_36 : ∀ i : grid0.Coords, EltTy.bits .f32 = 32 ∨ (Rect.block (s := S1024x64x512) S1x64x512.size (cc0_transform_36 i) (hinb0_36 i)).WholeWords (EltTy.packing .f32)
  hstage0_37 : ∀ j, (stage0_37 j).IsWhole
  nbuf0_37 : grid0.bufCount reads0_37 false = 2
  hreads0_37 : ∀ i i' : grid0.Coords, (∀ a, reads0_37 a = true → i a = i' a) → cc0_transform_37 i = cc0_transform_37 i'
  hinb0_37 : ∀ (i : grid0.Coords) a, (cc0_transform_37 i a + 1) * S1x64x512.size a ≤ S1024x64x512.size a
  hwx0_37 : ∀ i : grid0.Coords, EltTy.bits .f32 = 32 ∨ (Rect.block (s := S1024x64x512) S1x64x512.size (cc0_transform_37 i) (hinb0_37 i)).WholeWords (EltTy.packing .f32)
  hstage0_38 : ∀ j, (stage0_38 j).IsWhole
  nbuf0_38 : grid0.bufCount reads0_38 false = 2
  hreads0_38 : ∀ i i' : grid0.Coords, (∀ a, reads0_38 a = true → i a = i' a) → cc0_transform_38 i = cc0_transform_38 i'
  hinb0_38 : ∀ (i : grid0.Coords) a, (cc0_transform_38 i a + 1) * S1x64x512.size a ≤ S1024x64x512.size a
  hwx0_38 : ∀ i : grid0.Coords, EltTy.bits .f32 = 32 ∨ (Rect.block (s := S1024x64x512) S1x64x512.size (cc0_transform_38 i) (hinb0_38 i)).WholeWords (EltTy.packing .f32)
  hstage0_39 : ∀ j, (stage0_39 j).IsWhole
  nbuf0_39 : grid0.bufCount reads0_39 false = 2
  hreads0_39 : ∀ i i' : grid0.Coords, (∀ a, reads0_39 a = true → i a = i' a) → cc0_transform_39 i = cc0_transform_39 i'
  hinb0_39 : ∀ (i : grid0.Coords) a, (cc0_transform_39 i a + 1) * S1x64x512.size a ≤ S1024x64x512.size a
  hwx0_39 : ∀ i : grid0.Coords, EltTy.bits .f32 = 32 ∨ (Rect.block (s := S1024x64x512) S1x64x512.size (cc0_transform_39 i) (hinb0_39 i)).WholeWords (EltTy.packing .f32)
  hstage0_40 : ∀ j, (stage0_40 j).IsWhole
  nbuf0_40 : grid0.bufCount reads0_40 false = 2
  hreads0_40 : ∀ i i' : grid0.Coords, (∀ a, reads0_40 a = true → i a = i' a) → cc0_transform_40 i = cc0_transform_40 i'
  hinb0_40 : ∀ (i : grid0.Coords) a, (cc0_transform_40 i a + 1) * S1x64x512.size a ≤ S1024x64x512.size a
  hwx0_40 : ∀ i : grid0.Coords, EltTy.bits .f32 = 32 ∨ (Rect.block (s := S1024x64x512) S1x64x512.size (cc0_transform_40 i) (hinb0_40 i)).WholeWords (EltTy.packing .f32)
  hstage0_41 : ∀ j, (stage0_41 j).IsWhole
  nbuf0_41 : grid0.bufCount reads0_41 false = 2
  hreads0_41 : ∀ i i' : grid0.Coords, (∀ a, reads0_41 a = true → i a = i' a) → cc0_transform_41 i = cc0_transform_41 i'
  hinb0_41 : ∀ (i : grid0.Coords) a, (cc0_transform_41 i a + 1) * S1x64x512.size a ≤ S1024x64x512.size a
  hwx0_41 : ∀ i : grid0.Coords, EltTy.bits .f32 = 32 ∨ (Rect.block (s := S1024x64x512) S1x64x512.size (cc0_transform_41 i) (hinb0_41 i)).WholeWords (EltTy.packing .f32)
  hstage0_42 : ∀ j, (stage0_42 j).IsWhole
  nbuf0_42 : grid0.bufCount reads0_42 false = 2
  hreads0_42 : ∀ i i' : grid0.Coords, (∀ a, reads0_42 a = true → i a = i' a) → cc0_transform_42 i = cc0_transform_42 i'
  hinb0_42 : ∀ (i : grid0.Coords) a, (cc0_transform_42 i a + 1) * S1x64x512.size a ≤ S1024x64x512.size a
  hwx0_42 : ∀ i : grid0.Coords, EltTy.bits .f32 = 32 ∨ (Rect.block (s := S1024x64x512) S1x64x512.size (cc0_transform_42 i) (hinb0_42 i)).WholeWords (EltTy.packing .f32)
  hstage0_43 : ∀ j, (stage0_43 j).IsWhole
  nbuf0_43 : grid0.bufCount reads0_43 false = 2
  hreads0_43 : ∀ i i' : grid0.Coords, (∀ a, reads0_43 a = true → i a = i' a) → cc0_transform_43 i = cc0_transform_43 i'
  hinb0_43 : ∀ (i : grid0.Coords) a, (cc0_transform_43 i a + 1) * S1x64x512.size a ≤ S1024x64x512.size a
  hwx0_43 : ∀ i : grid0.Coords, EltTy.bits .f32 = 32 ∨ (Rect.block (s := S1024x64x512) S1x64x512.size (cc0_transform_43 i) (hinb0_43 i)).WholeWords (EltTy.packing .f32)
  hstage0_44 : ∀ j, (stage0_44 j).IsWhole
  nbuf0_44 : grid0.bufCount reads0_44 false = 2
  hreads0_44 : ∀ i i' : grid0.Coords, (∀ a, reads0_44 a = true → i a = i' a) → cc0_transform_44 i = cc0_transform_44 i'
  hinb0_44 : ∀ (i : grid0.Coords) a, (cc0_transform_44 i a + 1) * S1x64x512.size a ≤ S1024x64x512.size a
  hwx0_44 : ∀ i : grid0.Coords, EltTy.bits .f32 = 32 ∨ (Rect.block (s := S1024x64x512) S1x64x512.size (cc0_transform_44 i) (hinb0_44 i)).WholeWords (EltTy.packing .f32)
  hstage0_45 : ∀ j, (stage0_45 j).IsWhole
  nbuf0_45 : grid0.bufCount reads0_45 false = 2
  hreads0_45 : ∀ i i' : grid0.Coords, (∀ a, reads0_45 a = true → i a = i' a) → cc0_transform_45 i = cc0_transform_45 i'
  hinb0_45 : ∀ (i : grid0.Coords) a, (cc0_transform_45 i a + 1) * S1x64x512.size a ≤ S1024x64x512.size a
  hwx0_45 : ∀ i : grid0.Coords, EltTy.bits .f32 = 32 ∨ (Rect.block (s := S1024x64x512) S1x64x512.size (cc0_transform_45 i) (hinb0_45 i)).WholeWords (EltTy.packing .f32)
  hstage0_46 : ∀ j, (stage0_46 j).IsWhole
  nbuf0_46 : grid0.bufCount reads0_46 false = 2
  hreads0_46 : ∀ i i' : grid0.Coords, (∀ a, reads0_46 a = true → i a = i' a) → cc0_transform_46 i = cc0_transform_46 i'
  hinb0_46 : ∀ (i : grid0.Coords) a, (cc0_transform_46 i a + 1) * S1x64x512.size a ≤ S1024x64x512.size a
  hwx0_46 : ∀ i : grid0.Coords, EltTy.bits .f32 = 32 ∨ (Rect.block (s := S1024x64x512) S1x64x512.size (cc0_transform_46 i) (hinb0_46 i)).WholeWords (EltTy.packing .f32)
  hstage0_47 : ∀ j, (stage0_47 j).IsWhole
  nbuf0_47 : grid0.bufCount reads0_47 false = 2
  hreads0_47 : ∀ i i' : grid0.Coords, (∀ a, reads0_47 a = true → i a = i' a) → cc0_transform_47 i = cc0_transform_47 i'
  hinb0_47 : ∀ (i : grid0.Coords) a, (cc0_transform_47 i a + 1) * S1x64x512.size a ≤ S1024x64x512.size a
  hwx0_47 : ∀ i : grid0.Coords, EltTy.bits .f32 = 32 ∨ (Rect.block (s := S1024x64x512) S1x64x512.size (cc0_transform_47 i) (hinb0_47 i)).WholeWords (EltTy.packing .f32)
  hstage0_48 : ∀ j, (stage0_48 j).IsWhole
  nbuf0_48 : grid0.bufCount reads0_48 false = 2
  hreads0_48 : ∀ i i' : grid0.Coords, (∀ a, reads0_48 a = true → i a = i' a) → cc0_transform_48 i = cc0_transform_48 i'
  hinb0_48 : ∀ (i : grid0.Coords) a, (cc0_transform_48 i a + 1) * S1x64x512.size a ≤ S1024x64x512.size a
  hwx0_48 : ∀ i : grid0.Coords, EltTy.bits .f32 = 32 ∨ (Rect.block (s := S1024x64x512) S1x64x512.size (cc0_transform_48 i) (hinb0_48 i)).WholeWords (EltTy.packing .f32)
  hstage0_49 : ∀ j, (stage0_49 j).IsWhole
  nbuf0_49 : grid0.bufCount reads0_49 false = 2
  hreads0_49 : ∀ i i' : grid0.Coords, (∀ a, reads0_49 a = true → i a = i' a) → cc0_transform_49 i = cc0_transform_49 i'
  hinb0_49 : ∀ (i : grid0.Coords) a, (cc0_transform_49 i a + 1) * S1x64x512.size a ≤ S1024x64x512.size a
  hwx0_49 : ∀ i : grid0.Coords, EltTy.bits .f32 = 32 ∨ (Rect.block (s := S1024x64x512) S1x64x512.size (cc0_transform_49 i) (hinb0_49 i)).WholeWords (EltTy.packing .f32)
  hstage0_50 : ∀ j, (stage0_50 j).IsWhole
  nbuf0_50 : grid0.bufCount reads0_50 false = 2
  hreads0_50 : ∀ i i' : grid0.Coords, (∀ a, reads0_50 a = true → i a = i' a) → cc0_transform_50 i = cc0_transform_50 i'
  hinb0_50 : ∀ (i : grid0.Coords) a, (cc0_transform_50 i a + 1) * S1x64x512.size a ≤ S1024x64x512.size a
  hwx0_50 : ∀ i : grid0.Coords, EltTy.bits .f32 = 32 ∨ (Rect.block (s := S1024x64x512) S1x64x512.size (cc0_transform_50 i) (hinb0_50 i)).WholeWords (EltTy.packing .f32)
  hstage0_51 : ∀ j, (stage0_51 j).IsWhole
  nbuf0_51 : grid0.bufCount reads0_51 false = 2
  hreads0_51 : ∀ i i' : grid0.Coords, (∀ a, reads0_51 a = true → i a = i' a) → cc0_transform_51 i = cc0_transform_51 i'
  hinb0_51 : ∀ (i : grid0.Coords) a, (cc0_transform_51 i a + 1) * S1x64x512.size a ≤ S1024x64x512.size a
  hwx0_51 : ∀ i : grid0.Coords, EltTy.bits .f32 = 32 ∨ (Rect.block (s := S1024x64x512) S1x64x512.size (cc0_transform_51 i) (hinb0_51 i)).WholeWords (EltTy.packing .f32)
  hstage0_52 : ∀ j, (stage0_52 j).IsWhole
  nbuf0_52 : grid0.bufCount reads0_52 false = 2
  hreads0_52 : ∀ i i' : grid0.Coords, (∀ a, reads0_52 a = true → i a = i' a) → cc0_transform_52 i = cc0_transform_52 i'
  hinb0_52 : ∀ (i : grid0.Coords) a, (cc0_transform_52 i a + 1) * S1x64x512.size a ≤ S1024x64x512.size a
  hwx0_52 : ∀ i : grid0.Coords, EltTy.bits .f32 = 32 ∨ (Rect.block (s := S1024x64x512) S1x64x512.size (cc0_transform_52 i) (hinb0_52 i)).WholeWords (EltTy.packing .f32)
  hstage0_53 : ∀ j, (stage0_53 j).IsWhole
  nbuf0_53 : grid0.bufCount reads0_53 false = 2
  hreads0_53 : ∀ i i' : grid0.Coords, (∀ a, reads0_53 a = true → i a = i' a) → cc0_transform_53 i = cc0_transform_53 i'
  hinb0_53 : ∀ (i : grid0.Coords) a, (cc0_transform_53 i a + 1) * S1x64x512.size a ≤ S1024x64x512.size a
  hwx0_53 : ∀ i : grid0.Coords, EltTy.bits .f32 = 32 ∨ (Rect.block (s := S1024x64x512) S1x64x512.size (cc0_transform_53 i) (hinb0_53 i)).WholeWords (EltTy.packing .f32)
  hstage0_54 : ∀ j, (stage0_54 j).IsWhole
  nbuf0_54 : grid0.bufCount reads0_54 false = 2
  hreads0_54 : ∀ i i' : grid0.Coords, (∀ a, reads0_54 a = true → i a = i' a) → cc0_transform_54 i = cc0_transform_54 i'
  hinb0_54 : ∀ (i : grid0.Coords) a, (cc0_transform_54 i a + 1) * S1x64x512.size a ≤ S1024x64x512.size a
  hwx0_54 : ∀ i : grid0.Coords, EltTy.bits .f32 = 32 ∨ (Rect.block (s := S1024x64x512) S1x64x512.size (cc0_transform_54 i) (hinb0_54 i)).WholeWords (EltTy.packing .f32)
  hstage0_55 : ∀ j, (stage0_55 j).IsWhole
  nbuf0_55 : grid0.bufCount reads0_55 false = 2
  hreads0_55 : ∀ i i' : grid0.Coords, (∀ a, reads0_55 a = true → i a = i' a) → cc0_transform_55 i = cc0_transform_55 i'
  hinb0_55 : ∀ (i : grid0.Coords) a, (cc0_transform_55 i a + 1) * S1x64x512.size a ≤ S1024x64x512.size a
  hwx0_55 : ∀ i : grid0.Coords, EltTy.bits .f32 = 32 ∨ (Rect.block (s := S1024x64x512) S1x64x512.size (cc0_transform_55 i) (hinb0_55 i)).WholeWords (EltTy.packing .f32)
  hstage0_56 : ∀ j, (stage0_56 j).IsWhole
  nbuf0_56 : grid0.bufCount reads0_56 false = 2
  hreads0_56 : ∀ i i' : grid0.Coords, (∀ a, reads0_56 a = true → i a = i' a) → cc0_transform_56 i = cc0_transform_56 i'
  hinb0_56 : ∀ (i : grid0.Coords) a, (cc0_transform_56 i a + 1) * S1x64x512.size a ≤ S1024x64x512.size a
  hwx0_56 : ∀ i : grid0.Coords, EltTy.bits .f32 = 32 ∨ (Rect.block (s := S1024x64x512) S1x64x512.size (cc0_transform_56 i) (hinb0_56 i)).WholeWords (EltTy.packing .f32)
  hstage0_57 : ∀ j, (stage0_57 j).IsWhole
  nbuf0_57 : grid0.bufCount reads0_57 false = 2
  hreads0_57 : ∀ i i' : grid0.Coords, (∀ a, reads0_57 a = true → i a = i' a) → cc0_transform_57 i = cc0_transform_57 i'
  hinb0_57 : ∀ (i : grid0.Coords) a, (cc0_transform_57 i a + 1) * S1x64x512.size a ≤ S1024x64x512.size a
  hwx0_57 : ∀ i : grid0.Coords, EltTy.bits .f32 = 32 ∨ (Rect.block (s := S1024x64x512) S1x64x512.size (cc0_transform_57 i) (hinb0_57 i)).WholeWords (EltTy.packing .f32)
  hstage0_58 : ∀ j, (stage0_58 j).IsWhole
  nbuf0_58 : grid0.bufCount reads0_58 false = 2
  hreads0_58 : ∀ i i' : grid0.Coords, (∀ a, reads0_58 a = true → i a = i' a) → cc0_transform_58 i = cc0_transform_58 i'
  hinb0_58 : ∀ (i : grid0.Coords) a, (cc0_transform_58 i a + 1) * S1x64x512.size a ≤ S1024x64x512.size a
  hwx0_58 : ∀ i : grid0.Coords, EltTy.bits .f32 = 32 ∨ (Rect.block (s := S1024x64x512) S1x64x512.size (cc0_transform_58 i) (hinb0_58 i)).WholeWords (EltTy.packing .f32)
  hstage0_59 : ∀ j, (stage0_59 j).IsWhole
  nbuf0_59 : grid0.bufCount reads0_59 false = 2
  hreads0_59 : ∀ i i' : grid0.Coords, (∀ a, reads0_59 a = true → i a = i' a) → cc0_transform_59 i = cc0_transform_59 i'
  hinb0_59 : ∀ (i : grid0.Coords) a, (cc0_transform_59 i a + 1) * S1x64x512.size a ≤ S1024x64x512.size a
  hwx0_59 : ∀ i : grid0.Coords, EltTy.bits .f32 = 32 ∨ (Rect.block (s := S1024x64x512) S1x64x512.size (cc0_transform_59 i) (hinb0_59 i)).WholeWords (EltTy.packing .f32)
  hstage0_60 : ∀ j, (stage0_60 j).IsWhole
  nbuf0_60 : grid0.bufCount reads0_60 false = 2
  hreads0_60 : ∀ i i' : grid0.Coords, (∀ a, reads0_60 a = true → i a = i' a) → cc0_transform_60 i = cc0_transform_60 i'
  hinb0_60 : ∀ (i : grid0.Coords) a, (cc0_transform_60 i a + 1) * S1x64x512.size a ≤ S1024x64x512.size a
  hwx0_60 : ∀ i : grid0.Coords, EltTy.bits .f32 = 32 ∨ (Rect.block (s := S1024x64x512) S1x64x512.size (cc0_transform_60 i) (hinb0_60 i)).WholeWords (EltTy.packing .f32)
  hstage0_61 : ∀ j, (stage0_61 j).IsWhole
  nbuf0_61 : grid0.bufCount reads0_61 false = 2
  hreads0_61 : ∀ i i' : grid0.Coords, (∀ a, reads0_61 a = true → i a = i' a) → cc0_transform_61 i = cc0_transform_61 i'
  hinb0_61 : ∀ (i : grid0.Coords) a, (cc0_transform_61 i a + 1) * S1x64x512.size a ≤ S1024x64x512.size a
  hwx0_61 : ∀ i : grid0.Coords, EltTy.bits .f32 = 32 ∨ (Rect.block (s := S1024x64x512) S1x64x512.size (cc0_transform_61 i) (hinb0_61 i)).WholeWords (EltTy.packing .f32)
  hstage0_62 : ∀ j, (stage0_62 j).IsWhole
  nbuf0_62 : grid0.bufCount reads0_62 false = 2
  hreads0_62 : ∀ i i' : grid0.Coords, (∀ a, reads0_62 a = true → i a = i' a) → cc0_transform_62 i = cc0_transform_62 i'
  hinb0_62 : ∀ (i : grid0.Coords) a, (cc0_transform_62 i a + 1) * S1x64x512.size a ≤ S1024x64x512.size a
  hwx0_62 : ∀ i : grid0.Coords, EltTy.bits .f32 = 32 ∨ (Rect.block (s := S1024x64x512) S1x64x512.size (cc0_transform_62 i) (hinb0_62 i)).WholeWords (EltTy.packing .f32)
  hstage0_63 : ∀ j, (stage0_63 j).IsWhole
  nbuf0_63 : grid0.bufCount reads0_63 false = 2
  hreads0_63 : ∀ i i' : grid0.Coords, (∀ a, reads0_63 a = true → i a = i' a) → cc0_transform_63 i = cc0_transform_63 i'
  hinb0_63 : ∀ (i : grid0.Coords) a, (cc0_transform_63 i a + 1) * S1x64x512.size a ≤ S1024x64x512.size a
  hwx0_63 : ∀ i : grid0.Coords, EltTy.bits .f32 = 32 ∨ (Rect.block (s := S1024x64x512) S1x64x512.size (cc0_transform_63 i) (hinb0_63 i)).WholeWords (EltTy.packing .f32)
  hstage0_64 : ∀ j, (stage0_64 j).IsWhole
  nbuf0_64 : grid0.bufCount reads0_64 true = 1
  hreads0_64 : ∀ i i' : grid0.Coords, (∀ a, reads0_64 a = true → i a = i' a) → cc0_transform_64 i = cc0_transform_64 i'
  hinb0_64 : ∀ (i : grid0.Coords) a, (cc0_transform_64 i a + 1) * S16x512x512.size a ≤ S16x512x512.size a
  hwx0_64 : ∀ i : grid0.Coords, EltTy.bits .bf16 = 32 ∨ (Rect.block (s := S16x512x512) S16x512x512.size (cc0_transform_64 i) (hinb0_64 i)).WholeWords (EltTy.packing .bf16)
  hstage0_65 : ∀ j, (stage0_65 j).IsWhole
  nbuf0_65 : grid0.bufCount reads0_65 true = 1
  hreads0_65 : ∀ i i' : grid0.Coords, (∀ a, reads0_65 a = true → i a = i' a) → cc0_transform_65 i = cc0_transform_65 i'
  hinb0_65 : ∀ (i : grid0.Coords) a, (cc0_transform_65 i a + 1) * S512.size a ≤ S512.size a
  hwx0_65 : ∀ i : grid0.Coords, EltTy.bits .f32 = 32 ∨ (Rect.block (s := S512) S512.size (cc0_transform_65 i) (hinb0_65 i)).WholeWords (EltTy.packing .f32)
  hstage0_66 : ∀ j, (stage0_66 j).IsWhole
  nbuf0_66 : grid0.bufCount reads0_66 false = 2
  hreads0_66 : ∀ i i' : grid0.Coords, (∀ a, reads0_66 a = true → i a = i' a) → cc0_transform_66 i = cc0_transform_66 i'
  hinb0_66 : ∀ (i : grid0.Coords) a, (cc0_transform_66 i a + 1) * S4x64x512.size a ≤ S64x64x512.size a
  hwx0_66 : ∀ i : grid0.Coords, EltTy.bits .f32 = 32 ∨ (Rect.block (s := S64x64x512) S4x64x512.size (cc0_transform_66 i) (hinb0_66 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1x64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S1x64x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S1x64x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg0) S1x64x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg0) S1x64x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg0) S1x64x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg0) S1x64x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg0) S1x64x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg0) S1x64x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg0) S1x64x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg0) S1x64x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg0) S1x64x512.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg0) S1x64x512.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_arg0) S1x64x512.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_arg0) S1x64x512.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_arg0) S1x64x512.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_arg0) S1x64x512.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_arg0) S1x64x512.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_arg0) S1x64x512.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_arg0) S1x64x512.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_arg0) S1x64x512.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_arg0) S1x64x512.size cc0_transform_25 reads0_25 false false 2 stage0_25 sem0_25
    hrank0 hreads0_25 hinb0_25 nbuf0_25 (Memref.isWhole_whole _) hwx0_25 hstage0_25

abbrev win0_26 : Pipeline.Window sig grid0 :=
  Pipeline.Window.ofSpec (Memref.whole main_arg0) S1x64x512.size cc0_transform_26 reads0_26 false false 2 stage0_26 sem0_26
    hrank0 hreads0_26 hinb0_26 nbuf0_26 (Memref.isWhole_whole _) hwx0_26 hstage0_26

abbrev win0_27 : Pipeline.Window sig grid0 :=
  Pipeline.Window.ofSpec (Memref.whole main_arg0) S1x64x512.size cc0_transform_27 reads0_27 false false 2 stage0_27 sem0_27
    hrank0 hreads0_27 hinb0_27 nbuf0_27 (Memref.isWhole_whole _) hwx0_27 hstage0_27

abbrev win0_28 : Pipeline.Window sig grid0 :=
  Pipeline.Window.ofSpec (Memref.whole main_arg0) S1x64x512.size cc0_transform_28 reads0_28 false false 2 stage0_28 sem0_28
    hrank0 hreads0_28 hinb0_28 nbuf0_28 (Memref.isWhole_whole _) hwx0_28 hstage0_28

abbrev win0_29 : Pipeline.Window sig grid0 :=
  Pipeline.Window.ofSpec (Memref.whole main_arg0) S1x64x512.size cc0_transform_29 reads0_29 false false 2 stage0_29 sem0_29
    hrank0 hreads0_29 hinb0_29 nbuf0_29 (Memref.isWhole_whole _) hwx0_29 hstage0_29

abbrev win0_30 : Pipeline.Window sig grid0 :=
  Pipeline.Window.ofSpec (Memref.whole main_arg0) S1x64x512.size cc0_transform_30 reads0_30 false false 2 stage0_30 sem0_30
    hrank0 hreads0_30 hinb0_30 nbuf0_30 (Memref.isWhole_whole _) hwx0_30 hstage0_30

abbrev win0_31 : Pipeline.Window sig grid0 :=
  Pipeline.Window.ofSpec (Memref.whole main_arg0) S1x64x512.size cc0_transform_31 reads0_31 false false 2 stage0_31 sem0_31
    hrank0 hreads0_31 hinb0_31 nbuf0_31 (Memref.isWhole_whole _) hwx0_31 hstage0_31

abbrev win0_32 : Pipeline.Window sig grid0 :=
  Pipeline.Window.ofSpec (Memref.whole main_arg0) S1x64x512.size cc0_transform_32 reads0_32 false false 2 stage0_32 sem0_32
    hrank0 hreads0_32 hinb0_32 nbuf0_32 (Memref.isWhole_whole _) hwx0_32 hstage0_32

abbrev win0_33 : Pipeline.Window sig grid0 :=
  Pipeline.Window.ofSpec (Memref.whole main_arg0) S1x64x512.size cc0_transform_33 reads0_33 false false 2 stage0_33 sem0_33
    hrank0 hreads0_33 hinb0_33 nbuf0_33 (Memref.isWhole_whole _) hwx0_33 hstage0_33

abbrev win0_34 : Pipeline.Window sig grid0 :=
  Pipeline.Window.ofSpec (Memref.whole main_arg0) S1x64x512.size cc0_transform_34 reads0_34 false false 2 stage0_34 sem0_34
    hrank0 hreads0_34 hinb0_34 nbuf0_34 (Memref.isWhole_whole _) hwx0_34 hstage0_34

abbrev win0_35 : Pipeline.Window sig grid0 :=
  Pipeline.Window.ofSpec (Memref.whole main_arg0) S1x64x512.size cc0_transform_35 reads0_35 false false 2 stage0_35 sem0_35
    hrank0 hreads0_35 hinb0_35 nbuf0_35 (Memref.isWhole_whole _) hwx0_35 hstage0_35

abbrev win0_36 : Pipeline.Window sig grid0 :=
  Pipeline.Window.ofSpec (Memref.whole main_arg0) S1x64x512.size cc0_transform_36 reads0_36 false false 2 stage0_36 sem0_36
    hrank0 hreads0_36 hinb0_36 nbuf0_36 (Memref.isWhole_whole _) hwx0_36 hstage0_36

abbrev win0_37 : Pipeline.Window sig grid0 :=
  Pipeline.Window.ofSpec (Memref.whole main_arg0) S1x64x512.size cc0_transform_37 reads0_37 false false 2 stage0_37 sem0_37
    hrank0 hreads0_37 hinb0_37 nbuf0_37 (Memref.isWhole_whole _) hwx0_37 hstage0_37

abbrev win0_38 : Pipeline.Window sig grid0 :=
  Pipeline.Window.ofSpec (Memref.whole main_arg0) S1x64x512.size cc0_transform_38 reads0_38 false false 2 stage0_38 sem0_38
    hrank0 hreads0_38 hinb0_38 nbuf0_38 (Memref.isWhole_whole _) hwx0_38 hstage0_38

abbrev win0_39 : Pipeline.Window sig grid0 :=
  Pipeline.Window.ofSpec (Memref.whole main_arg0) S1x64x512.size cc0_transform_39 reads0_39 false false 2 stage0_39 sem0_39
    hrank0 hreads0_39 hinb0_39 nbuf0_39 (Memref.isWhole_whole _) hwx0_39 hstage0_39

abbrev win0_40 : Pipeline.Window sig grid0 :=
  Pipeline.Window.ofSpec (Memref.whole main_arg0) S1x64x512.size cc0_transform_40 reads0_40 false false 2 stage0_40 sem0_40
    hrank0 hreads0_40 hinb0_40 nbuf0_40 (Memref.isWhole_whole _) hwx0_40 hstage0_40

abbrev win0_41 : Pipeline.Window sig grid0 :=
  Pipeline.Window.ofSpec (Memref.whole main_arg0) S1x64x512.size cc0_transform_41 reads0_41 false false 2 stage0_41 sem0_41
    hrank0 hreads0_41 hinb0_41 nbuf0_41 (Memref.isWhole_whole _) hwx0_41 hstage0_41

abbrev win0_42 : Pipeline.Window sig grid0 :=
  Pipeline.Window.ofSpec (Memref.whole main_arg0) S1x64x512.size cc0_transform_42 reads0_42 false false 2 stage0_42 sem0_42
    hrank0 hreads0_42 hinb0_42 nbuf0_42 (Memref.isWhole_whole _) hwx0_42 hstage0_42

abbrev win0_43 : Pipeline.Window sig grid0 :=
  Pipeline.Window.ofSpec (Memref.whole main_arg0) S1x64x512.size cc0_transform_43 reads0_43 false false 2 stage0_43 sem0_43
    hrank0 hreads0_43 hinb0_43 nbuf0_43 (Memref.isWhole_whole _) hwx0_43 hstage0_43

abbrev win0_44 : Pipeline.Window sig grid0 :=
  Pipeline.Window.ofSpec (Memref.whole main_arg0) S1x64x512.size cc0_transform_44 reads0_44 false false 2 stage0_44 sem0_44
    hrank0 hreads0_44 hinb0_44 nbuf0_44 (Memref.isWhole_whole _) hwx0_44 hstage0_44

abbrev win0_45 : Pipeline.Window sig grid0 :=
  Pipeline.Window.ofSpec (Memref.whole main_arg0) S1x64x512.size cc0_transform_45 reads0_45 false false 2 stage0_45 sem0_45
    hrank0 hreads0_45 hinb0_45 nbuf0_45 (Memref.isWhole_whole _) hwx0_45 hstage0_45

abbrev win0_46 : Pipeline.Window sig grid0 :=
  Pipeline.Window.ofSpec (Memref.whole main_arg0) S1x64x512.size cc0_transform_46 reads0_46 false false 2 stage0_46 sem0_46
    hrank0 hreads0_46 hinb0_46 nbuf0_46 (Memref.isWhole_whole _) hwx0_46 hstage0_46

abbrev win0_47 : Pipeline.Window sig grid0 :=
  Pipeline.Window.ofSpec (Memref.whole main_arg0) S1x64x512.size cc0_transform_47 reads0_47 false false 2 stage0_47 sem0_47
    hrank0 hreads0_47 hinb0_47 nbuf0_47 (Memref.isWhole_whole _) hwx0_47 hstage0_47

abbrev win0_48 : Pipeline.Window sig grid0 :=
  Pipeline.Window.ofSpec (Memref.whole main_arg0) S1x64x512.size cc0_transform_48 reads0_48 false false 2 stage0_48 sem0_48
    hrank0 hreads0_48 hinb0_48 nbuf0_48 (Memref.isWhole_whole _) hwx0_48 hstage0_48

abbrev win0_49 : Pipeline.Window sig grid0 :=
  Pipeline.Window.ofSpec (Memref.whole main_arg0) S1x64x512.size cc0_transform_49 reads0_49 false false 2 stage0_49 sem0_49
    hrank0 hreads0_49 hinb0_49 nbuf0_49 (Memref.isWhole_whole _) hwx0_49 hstage0_49

abbrev win0_50 : Pipeline.Window sig grid0 :=
  Pipeline.Window.ofSpec (Memref.whole main_arg0) S1x64x512.size cc0_transform_50 reads0_50 false false 2 stage0_50 sem0_50
    hrank0 hreads0_50 hinb0_50 nbuf0_50 (Memref.isWhole_whole _) hwx0_50 hstage0_50

abbrev win0_51 : Pipeline.Window sig grid0 :=
  Pipeline.Window.ofSpec (Memref.whole main_arg0) S1x64x512.size cc0_transform_51 reads0_51 false false 2 stage0_51 sem0_51
    hrank0 hreads0_51 hinb0_51 nbuf0_51 (Memref.isWhole_whole _) hwx0_51 hstage0_51

abbrev win0_52 : Pipeline.Window sig grid0 :=
  Pipeline.Window.ofSpec (Memref.whole main_arg0) S1x64x512.size cc0_transform_52 reads0_52 false false 2 stage0_52 sem0_52
    hrank0 hreads0_52 hinb0_52 nbuf0_52 (Memref.isWhole_whole _) hwx0_52 hstage0_52

abbrev win0_53 : Pipeline.Window sig grid0 :=
  Pipeline.Window.ofSpec (Memref.whole main_arg0) S1x64x512.size cc0_transform_53 reads0_53 false false 2 stage0_53 sem0_53
    hrank0 hreads0_53 hinb0_53 nbuf0_53 (Memref.isWhole_whole _) hwx0_53 hstage0_53

abbrev win0_54 : Pipeline.Window sig grid0 :=
  Pipeline.Window.ofSpec (Memref.whole main_arg0) S1x64x512.size cc0_transform_54 reads0_54 false false 2 stage0_54 sem0_54
    hrank0 hreads0_54 hinb0_54 nbuf0_54 (Memref.isWhole_whole _) hwx0_54 hstage0_54

abbrev win0_55 : Pipeline.Window sig grid0 :=
  Pipeline.Window.ofSpec (Memref.whole main_arg0) S1x64x512.size cc0_transform_55 reads0_55 false false 2 stage0_55 sem0_55
    hrank0 hreads0_55 hinb0_55 nbuf0_55 (Memref.isWhole_whole _) hwx0_55 hstage0_55

abbrev win0_56 : Pipeline.Window sig grid0 :=
  Pipeline.Window.ofSpec (Memref.whole main_arg0) S1x64x512.size cc0_transform_56 reads0_56 false false 2 stage0_56 sem0_56
    hrank0 hreads0_56 hinb0_56 nbuf0_56 (Memref.isWhole_whole _) hwx0_56 hstage0_56

abbrev win0_57 : Pipeline.Window sig grid0 :=
  Pipeline.Window.ofSpec (Memref.whole main_arg0) S1x64x512.size cc0_transform_57 reads0_57 false false 2 stage0_57 sem0_57
    hrank0 hreads0_57 hinb0_57 nbuf0_57 (Memref.isWhole_whole _) hwx0_57 hstage0_57

abbrev win0_58 : Pipeline.Window sig grid0 :=
  Pipeline.Window.ofSpec (Memref.whole main_arg0) S1x64x512.size cc0_transform_58 reads0_58 false false 2 stage0_58 sem0_58
    hrank0 hreads0_58 hinb0_58 nbuf0_58 (Memref.isWhole_whole _) hwx0_58 hstage0_58

abbrev win0_59 : Pipeline.Window sig grid0 :=
  Pipeline.Window.ofSpec (Memref.whole main_arg0) S1x64x512.size cc0_transform_59 reads0_59 false false 2 stage0_59 sem0_59
    hrank0 hreads0_59 hinb0_59 nbuf0_59 (Memref.isWhole_whole _) hwx0_59 hstage0_59

abbrev win0_60 : Pipeline.Window sig grid0 :=
  Pipeline.Window.ofSpec (Memref.whole main_arg0) S1x64x512.size cc0_transform_60 reads0_60 false false 2 stage0_60 sem0_60
    hrank0 hreads0_60 hinb0_60 nbuf0_60 (Memref.isWhole_whole _) hwx0_60 hstage0_60

abbrev win0_61 : Pipeline.Window sig grid0 :=
  Pipeline.Window.ofSpec (Memref.whole main_arg0) S1x64x512.size cc0_transform_61 reads0_61 false false 2 stage0_61 sem0_61
    hrank0 hreads0_61 hinb0_61 nbuf0_61 (Memref.isWhole_whole _) hwx0_61 hstage0_61

abbrev win0_62 : Pipeline.Window sig grid0 :=
  Pipeline.Window.ofSpec (Memref.whole main_arg0) S1x64x512.size cc0_transform_62 reads0_62 false false 2 stage0_62 sem0_62
    hrank0 hreads0_62 hinb0_62 nbuf0_62 (Memref.isWhole_whole _) hwx0_62 hstage0_62

abbrev win0_63 : Pipeline.Window sig grid0 :=
  Pipeline.Window.ofSpec (Memref.whole main_arg0) S1x64x512.size cc0_transform_63 reads0_63 false false 2 stage0_63 sem0_63
    hrank0 hreads0_63 hinb0_63 nbuf0_63 (Memref.isWhole_whole _) hwx0_63 hstage0_63

abbrev win0_64 : Pipeline.Window sig grid0 :=
  Pipeline.Window.ofSpec (Memref.whole main_v0) S16x512x512.size cc0_transform_64 reads0_64 false true 1 stage0_64 sem0_64
    hrank0 hreads0_64 hinb0_64 nbuf0_64 (Memref.isWhole_whole _) hwx0_64 hstage0_64

abbrev win0_65 : Pipeline.Window sig grid0 :=
  Pipeline.Window.ofSpec (Memref.whole main_arg2) S512.size cc0_transform_65 reads0_65 false true 1 stage0_65 sem0_65
    hrank0 hreads0_65 hinb0_65 nbuf0_65 (Memref.isWhole_whole _) hwx0_65 hstage0_65

abbrev win0_66 : Pipeline.Window sig grid0 :=
  Pipeline.Window.ofSpec (Memref.whole main_v1) S4x64x512.size cc0_transform_66 reads0_66 true false 2 stage0_66 sem0_66
    hrank0 hreads0_66 hinb0_66 nbuf0_66 (Memref.isWhole_whole _) hwx0_66 hstage0_66

abbrev win0 : Fin 67 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | 39 => win0_39 | 40 => win0_40 | 41 => win0_41 | 42 => win0_42 | 43 => win0_43 | 44 => win0_44 | 45 => win0_45 | 46 => win0_46 | 47 => win0_47 | 48 => win0_48 | 49 => win0_49 | 50 => win0_50 | 51 => win0_51 | 52 => win0_52 | 53 => win0_53 | 54 => win0_54 | 55 => win0_55 | 56 => win0_56 | 57 => win0_57 | 58 => win0_58 | 59 => win0_59 | 60 => win0_60 | 61 => win0_61 | 62 => win0_62 | 63 => win0_63 | 64 => win0_64 | 65 => win0_65 | 66 => win0_66 | ⟨_ + 67, h⟩ => absurd h (Nat.not_lt.2 (Nat.le_add_left _ _))
abbrev spec0 : Fin 67 → Pipeline.WinSpec sig grid0.rank := fun w => (win0 w).toWinSpec

class Facts : Prop extends Facts₀ where

variable [Facts]
-- ==== ReferenceIdeal.lean ====
abbrev S1024x64x512 : Shape := ⟨3, ![1024, 64, 512]⟩
abbrev S16x512x512 : Shape := ⟨3, ![16, 512, 512]⟩
abbrev S512 : Shape := ⟨1, ![512]⟩
abbrev S1024 : Shape := ⟨1, ![1024]⟩
abbrev S_ : Shape := ⟨0, ![]⟩
abbrev S1024x1 : Shape := ⟨2, ![1024, 1]⟩
abbrev S1024x512x512 : Shape := ⟨3, ![1024, 512, 512]⟩
abbrev S64x64x512 : Shape := ⟨3, ![64, 64, 512]⟩
abbrev S1x1x512 : Shape := ⟨3, ![1, 1, 512]⟩

abbrev nBuf : Space → Nat
  | .hbm => 28
  | .vmem => 0
  | .smem => 0
  | _ => 0

abbrev bufTy : (tb : Table) → Fin (tcTables nBuf tb) → BufTy
  | .hbm, ⟨0, _⟩ => ⟨S1024x64x512, .f32⟩
  | .hbm, ⟨1, _⟩ => ⟨S16x512x512, .f32⟩
  | .hbm, ⟨2, _⟩ => ⟨S512, .f32⟩
  | .hbm, ⟨3, _⟩ => ⟨S1024, .i32⟩
  | .hbm, ⟨4, _⟩ => ⟨S1024, .i1⟩
  | .hbm, ⟨5, _⟩ => ⟨S1024, .i32⟩
  | .hbm, ⟨6, _⟩ => ⟨S1024, .i1⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1024x64x512, .f32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024x512x512, .f32⟩
  | .hbm, ⟨20, _⟩ => ⟨S1024x64x512, .f32⟩
  | .hbm, ⟨21, _⟩ => ⟨S_, .f32⟩
  | .hbm, ⟨22, _⟩ => ⟨S64x64x512, .f32⟩
  | .hbm, ⟨23, _⟩ => ⟨S1024x1, .i32⟩
  | .hbm, ⟨24, _⟩ => ⟨S64x64x512, .f32⟩
  | .hbm, ⟨25, _⟩ => ⟨S1x1x512, .f32⟩
  | .hbm, ⟨26, _⟩ => ⟨S64x64x512, .f32⟩
  | .hbm, ⟨27, _⟩ => ⟨S64x64x512, .f32⟩
  | _, _ => ⟨S1024x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S64x64x512 : S_.BroadcastsInDim S64x64x512 (![] : Fin 0 → Fin S64x64x512.rank)
  bcast_S512_S1x1x512_2 : S512.BroadcastsInDim S1x1x512 (![2] : Fin 1 → Fin S1x1x512.rank)
  bcast_S1x1x512_S64x64x512_0_1_2 : S1x1x512.BroadcastsInDim S64x64x512 (![0, 1, 2] : Fin 3 → Fin S64x64x512.rank)
  gather_S1024x64x512_S1024x1_S1024x64x512_12_0_n_n_0_1_164512_wf : GatherDims.WF S1024x64x512 S1024x1 S1024x64x512 [1, 2] [0] [] [0] [] 1 ![1, 64, 512]
  gather_S16x512x512_S1024x1_S1024x512x512_12_0_n_n_0_1_1512512_wf : GatherDims.WF S16x512x512 S1024x1 S1024x512x512 [1, 2] [0] [] [0] [] 1 ![1, 512, 512]
  dot_S1024x64x512_S1024x512x512_S1024x64x512_2_1_1_2_0_0_wf : DotDims.WF S1024x64x512 S1024x512x512 S1024x64x512 [2] [1] [1] [2] [0] [0]
  scatter_S64x64x512_S1024x1_S1024x64x512_12_0_0_1_wf : ScatterDims.WF S64x64x512 S1024x1 S1024x64x512 [1, 2] [0] [0] 1

variable [Facts₀]

def gather_S1024x64x512_S1024x1_S1024x64x512_12_0_n_n_0_1_164512 : GatherDims S1024x64x512 S1024x1 S1024x64x512 where
  offsetDims := [1, 2]
  collapsedSliceDims := [0]
  operandBatchingDims := []
  startIndicesBatchingDims := []
  startIndexMap := [0]
  indexVectorDim := 1
  sliceSizes := ![1, 64, 512]
  wf := gather_S1024x64x512_S1024x1_S1024x64x512_12_0_n_n_0_1_164512_wf
def gather_S16x512x512_S1024x1_S1024x512x512_12_0_n_n_0_1_1512512 : GatherDims S16x512x512 S1024x1 S1024x512x512 where
  offsetDims := [1, 2]
  collapsedSliceDims := [0]
  operandBatchingDims := []
  startIndicesBatchingDims := []
  startIndexMap := [0]
  indexVectorDim := 1
  sliceSizes := ![1, 512, 512]
  wf := gather_S16x512x512_S1024x1_S1024x512x512_12_0_n_n_0_1_1512512_wf
def dot_S1024x64x512_S1024x512x512_S1024x64x512_2_1_1_2_0_0 : DotDims S1024x64x512 S1024x512x512 S1024x64x512 where
  lhsContracting := [2]
  rhsContracting := [1]
  lhsNonContracting := [1]
  rhsNonContracting := [2]
  lhsBatch := [0]
  rhsBatch := [0]
  wf := dot_S1024x64x512_S1024x512x512_S1024x64x512_2_1_1_2_0_0_wf
def scatter_S64x64x512_S1024x1_S1024x64x512_12_0_0_1 : ScatterDims S64x64x512 S1024x1 S1024x64x512 where
  updateWindowDims := [1, 2]
  insertedWindowDims := [0]
  scatterDimsToOperandDims := [0]
  indexVectorDim := 1
  wf := scatter_S64x64x512_S1024x1_S1024x64x512_12_0_0_1_wf

class Facts : Prop extends Facts₀ where

variable [Facts]
-- ==== Proof.KEntry.lean ====
/-
  The region's entry.  @main converts the weights to the narrower float format (one host operation writing a
  fresh buffer) and then enters its one region; so at the region's entry every argument array holds what it was
  launched with, and the converted weights hold the conversion of the second argument.
-/
import proofs.«155339_j73821897884183_2_alg».proof.Proof.Gen.Kernel.Launch
import proofs.«155339_j73821897884183_2_alg».proof.Proof.Gen.Kernel.Skeleton
import proofs.«155339_j73821897884183_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers of core c when the region is entered: after the one host operation. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KBodyRun.lean ====
/-
  The body at one grid point, run symbolically.

  The body is handed 64 staged input rows, the staged weights, the staged bias and the output block's buffer.  It
  only loads from the first 66 buffers, so they end as they began; into the output buffer it makes four stores,
  one per output row of the point, each covering that row's slice.  The list of the four stored pieces (last
  store first) is what this run finds; that the body runs to its continuation with exactly those pieces written
  is its proof.
-/
import proofs.«155339_j73821897884183_2_alg».proof.Proof.KEntry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A whole buffer owned at contents X is its points-to at the raw contents that read as X. -/
theorem owns_eq_unread (c : Dev nD) {sp : Space} {sh : Shape} {e : EltTy} {m : Memref sig .tc sp sh e}
    (h : m.IsWhole) (q : PosShare TreeShare) (X : sh.Idx → Elt F e) :
    (owns (c : Thread nD τ) m q X : sProp 𝕄) = (m.view.loc (c : Thread nD τ) ↦[m.view.set]{q} h.unread X) := by
  unfold owns
  have h₁ : iprop(∃ f, ⌜m.view.read (Elt F) f = X⌝ ∗ (m.view.loc (c : Thread nD τ) ↦[m.view.set]{q} f))
      ⊢ (m.view.loc (c : Thread nD τ) ↦[m.view.set]{q} h.unread X : sProp 𝕄) := by
    iintro ⟨%f, %hf, H⟩
    obtain rfl := h.eq_unread hf
    iexact H
  have h₂ : (m.view.loc (c : Thread nD τ) ↦[m.view.set]{q} h.unread X : sProp 𝕄)
      ⊢ iprop(∃ f, ⌜m.view.read (Elt F) f = X⌝ ∗ (m.view.loc (c : Thread nD τ) ↦[m.view.set]{q} f)) := by
    iintro H
    iexists _
    isplitr
    · ipureintro; exact h.read_unread _
    iexact H
  exact BI.equiv_iff.mp ⟨h₁, h₂⟩

set_option maxHeartbeats 4000000 in
/-- The pieces the body's four stores leave in the output buffer, with the proof that on whole staging buffers,
    the inputs at given contents and the output at anything, the body runs to the continuation holding the inputs
    as they were and the output with the pieces written. -/
noncomputable def kernelRun (c : Dev nD) (i : grid0.Coords) (arg1 : Memref sig .tc .vmem S1x64x512 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x64x512 .f32) (harg7 : arg7.IsWhole) (arg8 : Memref sig .tc .vmem S1x64x512 .f32) (harg8 : arg8.IsWhole) (arg9 : Memref sig .tc .vmem S1x64x512 .f32) (harg9 : arg9.IsWhole) (arg10 : Memref sig .tc .vmem S1x64x512 .f32) (harg10 : arg10.IsWhole) (arg11 : Memref sig .tc .vmem S1x64x512 .f32) (harg11 : arg11.IsWhole) (arg12 : Memref sig .tc .vmem S1x64x512 .f32) (harg12 : arg12.IsWhole) (arg13 : Memref sig .tc .vmem S1x64x512 .f32) (harg13 : arg13.IsWhole) (arg14 : Memref sig .tc .vmem S1x64x512 .f32) (harg14 : arg14.IsWhole) (arg15 : Memref sig .tc .vmem S1x64x512 .f32) (harg15 : arg15.IsWhole) (arg16 : Memref sig .tc .vmem S1x64x512 .f32) (harg16 : arg16.IsWhole) (arg17 : Memref sig .tc .vmem S1x64x512 .f32) (harg17 : arg17.IsWhole) (arg18 : Memref sig .tc .vmem S1x64x512 .f32) (harg18 : arg18.IsWhole) (arg19 : Memref sig .tc .vmem S1x64x512 .f32) (harg19 : arg19.IsWhole) (arg20 : Memref sig .tc .vmem S1x64x512 .f32) (harg20 : arg20.IsWhole) (arg21 : Memref sig .tc .vmem S1x64x512 .f32) (harg21 : arg21.IsWhole) (arg22 : Memref sig .tc .vmem S1x64x512 .f32) (harg22 : arg22.IsWhole) (arg23 : Memref sig .tc .vmem S1x64x512 .f32) (harg23 : arg23.IsWhole) (arg24 : Memref sig .tc .vmem S1x64x512 .f32) (harg24 : arg24.IsWhole) (arg25 : Memref sig .tc .vmem S1x64x512 .f32) (harg25 : arg25.IsWhole) (arg26 : Memref sig .tc .vmem S1x64x512 .f32) (harg26 : arg26.IsWhole) (arg27 : Memref sig .tc .vmem S1x64x512 .f32) (harg27 : arg27.IsWhole) (arg28 : Memref sig .tc .vmem S1x64x512 .f32) (harg28 : arg28.IsWhole) (arg29 : Memref sig .tc .vmem S1x64x512 .f32) (harg29 : arg29.IsWhole) (arg30 : Memref sig .tc .vmem S1x64x512 .f32) (harg30 : arg30.IsWhole) (arg31 : Memref sig .tc .vmem S1x64x512 .f32) (harg31 : arg31.IsWhole) (arg32 : Memref sig .tc .vmem S1x64x512 .f32) (harg32 : arg32.IsWhole) (arg33 : Memref sig .tc .vmem S1x64x512 .f32) (harg33 : arg33.IsWhole) (arg34 : Memref sig .tc .vmem S1x64x512 .f32) (harg34 : arg34.IsWhole) (arg35 : Memref sig .tc .vmem S1x64x512 .f32) (harg35 : arg35.IsWhole) (arg36 : Memref sig .tc .vmem S1x64x512 .f32) (harg36 : arg36.IsWhole) (arg37 : Memref sig .tc .vmem S1x64x512 .f32) (harg37 : arg37.IsWhole) (arg38 : Memref sig .tc .vmem S1x64x512 .f32) (harg38 : arg38.IsWhole) (arg39 : Memref sig .tc .vmem S1x64x512 .f32) (harg39 : arg39.IsWhole) (arg40 : Memref sig .tc .vmem S1x64x512 .f32) (harg40 : arg40.IsWhole) (arg41 : Memref sig .tc .vmem S1x64x512 .f32) (harg41 : arg41.IsWhole) (arg42 : Memref sig .tc .vmem S1x64x512 .f32) (harg42 : arg42.IsWhole) (arg43 : Memref sig .tc .vmem S1x64x512 .f32) (harg43 : arg43.IsWhole) (arg44 : Memref sig .tc .vmem S1x64x512 .f32) (harg44 : arg44.IsWhole) (arg45 : Memref sig .tc .vmem S1x64x512 .f32) (harg45 : arg45.IsWhole) (arg46 : Memref sig .tc .vmem S1x64x512 .f32) (harg46 : arg46.IsWhole) (arg47 : Memref sig .tc .vmem S1x64x512 .f32) (harg47 : arg47.IsWhole) (arg48 : Memref sig .tc .vmem S1x64x512 .f32) (harg48 : arg48.IsWhole) (arg49 : Memref sig .tc .vmem S1x64x512 .f32) (harg49 : arg49.IsWhole) (arg50 : Memref sig .tc .vmem S1x64x512 .f32) (harg50 : arg50.IsWhole) (arg51 : Memref sig .tc .vmem S1x64x512 .f32) (harg51 : arg51.IsWhole) (arg52 : Memref sig .tc .vmem S1x64x512 .f32) (harg52 : arg52.IsWhole) (arg53 : Memref sig .tc .vmem S1x64x512 .f32) (harg53 : arg53.IsWhole) (arg54 : Memref sig .tc .vmem S1x64x512 .f32) (harg54 : arg54.IsWhole) (arg55 : Memref sig .tc .vmem S1x64x512 .f32) (harg55 : arg55.IsWhole) (arg56 : Memref sig .tc .vmem S1x64x512 .f32) (harg56 : arg56.IsWhole) (arg57 : Memref sig .tc .vmem S1x64x512 .f32) (harg57 : arg57.IsWhole) (arg58 : Memref sig .tc .vmem S1x64x512 .f32) (harg58 : arg58.IsWhole) (arg59 : Memref sig .tc .vmem S1x64x512 .f32) (harg59 : arg59.IsWhole) (arg60 : Memref sig .tc .vmem S1x64x512 .f32) (harg60 : arg60.IsWhole) (arg61 : Memref sig .tc .vmem S1x64x512 .f32) (harg61 : arg61.IsWhole) (arg62 : Memref sig .tc .vmem S1x64x512 .f32) (harg62 : arg62.IsWhole) (arg63 : Memref sig .tc .vmem S1x64x512 .f32) (harg63 : arg63.IsWhole) (arg64 : Memref sig .tc .vmem S1x64x512 .f32) (harg64 : arg64.IsWhole) (arg65 : Memref sig .tc .vmem S16x512x512 .bf16) (harg65 : arg65.IsWhole) (arg66 : Memref sig .tc .vmem S512 .f32) (harg66 : arg66.IsWhole) (arg67 : Memref sig .tc .vmem S4x64x512 .f32) (harg67 : arg67.IsWhole)
    (x1 : Vec F S1x64x512 .f32) (x2 : Vec F S1x64x512 .f32) (x3 : Vec F S1x64x512 .f32) (x4 : Vec F S1x64x512 .f32) (x5 : Vec F S1x64x512 .f32) (x6 : Vec F S1x64x512 .f32) (x7 : Vec F S1x64x512 .f32) (x8 : Vec F S1x64x512 .f32) (x9 : Vec F S1x64x512 .f32) (x10 : Vec F S1x64x512 .f32) (x11 : Vec F S1x64x512 .f32) (x12 : Vec F S1x64x512 .f32) (x13 : Vec F S1x64x512 .f32) (x14 : Vec F S1x64x512 .f32) (x15 : Vec F S1x64x512 .f32) (x16 : Vec F S1x64x512 .f32) (x17 : Vec F S1x64x512 .f32) (x18 : Vec F S1x64x512 .f32) (x19 : Vec F S1x64x512 .f32) (x20 : Vec F S1x64x512 .f32) (x21 : Vec F S1x64x512 .f32) (x22 : Vec F S1x64x512 .f32) (x23 : Vec F S1x64x512 .f32) (x24 : Vec F S1x64x512 .f32) (x25 : Vec F S1x64x512 .f32) (x26 : Vec F S1x64x512 .f32) (x27 : Vec F S1x64x512 .f32) (x28 : Vec F S1x64x512 .f32) (x29 : Vec F S1x64x512 .f32) (x30 : Vec F S1x64x512 .f32) (x31 : Vec F S1x64x512 .f32) (x32 : Vec F S1x64x512 .f32) (x33 : Vec F S1x64x512 .f32) (x34 : Vec F S1x64x512 .f32) (x35 : Vec F S1x64x512 .f32) (x36 : Vec F S1x64x512 .f32) (x37 : Vec F S1x64x512 .f32) (x38 : Vec F S1x64x512 .f32) (x39 : Vec F S1x64x512 .f32) (x40 : Vec F S1x64x512 .f32) (x41 : Vec F S1x64x512 .f32) (x42 : Vec F S1x64x512 .f32) (x43 : Vec F S1x64x512 .f32) (x44 : Vec F S1x64x512 .f32) (x45 : Vec F S1x64x512 .f32) (x46 : Vec F S1x64x512 .f32) (x47 : Vec F S1x64x512 .f32) (x48 : Vec F S1x64x512 .f32) (x49 : Vec F S1x64x512 .f32) (x50 : Vec F S1x64x512 .f32) (x51 : Vec F S1x64x512 .f32) (x52 : Vec F S1x64x512 .f32) (x53 : Vec F S1x64x512 .f32) (x54 : Vec F S1x64x512 .f32) (x55 : Vec F S1x64x512 .f32) (x56 : Vec F S1x64x512 .f32) (x57 : Vec F S1x64x512 .f32) (x58 : Vec F S1x64x512 .f32) (x59 : Vec F S1x64x512 .f32) (x60 : Vec F S1x64x512 .f32) (x61 : Vec F S1x64x512 .f32) (x62 : Vec F S1x64x512 .f32) (x63 : Vec F S1x64x512 .f32) (x64 : Vec F S1x64x512 .f32) (x65 : Vec F S16x512x512 .bf16) (x66 : Vec F S512 .f32) :
    { L : List (View.Piece (Elt F) S4x64x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare x44 ∗ owns (c : Thread nD τ) arg45 fullShare x45 ∗ owns (c : Thread nD τ) arg46 fullShare x46 ∗ owns (c : Thread nD τ) arg47 fullShare x47 ∗ owns (c : Thread nD τ) arg48 fullShare x48 ∗ owns (c : Thread nD τ) arg49 fullShare x49 ∗ owns (c : Thread nD τ) arg50 fullShare x50 ∗ owns (c : Thread nD τ) arg51 fullShare x51 ∗ owns (c : Thread nD τ) arg52 fullShare x52 ∗ owns (c : Thread nD τ) arg53 fullShare x53 ∗ owns (c : Thread nD τ) arg54 fullShare x54 ∗ owns (c : Thread nD τ) arg55 fullShare x55 ∗ owns (c : Thread nD τ) arg56 fullShare x56 ∗ owns (c : Thread nD τ) arg57 fullShare x57 ∗ owns (c : Thread nD τ) arg58 fullShare x58 ∗ owns (c : Thread nD τ) arg59 fullShare x59 ∗ owns (c : Thread nD τ) arg60 fullShare x60 ∗ owns (c : Thread nD τ) arg61 fullShare x61 ∗ owns (c : Thread nD τ) arg62 fullShare x62 ∗ owns (c : Thread nD τ) arg63 fullShare x63 ∗ owns (c : Thread nD τ) arg64 fullShare x64 ∗ owns (c : Thread nD τ) arg65 fullShare x65 ∗ owns (c : Thread nD τ) arg66 fullShare x66 ∗ (∃ d, owns (c : Thread nD τ) arg67 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare x44 ∗ owns (c : Thread nD τ) arg45 fullShare x45 ∗ owns (c : Thread nD τ) arg46 fullShare x46 ∗ owns (c : Thread nD τ) arg47 fullShare x47 ∗ owns (c : Thread nD τ) arg48 fullShare x48 ∗ owns (c : Thread nD τ) arg49 fullShare x49 ∗ owns (c : Thread nD τ) arg50 fullShare x50 ∗ owns (c : Thread nD τ) arg51 fullShare x51 ∗ owns (c : Thread nD τ) arg52 fullShare x52 ∗ owns (c : Thread nD τ) arg53 fullShare x53 ∗ owns (c : Thread nD τ) arg54 fullShare x54 ∗ owns (c : Thread nD τ) arg55 fullShare x55 ∗ owns (c : Thread nD τ) arg56 fullShare x56 ∗ owns (c : Thread nD τ) arg57 fullShare x57 ∗ owns (c : Thread nD τ) arg58 fullShare x58 ∗ owns (c : Thread nD τ) arg59 fullShare x59 ∗ owns (c : Thread nD τ) arg60 fullShare x60 ∗ owns (c : Thread nD τ) arg61 fullShare x61 ∗ owns (c : Thread nD τ) arg62 fullShare x62 ∗ owns (c : Thread nD τ) arg63 fullShare x63 ∗ owns (c : Thread nD τ) arg64 fullShare x64 ∗ owns (c : Thread nD τ) arg65 fullShare x65 ∗ owns (c : Thread nD τ) arg66 fullShare x66 ∗ (∃ f, arg67.view.loc (c : Thread nD τ) ↦[arg67.view.set]{fullShare} arg67.view.writes (Elt F) f L)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67) K } := by
  refine ⟨?_, fun E K => ?run⟩
  case run =>
    simp only [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg12, owns_eq_unread c harg13, owns_eq_unread c harg14, owns_eq_unread c harg15, owns_eq_unread c harg16, owns_eq_unread c harg17, owns_eq_unread c harg18, owns_eq_unread c harg19, owns_eq_unread c harg20, owns_eq_unread c harg21, owns_eq_unread c harg22, owns_eq_unread c harg23, owns_eq_unread c harg24, owns_eq_unread c harg25, owns_eq_unread c harg26, owns_eq_unread c harg27, owns_eq_unread c harg28, owns_eq_unread c harg29, owns_eq_unread c harg30, owns_eq_unread c harg31, owns_eq_unread c harg32, owns_eq_unread c harg33, owns_eq_unread c harg34, owns_eq_unread c harg35, owns_eq_unread c harg36, owns_eq_unread c harg37, owns_eq_unread c harg38, owns_eq_unread c harg39, owns_eq_unread c harg40, owns_eq_unread c harg41, owns_eq_unread c harg42, owns_eq_unread c harg43, owns_eq_unread c harg44, owns_eq_unread c harg45, owns_eq_unread c harg46, owns_eq_unread c harg47, owns_eq_unread c harg48, owns_eq_unread c harg49, owns_eq_unread c harg50, owns_eq_unread c harg51, owns_eq_unread c harg52, owns_eq_unread c harg53, owns_eq_unread c harg54, owns_eq_unread c harg55, owns_eq_unread c harg56, owns_eq_unread c harg57, owns_eq_unread c harg58, owns_eq_unread c harg59, owns_eq_unread c harg60, owns_eq_unread c harg61, owns_eq_unread c harg62, owns_eq_unread c harg63, owns_eq_unread c harg64, owns_eq_unread c harg65, owns_eq_unread c harg66]
    simp only [cc0__kernel_eq_skeleton]; unfold cc0__kernel_skel
    unfold owns
    iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, ⟨%d67, %f67, -, H67⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexact H44
    isplitl [H45]; · iexact H45
    isplitl [H46]; · iexact H46
    isplitl [H47]; · iexact H47
    isplitl [H48]; · iexact H48
    isplitl [H49]; · iexact H49
    isplitl [H50]; · iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    isplitl [H60]; · iexact H60
    isplitl [H61]; · iexact H61
    isplitl [H62]; · iexact H62
    isplitl [H63]; · iexact H63
    isplitl [H64]; · iexact H64
    isplitl [H65]; · iexact H65
    isplitl [H66]; · iexact H66
    iexists _; iexact H67

end Cert.Kernel.Hand

end
-- ==== Proof.LibShareChain.lean ====
/-
  Dealing one buffer's share to a row of readers.

  A share can be halved, and a points-to at a share is the two points-tos at its halves.  Keeping the right half
  and halving it again, n times, deals the share to n + 1 holders: holder i < n gets the left half of what was
  left after i halvings, and the last holder gets what is left after n.  Read from the left, the points-to at
  the share is then a right-nested row of the holders' points-tos; this file states one step of that row.
-/
import Idealize.ShloMosaic.Rules.PointsTo

noncomputable section

namespace Cert.LibShareChain

open Idealize.ShloMosaic Idealize.SL Idealize.SL.RA Idealize.SL.Sem
open Idealize.SL.BI (sProp)
open scoped Idealize.SL.BI
open Idealize.SL.BI.BIBase

/-- What is left of the share q after keeping the right half n times. -/
def rest (q : PosShare TreeShare) : ℕ → PosShare TreeShare
  | 0 => q
  | n + 1 => (rest q n).right

@[simp] theorem rest_zero (q : PosShare TreeShare) : rest q 0 = q := rfl
theorem rest_succ (q : PosShare TreeShare) (n : ℕ) : rest q (n + 1) = (rest q n).right := rfl

/-- Holder i's share when q is dealt to n + 1 holders: the left half of the rest for i < n, the rest for i = n. -/
def deal (q : PosShare TreeShare) (n i : ℕ) : PosShare TreeShare :=
  if i < n then (rest q i).left else rest q n

theorem deal_lt (q : PosShare TreeShare) {n i : ℕ} (h : i < n) : deal q n i = (rest q i).left := if_pos h
theorem deal_last (q : PosShare TreeShare) (n : ℕ) : deal q n n = rest q n := if_neg (lt_irrefl n)

section
variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl

/-- One step of the row: what is left after i halvings is holder i's left half beside what is left after i + 1. -/
theorem pointsTo_rest_step {ℓ : Loc nD τ sig} (I : Finset (Idx ℓ)) (f : Buf Val ℓ) (q : PosShare TreeShare) (i : ℕ) :
    (ℓ ↦[I]{rest q i} f : sProp 𝕄) ⊢ iprop((ℓ ↦[I]{(rest q i).left} f) ∗ ℓ ↦[I]{rest q (i + 1)} f) :=
  (pointsTo_share (PosShare.mem_left_op_right (rest q i))).1

end

end Cert.LibShareChain

end
-- ==== Proof.KData.lean ====
/-
  The proof data of the one pipelined region.

  At every grid point the 66 input windows hold their blocks of the arrays as the region found them, and the body
  leaves them so; the output window holds, after the body, the four stored pieces read back.  The 64 windows
  that read the first argument share that one array: its full share is dealt to them by repeated halving, window
  w < 63 getting the left half of what is left after w halvings and window 63 what is left after 63; the weights,
  the bias and the output are each one window's, at the full share.
-/
import proofs.«155339_j73821897884183_2_alg».proof.Proof.KBodyRun
import proofs.«155339_j73821897884183_2_alg».proof.Proof.LibShareChain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the body is called with at a point -/

abbrev ms0 (t : Fin cfg0.N) : Memref sig .tc .vmem S1x64x512 .f32 := win0_0.stage (cfg0.slots t 0)
theorem hs0 (t : Fin cfg0.N) : (ms0 t).IsWhole := hstage0_0 ((cfg0.slots t 0).cast nbuf0_0)
abbrev ms1 (t : Fin cfg0.N) : Memref sig .tc .vmem S1x64x512 .f32 := win0_1.stage (cfg0.slots t 1)
theorem hs1 (t : Fin cfg0.N) : (ms1 t).IsWhole := hstage0_1 ((cfg0.slots t 1).cast nbuf0_1)
abbrev ms2 (t : Fin cfg0.N) : Memref sig .tc .vmem S1x64x512 .f32 := win0_2.stage (cfg0.slots t 2)
theorem hs2 (t : Fin cfg0.N) : (ms2 t).IsWhole := hstage0_2 ((cfg0.slots t 2).cast nbuf0_2)
abbrev ms3 (t : Fin cfg0.N) : Memref sig .tc .vmem S1x64x512 .f32 := win0_3.stage (cfg0.slots t 3)
theorem hs3 (t : Fin cfg0.N) : (ms3 t).IsWhole := hstage0_3 ((cfg0.slots t 3).cast nbuf0_3)
abbrev ms4 (t : Fin cfg0.N) : Memref sig .tc .vmem S1x64x512 .f32 := win0_4.stage (cfg0.slots t 4)
theorem hs4 (t : Fin cfg0.N) : (ms4 t).IsWhole := hstage0_4 ((cfg0.slots t 4).cast nbuf0_4)
abbrev ms5 (t : Fin cfg0.N) : Memref sig .tc .vmem S1x64x512 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S1x64x512 .f32 := win0_6.stage (cfg0.slots t 6)
theorem hs6 (t : Fin cfg0.N) : (ms6 t).IsWhole := hstage0_6 ((cfg0.slots t 6).cast nbuf0_6)
abbrev ms7 (t : Fin cfg0.N) : Memref sig .tc .vmem S1x64x512 .f32 := win0_7.stage (cfg0.slots t 7)
theorem hs7 (t : Fin cfg0.N) : (ms7 t).IsWhole := hstage0_7 ((cfg0.slots t 7).cast nbuf0_7)
abbrev ms8 (t : Fin cfg0.N) : Memref sig .tc .vmem S1x64x512 .f32 := win0_8.stage (cfg0.slots t 8)
theorem hs8 (t : Fin cfg0.N) : (ms8 t).IsWhole := hstage0_8 ((cfg0.slots t 8).cast nbuf0_8)
abbrev ms9 (t : Fin cfg0.N) : Memref sig .tc .vmem S1x64x512 .f32 := win0_9.stage (cfg0.slots t 9)
theorem hs9 (t : Fin cfg0.N) : (ms9 t).IsWhole := hstage0_9 ((cfg0.slots t 9).cast nbuf0_9)
abbrev ms10 (t : Fin cfg0.N) : Memref sig .tc .vmem S1x64x512 .f32 := win0_10.stage (cfg0.slots t 10)
theorem hs10 (t : Fin cfg0.N) : (ms10 t).IsWhole := hstage0_10 ((cfg0.slots t 10).cast nbuf0_10)
abbrev ms11 (t : Fin cfg0.N) : Memref sig .tc .vmem S1x64x512 .f32 := win0_11.stage (cfg0.slots t 11)
theorem hs11 (t : Fin cfg0.N) : (ms11 t).IsWhole := hstage0_11 ((cfg0.slots t 11).cast nbuf0_11)
abbrev ms12 (t : Fin cfg0.N) : Memref sig .tc .vmem S1x64x512 .f32 := win0_12.stage (cfg0.slots t 12)
theorem hs12 (t : Fin cfg0.N) : (ms12 t).IsWhole := hstage0_12 ((cfg0.slots t 12).cast nbuf0_12)
abbrev ms13 (t : Fin cfg0.N) : Memref sig .tc .vmem S1x64x512 .f32 := win0_13.stage (cfg0.slots t 13)
theorem hs13 (t : Fin cfg0.N) : (ms13 t).IsWhole := hstage0_13 ((cfg0.slots t 13).cast nbuf0_13)
abbrev ms14 (t : Fin cfg0.N) : Memref sig .tc .vmem S1x64x512 .f32 := win0_14.stage (cfg0.slots t 14)
theorem hs14 (t : Fin cfg0.N) : (ms14 t).IsWhole := hstage0_14 ((cfg0.slots t 14).cast nbuf0_14)
abbrev ms15 (t : Fin cfg0.N) : Memref sig .tc .vmem S1x64x512 .f32 := win0_15.stage (cfg0.slots t 15)
theorem hs15 (t : Fin cfg0.N) : (ms15 t).IsWhole := hstage0_15 ((cfg0.slots t 15).cast nbuf0_15)
abbrev ms16 (t : Fin cfg0.N) : Memref sig .tc .vmem S1x64x512 .f32 := win0_16.stage (cfg0.slots t 16)
theorem hs16 (t : Fin cfg0.N) : (ms16 t).IsWhole := hstage0_16 ((cfg0.slots t 16).cast nbuf0_16)
abbrev ms17 (t : Fin cfg0.N) : Memref sig .tc .vmem S1x64x512 .f32 := win0_17.stage (cfg0.slots t 17)
theorem hs17 (t : Fin cfg0.N) : (ms17 t).IsWhole := hstage0_17 ((cfg0.slots t 17).cast nbuf0_17)
abbrev ms18 (t : Fin cfg0.N) : Memref sig .tc .vmem S1x64x512 .f32 := win0_18.stage (cfg0.slots t 18)
theorem hs18 (t : Fin cfg0.N) : (ms18 t).IsWhole := hstage0_18 ((cfg0.slots t 18).cast nbuf0_18)
abbrev ms19 (t : Fin cfg0.N) : Memref sig .tc .vmem S1x64x512 .f32 := win0_19.stage (cfg0.slots t 19)
theorem hs19 (t : Fin cfg0.N) : (ms19 t).IsWhole := hstage0_19 ((cfg0.slots t 19).cast nbuf0_19)
abbrev ms20 (t : Fin cfg0.N) : Memref sig .tc .vmem S1x64x512 .f32 := win0_20.stage (cfg0.slots t 20)
theorem hs20 (t : Fin cfg0.N) : (ms20 t).IsWhole := hstage0_20 ((cfg0.slots t 20).cast nbuf0_20)
abbrev ms21 (t : Fin cfg0.N) : Memref sig .tc .vmem S1x64x512 .f32 := win0_21.stage (cfg0.slots t 21)
theorem hs21 (t : Fin cfg0.N) : (ms21 t).IsWhole := hstage0_21 ((cfg0.slots t 21).cast nbuf0_21)
abbrev ms22 (t : Fin cfg0.N) : Memref sig .tc .vmem S1x64x512 .f32 := win0_22.stage (cfg0.slots t 22)
theorem hs22 (t : Fin cfg0.N) : (ms22 t).IsWhole := hstage0_22 ((cfg0.slots t 22).cast nbuf0_22)
abbrev ms23 (t : Fin cfg0.N) : Memref sig .tc .vmem S1x64x512 .f32 := win0_23.stage (cfg0.slots t 23)
theorem hs23 (t : Fin cfg0.N) : (ms23 t).IsWhole := hstage0_23 ((cfg0.slots t 23).cast nbuf0_23)
abbrev ms24 (t : Fin cfg0.N) : Memref sig .tc .vmem S1x64x512 .f32 := win0_24.stage (cfg0.slots t 24)
theorem hs24 (t : Fin cfg0.N) : (ms24 t).IsWhole := hstage0_24 ((cfg0.slots t 24).cast nbuf0_24)
abbrev ms25 (t : Fin cfg0.N) : Memref sig .tc .vmem S1x64x512 .f32 := win0_25.stage (cfg0.slots t 25)
theorem hs25 (t : Fin cfg0.N) : (ms25 t).IsWhole := hstage0_25 ((cfg0.slots t 25).cast nbuf0_25)
abbrev ms26 (t : Fin cfg0.N) : Memref sig .tc .vmem S1x64x512 .f32 := win0_26.stage (cfg0.slots t 26)
theorem hs26 (t : Fin cfg0.N) : (ms26 t).IsWhole := hstage0_26 ((cfg0.slots t 26).cast nbuf0_26)
abbrev ms27 (t : Fin cfg0.N) : Memref sig .tc .vmem S1x64x512 .f32 := win0_27.stage (cfg0.slots t 27)
theorem hs27 (t : Fin cfg0.N) : (ms27 t).IsWhole := hstage0_27 ((cfg0.slots t 27).cast nbuf0_27)
abbrev ms28 (t : Fin cfg0.N) : Memref sig .tc .vmem S1x64x512 .f32 := win0_28.stage (cfg0.slots t 28)
theorem hs28 (t : Fin cfg0.N) : (ms28 t).IsWhole := hstage0_28 ((cfg0.slots t 28).cast nbuf0_28)
abbrev ms29 (t : Fin cfg0.N) : Memref sig .tc .vmem S1x64x512 .f32 := win0_29.stage (cfg0.slots t 29)
theorem hs29 (t : Fin cfg0.N) : (ms29 t).IsWhole := hstage0_29 ((cfg0.slots t 29).cast nbuf0_29)
abbrev ms30 (t : Fin cfg0.N) : Memref sig .tc .vmem S1x64x512 .f32 := win0_30.stage (cfg0.slots t 30)
theorem hs30 (t : Fin cfg0.N) : (ms30 t).IsWhole := hstage0_30 ((cfg0.slots t 30).cast nbuf0_30)
abbrev ms31 (t : Fin cfg0.N) : Memref sig .tc .vmem S1x64x512 .f32 := win0_31.stage (cfg0.slots t 31)
theorem hs31 (t : Fin cfg0.N) : (ms31 t).IsWhole := hstage0_31 ((cfg0.slots t 31).cast nbuf0_31)
abbrev ms32 (t : Fin cfg0.N) : Memref sig .tc .vmem S1x64x512 .f32 := win0_32.stage (cfg0.slots t 32)
theorem hs32 (t : Fin cfg0.N) : (ms32 t).IsWhole := hstage0_32 ((cfg0.slots t 32).cast nbuf0_32)
abbrev ms33 (t : Fin cfg0.N) : Memref sig .tc .vmem S1x64x512 .f32 := win0_33.stage (cfg0.slots t 33)
theorem hs33 (t : Fin cfg0.N) : (ms33 t).IsWhole := hstage0_33 ((cfg0.slots t 33).cast nbuf0_33)
abbrev ms34 (t : Fin cfg0.N) : Memref sig .tc .vmem S1x64x512 .f32 := win0_34.stage (cfg0.slots t 34)
theorem hs34 (t : Fin cfg0.N) : (ms34 t).IsWhole := hstage0_34 ((cfg0.slots t 34).cast nbuf0_34)
abbrev ms35 (t : Fin cfg0.N) : Memref sig .tc .vmem S1x64x512 .f32 := win0_35.stage (cfg0.slots t 35)
theorem hs35 (t : Fin cfg0.N) : (ms35 t).IsWhole := hstage0_35 ((cfg0.slots t 35).cast nbuf0_35)
abbrev ms36 (t : Fin cfg0.N) : Memref sig .tc .vmem S1x64x512 .f32 := win0_36.stage (cfg0.slots t 36)
theorem hs36 (t : Fin cfg0.N) : (ms36 t).IsWhole := hstage0_36 ((cfg0.slots t 36).cast nbuf0_36)
abbrev ms37 (t : Fin cfg0.N) : Memref sig .tc .vmem S1x64x512 .f32 := win0_37.stage (cfg0.slots t 37)
theorem hs37 (t : Fin cfg0.N) : (ms37 t).IsWhole := hstage0_37 ((cfg0.slots t 37).cast nbuf0_37)
abbrev ms38 (t : Fin cfg0.N) : Memref sig .tc .vmem S1x64x512 .f32 := win0_38.stage (cfg0.slots t 38)
theorem hs38 (t : Fin cfg0.N) : (ms38 t).IsWhole := hstage0_38 ((cfg0.slots t 38).cast nbuf0_38)
abbrev ms39 (t : Fin cfg0.N) : Memref sig .tc .vmem S1x64x512 .f32 := win0_39.stage (cfg0.slots t 39)
theorem hs39 (t : Fin cfg0.N) : (ms39 t).IsWhole := hstage0_39 ((cfg0.slots t 39).cast nbuf0_39)
abbrev ms40 (t : Fin cfg0.N) : Memref sig .tc .vmem S1x64x512 .f32 := win0_40.stage (cfg0.slots t 40)
theorem hs40 (t : Fin cfg0.N) : (ms40 t).IsWhole := hstage0_40 ((cfg0.slots t 40).cast nbuf0_40)
abbrev ms41 (t : Fin cfg0.N) : Memref sig .tc .vmem S1x64x512 .f32 := win0_41.stage (cfg0.slots t 41)
theorem hs41 (t : Fin cfg0.N) : (ms41 t).IsWhole := hstage0_41 ((cfg0.slots t 41).cast nbuf0_41)
abbrev ms42 (t : Fin cfg0.N) : Memref sig .tc .vmem S1x64x512 .f32 := win0_42.stage (cfg0.slots t 42)
theorem hs42 (t : Fin cfg0.N) : (ms42 t).IsWhole := hstage0_42 ((cfg0.slots t 42).cast nbuf0_42)
abbrev ms43 (t : Fin cfg0.N) : Memref sig .tc .vmem S1x64x512 .f32 := win0_43.stage (cfg0.slots t 43)
theorem hs43 (t : Fin cfg0.N) : (ms43 t).IsWhole := hstage0_43 ((cfg0.slots t 43).cast nbuf0_43)
abbrev ms44 (t : Fin cfg0.N) : Memref sig .tc .vmem S1x64x512 .f32 := win0_44.stage (cfg0.slots t 44)
theorem hs44 (t : Fin cfg0.N) : (ms44 t).IsWhole := hstage0_44 ((cfg0.slots t 44).cast nbuf0_44)
abbrev ms45 (t : Fin cfg0.N) : Memref sig .tc .vmem S1x64x512 .f32 := win0_45.stage (cfg0.slots t 45)
theorem hs45 (t : Fin cfg0.N) : (ms45 t).IsWhole := hstage0_45 ((cfg0.slots t 45).cast nbuf0_45)
abbrev ms46 (t : Fin cfg0.N) : Memref sig .tc .vmem S1x64x512 .f32 := win0_46.stage (cfg0.slots t 46)
theorem hs46 (t : Fin cfg0.N) : (ms46 t).IsWhole := hstage0_46 ((cfg0.slots t 46).cast nbuf0_46)
abbrev ms47 (t : Fin cfg0.N) : Memref sig .tc .vmem S1x64x512 .f32 := win0_47.stage (cfg0.slots t 47)
theorem hs47 (t : Fin cfg0.N) : (ms47 t).IsWhole := hstage0_47 ((cfg0.slots t 47).cast nbuf0_47)
abbrev ms48 (t : Fin cfg0.N) : Memref sig .tc .vmem S1x64x512 .f32 := win0_48.stage (cfg0.slots t 48)
theorem hs48 (t : Fin cfg0.N) : (ms48 t).IsWhole := hstage0_48 ((cfg0.slots t 48).cast nbuf0_48)
abbrev ms49 (t : Fin cfg0.N) : Memref sig .tc .vmem S1x64x512 .f32 := win0_49.stage (cfg0.slots t 49)
theorem hs49 (t : Fin cfg0.N) : (ms49 t).IsWhole := hstage0_49 ((cfg0.slots t 49).cast nbuf0_49)
abbrev ms50 (t : Fin cfg0.N) : Memref sig .tc .vmem S1x64x512 .f32 := win0_50.stage (cfg0.slots t 50)
theorem hs50 (t : Fin cfg0.N) : (ms50 t).IsWhole := hstage0_50 ((cfg0.slots t 50).cast nbuf0_50)
abbrev ms51 (t : Fin cfg0.N) : Memref sig .tc .vmem S1x64x512 .f32 := win0_51.stage (cfg0.slots t 51)
theorem hs51 (t : Fin cfg0.N) : (ms51 t).IsWhole := hstage0_51 ((cfg0.slots t 51).cast nbuf0_51)
abbrev ms52 (t : Fin cfg0.N) : Memref sig .tc .vmem S1x64x512 .f32 := win0_52.stage (cfg0.slots t 52)
theorem hs52 (t : Fin cfg0.N) : (ms52 t).IsWhole := hstage0_52 ((cfg0.slots t 52).cast nbuf0_52)
abbrev ms53 (t : Fin cfg0.N) : Memref sig .tc .vmem S1x64x512 .f32 := win0_53.stage (cfg0.slots t 53)
theorem hs53 (t : Fin cfg0.N) : (ms53 t).IsWhole := hstage0_53 ((cfg0.slots t 53).cast nbuf0_53)
abbrev ms54 (t : Fin cfg0.N) : Memref sig .tc .vmem S1x64x512 .f32 := win0_54.stage (cfg0.slots t 54)
theorem hs54 (t : Fin cfg0.N) : (ms54 t).IsWhole := hstage0_54 ((cfg0.slots t 54).cast nbuf0_54)
abbrev ms55 (t : Fin cfg0.N) : Memref sig .tc .vmem S1x64x512 .f32 := win0_55.stage (cfg0.slots t 55)
theorem hs55 (t : Fin cfg0.N) : (ms55 t).IsWhole := hstage0_55 ((cfg0.slots t 55).cast nbuf0_55)
abbrev ms56 (t : Fin cfg0.N) : Memref sig .tc .vmem S1x64x512 .f32 := win0_56.stage (cfg0.slots t 56)
theorem hs56 (t : Fin cfg0.N) : (ms56 t).IsWhole := hstage0_56 ((cfg0.slots t 56).cast nbuf0_56)
abbrev ms57 (t : Fin cfg0.N) : Memref sig .tc .vmem S1x64x512 .f32 := win0_57.stage (cfg0.slots t 57)
theorem hs57 (t : Fin cfg0.N) : (ms57 t).IsWhole := hstage0_57 ((cfg0.slots t 57).cast nbuf0_57)
abbrev ms58 (t : Fin cfg0.N) : Memref sig .tc .vmem S1x64x512 .f32 := win0_58.stage (cfg0.slots t 58)
theorem hs58 (t : Fin cfg0.N) : (ms58 t).IsWhole := hstage0_58 ((cfg0.slots t 58).cast nbuf0_58)
abbrev ms59 (t : Fin cfg0.N) : Memref sig .tc .vmem S1x64x512 .f32 := win0_59.stage (cfg0.slots t 59)
theorem hs59 (t : Fin cfg0.N) : (ms59 t).IsWhole := hstage0_59 ((cfg0.slots t 59).cast nbuf0_59)
abbrev ms60 (t : Fin cfg0.N) : Memref sig .tc .vmem S1x64x512 .f32 := win0_60.stage (cfg0.slots t 60)
theorem hs60 (t : Fin cfg0.N) : (ms60 t).IsWhole := hstage0_60 ((cfg0.slots t 60).cast nbuf0_60)
abbrev ms61 (t : Fin cfg0.N) : Memref sig .tc .vmem S1x64x512 .f32 := win0_61.stage (cfg0.slots t 61)
theorem hs61 (t : Fin cfg0.N) : (ms61 t).IsWhole := hstage0_61 ((cfg0.slots t 61).cast nbuf0_61)
abbrev ms62 (t : Fin cfg0.N) : Memref sig .tc .vmem S1x64x512 .f32 := win0_62.stage (cfg0.slots t 62)
theorem hs62 (t : Fin cfg0.N) : (ms62 t).IsWhole := hstage0_62 ((cfg0.slots t 62).cast nbuf0_62)
abbrev ms63 (t : Fin cfg0.N) : Memref sig .tc .vmem S1x64x512 .f32 := win0_63.stage (cfg0.slots t 63)
theorem hs63 (t : Fin cfg0.N) : (ms63 t).IsWhole := hstage0_63 ((cfg0.slots t 63).cast nbuf0_63)
abbrev ms64 (t : Fin cfg0.N) : Memref sig .tc .vmem S16x512x512 .bf16 := win0_64.stage (cfg0.slots t 64)
theorem hs64 (t : Fin cfg0.N) : (ms64 t).IsWhole := hstage0_64 ((cfg0.slots t 64).cast nbuf0_64)
abbrev ms65 (t : Fin cfg0.N) : Memref sig .tc .vmem S512 .f32 := win0_65.stage (cfg0.slots t 65)
theorem hs65 (t : Fin cfg0.N) : (ms65 t).IsWhole := hstage0_65 ((cfg0.slots t 65).cast nbuf0_65)
abbrev ms66 (t : Fin cfg0.N) : Memref sig .tc .vmem S4x64x512 .f32 := win0_66.stage (cfg0.slots t 66)
theorem hs66 (t : Fin cfg0.N) : (ms66 t).IsWhole := hstage0_66 ((cfg0.slots t 66).cast nbuf0_66)

/-! ## What the body leaves in the output window's buffer -/

/-- The four stored pieces tile the output block, so they cover it. -/
theorem cover66 (c : Dev nD) (i : grid0.Coords) (arg1 : Memref sig .tc .vmem S1x64x512 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x64x512 .f32) (harg7 : arg7.IsWhole) (arg8 : Memref sig .tc .vmem S1x64x512 .f32) (harg8 : arg8.IsWhole) (arg9 : Memref sig .tc .vmem S1x64x512 .f32) (harg9 : arg9.IsWhole) (arg10 : Memref sig .tc .vmem S1x64x512 .f32) (harg10 : arg10.IsWhole) (arg11 : Memref sig .tc .vmem S1x64x512 .f32) (harg11 : arg11.IsWhole) (arg12 : Memref sig .tc .vmem S1x64x512 .f32) (harg12 : arg12.IsWhole) (arg13 : Memref sig .tc .vmem S1x64x512 .f32) (harg13 : arg13.IsWhole) (arg14 : Memref sig .tc .vmem S1x64x512 .f32) (harg14 : arg14.IsWhole) (arg15 : Memref sig .tc .vmem S1x64x512 .f32) (harg15 : arg15.IsWhole) (arg16 : Memref sig .tc .vmem S1x64x512 .f32) (harg16 : arg16.IsWhole) (arg17 : Memref sig .tc .vmem S1x64x512 .f32) (harg17 : arg17.IsWhole) (arg18 : Memref sig .tc .vmem S1x64x512 .f32) (harg18 : arg18.IsWhole) (arg19 : Memref sig .tc .vmem S1x64x512 .f32) (harg19 : arg19.IsWhole) (arg20 : Memref sig .tc .vmem S1x64x512 .f32) (harg20 : arg20.IsWhole) (arg21 : Memref sig .tc .vmem S1x64x512 .f32) (harg21 : arg21.IsWhole) (arg22 : Memref sig .tc .vmem S1x64x512 .f32) (harg22 : arg22.IsWhole) (arg23 : Memref sig .tc .vmem S1x64x512 .f32) (harg23 : arg23.IsWhole) (arg24 : Memref sig .tc .vmem S1x64x512 .f32) (harg24 : arg24.IsWhole) (arg25 : Memref sig .tc .vmem S1x64x512 .f32) (harg25 : arg25.IsWhole) (arg26 : Memref sig .tc .vmem S1x64x512 .f32) (harg26 : arg26.IsWhole) (arg27 : Memref sig .tc .vmem S1x64x512 .f32) (harg27 : arg27.IsWhole) (arg28 : Memref sig .tc .vmem S1x64x512 .f32) (harg28 : arg28.IsWhole) (arg29 : Memref sig .tc .vmem S1x64x512 .f32) (harg29 : arg29.IsWhole) (arg30 : Memref sig .tc .vmem S1x64x512 .f32) (harg30 : arg30.IsWhole) (arg31 : Memref sig .tc .vmem S1x64x512 .f32) (harg31 : arg31.IsWhole) (arg32 : Memref sig .tc .vmem S1x64x512 .f32) (harg32 : arg32.IsWhole) (arg33 : Memref sig .tc .vmem S1x64x512 .f32) (harg33 : arg33.IsWhole) (arg34 : Memref sig .tc .vmem S1x64x512 .f32) (harg34 : arg34.IsWhole) (arg35 : Memref sig .tc .vmem S1x64x512 .f32) (harg35 : arg35.IsWhole) (arg36 : Memref sig .tc .vmem S1x64x512 .f32) (harg36 : arg36.IsWhole) (arg37 : Memref sig .tc .vmem S1x64x512 .f32) (harg37 : arg37.IsWhole) (arg38 : Memref sig .tc .vmem S1x64x512 .f32) (harg38 : arg38.IsWhole) (arg39 : Memref sig .tc .vmem S1x64x512 .f32) (harg39 : arg39.IsWhole) (arg40 : Memref sig .tc .vmem S1x64x512 .f32) (harg40 : arg40.IsWhole) (arg41 : Memref sig .tc .vmem S1x64x512 .f32) (harg41 : arg41.IsWhole) (arg42 : Memref sig .tc .vmem S1x64x512 .f32) (harg42 : arg42.IsWhole) (arg43 : Memref sig .tc .vmem S1x64x512 .f32) (harg43 : arg43.IsWhole) (arg44 : Memref sig .tc .vmem S1x64x512 .f32) (harg44 : arg44.IsWhole) (arg45 : Memref sig .tc .vmem S1x64x512 .f32) (harg45 : arg45.IsWhole) (arg46 : Memref sig .tc .vmem S1x64x512 .f32) (harg46 : arg46.IsWhole) (arg47 : Memref sig .tc .vmem S1x64x512 .f32) (harg47 : arg47.IsWhole) (arg48 : Memref sig .tc .vmem S1x64x512 .f32) (harg48 : arg48.IsWhole) (arg49 : Memref sig .tc .vmem S1x64x512 .f32) (harg49 : arg49.IsWhole) (arg50 : Memref sig .tc .vmem S1x64x512 .f32) (harg50 : arg50.IsWhole) (arg51 : Memref sig .tc .vmem S1x64x512 .f32) (harg51 : arg51.IsWhole) (arg52 : Memref sig .tc .vmem S1x64x512 .f32) (harg52 : arg52.IsWhole) (arg53 : Memref sig .tc .vmem S1x64x512 .f32) (harg53 : arg53.IsWhole) (arg54 : Memref sig .tc .vmem S1x64x512 .f32) (harg54 : arg54.IsWhole) (arg55 : Memref sig .tc .vmem S1x64x512 .f32) (harg55 : arg55.IsWhole) (arg56 : Memref sig .tc .vmem S1x64x512 .f32) (harg56 : arg56.IsWhole) (arg57 : Memref sig .tc .vmem S1x64x512 .f32) (harg57 : arg57.IsWhole) (arg58 : Memref sig .tc .vmem S1x64x512 .f32) (harg58 : arg58.IsWhole) (arg59 : Memref sig .tc .vmem S1x64x512 .f32) (harg59 : arg59.IsWhole) (arg60 : Memref sig .tc .vmem S1x64x512 .f32) (harg60 : arg60.IsWhole) (arg61 : Memref sig .tc .vmem S1x64x512 .f32) (harg61 : arg61.IsWhole) (arg62 : Memref sig .tc .vmem S1x64x512 .f32) (harg62 : arg62.IsWhole) (arg63 : Memref sig .tc .vmem S1x64x512 .f32) (harg63 : arg63.IsWhole) (arg64 : Memref sig .tc .vmem S1x64x512 .f32) (harg64 : arg64.IsWhole) (arg65 : Memref sig .tc .vmem S16x512x512 .bf16) (harg65 : arg65.IsWhole) (arg66 : Memref sig .tc .vmem S512 .f32) (harg66 : arg66.IsWhole) (arg67 : Memref sig .tc .vmem S4x64x512 .f32) (harg67 : arg67.IsWhole)
    (x1 : Vec F S1x64x512 .f32) (x2 : Vec F S1x64x512 .f32) (x3 : Vec F S1x64x512 .f32) (x4 : Vec F S1x64x512 .f32) (x5 : Vec F S1x64x512 .f32) (x6 : Vec F S1x64x512 .f32) (x7 : Vec F S1x64x512 .f32) (x8 : Vec F S1x64x512 .f32) (x9 : Vec F S1x64x512 .f32) (x10 : Vec F S1x64x512 .f32) (x11 : Vec F S1x64x512 .f32) (x12 : Vec F S1x64x512 .f32) (x13 : Vec F S1x64x512 .f32) (x14 : Vec F S1x64x512 .f32) (x15 : Vec F S1x64x512 .f32) (x16 : Vec F S1x64x512 .f32) (x17 : Vec F S1x64x512 .f32) (x18 : Vec F S1x64x512 .f32) (x19 : Vec F S1x64x512 .f32) (x20 : Vec F S1x64x512 .f32) (x21 : Vec F S1x64x512 .f32) (x22 : Vec F S1x64x512 .f32) (x23 : Vec F S1x64x512 .f32) (x24 : Vec F S1x64x512 .f32) (x25 : Vec F S1x64x512 .f32) (x26 : Vec F S1x64x512 .f32) (x27 : Vec F S1x64x512 .f32) (x28 : Vec F S1x64x512 .f32) (x29 : Vec F S1x64x512 .f32) (x30 : Vec F S1x64x512 .f32) (x31 : Vec F S1x64x512 .f32) (x32 : Vec F S1x64x512 .f32) (x33 : Vec F S1x64x512 .f32) (x34 : Vec F S1x64x512 .f32) (x35 : Vec F S1x64x512 .f32) (x36 : Vec F S1x64x512 .f32) (x37 : Vec F S1x64x512 .f32) (x38 : Vec F S1x64x512 .f32) (x39 : Vec F S1x64x512 .f32) (x40 : Vec F S1x64x512 .f32) (x41 : Vec F S1x64x512 .f32) (x42 : Vec F S1x64x512 .f32) (x43 : Vec F S1x64x512 .f32) (x44 : Vec F S1x64x512 .f32) (x45 : Vec F S1x64x512 .f32) (x46 : Vec F S1x64x512 .f32) (x47 : Vec F S1x64x512 .f32) (x48 : Vec F S1x64x512 .f32) (x49 : Vec F S1x64x512 .f32) (x50 : Vec F S1x64x512 .f32) (x51 : Vec F S1x64x512 .f32) (x52 : Vec F S1x64x512 .f32) (x53 : Vec F S1x64x512 .f32) (x54 : Vec F S1x64x512 .f32) (x55 : Vec F S1x64x512 .f32) (x56 : Vec F S1x64x512 .f32) (x57 : Vec F S1x64x512 .f32) (x58 : Vec F S1x64x512 .f32) (x59 : Vec F S1x64x512 .f32) (x60 : Vec F S1x64x512 .f32) (x61 : Vec F S1x64x512 .f32) (x62 : Vec F S1x64x512 .f32) (x63 : Vec F S1x64x512 .f32) (x64 : Vec F S1x64x512 .f32) (x65 : Vec F S16x512x512 .bf16) (x66 : Vec F S512 .f32) (y : S4x64x512.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66).1 S1x64x512.size (by sl_kernel_rfl) y

/-- The output window's view, for reading the pieces back. -/
abbrev VO : View sig .tc .vmem S4x64x512 .f32 := (Memref.whole cc0_stg66_0 : Memref sig .tc .vmem S4x64x512 .f32).view

/-- What the body leaves in the output buffer: its pieces read back over anything. -/
def out66 (c : Dev nD) (i : grid0.Coords) (arg1 : Memref sig .tc .vmem S1x64x512 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x64x512 .f32) (harg7 : arg7.IsWhole) (arg8 : Memref sig .tc .vmem S1x64x512 .f32) (harg8 : arg8.IsWhole) (arg9 : Memref sig .tc .vmem S1x64x512 .f32) (harg9 : arg9.IsWhole) (arg10 : Memref sig .tc .vmem S1x64x512 .f32) (harg10 : arg10.IsWhole) (arg11 : Memref sig .tc .vmem S1x64x512 .f32) (harg11 : arg11.IsWhole) (arg12 : Memref sig .tc .vmem S1x64x512 .f32) (harg12 : arg12.IsWhole) (arg13 : Memref sig .tc .vmem S1x64x512 .f32) (harg13 : arg13.IsWhole) (arg14 : Memref sig .tc .vmem S1x64x512 .f32) (harg14 : arg14.IsWhole) (arg15 : Memref sig .tc .vmem S1x64x512 .f32) (harg15 : arg15.IsWhole) (arg16 : Memref sig .tc .vmem S1x64x512 .f32) (harg16 : arg16.IsWhole) (arg17 : Memref sig .tc .vmem S1x64x512 .f32) (harg17 : arg17.IsWhole) (arg18 : Memref sig .tc .vmem S1x64x512 .f32) (harg18 : arg18.IsWhole) (arg19 : Memref sig .tc .vmem S1x64x512 .f32) (harg19 : arg19.IsWhole) (arg20 : Memref sig .tc .vmem S1x64x512 .f32) (harg20 : arg20.IsWhole) (arg21 : Memref sig .tc .vmem S1x64x512 .f32) (harg21 : arg21.IsWhole) (arg22 : Memref sig .tc .vmem S1x64x512 .f32) (harg22 : arg22.IsWhole) (arg23 : Memref sig .tc .vmem S1x64x512 .f32) (harg23 : arg23.IsWhole) (arg24 : Memref sig .tc .vmem S1x64x512 .f32) (harg24 : arg24.IsWhole) (arg25 : Memref sig .tc .vmem S1x64x512 .f32) (harg25 : arg25.IsWhole) (arg26 : Memref sig .tc .vmem S1x64x512 .f32) (harg26 : arg26.IsWhole) (arg27 : Memref sig .tc .vmem S1x64x512 .f32) (harg27 : arg27.IsWhole) (arg28 : Memref sig .tc .vmem S1x64x512 .f32) (harg28 : arg28.IsWhole) (arg29 : Memref sig .tc .vmem S1x64x512 .f32) (harg29 : arg29.IsWhole) (arg30 : Memref sig .tc .vmem S1x64x512 .f32) (harg30 : arg30.IsWhole) (arg31 : Memref sig .tc .vmem S1x64x512 .f32) (harg31 : arg31.IsWhole) (arg32 : Memref sig .tc .vmem S1x64x512 .f32) (harg32 : arg32.IsWhole) (arg33 : Memref sig .tc .vmem S1x64x512 .f32) (harg33 : arg33.IsWhole) (arg34 : Memref sig .tc .vmem S1x64x512 .f32) (harg34 : arg34.IsWhole) (arg35 : Memref sig .tc .vmem S1x64x512 .f32) (harg35 : arg35.IsWhole) (arg36 : Memref sig .tc .vmem S1x64x512 .f32) (harg36 : arg36.IsWhole) (arg37 : Memref sig .tc .vmem S1x64x512 .f32) (harg37 : arg37.IsWhole) (arg38 : Memref sig .tc .vmem S1x64x512 .f32) (harg38 : arg38.IsWhole) (arg39 : Memref sig .tc .vmem S1x64x512 .f32) (harg39 : arg39.IsWhole) (arg40 : Memref sig .tc .vmem S1x64x512 .f32) (harg40 : arg40.IsWhole) (arg41 : Memref sig .tc .vmem S1x64x512 .f32) (harg41 : arg41.IsWhole) (arg42 : Memref sig .tc .vmem S1x64x512 .f32) (harg42 : arg42.IsWhole) (arg43 : Memref sig .tc .vmem S1x64x512 .f32) (harg43 : arg43.IsWhole) (arg44 : Memref sig .tc .vmem S1x64x512 .f32) (harg44 : arg44.IsWhole) (arg45 : Memref sig .tc .vmem S1x64x512 .f32) (harg45 : arg45.IsWhole) (arg46 : Memref sig .tc .vmem S1x64x512 .f32) (harg46 : arg46.IsWhole) (arg47 : Memref sig .tc .vmem S1x64x512 .f32) (harg47 : arg47.IsWhole) (arg48 : Memref sig .tc .vmem S1x64x512 .f32) (harg48 : arg48.IsWhole) (arg49 : Memref sig .tc .vmem S1x64x512 .f32) (harg49 : arg49.IsWhole) (arg50 : Memref sig .tc .vmem S1x64x512 .f32) (harg50 : arg50.IsWhole) (arg51 : Memref sig .tc .vmem S1x64x512 .f32) (harg51 : arg51.IsWhole) (arg52 : Memref sig .tc .vmem S1x64x512 .f32) (harg52 : arg52.IsWhole) (arg53 : Memref sig .tc .vmem S1x64x512 .f32) (harg53 : arg53.IsWhole) (arg54 : Memref sig .tc .vmem S1x64x512 .f32) (harg54 : arg54.IsWhole) (arg55 : Memref sig .tc .vmem S1x64x512 .f32) (harg55 : arg55.IsWhole) (arg56 : Memref sig .tc .vmem S1x64x512 .f32) (harg56 : arg56.IsWhole) (arg57 : Memref sig .tc .vmem S1x64x512 .f32) (harg57 : arg57.IsWhole) (arg58 : Memref sig .tc .vmem S1x64x512 .f32) (harg58 : arg58.IsWhole) (arg59 : Memref sig .tc .vmem S1x64x512 .f32) (harg59 : arg59.IsWhole) (arg60 : Memref sig .tc .vmem S1x64x512 .f32) (harg60 : arg60.IsWhole) (arg61 : Memref sig .tc .vmem S1x64x512 .f32) (harg61 : arg61.IsWhole) (arg62 : Memref sig .tc .vmem S1x64x512 .f32) (harg62 : arg62.IsWhole) (arg63 : Memref sig .tc .vmem S1x64x512 .f32) (harg63 : arg63.IsWhole) (arg64 : Memref sig .tc .vmem S1x64x512 .f32) (harg64 : arg64.IsWhole) (arg65 : Memref sig .tc .vmem S16x512x512 .bf16) (harg65 : arg65.IsWhole) (arg66 : Memref sig .tc .vmem S512 .f32) (harg66 : arg66.IsWhole) (arg67 : Memref sig .tc .vmem S4x64x512 .f32) (harg67 : arg67.IsWhole)
    (x1 : Vec F S1x64x512 .f32) (x2 : Vec F S1x64x512 .f32) (x3 : Vec F S1x64x512 .f32) (x4 : Vec F S1x64x512 .f32) (x5 : Vec F S1x64x512 .f32) (x6 : Vec F S1x64x512 .f32) (x7 : Vec F S1x64x512 .f32) (x8 : Vec F S1x64x512 .f32) (x9 : Vec F S1x64x512 .f32) (x10 : Vec F S1x64x512 .f32) (x11 : Vec F S1x64x512 .f32) (x12 : Vec F S1x64x512 .f32) (x13 : Vec F S1x64x512 .f32) (x14 : Vec F S1x64x512 .f32) (x15 : Vec F S1x64x512 .f32) (x16 : Vec F S1x64x512 .f32) (x17 : Vec F S1x64x512 .f32) (x18 : Vec F S1x64x512 .f32) (x19 : Vec F S1x64x512 .f32) (x20 : Vec F S1x64x512 .f32) (x21 : Vec F S1x64x512 .f32) (x22 : Vec F S1x64x512 .f32) (x23 : Vec F S1x64x512 .f32) (x24 : Vec F S1x64x512 .f32) (x25 : Vec F S1x64x512 .f32) (x26 : Vec F S1x64x512 .f32) (x27 : Vec F S1x64x512 .f32) (x28 : Vec F S1x64x512 .f32) (x29 : Vec F S1x64x512 .f32) (x30 : Vec F S1x64x512 .f32) (x31 : Vec F S1x64x512 .f32) (x32 : Vec F S1x64x512 .f32) (x33 : Vec F S1x64x512 .f32) (x34 : Vec F S1x64x512 .f32) (x35 : Vec F S1x64x512 .f32) (x36 : Vec F S1x64x512 .f32) (x37 : Vec F S1x64x512 .f32) (x38 : Vec F S1x64x512 .f32) (x39 : Vec F S1x64x512 .f32) (x40 : Vec F S1x64x512 .f32) (x41 : Vec F S1x64x512 .f32) (x42 : Vec F S1x64x512 .f32) (x43 : Vec F S1x64x512 .f32) (x44 : Vec F S1x64x512 .f32) (x45 : Vec F S1x64x512 .f32) (x46 : Vec F S1x64x512 .f32) (x47 : Vec F S1x64x512 .f32) (x48 : Vec F S1x64x512 .f32) (x49 : Vec F S1x64x512 .f32) (x50 : Vec F S1x64x512 .f32) (x51 : Vec F S1x64x512 .f32) (x52 : Vec F S1x64x512 .f32) (x53 : Vec F S1x64x512 .f32) (x54 : Vec F S1x64x512 .f32) (x55 : Vec F S1x64x512 .f32) (x56 : Vec F S1x64x512 .f32) (x57 : Vec F S1x64x512 .f32) (x58 : Vec F S1x64x512 .f32) (x59 : Vec F S1x64x512 .f32) (x60 : Vec F S1x64x512 .f32) (x61 : Vec F S1x64x512 .f32) (x62 : Vec F S1x64x512 .f32) (x63 : Vec F S1x64x512 .f32) (x64 : Vec F S1x64x512 .f32) (x65 : Vec F S16x512x512 .bf16) (x66 : Vec F S512 .f32) : Vec F S4x64x512 .f32 :=
  VO.read (Elt F) (VO.writes (Elt F) VO.junk (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66).1)

/-! ## The proof data -/

/-- The share of the first argument's array that window w holds. -/
def winShare (w : Fin cfg0.W) : PosShare TreeShare :=
  if w.val < 64 then Cert.LibShareChain.deal fullShare 63 w.val else fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => iblk m c 44 t
    | ⟨45, _⟩ => iblk m c 45 t
    | ⟨46, _⟩ => iblk m c 46 t
    | ⟨47, _⟩ => iblk m c 47 t
    | ⟨48, _⟩ => iblk m c 48 t
    | ⟨49, _⟩ => iblk m c 49 t
    | ⟨50, _⟩ => iblk m c 50 t
    | ⟨51, _⟩ => iblk m c 51 t
    | ⟨52, _⟩ => iblk m c 52 t
    | ⟨53, _⟩ => iblk m c 53 t
    | ⟨54, _⟩ => iblk m c 54 t
    | ⟨55, _⟩ => iblk m c 55 t
    | ⟨56, _⟩ => iblk m c 56 t
    | ⟨57, _⟩ => iblk m c 57 t
    | ⟨58, _⟩ => iblk m c 58 t
    | ⟨59, _⟩ => iblk m c 59 t
    | ⟨60, _⟩ => iblk m c 60 t
    | ⟨61, _⟩ => iblk m c 61 t
    | ⟨62, _⟩ => iblk m c 62 t
    | ⟨63, _⟩ => iblk m c 63 t
    | ⟨64, _⟩ => iblk m c 64 t
    | ⟨65, _⟩ => iblk m c 65 t
    | ⟨66, _⟩ => out66 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) (ms36 t) (hs36 t) (ms37 t) (hs37 t) (ms38 t) (hs38 t) (ms39 t) (hs39 t) (ms40 t) (hs40 t) (ms41 t) (hs41 t) (ms42 t) (hs42 t) (ms43 t) (hs43 t) (ms44 t) (hs44 t) (ms45 t) (hs45 t) (ms46 t) (hs46 t) (ms47 t) (hs47 t) (ms48 t) (hs48 t) (ms49 t) (hs49 t) (ms50 t) (hs50 t) (ms51 t) (hs51 t) (ms52 t) (hs52 t) (ms53 t) (hs53 t) (ms54 t) (hs54 t) (ms55 t) (hs55 t) (ms56 t) (hs56 t) (ms57 t) (hs57 t) (ms58 t) (hs58 t) (ms59 t) (hs59 t) (ms60 t) (hs60 t) (ms61 t) (hs61 t) (ms62 t) (hs62 t) (ms63 t) (hs63 t) (ms64 t) (hs64 t) (ms65 t) (hs65 t) (ms66 t) (hs66 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) (iblk m c 47 t) (iblk m c 48 t) (iblk m c 49 t) (iblk m c 50 t) (iblk m c 51 t) (iblk m c 52 t) (iblk m c 53 t) (iblk m c 54 t) (iblk m c 55 t) (iblk m c 56 t) (iblk m c 57 t) (iblk m c 58 t) (iblk m c 59 t) (iblk m c 60 t) (iblk m c 61 t) (iblk m c 62 t) (iblk m c 63 t) (iblk m c 64 t) (iblk m c 65 t)
    | ⟨_ + 67, h⟩ => absurd h (Nat.not_lt.2 (Nat.le_add_left _ _))
  Φ _ := Pipeline.scopedRest (Ix := Unit) (Name := ℕ) (U := UR sig nD τ) (Lvl := ℕ) (Val := Elt F) spec0 c
  q w := winShare w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = iblk m c 28 t := by dsimp only [dats]
theorem after29 (c : Dev nD) (t : Fin cfg0.N) : (dats m 0 c).after 29 t = iblk m c 29 t := by dsimp only [dats]
theorem after30 (c : Dev nD) (t : Fin cfg0.N) : (dats m 0 c).after 30 t = iblk m c 30 t := by dsimp only [dats]
theorem after31 (c : Dev nD) (t : Fin cfg0.N) : (dats m 0 c).after 31 t = iblk m c 31 t := by dsimp only [dats]
theorem after32 (c : Dev nD) (t : Fin cfg0.N) : (dats m 0 c).after 32 t = iblk m c 32 t := by dsimp only [dats]
theorem after33 (c : Dev nD) (t : Fin cfg0.N) : (dats m 0 c).after 33 t = iblk m c 33 t := by dsimp only [dats]
theorem after34 (c : Dev nD) (t : Fin cfg0.N) : (dats m 0 c).after 34 t = iblk m c 34 t := by dsimp only [dats]
theorem after35 (c : Dev nD) (t : Fin cfg0.N) : (dats m 0 c).after 35 t = iblk m c 35 t := by dsimp only [dats]
theorem after36 (c : Dev nD) (t : Fin cfg0.N) : (dats m 0 c).after 36 t = iblk m c 36 t := by dsimp only [dats]
theorem after37 (c : Dev nD) (t : Fin cfg0.N) : (dats m 0 c).after 37 t = iblk m c 37 t := by dsimp only [dats]
theorem after38 (c : Dev nD) (t : Fin cfg0.N) : (dats m 0 c).after 38 t = iblk m c 38 t := by dsimp only [dats]
theorem after39 (c : Dev nD) (t : Fin cfg0.N) : (dats m 0 c).after 39 t = iblk m c 39 t := by dsimp only [dats]
theorem after40 (c : Dev nD) (t : Fin cfg0.N) : (dats m 0 c).after 40 t = iblk m c 40 t := by dsimp only [dats]
theorem after41 (c : Dev nD) (t : Fin cfg0.N) : (dats m 0 c).after 41 t = iblk m c 41 t := by dsimp only [dats]
theorem after42 (c : Dev nD) (t : Fin cfg0.N) : (dats m 0 c).after 42 t = iblk m c 42 t := by dsimp only [dats]
theorem after43 (c : Dev nD) (t : Fin cfg0.N) : (dats m 0 c).after 43 t = iblk m c 43 t := by dsimp only [dats]
theorem after44 (c : Dev nD) (t : Fin cfg0.N) : (dats m 0 c).after 44 t = iblk m c 44 t := by dsimp only [dats]
theorem after45 (c : Dev nD) (t : Fin cfg0.N) : (dats m 0 c).after 45 t = iblk m c 45 t := by dsimp only [dats]
theorem after46 (c : Dev nD) (t : Fin cfg0.N) : (dats m 0 c).after 46 t = iblk m c 46 t := by dsimp only [dats]
theorem after47 (c : Dev nD) (t : Fin cfg0.N) : (dats m 0 c).after 47 t = iblk m c 47 t := by dsimp only [dats]
theorem after48 (c : Dev nD) (t : Fin cfg0.N) : (dats m 0 c).after 48 t = iblk m c 48 t := by dsimp only [dats]
theorem after49 (c : Dev nD) (t : Fin cfg0.N) : (dats m 0 c).after 49 t = iblk m c 49 t := by dsimp only [dats]
theorem after50 (c : Dev nD) (t : Fin cfg0.N) : (dats m 0 c).after 50 t = iblk m c 50 t := by dsimp only [dats]
theorem after51 (c : Dev nD) (t : Fin cfg0.N) : (dats m 0 c).after 51 t = iblk m c 51 t := by dsimp only [dats]
theorem after52 (c : Dev nD) (t : Fin cfg0.N) : (dats m 0 c).after 52 t = iblk m c 52 t := by dsimp only [dats]
theorem after53 (c : Dev nD) (t : Fin cfg0.N) : (dats m 0 c).after 53 t = iblk m c 53 t := by dsimp only [dats]
theorem after54 (c : Dev nD) (t : Fin cfg0.N) : (dats m 0 c).after 54 t = iblk m c 54 t := by dsimp only [dats]
theorem after55 (c : Dev nD) (t : Fin cfg0.N) : (dats m 0 c).after 55 t = iblk m c 55 t := by dsimp only [dats]
theorem after56 (c : Dev nD) (t : Fin cfg0.N) : (dats m 0 c).after 56 t = iblk m c 56 t := by dsimp only [dats]
theorem after57 (c : Dev nD) (t : Fin cfg0.N) : (dats m 0 c).after 57 t = iblk m c 57 t := by dsimp only [dats]
theorem after58 (c : Dev nD) (t : Fin cfg0.N) : (dats m 0 c).after 58 t = iblk m c 58 t := by dsimp only [dats]
theorem after59 (c : Dev nD) (t : Fin cfg0.N) : (dats m 0 c).after 59 t = iblk m c 59 t := by dsimp only [dats]
theorem after60 (c : Dev nD) (t : Fin cfg0.N) : (dats m 0 c).after 60 t = iblk m c 60 t := by dsimp only [dats]
theorem after61 (c : Dev nD) (t : Fin cfg0.N) : (dats m 0 c).after 61 t = iblk m c 61 t := by dsimp only [dats]
theorem after62 (c : Dev nD) (t : Fin cfg0.N) : (dats m 0 c).after 62 t = iblk m c 62 t := by dsimp only [dats]
theorem after63 (c : Dev nD) (t : Fin cfg0.N) : (dats m 0 c).after 63 t = iblk m c 63 t := by dsimp only [dats]
theorem after64 (c : Dev nD) (t : Fin cfg0.N) : (dats m 0 c).after 64 t = iblk m c 64 t := by dsimp only [dats]
theorem after65 (c : Dev nD) (t : Fin cfg0.N) : (dats m 0 c).after 65 t = iblk m c 65 t := by dsimp only [dats]
theorem after66 (c : Dev nD) (t : Fin cfg0.N) : (dats m 0 c).after 66 t = out66 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) (ms36 t) (hs36 t) (ms37 t) (hs37 t) (ms38 t) (hs38 t) (ms39 t) (hs39 t) (ms40 t) (hs40 t) (ms41 t) (hs41 t) (ms42 t) (hs42 t) (ms43 t) (hs43 t) (ms44 t) (hs44 t) (ms45 t) (hs45 t) (ms46 t) (hs46 t) (ms47 t) (hs47 t) (ms48 t) (hs48 t) (ms49 t) (hs49 t) (ms50 t) (hs50 t) (ms51 t) (hs51 t) (ms52 t) (hs52 t) (ms53 t) (hs53 t) (ms54 t) (hs54 t) (ms55 t) (hs55 t) (ms56 t) (hs56 t) (ms57 t) (hs57 t) (ms58 t) (hs58 t) (ms59 t) (hs59 t) (ms60 t) (hs60 t) (ms61 t) (hs61 t) (ms62 t) (hs62 t) (ms63 t) (hs63 t) (ms64 t) (hs64 t) (ms65 t) (hs65 t) (ms66 t) (hs66 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) (iblk m c 47 t) (iblk m c 48 t) (iblk m c 49 t) (iblk m c 50 t) (iblk m c 51 t) (iblk m c 52 t) (iblk m c 53 t) (iblk m c 54 t) (iblk m c 55 t) (iblk m c 56 t) (iblk m c 57 t) (iblk m c 58 t) (iblk m c 59 t) (iblk m c 60 t) (iblk m c 61 t) (iblk m c 62 t) (iblk m c 63 t) (iblk m c 64 t) (iblk m c 65 t) := by dsimp only [dats]

/-! ## Each input's staging buffer holds its block at every point, fetched there or not -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
theorem before16 (c : Dev nD) (t : Fin cfg0.N) (d) : (dats m 0 c).before 16 t d = iblk m c 16 t :=
  ((dats m 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
theorem before17 (c : Dev nD) (t : Fin cfg0.N) (d) : (dats m 0 c).before 17 t d = iblk m c 17 t :=
  ((dats m 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)
theorem before18 (c : Dev nD) (t : Fin cfg0.N) (d) : (dats m 0 c).before 18 t d = iblk m c 18 t :=
  ((dats m 0 c).before_in_eq_fetched 18 rfl (fun _ => rfl) (fun _ _ _ => rfl) (fun t => by rw [after18]; unfold Dat.blockOf iblk; rw [A_eq]; try rfl) t d).trans
    (by unfold Dat.fetched Dat.blockOf iblk; rw [A_eq]; try rfl)
theorem before19 (c : Dev nD) (t : Fin cfg0.N) (d) : (dats m 0 c).before 19 t d = iblk m c 19 t :=
  ((dats m 0 c).before_in_eq_fetched 19 rfl (fun _ => rfl) (fun _ _ _ => rfl) (fun t => by rw [after19]; unfold Dat.blockOf iblk; rw [A_eq]; try rfl) t d).trans
    (by unfold Dat.fetched Dat.blockOf iblk; rw [A_eq]; try rfl)
theorem before20 (c : Dev nD) (t : Fin cfg0.N) (d) : (dats m 0 c).before 20 t d = iblk m c 20 t :=
  ((dats m 0 c).before_in_eq_fetched 20 rfl (fun _ => rfl) (fun _ _ _ => rfl) (fun t => by rw [after20]; unfold Dat.blockOf iblk; rw [A_eq]; try rfl) t d).trans
    (by unfold Dat.fetched Dat.blockOf iblk; rw [A_eq]; try rfl)
theorem before21 (c : Dev nD) (t : Fin cfg0.N) (d) : (dats m 0 c).before 21 t d = iblk m c 21 t :=
  ((dats m 0 c).before_in_eq_fetched 21 rfl (fun _ => rfl) (fun _ _ _ => rfl) (fun t => by rw [after21]; unfold Dat.blockOf iblk; rw [A_eq]; try rfl) t d).trans
    (by unfold Dat.fetched Dat.blockOf iblk; rw [A_eq]; try rfl)
theorem before22 (c : Dev nD) (t : Fin cfg0.N) (d) : (dats m 0 c).before 22 t d = iblk m c 22 t :=
  ((dats m 0 c).before_in_eq_fetched 22 rfl (fun _ => rfl) (fun _ _ _ => rfl) (fun t => by rw [after22]; unfold Dat.blockOf iblk; rw [A_eq]; try rfl) t d).trans
    (by unfold Dat.fetched Dat.blockOf iblk; rw [A_eq]; try rfl)
theorem before23 (c : Dev nD) (t : Fin cfg0.N) (d) : (dats m 0 c).before 23 t d = iblk m c 23 t :=
  ((dats m 0 c).before_in_eq_fetched 23 rfl (fun _ => rfl) (fun _ _ _ => rfl) (fun t => by rw [after23]; unfold Dat.blockOf iblk; rw [A_eq]; try rfl) t d).trans
    (by unfold Dat.fetched Dat.blockOf iblk; rw [A_eq]; try rfl)
theorem before24 (c : Dev nD) (t : Fin cfg0.N) (d) : (dats m 0 c).before 24 t d = iblk m c 24 t :=
  ((dats m 0 c).before_in_eq_fetched 24 rfl (fun _ => rfl) (fun _ _ _ => rfl) (fun t => by rw [after24]; unfold Dat.blockOf iblk; rw [A_eq]; try rfl) t d).trans
    (by unfold Dat.fetched Dat.blockOf iblk; rw [A_eq]; try rfl)
theorem before25 (c : Dev nD) (t : Fin cfg0.N) (d) : (dats m 0 c).before 25 t d = iblk m c 25 t :=
  ((dats m 0 c).before_in_eq_fetched 25 rfl (fun _ => rfl) (fun _ _ _ => rfl) (fun t => by rw [after25]; unfold Dat.blockOf iblk; rw [A_eq]; try rfl) t d).trans
    (by unfold Dat.fetched Dat.blockOf iblk; rw [A_eq]; try rfl)
theorem before26 (c : Dev nD) (t : Fin cfg0.N) (d) : (dats m 0 c).before 26 t d = iblk m c 26 t :=
  ((dats m 0 c).before_in_eq_fetched 26 rfl (fun _ => rfl) (fun _ _ _ => rfl) (fun t => by rw [after26]; unfold Dat.blockOf iblk; rw [A_eq]; try rfl) t d).trans
    (by unfold Dat.fetched Dat.blockOf iblk; rw [A_eq]; try rfl)
theorem before27 (c : Dev nD) (t : Fin cfg0.N) (d) : (dats m 0 c).before 27 t d = iblk m c 27 t :=
  ((dats m 0 c).before_in_eq_fetched 27 rfl (fun _ => rfl) (fun _ _ _ => rfl) (fun t => by rw [after27]; unfold Dat.blockOf iblk; rw [A_eq]; try rfl) t d).trans
    (by unfold Dat.fetched Dat.blockOf iblk; rw [A_eq]; try rfl)
theorem before28 (c : Dev nD) (t : Fin cfg0.N) (d) : (dats m 0 c).before 28 t d = iblk m c 28 t :=
  ((dats m 0 c).before_in_eq_fetched 28 rfl (fun _ => rfl) (fun _ _ _ => rfl) (fun t => by rw [after28]; unfold Dat.blockOf iblk; rw [A_eq]; try rfl) t d).trans
    (by unfold Dat.fetched Dat.blockOf iblk; rw [A_eq]; try rfl)
theorem before29 (c : Dev nD) (t : Fin cfg0.N) (d) : (dats m 0 c).before 29 t d = iblk m c 29 t :=
  ((dats m 0 c).before_in_eq_fetched 29 rfl (fun _ => rfl) (fun _ _ _ => rfl) (fun t => by rw [after29]; unfold Dat.blockOf iblk; rw [A_eq]; try rfl) t d).trans
    (by unfold Dat.fetched Dat.blockOf iblk; rw [A_eq]; try rfl)
theorem before30 (c : Dev nD) (t : Fin cfg0.N) (d) : (dats m 0 c).before 30 t d = iblk m c 30 t :=
  ((dats m 0 c).before_in_eq_fetched 30 rfl (fun _ => rfl) (fun _ _ _ => rfl) (fun t => by rw [after30]; unfold Dat.blockOf iblk; rw [A_eq]; try rfl) t d).trans
    (by unfold Dat.fetched Dat.blockOf iblk; rw [A_eq]; try rfl)
theorem before31 (c : Dev nD) (t : Fin cfg0.N) (d) : (dats m 0 c).before 31 t d = iblk m c 31 t :=
  ((dats m 0 c).before_in_eq_fetched 31 rfl (fun _ => rfl) (fun _ _ _ => rfl) (fun t => by rw [after31]; unfold Dat.blockOf iblk; rw [A_eq]; try rfl) t d).trans
    (by unfold Dat.fetched Dat.blockOf iblk; rw [A_eq]; try rfl)
theorem before32 (c : Dev nD) (t : Fin cfg0.N) (d) : (dats m 0 c).before 32 t d = iblk m c 32 t :=
  ((dats m 0 c).before_in_eq_fetched 32 rfl (fun _ => rfl) (fun _ _ _ => rfl) (fun t => by rw [after32]; unfold Dat.blockOf iblk; rw [A_eq]; try rfl) t d).trans
    (by unfold Dat.fetched Dat.blockOf iblk; rw [A_eq]; try rfl)
theorem before33 (c : Dev nD) (t : Fin cfg0.N) (d) : (dats m 0 c).before 33 t d = iblk m c 33 t :=
  ((dats m 0 c).before_in_eq_fetched 33 rfl (fun _ => rfl) (fun _ _ _ => rfl) (fun t => by rw [after33]; unfold Dat.blockOf iblk; rw [A_eq]; try rfl) t d).trans
    (by unfold Dat.fetched Dat.blockOf iblk; rw [A_eq]; try rfl)
theorem before34 (c : Dev nD) (t : Fin cfg0.N) (d) : (dats m 0 c).before 34 t d = iblk m c 34 t :=
  ((dats m 0 c).before_in_eq_fetched 34 rfl (fun _ => rfl) (fun _ _ _ => rfl) (fun t => by rw [after34]; unfold Dat.blockOf iblk; rw [A_eq]; try rfl) t d).trans
    (by unfold Dat.fetched Dat.blockOf iblk; rw [A_eq]; try rfl)
theorem before35 (c : Dev nD) (t : Fin cfg0.N) (d) : (dats m 0 c).before 35 t d = iblk m c 35 t :=
  ((dats m 0 c).before_in_eq_fetched 35 rfl (fun _ => rfl) (fun _ _ _ => rfl) (fun t => by rw [after35]; unfold Dat.blockOf iblk; rw [A_eq]; try rfl) t d).trans
    (by unfold Dat.fetched Dat.blockOf iblk; rw [A_eq]; try rfl)
theorem before36 (c : Dev nD) (t : Fin cfg0.N) (d) : (dats m 0 c).before 36 t d = iblk m c 36 t :=
  ((dats m 0 c).before_in_eq_fetched 36 rfl (fun _ => rfl) (fun _ _ _ => rfl) (fun t => by rw [after36]; unfold Dat.blockOf iblk; rw [A_eq]; try rfl) t d).trans
    (by unfold Dat.fetched Dat.blockOf iblk; rw [A_eq]; try rfl)
theorem before37 (c : Dev nD) (t : Fin cfg0.N) (d) : (dats m 0 c).before 37 t d = iblk m c 37 t :=
  ((dats m 0 c).before_in_eq_fetched 37 rfl (fun _ => rfl) (fun _ _ _ => rfl) (fun t => by rw [after37]; unfold Dat.blockOf iblk; rw [A_eq]; try rfl) t d).trans
    (by unfold Dat.fetched Dat.blockOf iblk; rw [A_eq]; try rfl)
theorem before38 (c : Dev nD) (t : Fin cfg0.N) (d) : (dats m 0 c).before 38 t d = iblk m c 38 t :=
  ((dats m 0 c).before_in_eq_fetched 38 rfl (fun _ => rfl) (fun _ _ _ => rfl) (fun t => by rw [after38]; unfold Dat.blockOf iblk; rw [A_eq]; try rfl) t d).trans
    (by unfold Dat.fetched Dat.blockOf iblk; rw [A_eq]; try rfl)
theorem before39 (c : Dev nD) (t : Fin cfg0.N) (d) : (dats m 0 c).before 39 t d = iblk m c 39 t :=
  ((dats m 0 c).before_in_eq_fetched 39 rfl (fun _ => rfl) (fun _ _ _ => rfl) (fun t => by rw [after39]; unfold Dat.blockOf iblk; rw [A_eq]; try rfl) t d).trans
    (by unfold Dat.fetched Dat.blockOf iblk; rw [A_eq]; try rfl)
theorem before40 (c : Dev nD) (t : Fin cfg0.N) (d) : (dats m 0 c).before 40 t d = iblk m c 40 t :=
  ((dats m 0 c).before_in_eq_fetched 40 rfl (fun _ => rfl) (fun _ _ _ => rfl) (fun t => by rw [after40]; unfold Dat.blockOf iblk; rw [A_eq]; try rfl) t d).trans
    (by unfold Dat.fetched Dat.blockOf iblk; rw [A_eq]; try rfl)
theorem before41 (c : Dev nD) (t : Fin cfg0.N) (d) : (dats m 0 c).before 41 t d = iblk m c 41 t :=
  ((dats m 0 c).before_in_eq_fetched 41 rfl (fun _ => rfl) (fun _ _ _ => rfl) (fun t => by rw [after41]; unfold Dat.blockOf iblk; rw [A_eq]; try rfl) t d).trans
    (by unfold Dat.fetched Dat.blockOf iblk; rw [A_eq]; try rfl)
theorem before42 (c : Dev nD) (t : Fin cfg0.N) (d) : (dats m 0 c).before 42 t d = iblk m c 42 t :=
  ((dats m 0 c).before_in_eq_fetched 42 rfl (fun _ => rfl) (fun _ _ _ => rfl) (fun t => by rw [after42]; unfold Dat.blockOf iblk; rw [A_eq]; try rfl) t d).trans
    (by unfold Dat.fetched Dat.blockOf iblk; rw [A_eq]; try rfl)
theorem before43 (c : Dev nD) (t : Fin cfg0.N) (d) : (dats m 0 c).before 43 t d = iblk m c 43 t :=
  ((dats m 0 c).before_in_eq_fetched 43 rfl (fun _ => rfl) (fun _ _ _ => rfl) (fun t => by rw [after43]; unfold Dat.blockOf iblk; rw [A_eq]; try rfl) t d).trans
    (by unfold Dat.fetched Dat.blockOf iblk; rw [A_eq]; try rfl)
theorem before44 (c : Dev nD) (t : Fin cfg0.N) (d) : (dats m 0 c).before 44 t d = iblk m c 44 t :=
  ((dats m 0 c).before_in_eq_fetched 44 rfl (fun _ => rfl) (fun _ _ _ => rfl) (fun t => by rw [after44]; unfold Dat.blockOf iblk; rw [A_eq]; try rfl) t d).trans
    (by unfold Dat.fetched Dat.blockOf iblk; rw [A_eq]; try rfl)
theorem before45 (c : Dev nD) (t : Fin cfg0.N) (d) : (dats m 0 c).before 45 t d = iblk m c 45 t :=
  ((dats m 0 c).before_in_eq_fetched 45 rfl (fun _ => rfl) (fun _ _ _ => rfl) (fun t => by rw [after45]; unfold Dat.blockOf iblk; rw [A_eq]; try rfl) t d).trans
    (by unfold Dat.fetched Dat.blockOf iblk; rw [A_eq]; try rfl)
theorem before46 (c : Dev nD) (t : Fin cfg0.N) (d) : (dats m 0 c).before 46 t d = iblk m c 46 t :=
  ((dats m 0 c).before_in_eq_fetched 46 rfl (fun _ => rfl) (fun _ _ _ => rfl) (fun t => by rw [after46]; unfold Dat.blockOf iblk; rw [A_eq]; try rfl) t d).trans
    (by unfold Dat.fetched Dat.blockOf iblk; rw [A_eq]; try rfl)
theorem before47 (c : Dev nD) (t : Fin cfg0.N) (d) : (dats m 0 c).before 47 t d = iblk m c 47 t :=
  ((dats m 0 c).before_in_eq_fetched 47 rfl (fun _ => rfl) (fun _ _ _ => rfl) (fun t => by rw [after47]; unfold Dat.blockOf iblk; rw [A_eq]; try rfl) t d).trans
    (by unfold Dat.fetched Dat.blockOf iblk; rw [A_eq]; try rfl)
theorem before48 (c : Dev nD) (t : Fin cfg0.N) (d) : (dats m 0 c).before 48 t d = iblk m c 48 t :=
  ((dats m 0 c).before_in_eq_fetched 48 rfl (fun _ => rfl) (fun _ _ _ => rfl) (fun t => by rw [after48]; unfold Dat.blockOf iblk; rw [A_eq]; try rfl) t d).trans
    (by unfold Dat.fetched Dat.blockOf iblk; rw [A_eq]; try rfl)
theorem before49 (c : Dev nD) (t : Fin cfg0.N) (d) : (dats m 0 c).before 49 t d = iblk m c 49 t :=
  ((dats m 0 c).before_in_eq_fetched 49 rfl (fun _ => rfl) (fun _ _ _ => rfl) (fun t => by rw [after49]; unfold Dat.blockOf iblk; rw [A_eq]; try rfl) t d).trans
    (by unfold Dat.fetched Dat.blockOf iblk; rw [A_eq]; try rfl)
theorem before50 (c : Dev nD) (t : Fin cfg0.N) (d) : (dats m 0 c).before 50 t d = iblk m c 50 t :=
  ((dats m 0 c).before_in_eq_fetched 50 rfl (fun _ => rfl) (fun _ _ _ => rfl) (fun t => by rw [after50]; unfold Dat.blockOf iblk; rw [A_eq]; try rfl) t d).trans
    (by unfold Dat.fetched Dat.blockOf iblk; rw [A_eq]; try rfl)
theorem before51 (c : Dev nD) (t : Fin cfg0.N) (d) : (dats m 0 c).before 51 t d = iblk m c 51 t :=
  ((dats m 0 c).before_in_eq_fetched 51 rfl (fun _ => rfl) (fun _ _ _ => rfl) (fun t => by rw [after51]; unfold Dat.blockOf iblk; rw [A_eq]; try rfl) t d).trans
    (by unfold Dat.fetched Dat.blockOf iblk; rw [A_eq]; try rfl)
theorem before52 (c : Dev nD) (t : Fin cfg0.N) (d) : (dats m 0 c).before 52 t d = iblk m c 52 t :=
  ((dats m 0 c).before_in_eq_fetched 52 rfl (fun _ => rfl) (fun _ _ _ => rfl) (fun t => by rw [after52]; unfold Dat.blockOf iblk; rw [A_eq]; try rfl) t d).trans
    (by unfold Dat.fetched Dat.blockOf iblk; rw [A_eq]; try rfl)
theorem before53 (c : Dev nD) (t : Fin cfg0.N) (d) : (dats m 0 c).before 53 t d = iblk m c 53 t :=
  ((dats m 0 c).before_in_eq_fetched 53 rfl (fun _ => rfl) (fun _ _ _ => rfl) (fun t => by rw [after53]; unfold Dat.blockOf iblk; rw [A_eq]; try rfl) t d).trans
    (by unfold Dat.fetched Dat.blockOf iblk; rw [A_eq]; try rfl)
theorem before54 (c : Dev nD) (t : Fin cfg0.N) (d) : (dats m 0 c).before 54 t d = iblk m c 54 t :=
  ((dats m 0 c).before_in_eq_fetched 54 rfl (fun _ => rfl) (fun _ _ _ => rfl) (fun t => by rw [after54]; unfold Dat.blockOf iblk; rw [A_eq]; try rfl) t d).trans
    (by unfold Dat.fetched Dat.blockOf iblk; rw [A_eq]; try rfl)
theorem before55 (c : Dev nD) (t : Fin cfg0.N) (d) : (dats m 0 c).before 55 t d = iblk m c 55 t :=
  ((dats m 0 c).before_in_eq_fetched 55 rfl (fun _ => rfl) (fun _ _ _ => rfl) (fun t => by rw [after55]; unfold Dat.blockOf iblk; rw [A_eq]; try rfl) t d).trans
    (by unfold Dat.fetched Dat.blockOf iblk; rw [A_eq]; try rfl)
theorem before56 (c : Dev nD) (t : Fin cfg0.N) (d) : (dats m 0 c).before 56 t d = iblk m c 56 t :=
  ((dats m 0 c).before_in_eq_fetched 56 rfl (fun _ => rfl) (fun _ _ _ => rfl) (fun t => by rw [after56]; unfold Dat.blockOf iblk; rw [A_eq]; try rfl) t d).trans
    (by unfold Dat.fetched Dat.blockOf iblk; rw [A_eq]; try rfl)
theorem before57 (c : Dev nD) (t : Fin cfg0.N) (d) : (dats m 0 c).before 57 t d = iblk m c 57 t :=
  ((dats m 0 c).before_in_eq_fetched 57 rfl (fun _ => rfl) (fun _ _ _ => rfl) (fun t => by rw [after57]; unfold Dat.blockOf iblk; rw [A_eq]; try rfl) t d).trans
    (by unfold Dat.fetched Dat.blockOf iblk; rw [A_eq]; try rfl)
theorem before58 (c : Dev nD) (t : Fin cfg0.N) (d) : (dats m 0 c).before 58 t d = iblk m c 58 t :=
  ((dats m 0 c).before_in_eq_fetched 58 rfl (fun _ => rfl) (fun _ _ _ => rfl) (fun t => by rw [after58]; unfold Dat.blockOf iblk; rw [A_eq]; try rfl) t d).trans
    (by unfold Dat.fetched Dat.blockOf iblk; rw [A_eq]; try rfl)
theorem before59 (c : Dev nD) (t : Fin cfg0.N) (d) : (dats m 0 c).before 59 t d = iblk m c 59 t :=
  ((dats m 0 c).before_in_eq_fetched 59 rfl (fun _ => rfl) (fun _ _ _ => rfl) (fun t => by rw [after59]; unfold Dat.blockOf iblk; rw [A_eq]; try rfl) t d).trans
    (by unfold Dat.fetched Dat.blockOf iblk; rw [A_eq]; try rfl)
theorem before60 (c : Dev nD) (t : Fin cfg0.N) (d) : (dats m 0 c).before 60 t d = iblk m c 60 t :=
  ((dats m 0 c).before_in_eq_fetched 60 rfl (fun _ => rfl) (fun _ _ _ => rfl) (fun t => by rw [after60]; unfold Dat.blockOf iblk; rw [A_eq]; try rfl) t d).trans
    (by unfold Dat.fetched Dat.blockOf iblk; rw [A_eq]; try rfl)
theorem before61 (c : Dev nD) (t : Fin cfg0.N) (d) : (dats m 0 c).before 61 t d = iblk m c 61 t :=
  ((dats m 0 c).before_in_eq_fetched 61 rfl (fun _ => rfl) (fun _ _ _ => rfl) (fun t => by rw [after61]; unfold Dat.blockOf iblk; rw [A_eq]; try rfl) t d).trans
    (by unfold Dat.fetched Dat.blockOf iblk; rw [A_eq]; try rfl)
theorem before62 (c : Dev nD) (t : Fin cfg0.N) (d) : (dats m 0 c).before 62 t d = iblk m c 62 t :=
  ((dats m 0 c).before_in_eq_fetched 62 rfl (fun _ => rfl) (fun _ _ _ => rfl) (fun t => by rw [after62]; unfold Dat.blockOf iblk; rw [A_eq]; try rfl) t d).trans
    (by unfold Dat.fetched Dat.blockOf iblk; rw [A_eq]; try rfl)
theorem before63 (c : Dev nD) (t : Fin cfg0.N) (d) : (dats m 0 c).before 63 t d = iblk m c 63 t :=
  ((dats m 0 c).before_in_eq_fetched 63 rfl (fun _ => rfl) (fun _ _ _ => rfl) (fun t => by rw [after63]; unfold Dat.blockOf iblk; rw [A_eq]; try rfl) t d).trans
    (by unfold Dat.fetched Dat.blockOf iblk; rw [A_eq]; try rfl)
theorem before64 (c : Dev nD) (t : Fin cfg0.N) (d) : (dats m 0 c).before 64 t d = iblk m c 64 t :=
  ((dats m 0 c).before_in_eq_fetched 64 rfl (fun _ => rfl) (fun _ _ _ => rfl) (fun t => by rw [after64]; unfold Dat.blockOf iblk; rw [A_eq]; try rfl) t d).trans
    (by unfold Dat.fetched Dat.blockOf iblk; rw [A_eq]; try rfl)
theorem before65 (c : Dev nD) (t : Fin cfg0.N) (d) : (dats m 0 c).before 65 t d = iblk m c 65 t :=
  ((dats m 0 c).before_in_eq_fetched 65 rfl (fun _ => rfl) (fun _ _ _ => rfl) (fun t => by rw [after65]; unfold Dat.blockOf iblk; rw [A_eq]; try rfl) t d).trans
    (by unfold Dat.fetched Dat.blockOf iblk; rw [A_eq]; try rfl)

end Cert.Kernel.Hand

end
-- ==== Proof.KFrame.lean ====
/-
  The frame of the pipelined region.

  The body obligation at every grid point is the symbolic run of the body on the point's staging buffers.  The
  launch hands the pipeline the four buffers behind the 67 windows' arrays, each whole; the first argument's is
  dealt to its 64 reading windows along the right-nested halving of its share.  The region then runs to the end,
  faults nowhere, and leaves every array of the pipeline at what the proof data computes and every other
  unscoped buffer as the region found it; the three arguments are inputs only, so they end as launched.
-/
import proofs.«155339_j73821897884183_2_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t))

set_option maxHeartbeats 4000000 in
/-- The body at any point: the inputs' buffers hold their blocks, so the symbolic run applies; the invariant and what
    the core owes pass through unread; the output buffer ends at its four pieces read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24, before25, before26, before27, before28, before29, before30, before31, before32, before33, before34, before35, before36, before37, before38, before39, before40, before41, before42, before43, before44, before45, before46, before47, before48, before49, before50, before51, before52, before53, before54, before55, before56, before57, before58, before59, before60, before61, before62, before63, before64, before65]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28, after29, after30, after31, after32, after33, after34, after35, after36, after37, after38, after39, after40, after41, after42, after43, after44, after45, after46, after47, after48, after49, after50, after51, after52, after53, after54, after55, after56, after57, after58, after59, after60, after61, after62, after63, after64, after65, after66]
  unfold out66
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩⟩
  iapply ((kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) (ms36 t) (hs36 t) (ms37 t) (hs37 t) (ms38 t) (hs38 t) (ms39 t) (hs39 t) (ms40 t) (hs40 t) (ms41 t) (hs41 t) (ms42 t) (hs42 t) (ms43 t) (hs43 t) (ms44 t) (hs44 t) (ms45 t) (hs45 t) (ms46 t) (hs46 t) (ms47 t) (hs47 t) (ms48 t) (hs48 t) (ms49 t) (hs49 t) (ms50 t) (hs50 t) (ms51 t) (hs51 t) (ms52 t) (hs52 t) (ms53 t) (hs53 t) (ms54 t) (hs54 t) (ms55 t) (hs55 t) (ms56 t) (hs56 t) (ms57 t) (hs57 t) (ms58 t) (hs58 t) (ms59 t) (hs59 t) (ms60 t) (hs60 t) (ms61 t) (hs61 t) (ms62 t) (hs62 t) (ms63 t) (hs63 t) (ms64 t) (hs64 t) (ms65 t) (hs65 t) (ms66 t) (hs66 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) (iblk m c 47 t) (iblk m c 48 t) (iblk m c 49 t) (iblk m c 50 t) (iblk m c 51 t) (iblk m c 52 t) (iblk m c 53 t) (iblk m c 54 t) (iblk m c 55 t) (iblk m c 56 t) (iblk m c 57 t) (iblk m c 58 t) (iblk m c 59 t) (iblk m c 60 t) (iblk m c 61 t) (iblk m c 62 t) (iblk m c 63 t) (iblk m c 64 t) (iblk m c 65 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexists _; iexact H66
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, ⟨%e66, H66⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  unfold owns; iexists _; isplitr
  swap; · iexact H66
  ipureintro; exact View.read_writes_of_cover _ _ _ _ _ (cover66 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
theorem body_obligation (c : Dev nD) : BodyObligation (dats (F := F) m 0 c) (defs₀ (F := F)) Variants.none () Set.univ := fun t => by
  rw [bigSep_W0, bigSep_W0]
  exact sound_body m c t

/-! ## Dealing the first argument's array to its 64 windows -/

/-- A buffer held at the full share is held by 64 holders at the dealt shares, side by side. -/
theorem deal64 {ℓ : Loc nD τ sig} (I : Finset (Idx ℓ)) (f : Buf (Elt F) ℓ) :
    (ℓ ↦[I]{fullShare} f : sProp 𝕄) ⊢ iprop((ℓ ↦[I]{Cert.LibShareChain.deal fullShare 63 0} f) ∗ (ℓ ↦[I]{Cert.LibShareChain.deal fullShare 63 1} f) ∗ (ℓ ↦[I]{Cert.LibShareChain.deal fullShare 63 2} f) ∗ (ℓ ↦[I]{Cert.LibShareChain.deal fullShare 63 3} f) ∗ (ℓ ↦[I]{Cert.LibShareChain.deal fullShare 63 4} f) ∗ (ℓ ↦[I]{Cert.LibShareChain.deal fullShare 63 5} f) ∗ (ℓ ↦[I]{Cert.LibShareChain.deal fullShare 63 6} f) ∗ (ℓ ↦[I]{Cert.LibShareChain.deal fullShare 63 7} f) ∗ (ℓ ↦[I]{Cert.LibShareChain.deal fullShare 63 8} f) ∗ (ℓ ↦[I]{Cert.LibShareChain.deal fullShare 63 9} f) ∗ (ℓ ↦[I]{Cert.LibShareChain.deal fullShare 63 10} f) ∗ (ℓ ↦[I]{Cert.LibShareChain.deal fullShare 63 11} f) ∗ (ℓ ↦[I]{Cert.LibShareChain.deal fullShare 63 12} f) ∗ (ℓ ↦[I]{Cert.LibShareChain.deal fullShare 63 13} f) ∗ (ℓ ↦[I]{Cert.LibShareChain.deal fullShare 63 14} f) ∗ (ℓ ↦[I]{Cert.LibShareChain.deal fullShare 63 15} f) ∗ (ℓ ↦[I]{Cert.LibShareChain.deal fullShare 63 16} f) ∗ (ℓ ↦[I]{Cert.LibShareChain.deal fullShare 63 17} f) ∗ (ℓ ↦[I]{Cert.LibShareChain.deal fullShare 63 18} f) ∗ (ℓ ↦[I]{Cert.LibShareChain.deal fullShare 63 19} f) ∗ (ℓ ↦[I]{Cert.LibShareChain.deal fullShare 63 20} f) ∗ (ℓ ↦[I]{Cert.LibShareChain.deal fullShare 63 21} f) ∗ (ℓ ↦[I]{Cert.LibShareChain.deal fullShare 63 22} f) ∗ (ℓ ↦[I]{Cert.LibShareChain.deal fullShare 63 23} f) ∗ (ℓ ↦[I]{Cert.LibShareChain.deal fullShare 63 24} f) ∗ (ℓ ↦[I]{Cert.LibShareChain.deal fullShare 63 25} f) ∗ (ℓ ↦[I]{Cert.LibShareChain.deal fullShare 63 26} f) ∗ (ℓ ↦[I]{Cert.LibShareChain.deal fullShare 63 27} f) ∗ (ℓ ↦[I]{Cert.LibShareChain.deal fullShare 63 28} f) ∗ (ℓ ↦[I]{Cert.LibShareChain.deal fullShare 63 29} f) ∗ (ℓ ↦[I]{Cert.LibShareChain.deal fullShare 63 30} f) ∗ (ℓ ↦[I]{Cert.LibShareChain.deal fullShare 63 31} f) ∗ (ℓ ↦[I]{Cert.LibShareChain.deal fullShare 63 32} f) ∗ (ℓ ↦[I]{Cert.LibShareChain.deal fullShare 63 33} f) ∗ (ℓ ↦[I]{Cert.LibShareChain.deal fullShare 63 34} f) ∗ (ℓ ↦[I]{Cert.LibShareChain.deal fullShare 63 35} f) ∗ (ℓ ↦[I]{Cert.LibShareChain.deal fullShare 63 36} f) ∗ (ℓ ↦[I]{Cert.LibShareChain.deal fullShare 63 37} f) ∗ (ℓ ↦[I]{Cert.LibShareChain.deal fullShare 63 38} f) ∗ (ℓ ↦[I]{Cert.LibShareChain.deal fullShare 63 39} f) ∗ (ℓ ↦[I]{Cert.LibShareChain.deal fullShare 63 40} f) ∗ (ℓ ↦[I]{Cert.LibShareChain.deal fullShare 63 41} f) ∗ (ℓ ↦[I]{Cert.LibShareChain.deal fullShare 63 42} f) ∗ (ℓ ↦[I]{Cert.LibShareChain.deal fullShare 63 43} f) ∗ (ℓ ↦[I]{Cert.LibShareChain.deal fullShare 63 44} f) ∗ (ℓ ↦[I]{Cert.LibShareChain.deal fullShare 63 45} f) ∗ (ℓ ↦[I]{Cert.LibShareChain.deal fullShare 63 46} f) ∗ (ℓ ↦[I]{Cert.LibShareChain.deal fullShare 63 47} f) ∗ (ℓ ↦[I]{Cert.LibShareChain.deal fullShare 63 48} f) ∗ (ℓ ↦[I]{Cert.LibShareChain.deal fullShare 63 49} f) ∗ (ℓ ↦[I]{Cert.LibShareChain.deal fullShare 63 50} f) ∗ (ℓ ↦[I]{Cert.LibShareChain.deal fullShare 63 51} f) ∗ (ℓ ↦[I]{Cert.LibShareChain.deal fullShare 63 52} f) ∗ (ℓ ↦[I]{Cert.LibShareChain.deal fullShare 63 53} f) ∗ (ℓ ↦[I]{Cert.LibShareChain.deal fullShare 63 54} f) ∗ (ℓ ↦[I]{Cert.LibShareChain.deal fullShare 63 55} f) ∗ (ℓ ↦[I]{Cert.LibShareChain.deal fullShare 63 56} f) ∗ (ℓ ↦[I]{Cert.LibShareChain.deal fullShare 63 57} f) ∗ (ℓ ↦[I]{Cert.LibShareChain.deal fullShare 63 58} f) ∗ (ℓ ↦[I]{Cert.LibShareChain.deal fullShare 63 59} f) ∗ (ℓ ↦[I]{Cert.LibShareChain.deal fullShare 63 60} f) ∗ (ℓ ↦[I]{Cert.LibShareChain.deal fullShare 63 61} f) ∗ (ℓ ↦[I]{Cert.LibShareChain.deal fullShare 63 62} f) ∗ (ℓ ↦[I]{Cert.LibShareChain.deal fullShare 63 63} f)) := by
  show (ℓ ↦[I]{Cert.LibShareChain.rest fullShare 0} f : sProp 𝕄) ⊢ iprop((ℓ ↦[I]{(Cert.LibShareChain.rest fullShare 0).left} f) ∗ (ℓ ↦[I]{(Cert.LibShareChain.rest fullShare 1).left} f) ∗ (ℓ ↦[I]{(Cert.LibShareChain.rest fullShare 2).left} f) ∗ (ℓ ↦[I]{(Cert.LibShareChain.rest fullShare 3).left} f) ∗ (ℓ ↦[I]{(Cert.LibShareChain.rest fullShare 4).left} f) ∗ (ℓ ↦[I]{(Cert.LibShareChain.rest fullShare 5).left} f) ∗ (ℓ ↦[I]{(Cert.LibShareChain.rest fullShare 6).left} f) ∗ (ℓ ↦[I]{(Cert.LibShareChain.rest fullShare 7).left} f) ∗ (ℓ ↦[I]{(Cert.LibShareChain.rest fullShare 8).left} f) ∗ (ℓ ↦[I]{(Cert.LibShareChain.rest fullShare 9).left} f) ∗ (ℓ ↦[I]{(Cert.LibShareChain.rest fullShare 10).left} f) ∗ (ℓ ↦[I]{(Cert.LibShareChain.rest fullShare 11).left} f) ∗ (ℓ ↦[I]{(Cert.LibShareChain.rest fullShare 12).left} f) ∗ (ℓ ↦[I]{(Cert.LibShareChain.rest fullShare 13).left} f) ∗ (ℓ ↦[I]{(Cert.LibShareChain.rest fullShare 14).left} f) ∗ (ℓ ↦[I]{(Cert.LibShareChain.rest fullShare 15).left} f) ∗ (ℓ ↦[I]{(Cert.LibShareChain.rest fullShare 16).left} f) ∗ (ℓ ↦[I]{(Cert.LibShareChain.rest fullShare 17).left} f) ∗ (ℓ ↦[I]{(Cert.LibShareChain.rest fullShare 18).left} f) ∗ (ℓ ↦[I]{(Cert.LibShareChain.rest fullShare 19).left} f) ∗ (ℓ ↦[I]{(Cert.LibShareChain.rest fullShare 20).left} f) ∗ (ℓ ↦[I]{(Cert.LibShareChain.rest fullShare 21).left} f) ∗ (ℓ ↦[I]{(Cert.LibShareChain.rest fullShare 22).left} f) ∗ (ℓ ↦[I]{(Cert.LibShareChain.rest fullShare 23).left} f) ∗ (ℓ ↦[I]{(Cert.LibShareChain.rest fullShare 24).left} f) ∗ (ℓ ↦[I]{(Cert.LibShareChain.rest fullShare 25).left} f) ∗ (ℓ ↦[I]{(Cert.LibShareChain.rest fullShare 26).left} f) ∗ (ℓ ↦[I]{(Cert.LibShareChain.rest fullShare 27).left} f) ∗ (ℓ ↦[I]{(Cert.LibShareChain.rest fullShare 28).left} f) ∗ (ℓ ↦[I]{(Cert.LibShareChain.rest fullShare 29).left} f) ∗ (ℓ ↦[I]{(Cert.LibShareChain.rest fullShare 30).left} f) ∗ (ℓ ↦[I]{(Cert.LibShareChain.rest fullShare 31).left} f) ∗ (ℓ ↦[I]{(Cert.LibShareChain.rest fullShare 32).left} f) ∗ (ℓ ↦[I]{(Cert.LibShareChain.rest fullShare 33).left} f) ∗ (ℓ ↦[I]{(Cert.LibShareChain.rest fullShare 34).left} f) ∗ (ℓ ↦[I]{(Cert.LibShareChain.rest fullShare 35).left} f) ∗ (ℓ ↦[I]{(Cert.LibShareChain.rest fullShare 36).left} f) ∗ (ℓ ↦[I]{(Cert.LibShareChain.rest fullShare 37).left} f) ∗ (ℓ ↦[I]{(Cert.LibShareChain.rest fullShare 38).left} f) ∗ (ℓ ↦[I]{(Cert.LibShareChain.rest fullShare 39).left} f) ∗ (ℓ ↦[I]{(Cert.LibShareChain.rest fullShare 40).left} f) ∗ (ℓ ↦[I]{(Cert.LibShareChain.rest fullShare 41).left} f) ∗ (ℓ ↦[I]{(Cert.LibShareChain.rest fullShare 42).left} f) ∗ (ℓ ↦[I]{(Cert.LibShareChain.rest fullShare 43).left} f) ∗ (ℓ ↦[I]{(Cert.LibShareChain.rest fullShare 44).left} f) ∗ (ℓ ↦[I]{(Cert.LibShareChain.rest fullShare 45).left} f) ∗ (ℓ ↦[I]{(Cert.LibShareChain.rest fullShare 46).left} f) ∗ (ℓ ↦[I]{(Cert.LibShareChain.rest fullShare 47).left} f) ∗ (ℓ ↦[I]{(Cert.LibShareChain.rest fullShare 48).left} f) ∗ (ℓ ↦[I]{(Cert.LibShareChain.rest fullShare 49).left} f) ∗ (ℓ ↦[I]{(Cert.LibShareChain.rest fullShare 50).left} f) ∗ (ℓ ↦[I]{(Cert.LibShareChain.rest fullShare 51).left} f) ∗ (ℓ ↦[I]{(Cert.LibShareChain.rest fullShare 52).left} f) ∗ (ℓ ↦[I]{(Cert.LibShareChain.rest fullShare 53).left} f) ∗ (ℓ ↦[I]{(Cert.LibShareChain.rest fullShare 54).left} f) ∗ (ℓ ↦[I]{(Cert.LibShareChain.rest fullShare 55).left} f) ∗ (ℓ ↦[I]{(Cert.LibShareChain.rest fullShare 56).left} f) ∗ (ℓ ↦[I]{(Cert.LibShareChain.rest fullShare 57).left} f) ∗ (ℓ ↦[I]{(Cert.LibShareChain.rest fullShare 58).left} f) ∗ (ℓ ↦[I]{(Cert.LibShareChain.rest fullShare 59).left} f) ∗ (ℓ ↦[I]{(Cert.LibShareChain.rest fullShare 60).left} f) ∗ (ℓ ↦[I]{(Cert.LibShareChain.rest fullShare 61).left} f) ∗ (ℓ ↦[I]{(Cert.LibShareChain.rest fullShare 62).left} f) ∗ (ℓ ↦[I]{Cert.LibShareChain.rest fullShare 63} f))
  refine (Cert.LibShareChain.pointsTo_rest_step I f fullShare 0).trans (sep_mono_r ?_)
  refine (Cert.LibShareChain.pointsTo_rest_step I f fullShare 1).trans (sep_mono_r ?_)
  refine (Cert.LibShareChain.pointsTo_rest_step I f fullShare 2).trans (sep_mono_r ?_)
  refine (Cert.LibShareChain.pointsTo_rest_step I f fullShare 3).trans (sep_mono_r ?_)
  refine (Cert.LibShareChain.pointsTo_rest_step I f fullShare 4).trans (sep_mono_r ?_)
  refine (Cert.LibShareChain.pointsTo_rest_step I f fullShare 5).trans (sep_mono_r ?_)
  refine (Cert.LibShareChain.pointsTo_rest_step I f fullShare 6).trans (sep_mono_r ?_)
  refine (Cert.LibShareChain.pointsTo_rest_step I f fullShare 7).trans (sep_mono_r ?_)
  refine (Cert.LibShareChain.pointsTo_rest_step I f fullShare 8).trans (sep_mono_r ?_)
  refine (Cert.LibShareChain.pointsTo_rest_step I f fullShare 9).trans (sep_mono_r ?_)
  refine (Cert.LibShareChain.pointsTo_rest_step I f fullShare 10).trans (sep_mono_r ?_)
  refine (Cert.LibShareChain.pointsTo_rest_step I f fullShare 11).trans (sep_mono_r ?_)
  refine (Cert.LibShareChain.pointsTo_rest_step I f fullShare 12).trans (sep_mono_r ?_)
  refine (Cert.LibShareChain.pointsTo_rest_step I f fullShare 13).trans (sep_mono_r ?_)
  refine (Cert.LibShareChain.pointsTo_rest_step I f fullShare 14).trans (sep_mono_r ?_)
  refine (Cert.LibShareChain.pointsTo_rest_step I f fullShare 15).trans (sep_mono_r ?_)
  refine (Cert.LibShareChain.pointsTo_rest_step I f fullShare 16).trans (sep_mono_r ?_)
  refine (Cert.LibShareChain.pointsTo_rest_step I f fullShare 17).trans (sep_mono_r ?_)
  refine (Cert.LibShareChain.pointsTo_rest_step I f fullShare 18).trans (sep_mono_r ?_)
  refine (Cert.LibShareChain.pointsTo_rest_step I f fullShare 19).trans (sep_mono_r ?_)
  refine (Cert.LibShareChain.pointsTo_rest_step I f fullShare 20).trans (sep_mono_r ?_)
  refine (Cert.LibShareChain.pointsTo_rest_step I f fullShare 21).trans (sep_mono_r ?_)
  refine (Cert.LibShareChain.pointsTo_rest_step I f fullShare 22).trans (sep_mono_r ?_)
  refine (Cert.LibShareChain.pointsTo_rest_step I f fullShare 23).trans (sep_mono_r ?_)
  refine (Cert.LibShareChain.pointsTo_rest_step I f fullShare 24).trans (sep_mono_r ?_)
  refine (Cert.LibShareChain.pointsTo_rest_step I f fullShare 25).trans (sep_mono_r ?_)
  refine (Cert.LibShareChain.pointsTo_rest_step I f fullShare 26).trans (sep_mono_r ?_)
  refine (Cert.LibShareChain.pointsTo_rest_step I f fullShare 27).trans (sep_mono_r ?_)
  refine (Cert.LibShareChain.pointsTo_rest_step I f fullShare 28).trans (sep_mono_r ?_)
  refine (Cert.LibShareChain.pointsTo_rest_step I f fullShare 29).trans (sep_mono_r ?_)
  refine (Cert.LibShareChain.pointsTo_rest_step I f fullShare 30).trans (sep_mono_r ?_)
  refine (Cert.LibShareChain.pointsTo_rest_step I f fullShare 31).trans (sep_mono_r ?_)
  refine (Cert.LibShareChain.pointsTo_rest_step I f fullShare 32).trans (sep_mono_r ?_)
  refine (Cert.LibShareChain.pointsTo_rest_step I f fullShare 33).trans (sep_mono_r ?_)
  refine (Cert.LibShareChain.pointsTo_rest_step I f fullShare 34).trans (sep_mono_r ?_)
  refine (Cert.LibShareChain.pointsTo_rest_step I f fullShare 35).trans (sep_mono_r ?_)
  refine (Cert.LibShareChain.pointsTo_rest_step I f fullShare 36).trans (sep_mono_r ?_)
  refine (Cert.LibShareChain.pointsTo_rest_step I f fullShare 37).trans (sep_mono_r ?_)
  refine (Cert.LibShareChain.pointsTo_rest_step I f fullShare 38).trans (sep_mono_r ?_)
  refine (Cert.LibShareChain.pointsTo_rest_step I f fullShare 39).trans (sep_mono_r ?_)
  refine (Cert.LibShareChain.pointsTo_rest_step I f fullShare 40).trans (sep_mono_r ?_)
  refine (Cert.LibShareChain.pointsTo_rest_step I f fullShare 41).trans (sep_mono_r ?_)
  refine (Cert.LibShareChain.pointsTo_rest_step I f fullShare 42).trans (sep_mono_r ?_)
  refine (Cert.LibShareChain.pointsTo_rest_step I f fullShare 43).trans (sep_mono_r ?_)
  refine (Cert.LibShareChain.pointsTo_rest_step I f fullShare 44).trans (sep_mono_r ?_)
  refine (Cert.LibShareChain.pointsTo_rest_step I f fullShare 45).trans (sep_mono_r ?_)
  refine (Cert.LibShareChain.pointsTo_rest_step I f fullShare 46).trans (sep_mono_r ?_)
  refine (Cert.LibShareChain.pointsTo_rest_step I f fullShare 47).trans (sep_mono_r ?_)
  refine (Cert.LibShareChain.pointsTo_rest_step I f fullShare 48).trans (sep_mono_r ?_)
  refine (Cert.LibShareChain.pointsTo_rest_step I f fullShare 49).trans (sep_mono_r ?_)
  refine (Cert.LibShareChain.pointsTo_rest_step I f fullShare 50).trans (sep_mono_r ?_)
  refine (Cert.LibShareChain.pointsTo_rest_step I f fullShare 51).trans (sep_mono_r ?_)
  refine (Cert.LibShareChain.pointsTo_rest_step I f fullShare 52).trans (sep_mono_r ?_)
  refine (Cert.LibShareChain.pointsTo_rest_step I f fullShare 53).trans (sep_mono_r ?_)
  refine (Cert.LibShareChain.pointsTo_rest_step I f fullShare 54).trans (sep_mono_r ?_)
  refine (Cert.LibShareChain.pointsTo_rest_step I f fullShare 55).trans (sep_mono_r ?_)
  refine (Cert.LibShareChain.pointsTo_rest_step I f fullShare 56).trans (sep_mono_r ?_)
  refine (Cert.LibShareChain.pointsTo_rest_step I f fullShare 57).trans (sep_mono_r ?_)
  refine (Cert.LibShareChain.pointsTo_rest_step I f fullShare 58).trans (sep_mono_r ?_)
  refine (Cert.LibShareChain.pointsTo_rest_step I f fullShare 59).trans (sep_mono_r ?_)
  refine (Cert.LibShareChain.pointsTo_rest_step I f fullShare 60).trans (sep_mono_r ?_)
  refine (Cert.LibShareChain.pointsTo_rest_step I f fullShare 61).trans (sep_mono_r ?_)
  refine (Cert.LibShareChain.pointsTo_rest_step I f fullShare 62).trans (sep_mono_r ?_)
  exact Entails.refl _

/-- The four buffers behind the windows' arrays. -/
theorem arrRefs_eq : Finset.univ.image (Pipeline.arrRef spec0) = ({main_arg0, main_v0, main_arg2, main_v1} : Finset (Ref sig .tc)) := by decide

set_option maxHeartbeats 4000000 in
/-- What the launch hands the pipeline, each array's buffer whole at the full share, makes the proof data's arrays at
    entry: the first argument's dealt to its 64 windows, the other three each to its one window. -/
theorem hsplit (c : Dev nD) : (Pipeline.arrBufs spec0 c (V m c) : sProp 𝕄) ⊢ (dats m 0 c).arrays (fun w => (dats m 0 c).arrAt w 0) := by
  have e : (dats m 0 c).arrays (fun w => (dats m 0 c).arrAt w 0)
      = bigSep Finset.univ fun w : Fin 67 => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, bigSep_W0]
  unfold Pipeline.arrBufs
  rw [arrRefs_eq, bigSep_insert (by decide), bigSep_insert (by decide), bigSep_insert (by decide), bigSep_singleton]
  show iprop((((c.tc : Thread nD τ).loc main_arg0) ↦{fullShare} V m c main_arg0) ∗ (((c.tc : Thread nD τ).loc main_v0) ↦{fullShare} V m c main_v0) ∗ (((c.tc : Thread nD τ).loc main_arg2) ↦{fullShare} V m c main_arg2) ∗ (((c.tc : Thread nD τ).loc main_v1) ↦{fullShare} V m c main_v1))
    ⊢ iprop((((c.tc : Thread nD τ).loc main_arg0) ↦{Cert.LibShareChain.deal fullShare 63 0} V m c main_arg0) ∗ (((c.tc : Thread nD τ).loc main_arg0) ↦{Cert.LibShareChain.deal fullShare 63 1} V m c main_arg0) ∗ (((c.tc : Thread nD τ).loc main_arg0) ↦{Cert.LibShareChain.deal fullShare 63 2} V m c main_arg0) ∗ (((c.tc : Thread nD τ).loc main_arg0) ↦{Cert.LibShareChain.deal fullShare 63 3} V m c main_arg0) ∗ (((c.tc : Thread nD τ).loc main_arg0) ↦{Cert.LibShareChain.deal fullShare 63 4} V m c main_arg0) ∗ (((c.tc : Thread nD τ).loc main_arg0) ↦{Cert.LibShareChain.deal fullShare 63 5} V m c main_arg0) ∗ (((c.tc : Thread nD τ).loc main_arg0) ↦{Cert.LibShareChain.deal fullShare 63 6} V m c main_arg0) ∗ (((c.tc : Thread nD τ).loc main_arg0) ↦{Cert.LibShareChain.deal fullShare 63 7} V m c main_arg0) ∗ (((c.tc : Thread nD τ).loc main_arg0) ↦{Cert.LibShareChain.deal fullShare 63 8} V m c main_arg0) ∗ (((c.tc : Thread nD τ).loc main_arg0) ↦{Cert.LibShareChain.deal fullShare 63 9} V m c main_arg0) ∗ (((c.tc : Thread nD τ).loc main_arg0) ↦{Cert.LibShareChain.deal fullShare 63 10} V m c main_arg0) ∗ (((c.tc : Thread nD τ).loc main_arg0) ↦{Cert.LibShareChain.deal fullShare 63 11} V m c main_arg0) ∗ (((c.tc : Thread nD τ).loc main_arg0) ↦{Cert.LibShareChain.deal fullShare 63 12} V m c main_arg0) ∗ (((c.tc : Thread nD τ).loc main_arg0) ↦{Cert.LibShareChain.deal fullShare 63 13} V m c main_arg0) ∗ (((c.tc : Thread nD τ).loc main_arg0) ↦{Cert.LibShareChain.deal fullShare 63 14} V m c main_arg0) ∗ (((c.tc : Thread nD τ).loc main_arg0) ↦{Cert.LibShareChain.deal fullShare 63 15} V m c main_arg0) ∗ (((c.tc : Thread nD τ).loc main_arg0) ↦{Cert.LibShareChain.deal fullShare 63 16} V m c main_arg0) ∗ (((c.tc : Thread nD τ).loc main_arg0) ↦{Cert.LibShareChain.deal fullShare 63 17} V m c main_arg0) ∗ (((c.tc : Thread nD τ).loc main_arg0) ↦{Cert.LibShareChain.deal fullShare 63 18} V m c main_arg0) ∗ (((c.tc : Thread nD τ).loc main_arg0) ↦{Cert.LibShareChain.deal fullShare 63 19} V m c main_arg0) ∗ (((c.tc : Thread nD τ).loc main_arg0) ↦{Cert.LibShareChain.deal fullShare 63 20} V m c main_arg0) ∗ (((c.tc : Thread nD τ).loc main_arg0) ↦{Cert.LibShareChain.deal fullShare 63 21} V m c main_arg0) ∗ (((c.tc : Thread nD τ).loc main_arg0) ↦{Cert.LibShareChain.deal fullShare 63 22} V m c main_arg0) ∗ (((c.tc : Thread nD τ).loc main_arg0) ↦{Cert.LibShareChain.deal fullShare 63 23} V m c main_arg0) ∗ (((c.tc : Thread nD τ).loc main_arg0) ↦{Cert.LibShareChain.deal fullShare 63 24} V m c main_arg0) ∗ (((c.tc : Thread nD τ).loc main_arg0) ↦{Cert.LibShareChain.deal fullShare 63 25} V m c main_arg0) ∗ (((c.tc : Thread nD τ).loc main_arg0) ↦{Cert.LibShareChain.deal fullShare 63 26} V m c main_arg0) ∗ (((c.tc : Thread nD τ).loc main_arg0) ↦{Cert.LibShareChain.deal fullShare 63 27} V m c main_arg0) ∗ (((c.tc : Thread nD τ).loc main_arg0) ↦{Cert.LibShareChain.deal fullShare 63 28} V m c main_arg0) ∗ (((c.tc : Thread nD τ).loc main_arg0) ↦{Cert.LibShareChain.deal fullShare 63 29} V m c main_arg0) ∗ (((c.tc : Thread nD τ).loc main_arg0) ↦{Cert.LibShareChain.deal fullShare 63 30} V m c main_arg0) ∗ (((c.tc : Thread nD τ).loc main_arg0) ↦{Cert.LibShareChain.deal fullShare 63 31} V m c main_arg0) ∗ (((c.tc : Thread nD τ).loc main_arg0) ↦{Cert.LibShareChain.deal fullShare 63 32} V m c main_arg0) ∗ (((c.tc : Thread nD τ).loc main_arg0) ↦{Cert.LibShareChain.deal fullShare 63 33} V m c main_arg0) ∗ (((c.tc : Thread nD τ).loc main_arg0) ↦{Cert.LibShareChain.deal fullShare 63 34} V m c main_arg0) ∗ (((c.tc : Thread nD τ).loc main_arg0) ↦{Cert.LibShareChain.deal fullShare 63 35} V m c main_arg0) ∗ (((c.tc : Thread nD τ).loc main_arg0) ↦{Cert.LibShareChain.deal fullShare 63 36} V m c main_arg0) ∗ (((c.tc : Thread nD τ).loc main_arg0) ↦{Cert.LibShareChain.deal fullShare 63 37} V m c main_arg0) ∗ (((c.tc : Thread nD τ).loc main_arg0) ↦{Cert.LibShareChain.deal fullShare 63 38} V m c main_arg0) ∗ (((c.tc : Thread nD τ).loc main_arg0) ↦{Cert.LibShareChain.deal fullShare 63 39} V m c main_arg0) ∗ (((c.tc : Thread nD τ).loc main_arg0) ↦{Cert.LibShareChain.deal fullShare 63 40} V m c main_arg0) ∗ (((c.tc : Thread nD τ).loc main_arg0) ↦{Cert.LibShareChain.deal fullShare 63 41} V m c main_arg0) ∗ (((c.tc : Thread nD τ).loc main_arg0) ↦{Cert.LibShareChain.deal fullShare 63 42} V m c main_arg0) ∗ (((c.tc : Thread nD τ).loc main_arg0) ↦{Cert.LibShareChain.deal fullShare 63 43} V m c main_arg0) ∗ (((c.tc : Thread nD τ).loc main_arg0) ↦{Cert.LibShareChain.deal fullShare 63 44} V m c main_arg0) ∗ (((c.tc : Thread nD τ).loc main_arg0) ↦{Cert.LibShareChain.deal fullShare 63 45} V m c main_arg0) ∗ (((c.tc : Thread nD τ).loc main_arg0) ↦{Cert.LibShareChain.deal fullShare 63 46} V m c main_arg0) ∗ (((c.tc : Thread nD τ).loc main_arg0) ↦{Cert.LibShareChain.deal fullShare 63 47} V m c main_arg0) ∗ (((c.tc : Thread nD τ).loc main_arg0) ↦{Cert.LibShareChain.deal fullShare 63 48} V m c main_arg0) ∗ (((c.tc : Thread nD τ).loc main_arg0) ↦{Cert.LibShareChain.deal fullShare 63 49} V m c main_arg0) ∗ (((c.tc : Thread nD τ).loc main_arg0) ↦{Cert.LibShareChain.deal fullShare 63 50} V m c main_arg0) ∗ (((c.tc : Thread nD τ).loc main_arg0) ↦{Cert.LibShareChain.deal fullShare 63 51} V m c main_arg0) ∗ (((c.tc : Thread nD τ).loc main_arg0) ↦{Cert.LibShareChain.deal fullShare 63 52} V m c main_arg0) ∗ (((c.tc : Thread nD τ).loc main_arg0) ↦{Cert.LibShareChain.deal fullShare 63 53} V m c main_arg0) ∗ (((c.tc : Thread nD τ).loc main_arg0) ↦{Cert.LibShareChain.deal fullShare 63 54} V m c main_arg0) ∗ (((c.tc : Thread nD τ).loc main_arg0) ↦{Cert.LibShareChain.deal fullShare 63 55} V m c main_arg0) ∗ (((c.tc : Thread nD τ).loc main_arg0) ↦{Cert.LibShareChain.deal fullShare 63 56} V m c main_arg0) ∗ (((c.tc : Thread nD τ).loc main_arg0) ↦{Cert.LibShareChain.deal fullShare 63 57} V m c main_arg0) ∗ (((c.tc : Thread nD τ).loc main_arg0) ↦{Cert.LibShareChain.deal fullShare 63 58} V m c main_arg0) ∗ (((c.tc : Thread nD τ).loc main_arg0) ↦{Cert.LibShareChain.deal fullShare 63 59} V m c main_arg0) ∗ (((c.tc : Thread nD τ).loc main_arg0) ↦{Cert.LibShareChain.deal fullShare 63 60} V m c main_arg0) ∗ (((c.tc : Thread nD τ).loc main_arg0) ↦{Cert.LibShareChain.deal fullShare 63 61} V m c main_arg0) ∗ (((c.tc : Thread nD τ).loc main_arg0) ↦{Cert.LibShareChain.deal fullShare 63 62} V m c main_arg0) ∗ (((c.tc : Thread nD τ).loc main_arg0) ↦{Cert.LibShareChain.deal fullShare 63 63} V m c main_arg0) ∗ (((c.tc : Thread nD τ).loc main_v0) ↦{fullShare} V m c main_v0) ∗ (((c.tc : Thread nD τ).loc main_arg2) ↦{fullShare} V m c main_arg2) ∗ (((c.tc : Thread nD τ).loc main_v1) ↦{fullShare} V m c main_v1))
  refine (sep_mono_l (deal64 Finset.univ (V m c main_arg0))).trans ?_
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  exact Entails.refl _

/-! ## The run -/

set_option backward.isDefEq.respectTransparency.types false in
set_option maxHeartbeats 4000000 in
/-- Every weakly fair execution of @main terminates, faults nowhere, and ends with every array of the pipeline at what
    the proof data computes and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0) (howed := fun _ _ => rfl)
    (u₀ := initOf (Pipeline.cells cfgs cellOf_inj) (Pipeline.launchToks cfgs cellOf_inj)) (hu₀ := Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => emp_sep_intro) (hin := fun c => emp_sep_elim) (hout := fun c => emp_sep_intro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME, at any float instance: the program runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (by decide)).trans (V_main_arg1 m c),
      ((h c).1 65).trans (((dats m 0 c).arrAt_in 65 rfl _).trans ((A_eq m c 65).trans (V_main_arg2 m c)))⟩) (run_main m ρ)

end Cert.Kernel.Hand

end
-- ==== Proof.KIEntry.lean ====
/-
  The region's entry.  @main converts the weights to the narrower float format (one host operation writing a
  fresh buffer) and then enters its one region; so at the region's entry every argument array holds what it was
  launched with, and the converted weights hold the conversion of the second argument.
-/
import proofs.«155339_j73821897884183_2_alg».proof.Proof.Gen.KernelIdeal.Launch
import proofs.«155339_j73821897884183_2_alg».proof.Proof.Gen.KernelIdeal.Skeleton
import proofs.«155339_j73821897884183_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers of core c when the region is entered: after the one host operation. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KIBodyRun.lean ====
/-
  The body at one grid point, run symbolically.

  The body is handed 64 staged input rows, the staged weights, the staged bias and the output block's buffer.  It
  only loads from the first 66 buffers, so they end as they began; into the output buffer it makes four stores,
  one per output row of the point, each covering that row's slice.  The list of the four stored pieces (last
  store first) is what this run finds; that the body runs to its continuation with exactly those pieces written
  is its proof.
-/
import proofs.«155339_j73821897884183_2_alg».proof.Proof.KIEntry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A whole buffer owned at contents X is its points-to at the raw contents that read as X. -/
theorem owns_eq_unread (c : Dev nD) {sp : Space} {sh : Shape} {e : EltTy} {m : Memref sig .tc sp sh e}
    (h : m.IsWhole) (q : PosShare TreeShare) (X : sh.Idx → Elt F e) :
    (owns (c : Thread nD τ) m q X : sProp 𝕄) = (m.view.loc (c : Thread nD τ) ↦[m.view.set]{q} h.unread X) := by
  unfold owns
  have h₁ : iprop(∃ f, ⌜m.view.read (Elt F) f = X⌝ ∗ (m.view.loc (c : Thread nD τ) ↦[m.view.set]{q} f))
      ⊢ (m.view.loc (c : Thread nD τ) ↦[m.view.set]{q} h.unread X : sProp 𝕄) := by
    iintro ⟨%f, %hf, H⟩
    obtain rfl := h.eq_unread hf
    iexact H
  have h₂ : (m.view.loc (c : Thread nD τ) ↦[m.view.set]{q} h.unread X : sProp 𝕄)
      ⊢ iprop(∃ f, ⌜m.view.read (Elt F) f = X⌝ ∗ (m.view.loc (c : Thread nD τ) ↦[m.view.set]{q} f)) := by
    iintro H
    iexists _
    isplitr
    · ipureintro; exact h.read_unread _
    iexact H
  exact BI.equiv_iff.mp ⟨h₁, h₂⟩

set_option maxHeartbeats 4000000 in
/-- The pieces the body's four stores leave in the output buffer, with the proof that on whole staging buffers,
    the inputs at given contents and the output at anything, the body runs to the continuation holding the inputs
    as they were and the output with the pieces written. -/
noncomputable def kernelRun (c : Dev nD) (i : grid0.Coords) (arg1 : Memref sig .tc .vmem S1x64x512 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x64x512 .f32) (harg7 : arg7.IsWhole) (arg8 : Memref sig .tc .vmem S1x64x512 .f32) (harg8 : arg8.IsWhole) (arg9 : Memref sig .tc .vmem S1x64x512 .f32) (harg9 : arg9.IsWhole) (arg10 : Memref sig .tc .vmem S1x64x512 .f32) (harg10 : arg10.IsWhole) (arg11 : Memref sig .tc .vmem S1x64x512 .f32) (harg11 : arg11.IsWhole) (arg12 : Memref sig .tc .vmem S1x64x512 .f32) (harg12 : arg12.IsWhole) (arg13 : Memref sig .tc .vmem S1x64x512 .f32) (harg13 : arg13.IsWhole) (arg14 : Memref sig .tc .vmem S1x64x512 .f32) (harg14 : arg14.IsWhole) (arg15 : Memref sig .tc .vmem S1x64x512 .f32) (harg15 : arg15.IsWhole) (arg16 : Memref sig .tc .vmem S1x64x512 .f32) (harg16 : arg16.IsWhole) (arg17 : Memref sig .tc .vmem S1x64x512 .f32) (harg17 : arg17.IsWhole) (arg18 : Memref sig .tc .vmem S1x64x512 .f32) (harg18 : arg18.IsWhole) (arg19 : Memref sig .tc .vmem S1x64x512 .f32) (harg19 : arg19.IsWhole) (arg20 : Memref sig .tc .vmem S1x64x512 .f32) (harg20 : arg20.IsWhole) (arg21 : Memref sig .tc .vmem S1x64x512 .f32) (harg21 : arg21.IsWhole) (arg22 : Memref sig .tc .vmem S1x64x512 .f32) (harg22 : arg22.IsWhole) (arg23 : Memref sig .tc .vmem S1x64x512 .f32) (harg23 : arg23.IsWhole) (arg24 : Memref sig .tc .vmem S1x64x512 .f32) (harg24 : arg24.IsWhole) (arg25 : Memref sig .tc .vmem S1x64x512 .f32) (harg25 : arg25.IsWhole) (arg26 : Memref sig .tc .vmem S1x64x512 .f32) (harg26 : arg26.IsWhole) (arg27 : Memref sig .tc .vmem S1x64x512 .f32) (harg27 : arg27.IsWhole) (arg28 : Memref sig .tc .vmem S1x64x512 .f32) (harg28 : arg28.IsWhole) (arg29 : Memref sig .tc .vmem S1x64x512 .f32) (harg29 : arg29.IsWhole) (arg30 : Memref sig .tc .vmem S1x64x512 .f32) (harg30 : arg30.IsWhole) (arg31 : Memref sig .tc .vmem S1x64x512 .f32) (harg31 : arg31.IsWhole) (arg32 : Memref sig .tc .vmem S1x64x512 .f32) (harg32 : arg32.IsWhole) (arg33 : Memref sig .tc .vmem S1x64x512 .f32) (harg33 : arg33.IsWhole) (arg34 : Memref sig .tc .vmem S1x64x512 .f32) (harg34 : arg34.IsWhole) (arg35 : Memref sig .tc .vmem S1x64x512 .f32) (harg35 : arg35.IsWhole) (arg36 : Memref sig .tc .vmem S1x64x512 .f32) (harg36 : arg36.IsWhole) (arg37 : Memref sig .tc .vmem S1x64x512 .f32) (harg37 : arg37.IsWhole) (arg38 : Memref sig .tc .vmem S1x64x512 .f32) (harg38 : arg38.IsWhole) (arg39 : Memref sig .tc .vmem S1x64x512 .f32) (harg39 : arg39.IsWhole) (arg40 : Memref sig .tc .vmem S1x64x512 .f32) (harg40 : arg40.IsWhole) (arg41 : Memref sig .tc .vmem S1x64x512 .f32) (harg41 : arg41.IsWhole) (arg42 : Memref sig .tc .vmem S1x64x512 .f32) (harg42 : arg42.IsWhole) (arg43 : Memref sig .tc .vmem S1x64x512 .f32) (harg43 : arg43.IsWhole) (arg44 : Memref sig .tc .vmem S1x64x512 .f32) (harg44 : arg44.IsWhole) (arg45 : Memref sig .tc .vmem S1x64x512 .f32) (harg45 : arg45.IsWhole) (arg46 : Memref sig .tc .vmem S1x64x512 .f32) (harg46 : arg46.IsWhole) (arg47 : Memref sig .tc .vmem S1x64x512 .f32) (harg47 : arg47.IsWhole) (arg48 : Memref sig .tc .vmem S1x64x512 .f32) (harg48 : arg48.IsWhole) (arg49 : Memref sig .tc .vmem S1x64x512 .f32) (harg49 : arg49.IsWhole) (arg50 : Memref sig .tc .vmem S1x64x512 .f32) (harg50 : arg50.IsWhole) (arg51 : Memref sig .tc .vmem S1x64x512 .f32) (harg51 : arg51.IsWhole) (arg52 : Memref sig .tc .vmem S1x64x512 .f32) (harg52 : arg52.IsWhole) (arg53 : Memref sig .tc .vmem S1x64x512 .f32) (harg53 : arg53.IsWhole) (arg54 : Memref sig .tc .vmem S1x64x512 .f32) (harg54 : arg54.IsWhole) (arg55 : Memref sig .tc .vmem S1x64x512 .f32) (harg55 : arg55.IsWhole) (arg56 : Memref sig .tc .vmem S1x64x512 .f32) (harg56 : arg56.IsWhole) (arg57 : Memref sig .tc .vmem S1x64x512 .f32) (harg57 : arg57.IsWhole) (arg58 : Memref sig .tc .vmem S1x64x512 .f32) (harg58 : arg58.IsWhole) (arg59 : Memref sig .tc .vmem S1x64x512 .f32) (harg59 : arg59.IsWhole) (arg60 : Memref sig .tc .vmem S1x64x512 .f32) (harg60 : arg60.IsWhole) (arg61 : Memref sig .tc .vmem S1x64x512 .f32) (harg61 : arg61.IsWhole) (arg62 : Memref sig .tc .vmem S1x64x512 .f32) (harg62 : arg62.IsWhole) (arg63 : Memref sig .tc .vmem S1x64x512 .f32) (harg63 : arg63.IsWhole) (arg64 : Memref sig .tc .vmem S1x64x512 .f32) (harg64 : arg64.IsWhole) (arg65 : Memref sig .tc .vmem S16x512x512 .bf16) (harg65 : arg65.IsWhole) (arg66 : Memref sig .tc .vmem S512 .f32) (harg66 : arg66.IsWhole) (arg67 : Memref sig .tc .vmem S4x64x512 .f32) (harg67 : arg67.IsWhole)
    (x1 : Vec F S1x64x512 .f32) (x2 : Vec F S1x64x512 .f32) (x3 : Vec F S1x64x512 .f32) (x4 : Vec F S1x64x512 .f32) (x5 : Vec F S1x64x512 .f32) (x6 : Vec F S1x64x512 .f32) (x7 : Vec F S1x64x512 .f32) (x8 : Vec F S1x64x512 .f32) (x9 : Vec F S1x64x512 .f32) (x10 : Vec F S1x64x512 .f32) (x11 : Vec F S1x64x512 .f32) (x12 : Vec F S1x64x512 .f32) (x13 : Vec F S1x64x512 .f32) (x14 : Vec F S1x64x512 .f32) (x15 : Vec F S1x64x512 .f32) (x16 : Vec F S1x64x512 .f32) (x17 : Vec F S1x64x512 .f32) (x18 : Vec F S1x64x512 .f32) (x19 : Vec F S1x64x512 .f32) (x20 : Vec F S1x64x512 .f32) (x21 : Vec F S1x64x512 .f32) (x22 : Vec F S1x64x512 .f32) (x23 : Vec F S1x64x512 .f32) (x24 : Vec F S1x64x512 .f32) (x25 : Vec F S1x64x512 .f32) (x26 : Vec F S1x64x512 .f32) (x27 : Vec F S1x64x512 .f32) (x28 : Vec F S1x64x512 .f32) (x29 : Vec F S1x64x512 .f32) (x30 : Vec F S1x64x512 .f32) (x31 : Vec F S1x64x512 .f32) (x32 : Vec F S1x64x512 .f32) (x33 : Vec F S1x64x512 .f32) (x34 : Vec F S1x64x512 .f32) (x35 : Vec F S1x64x512 .f32) (x36 : Vec F S1x64x512 .f32) (x37 : Vec F S1x64x512 .f32) (x38 : Vec F S1x64x512 .f32) (x39 : Vec F S1x64x512 .f32) (x40 : Vec F S1x64x512 .f32) (x41 : Vec F S1x64x512 .f32) (x42 : Vec F S1x64x512 .f32) (x43 : Vec F S1x64x512 .f32) (x44 : Vec F S1x64x512 .f32) (x45 : Vec F S1x64x512 .f32) (x46 : Vec F S1x64x512 .f32) (x47 : Vec F S1x64x512 .f32) (x48 : Vec F S1x64x512 .f32) (x49 : Vec F S1x64x512 .f32) (x50 : Vec F S1x64x512 .f32) (x51 : Vec F S1x64x512 .f32) (x52 : Vec F S1x64x512 .f32) (x53 : Vec F S1x64x512 .f32) (x54 : Vec F S1x64x512 .f32) (x55 : Vec F S1x64x512 .f32) (x56 : Vec F S1x64x512 .f32) (x57 : Vec F S1x64x512 .f32) (x58 : Vec F S1x64x512 .f32) (x59 : Vec F S1x64x512 .f32) (x60 : Vec F S1x64x512 .f32) (x61 : Vec F S1x64x512 .f32) (x62 : Vec F S1x64x512 .f32) (x63 : Vec F S1x64x512 .f32) (x64 : Vec F S1x64x512 .f32) (x65 : Vec F S16x512x512 .bf16) (x66 : Vec F S512 .f32) :
    { L : List (View.Piece (Elt F) S4x64x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare x44 ∗ owns (c : Thread nD τ) arg45 fullShare x45 ∗ owns (c : Thread nD τ) arg46 fullShare x46 ∗ owns (c : Thread nD τ) arg47 fullShare x47 ∗ owns (c : Thread nD τ) arg48 fullShare x48 ∗ owns (c : Thread nD τ) arg49 fullShare x49 ∗ owns (c : Thread nD τ) arg50 fullShare x50 ∗ owns (c : Thread nD τ) arg51 fullShare x51 ∗ owns (c : Thread nD τ) arg52 fullShare x52 ∗ owns (c : Thread nD τ) arg53 fullShare x53 ∗ owns (c : Thread nD τ) arg54 fullShare x54 ∗ owns (c : Thread nD τ) arg55 fullShare x55 ∗ owns (c : Thread nD τ) arg56 fullShare x56 ∗ owns (c : Thread nD τ) arg57 fullShare x57 ∗ owns (c : Thread nD τ) arg58 fullShare x58 ∗ owns (c : Thread nD τ) arg59 fullShare x59 ∗ owns (c : Thread nD τ) arg60 fullShare x60 ∗ owns (c : Thread nD τ) arg61 fullShare x61 ∗ owns (c : Thread nD τ) arg62 fullShare x62 ∗ owns (c : Thread nD τ) arg63 fullShare x63 ∗ owns (c : Thread nD τ) arg64 fullShare x64 ∗ owns (c : Thread nD τ) arg65 fullShare x65 ∗ owns (c : Thread nD τ) arg66 fullShare x66 ∗ (∃ d, owns (c : Thread nD τ) arg67 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42 ∗ owns (c : Thread nD τ) arg43 fullShare x43 ∗ owns (c : Thread nD τ) arg44 fullShare x44 ∗ owns (c : Thread nD τ) arg45 fullShare x45 ∗ owns (c : Thread nD τ) arg46 fullShare x46 ∗ owns (c : Thread nD τ) arg47 fullShare x47 ∗ owns (c : Thread nD τ) arg48 fullShare x48 ∗ owns (c : Thread nD τ) arg49 fullShare x49 ∗ owns (c : Thread nD τ) arg50 fullShare x50 ∗ owns (c : Thread nD τ) arg51 fullShare x51 ∗ owns (c : Thread nD τ) arg52 fullShare x52 ∗ owns (c : Thread nD τ) arg53 fullShare x53 ∗ owns (c : Thread nD τ) arg54 fullShare x54 ∗ owns (c : Thread nD τ) arg55 fullShare x55 ∗ owns (c : Thread nD τ) arg56 fullShare x56 ∗ owns (c : Thread nD τ) arg57 fullShare x57 ∗ owns (c : Thread nD τ) arg58 fullShare x58 ∗ owns (c : Thread nD τ) arg59 fullShare x59 ∗ owns (c : Thread nD τ) arg60 fullShare x60 ∗ owns (c : Thread nD τ) arg61 fullShare x61 ∗ owns (c : Thread nD τ) arg62 fullShare x62 ∗ owns (c : Thread nD τ) arg63 fullShare x63 ∗ owns (c : Thread nD τ) arg64 fullShare x64 ∗ owns (c : Thread nD τ) arg65 fullShare x65 ∗ owns (c : Thread nD τ) arg66 fullShare x66 ∗ (∃ f, arg67.view.loc (c : Thread nD τ) ↦[arg67.view.set]{fullShare} arg67.view.writes (Elt F) f L)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67) K } := by
  refine ⟨?_, fun E K => ?run⟩
  case run =>
    simp only [owns_eq_unread c harg1, owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg12, owns_eq_unread c harg13, owns_eq_unread c harg14, owns_eq_unread c harg15, owns_eq_unread c harg16, owns_eq_unread c harg17, owns_eq_unread c harg18, owns_eq_unread c harg19, owns_eq_unread c harg20, owns_eq_unread c harg21, owns_eq_unread c harg22, owns_eq_unread c harg23, owns_eq_unread c harg24, owns_eq_unread c harg25, owns_eq_unread c harg26, owns_eq_unread c harg27, owns_eq_unread c harg28, owns_eq_unread c harg29, owns_eq_unread c harg30, owns_eq_unread c harg31, owns_eq_unread c harg32, owns_eq_unread c harg33, owns_eq_unread c harg34, owns_eq_unread c harg35, owns_eq_unread c harg36, owns_eq_unread c harg37, owns_eq_unread c harg38, owns_eq_unread c harg39, owns_eq_unread c harg40, owns_eq_unread c harg41, owns_eq_unread c harg42, owns_eq_unread c harg43, owns_eq_unread c harg44, owns_eq_unread c harg45, owns_eq_unread c harg46, owns_eq_unread c harg47, owns_eq_unread c harg48, owns_eq_unread c harg49, owns_eq_unread c harg50, owns_eq_unread c harg51, owns_eq_unread c harg52, owns_eq_unread c harg53, owns_eq_unread c harg54, owns_eq_unread c harg55, owns_eq_unread c harg56, owns_eq_unread c harg57, owns_eq_unread c harg58, owns_eq_unread c harg59, owns_eq_unread c harg60, owns_eq_unread c harg61, owns_eq_unread c harg62, owns_eq_unread c harg63, owns_eq_unread c harg64, owns_eq_unread c harg65, owns_eq_unread c harg66]
    simp only [cc0__kernel_eq_skeleton]; unfold cc0__kernel_skel
    unfold owns
    iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, ⟨%d67, %f67, -, H67⟩, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    isplitl [H44]; · iexact H44
    isplitl [H45]; · iexact H45
    isplitl [H46]; · iexact H46
    isplitl [H47]; · iexact H47
    isplitl [H48]; · iexact H48
    isplitl [H49]; · iexact H49
    isplitl [H50]; · iexact H50
    isplitl [H51]; · iexact H51
    isplitl [H52]; · iexact H52
    isplitl [H53]; · iexact H53
    isplitl [H54]; · iexact H54
    isplitl [H55]; · iexact H55
    isplitl [H56]; · iexact H56
    isplitl [H57]; · iexact H57
    isplitl [H58]; · iexact H58
    isplitl [H59]; · iexact H59
    isplitl [H60]; · iexact H60
    isplitl [H61]; · iexact H61
    isplitl [H62]; · iexact H62
    isplitl [H63]; · iexact H63
    isplitl [H64]; · iexact H64
    isplitl [H65]; · iexact H65
    isplitl [H66]; · iexact H66
    iexists _; iexact H67

end Cert.KernelIdeal.Hand

end
-- ==== Proof.KIData.lean ====
/-
  The proof data of the one pipelined region.

  At every grid point the 66 input windows hold their blocks of the arrays as the region found them, and the body
  leaves them so; the output window holds, after the body, the four stored pieces read back.  The 64 windows
  that read the first argument share that one array: its full share is dealt to them by repeated halving, window
  w < 63 getting the left half of what is left after w halvings and window 63 what is left after 63; the weights,
  the bias and the output are each one window's, at the full share.
-/
import proofs.«155339_j73821897884183_2_alg».proof.Proof.KIBodyRun
import proofs.«155339_j73821897884183_2_alg».proof.Proof.LibShareChain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the body is called with at a point -/

abbrev ms0 (t : Fin cfg0.N) : Memref sig .tc .vmem S1x64x512 .f32 := win0_0.stage (cfg0.slots t 0)
theorem hs0 (t : Fin cfg0.N) : (ms0 t).IsWhole := hstage0_0 ((cfg0.slots t 0).cast nbuf0_0)
abbrev ms1 (t : Fin cfg0.N) : Memref sig .tc .vmem S1x64x512 .f32 := win0_1.stage (cfg0.slots t 1)
theorem hs1 (t : Fin cfg0.N) : (ms1 t).IsWhole := hstage0_1 ((cfg0.slots t 1).cast nbuf0_1)
abbrev ms2 (t : Fin cfg0.N) : Memref sig .tc .vmem S1x64x512 .f32 := win0_2.stage (cfg0.slots t 2)
theorem hs2 (t : Fin cfg0.N) : (ms2 t).IsWhole := hstage0_2 ((cfg0.slots t 2).cast nbuf0_2)
abbrev ms3 (t : Fin cfg0.N) : Memref sig .tc .vmem S1x64x512 .f32 := win0_3.stage (cfg0.slots t 3)
theorem hs3 (t : Fin cfg0.N) : (ms3 t).IsWhole := hstage0_3 ((cfg0.slots t 3).cast nbuf0_3)
abbrev ms4 (t : Fin cfg0.N) : Memref sig .tc .vmem S1x64x512 .f32 := win0_4.stage (cfg0.slots t 4)
theorem hs4 (t : Fin cfg0.N) : (ms4 t).IsWhole := hstage0_4 ((cfg0.slots t 4).cast nbuf0_4)
abbrev ms5 (t : Fin cfg0.N) : Memref sig .tc .vmem S1x64x512 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S1x64x512 .f32 := win0_6.stage (cfg0.slots t 6)
theorem hs6 (t : Fin cfg0.N) : (ms6 t).IsWhole := hstage0_6 ((cfg0.slots t 6).cast nbuf0_6)
abbrev ms7 (t : Fin cfg0.N) : Memref sig .tc .vmem S1x64x512 .f32 := win0_7.stage (cfg0.slots t 7)
theorem hs7 (t : Fin cfg0.N) : (ms7 t).IsWhole := hstage0_7 ((cfg0.slots t 7).cast nbuf0_7)
abbrev ms8 (t : Fin cfg0.N) : Memref sig .tc .vmem S1x64x512 .f32 := win0_8.stage (cfg0.slots t 8)
theorem hs8 (t : Fin cfg0.N) : (ms8 t).IsWhole := hstage0_8 ((cfg0.slots t 8).cast nbuf0_8)
abbrev ms9 (t : Fin cfg0.N) : Memref sig .tc .vmem S1x64x512 .f32 := win0_9.stage (cfg0.slots t 9)
theorem hs9 (t : Fin cfg0.N) : (ms9 t).IsWhole := hstage0_9 ((cfg0.slots t 9).cast nbuf0_9)
abbrev ms10 (t : Fin cfg0.N) : Memref sig .tc .vmem S1x64x512 .f32 := win0_10.stage (cfg0.slots t 10)
theorem hs10 (t : Fin cfg0.N) : (ms10 t).IsWhole := hstage0_10 ((cfg0.slots t 10).cast nbuf0_10)
abbrev ms11 (t : Fin cfg0.N) : Memref sig .tc .vmem S1x64x512 .f32 := win0_11.stage (cfg0.slots t 11)
theorem hs11 (t : Fin cfg0.N) : (ms11 t).IsWhole := hstage0_11 ((cfg0.slots t 11).cast nbuf0_11)
abbrev ms12 (t : Fin cfg0.N) : Memref sig .tc .vmem S1x64x512 .f32 := win0_12.stage (cfg0.slots t 12)
theorem hs12 (t : Fin cfg0.N) : (ms12 t).IsWhole := hstage0_12 ((cfg0.slots t 12).cast nbuf0_12)
abbrev ms13 (t : Fin cfg0.N) : Memref sig .tc .vmem S1x64x512 .f32 := win0_13.stage (cfg0.slots t 13)
theorem hs13 (t : Fin cfg0.N) : (ms13 t).IsWhole := hstage0_13 ((cfg0.slots t 13).cast nbuf0_13)
abbrev ms14 (t : Fin cfg0.N) : Memref sig .tc .vmem S1x64x512 .f32 := win0_14.stage (cfg0.slots t 14)
theorem hs14 (t : Fin cfg0.N) : (ms14 t).IsWhole := hstage0_14 ((cfg0.slots t 14).cast nbuf0_14)
abbrev ms15 (t : Fin cfg0.N) : Memref sig .tc .vmem S1x64x512 .f32 := win0_15.stage (cfg0.slots t 15)
theorem hs15 (t : Fin cfg0.N) : (ms15 t).IsWhole := hstage0_15 ((cfg0.slots t 15).cast nbuf0_15)
abbrev ms16 (t : Fin cfg0.N) : Memref sig .tc .vmem S1x64x512 .f32 := win0_16.stage (cfg0.slots t 16)
theorem hs16 (t : Fin cfg0.N) : (ms16 t).IsWhole := hstage0_16 ((cfg0.slots t 16).cast nbuf0_16)
abbrev ms17 (t : Fin cfg0.N) : Memref sig .tc .vmem S1x64x512 .f32 := win0_17.stage (cfg0.slots t 17)
theorem hs17 (t : Fin cfg0.N) : (ms17 t).IsWhole := hstage0_17 ((cfg0.slots t 17).cast nbuf0_17)
abbrev ms18 (t : Fin cfg0.N) : Memref sig .tc .vmem S1x64x512 .f32 := win0_18.stage (cfg0.slots t 18)
theorem hs18 (t : Fin cfg0.N) : (ms18 t).IsWhole := hstage0_18 ((cfg0.slots t 18).cast nbuf0_18)
abbrev ms19 (t : Fin cfg0.N) : Memref sig .tc .vmem S1x64x512 .f32 := win0_19.stage (cfg0.slots t 19)
theorem hs19 (t : Fin cfg0.N) : (ms19 t).IsWhole := hstage0_19 ((cfg0.slots t 19).cast nbuf0_19)
abbrev ms20 (t : Fin cfg0.N) : Memref sig .tc .vmem S1x64x512 .f32 := win0_20.stage (cfg0.slots t 20)
theorem hs20 (t : Fin cfg0.N) : (ms20 t).IsWhole := hstage0_20 ((cfg0.slots t 20).cast nbuf0_20)
abbrev ms21 (t : Fin cfg0.N) : Memref sig .tc .vmem S1x64x512 .f32 := win0_21.stage (cfg0.slots t 21)
theorem hs21 (t : Fin cfg0.N) : (ms21 t).IsWhole := hstage0_21 ((cfg0.slots t 21).cast nbuf0_21)
abbrev ms22 (t : Fin cfg0.N) : Memref sig .tc .vmem S1x64x512 .f32 := win0_22.stage (cfg0.slots t 22)
theorem hs22 (t : Fin cfg0.N) : (ms22 t).IsWhole := hstage0_22 ((cfg0.slots t 22).cast nbuf0_22)
abbrev ms23 (t : Fin cfg0.N) : Memref sig .tc .vmem S1x64x512 .f32 := win0_23.stage (cfg0.slots t 23)
theorem hs23 (t : Fin cfg0.N) : (ms23 t).IsWhole := hstage0_23 ((cfg0.slots t 23).cast nbuf0_23)
abbrev ms24 (t : Fin cfg0.N) : Memref sig .tc .vmem S1x64x512 .f32 := win0_24.stage (cfg0.slots t 24)
theorem hs24 (t : Fin cfg0.N) : (ms24 t).IsWhole := hstage0_24 ((cfg0.slots t 24).cast nbuf0_24)
abbrev ms25 (t : Fin cfg0.N) : Memref sig .tc .vmem S1x64x512 .f32 := win0_25.stage (cfg0.slots t 25)
theorem hs25 (t : Fin cfg0.N) : (ms25 t).IsWhole := hstage0_25 ((cfg0.slots t 25).cast nbuf0_25)
abbrev ms26 (t : Fin cfg0.N) : Memref sig .tc .vmem S1x64x512 .f32 := win0_26.stage (cfg0.slots t 26)
theorem hs26 (t : Fin cfg0.N) : (ms26 t).IsWhole := hstage0_26 ((cfg0.slots t 26).cast nbuf0_26)
abbrev ms27 (t : Fin cfg0.N) : Memref sig .tc .vmem S1x64x512 .f32 := win0_27.stage (cfg0.slots t 27)
theorem hs27 (t : Fin cfg0.N) : (ms27 t).IsWhole := hstage0_27 ((cfg0.slots t 27).cast nbuf0_27)
abbrev ms28 (t : Fin cfg0.N) : Memref sig .tc .vmem S1x64x512 .f32 := win0_28.stage (cfg0.slots t 28)
theorem hs28 (t : Fin cfg0.N) : (ms28 t).IsWhole := hstage0_28 ((cfg0.slots t 28).cast nbuf0_28)
abbrev ms29 (t : Fin cfg0.N) : Memref sig .tc .vmem S1x64x512 .f32 := win0_29.stage (cfg0.slots t 29)
theorem hs29 (t : Fin cfg0.N) : (ms29 t).IsWhole := hstage0_29 ((cfg0.slots t 29).cast nbuf0_29)
abbrev ms30 (t : Fin cfg0.N) : Memref sig .tc .vmem S1x64x512 .f32 := win0_30.stage (cfg0.slots t 30)
theorem hs30 (t : Fin cfg0.N) : (ms30 t).IsWhole := hstage0_30 ((cfg0.slots t 30).cast nbuf0_30)
abbrev ms31 (t : Fin cfg0.N) : Memref sig .tc .vmem S1x64x512 .f32 := win0_31.stage (cfg0.slots t 31)
theorem hs31 (t : Fin cfg0.N) : (ms31 t).IsWhole := hstage0_31 ((cfg0.slots t 31).cast nbuf0_31)
abbrev ms32 (t : Fin cfg0.N) : Memref sig .tc .vmem S1x64x512 .f32 := win0_32.stage (cfg0.slots t 32)
theorem hs32 (t : Fin cfg0.N) : (ms32 t).IsWhole := hstage0_32 ((cfg0.slots t 32).cast nbuf0_32)
abbrev ms33 (t : Fin cfg0.N) : Memref sig .tc .vmem S1x64x512 .f32 := win0_33.stage (cfg0.slots t 33)
theorem hs33 (t : Fin cfg0.N) : (ms33 t).IsWhole := hstage0_33 ((cfg0.slots t 33).cast nbuf0_33)
abbrev ms34 (t : Fin cfg0.N) : Memref sig .tc .vmem S1x64x512 .f32 := win0_34.stage (cfg0.slots t 34)
theorem hs34 (t : Fin cfg0.N) : (ms34 t).IsWhole := hstage0_34 ((cfg0.slots t 34).cast nbuf0_34)
abbrev ms35 (t : Fin cfg0.N) : Memref sig .tc .vmem S1x64x512 .f32 := win0_35.stage (cfg0.slots t 35)
theorem hs35 (t : Fin cfg0.N) : (ms35 t).IsWhole := hstage0_35 ((cfg0.slots t 35).cast nbuf0_35)
abbrev ms36 (t : Fin cfg0.N) : Memref sig .tc .vmem S1x64x512 .f32 := win0_36.stage (cfg0.slots t 36)
theorem hs36 (t : Fin cfg0.N) : (ms36 t).IsWhole := hstage0_36 ((cfg0.slots t 36).cast nbuf0_36)
abbrev ms37 (t : Fin cfg0.N) : Memref sig .tc .vmem S1x64x512 .f32 := win0_37.stage (cfg0.slots t 37)
theorem hs37 (t : Fin cfg0.N) : (ms37 t).IsWhole := hstage0_37 ((cfg0.slots t 37).cast nbuf0_37)
abbrev ms38 (t : Fin cfg0.N) : Memref sig .tc .vmem S1x64x512 .f32 := win0_38.stage (cfg0.slots t 38)
theorem hs38 (t : Fin cfg0.N) : (ms38 t).IsWhole := hstage0_38 ((cfg0.slots t 38).cast nbuf0_38)
abbrev ms39 (t : Fin cfg0.N) : Memref sig .tc .vmem S1x64x512 .f32 := win0_39.stage (cfg0.slots t 39)
theorem hs39 (t : Fin cfg0.N) : (ms39 t).IsWhole := hstage0_39 ((cfg0.slots t 39).cast nbuf0_39)
abbrev ms40 (t : Fin cfg0.N) : Memref sig .tc .vmem S1x64x512 .f32 := win0_40.stage (cfg0.slots t 40)
theorem hs40 (t : Fin cfg0.N) : (ms40 t).IsWhole := hstage0_40 ((cfg0.slots t 40).cast nbuf0_40)
abbrev ms41 (t : Fin cfg0.N) : Memref sig .tc .vmem S1x64x512 .f32 := win0_41.stage (cfg0.slots t 41)
theorem hs41 (t : Fin cfg0.N) : (ms41 t).IsWhole := hstage0_41 ((cfg0.slots t 41).cast nbuf0_41)
abbrev ms42 (t : Fin cfg0.N) : Memref sig .tc .vmem S1x64x512 .f32 := win0_42.stage (cfg0.slots t 42)
theorem hs42 (t : Fin cfg0.N) : (ms42 t).IsWhole := hstage0_42 ((cfg0.slots t 42).cast nbuf0_42)
abbrev ms43 (t : Fin cfg0.N) : Memref sig .tc .vmem S1x64x512 .f32 := win0_43.stage (cfg0.slots t 43)
theorem hs43 (t : Fin cfg0.N) : (ms43 t).IsWhole := hstage0_43 ((cfg0.slots t 43).cast nbuf0_43)
abbrev ms44 (t : Fin cfg0.N) : Memref sig .tc .vmem S1x64x512 .f32 := win0_44.stage (cfg0.slots t 44)
theorem hs44 (t : Fin cfg0.N) : (ms44 t).IsWhole := hstage0_44 ((cfg0.slots t 44).cast nbuf0_44)
abbrev ms45 (t : Fin cfg0.N) : Memref sig .tc .vmem S1x64x512 .f32 := win0_45.stage (cfg0.slots t 45)
theorem hs45 (t : Fin cfg0.N) : (ms45 t).IsWhole := hstage0_45 ((cfg0.slots t 45).cast nbuf0_45)
abbrev ms46 (t : Fin cfg0.N) : Memref sig .tc .vmem S1x64x512 .f32 := win0_46.stage (cfg0.slots t 46)
theorem hs46 (t : Fin cfg0.N) : (ms46 t).IsWhole := hstage0_46 ((cfg0.slots t 46).cast nbuf0_46)
abbrev ms47 (t : Fin cfg0.N) : Memref sig .tc .vmem S1x64x512 .f32 := win0_47.stage (cfg0.slots t 47)
theorem hs47 (t : Fin cfg0.N) : (ms47 t).IsWhole := hstage0_47 ((cfg0.slots t 47).cast nbuf0_47)
abbrev ms48 (t : Fin cfg0.N) : Memref sig .tc .vmem S1x64x512 .f32 := win0_48.stage (cfg0.slots t 48)
theorem hs48 (t : Fin cfg0.N) : (ms48 t).IsWhole := hstage0_48 ((cfg0.slots t 48).cast nbuf0_48)
abbrev ms49 (t : Fin cfg0.N) : Memref sig .tc .vmem S1x64x512 .f32 := win0_49.stage (cfg0.slots t 49)
theorem hs49 (t : Fin cfg0.N) : (ms49 t).IsWhole := hstage0_49 ((cfg0.slots t 49).cast nbuf0_49)
abbrev ms50 (t : Fin cfg0.N) : Memref sig .tc .vmem S1x64x512 .f32 := win0_50.stage (cfg0.slots t 50)
theorem hs50 (t : Fin cfg0.N) : (ms50 t).IsWhole := hstage0_50 ((cfg0.slots t 50).cast nbuf0_50)
abbrev ms51 (t : Fin cfg0.N) : Memref sig .tc .vmem S1x64x512 .f32 := win0_51.stage (cfg0.slots t 51)
theorem hs51 (t : Fin cfg0.N) : (ms51 t).IsWhole := hstage0_51 ((cfg0.slots t 51).cast nbuf0_51)
abbrev ms52 (t : Fin cfg0.N) : Memref sig .tc .vmem S1x64x512 .f32 := win0_52.stage (cfg0.slots t 52)
theorem hs52 (t : Fin cfg0.N) : (ms52 t).IsWhole := hstage0_52 ((cfg0.slots t 52).cast nbuf0_52)
abbrev ms53 (t : Fin cfg0.N) : Memref sig .tc .vmem S1x64x512 .f32 := win0_53.stage (cfg0.slots t 53)
theorem hs53 (t : Fin cfg0.N) : (ms53 t).IsWhole := hstage0_53 ((cfg0.slots t 53).cast nbuf0_53)
abbrev ms54 (t : Fin cfg0.N) : Memref sig .tc .vmem S1x64x512 .f32 := win0_54.stage (cfg0.slots t 54)
theorem hs54 (t : Fin cfg0.N) : (ms54 t).IsWhole := hstage0_54 ((cfg0.slots t 54).cast nbuf0_54)
abbrev ms55 (t : Fin cfg0.N) : Memref sig .tc .vmem S1x64x512 .f32 := win0_55.stage (cfg0.slots t 55)
theorem hs55 (t : Fin cfg0.N) : (ms55 t).IsWhole := hstage0_55 ((cfg0.slots t 55).cast nbuf0_55)
abbrev ms56 (t : Fin cfg0.N) : Memref sig .tc .vmem S1x64x512 .f32 := win0_56.stage (cfg0.slots t 56)
theorem hs56 (t : Fin cfg0.N) : (ms56 t).IsWhole := hstage0_56 ((cfg0.slots t 56).cast nbuf0_56)
abbrev ms57 (t : Fin cfg0.N) : Memref sig .tc .vmem S1x64x512 .f32 := win0_57.stage (cfg0.slots t 57)
theorem hs57 (t : Fin cfg0.N) : (ms57 t).IsWhole := hstage0_57 ((cfg0.slots t 57).cast nbuf0_57)
abbrev ms58 (t : Fin cfg0.N) : Memref sig .tc .vmem S1x64x512 .f32 := win0_58.stage (cfg0.slots t 58)
theorem hs58 (t : Fin cfg0.N) : (ms58 t).IsWhole := hstage0_58 ((cfg0.slots t 58).cast nbuf0_58)
abbrev ms59 (t : Fin cfg0.N) : Memref sig .tc .vmem S1x64x512 .f32 := win0_59.stage (cfg0.slots t 59)
theorem hs59 (t : Fin cfg0.N) : (ms59 t).IsWhole := hstage0_59 ((cfg0.slots t 59).cast nbuf0_59)
abbrev ms60 (t : Fin cfg0.N) : Memref sig .tc .vmem S1x64x512 .f32 := win0_60.stage (cfg0.slots t 60)
theorem hs60 (t : Fin cfg0.N) : (ms60 t).IsWhole := hstage0_60 ((cfg0.slots t 60).cast nbuf0_60)
abbrev ms61 (t : Fin cfg0.N) : Memref sig .tc .vmem S1x64x512 .f32 := win0_61.stage (cfg0.slots t 61)
theorem hs61 (t : Fin cfg0.N) : (ms61 t).IsWhole := hstage0_61 ((cfg0.slots t 61).cast nbuf0_61)
abbrev ms62 (t : Fin cfg0.N) : Memref sig .tc .vmem S1x64x512 .f32 := win0_62.stage (cfg0.slots t 62)
theorem hs62 (t : Fin cfg0.N) : (ms62 t).IsWhole := hstage0_62 ((cfg0.slots t 62).cast nbuf0_62)
abbrev ms63 (t : Fin cfg0.N) : Memref sig .tc .vmem S1x64x512 .f32 := win0_63.stage (cfg0.slots t 63)
theorem hs63 (t : Fin cfg0.N) : (ms63 t).IsWhole := hstage0_63 ((cfg0.slots t 63).cast nbuf0_63)
abbrev ms64 (t : Fin cfg0.N) : Memref sig .tc .vmem S16x512x512 .bf16 := win0_64.stage (cfg0.slots t 64)
theorem hs64 (t : Fin cfg0.N) : (ms64 t).IsWhole := hstage0_64 ((cfg0.slots t 64).cast nbuf0_64)
abbrev ms65 (t : Fin cfg0.N) : Memref sig .tc .vmem S512 .f32 := win0_65.stage (cfg0.slots t 65)
theorem hs65 (t : Fin cfg0.N) : (ms65 t).IsWhole := hstage0_65 ((cfg0.slots t 65).cast nbuf0_65)
abbrev ms66 (t : Fin cfg0.N) : Memref sig .tc .vmem S4x64x512 .f32 := win0_66.stage (cfg0.slots t 66)
theorem hs66 (t : Fin cfg0.N) : (ms66 t).IsWhole := hstage0_66 ((cfg0.slots t 66).cast nbuf0_66)

/-! ## What the body leaves in the output window's buffer -/

/-- The four stored pieces tile the output block, so they cover it. -/
theorem cover66 (c : Dev nD) (i : grid0.Coords) (arg1 : Memref sig .tc .vmem S1x64x512 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x64x512 .f32) (harg7 : arg7.IsWhole) (arg8 : Memref sig .tc .vmem S1x64x512 .f32) (harg8 : arg8.IsWhole) (arg9 : Memref sig .tc .vmem S1x64x512 .f32) (harg9 : arg9.IsWhole) (arg10 : Memref sig .tc .vmem S1x64x512 .f32) (harg10 : arg10.IsWhole) (arg11 : Memref sig .tc .vmem S1x64x512 .f32) (harg11 : arg11.IsWhole) (arg12 : Memref sig .tc .vmem S1x64x512 .f32) (harg12 : arg12.IsWhole) (arg13 : Memref sig .tc .vmem S1x64x512 .f32) (harg13 : arg13.IsWhole) (arg14 : Memref sig .tc .vmem S1x64x512 .f32) (harg14 : arg14.IsWhole) (arg15 : Memref sig .tc .vmem S1x64x512 .f32) (harg15 : arg15.IsWhole) (arg16 : Memref sig .tc .vmem S1x64x512 .f32) (harg16 : arg16.IsWhole) (arg17 : Memref sig .tc .vmem S1x64x512 .f32) (harg17 : arg17.IsWhole) (arg18 : Memref sig .tc .vmem S1x64x512 .f32) (harg18 : arg18.IsWhole) (arg19 : Memref sig .tc .vmem S1x64x512 .f32) (harg19 : arg19.IsWhole) (arg20 : Memref sig .tc .vmem S1x64x512 .f32) (harg20 : arg20.IsWhole) (arg21 : Memref sig .tc .vmem S1x64x512 .f32) (harg21 : arg21.IsWhole) (arg22 : Memref sig .tc .vmem S1x64x512 .f32) (harg22 : arg22.IsWhole) (arg23 : Memref sig .tc .vmem S1x64x512 .f32) (harg23 : arg23.IsWhole) (arg24 : Memref sig .tc .vmem S1x64x512 .f32) (harg24 : arg24.IsWhole) (arg25 : Memref sig .tc .vmem S1x64x512 .f32) (harg25 : arg25.IsWhole) (arg26 : Memref sig .tc .vmem S1x64x512 .f32) (harg26 : arg26.IsWhole) (arg27 : Memref sig .tc .vmem S1x64x512 .f32) (harg27 : arg27.IsWhole) (arg28 : Memref sig .tc .vmem S1x64x512 .f32) (harg28 : arg28.IsWhole) (arg29 : Memref sig .tc .vmem S1x64x512 .f32) (harg29 : arg29.IsWhole) (arg30 : Memref sig .tc .vmem S1x64x512 .f32) (harg30 : arg30.IsWhole) (arg31 : Memref sig .tc .vmem S1x64x512 .f32) (harg31 : arg31.IsWhole) (arg32 : Memref sig .tc .vmem S1x64x512 .f32) (harg32 : arg32.IsWhole) (arg33 : Memref sig .tc .vmem S1x64x512 .f32) (harg33 : arg33.IsWhole) (arg34 : Memref sig .tc .vmem S1x64x512 .f32) (harg34 : arg34.IsWhole) (arg35 : Memref sig .tc .vmem S1x64x512 .f32) (harg35 : arg35.IsWhole) (arg36 : Memref sig .tc .vmem S1x64x512 .f32) (harg36 : arg36.IsWhole) (arg37 : Memref sig .tc .vmem S1x64x512 .f32) (harg37 : arg37.IsWhole) (arg38 : Memref sig .tc .vmem S1x64x512 .f32) (harg38 : arg38.IsWhole) (arg39 : Memref sig .tc .vmem S1x64x512 .f32) (harg39 : arg39.IsWhole) (arg40 : Memref sig .tc .vmem S1x64x512 .f32) (harg40 : arg40.IsWhole) (arg41 : Memref sig .tc .vmem S1x64x512 .f32) (harg41 : arg41.IsWhole) (arg42 : Memref sig .tc .vmem S1x64x512 .f32) (harg42 : arg42.IsWhole) (arg43 : Memref sig .tc .vmem S1x64x512 .f32) (harg43 : arg43.IsWhole) (arg44 : Memref sig .tc .vmem S1x64x512 .f32) (harg44 : arg44.IsWhole) (arg45 : Memref sig .tc .vmem S1x64x512 .f32) (harg45 : arg45.IsWhole) (arg46 : Memref sig .tc .vmem S1x64x512 .f32) (harg46 : arg46.IsWhole) (arg47 : Memref sig .tc .vmem S1x64x512 .f32) (harg47 : arg47.IsWhole) (arg48 : Memref sig .tc .vmem S1x64x512 .f32) (harg48 : arg48.IsWhole) (arg49 : Memref sig .tc .vmem S1x64x512 .f32) (harg49 : arg49.IsWhole) (arg50 : Memref sig .tc .vmem S1x64x512 .f32) (harg50 : arg50.IsWhole) (arg51 : Memref sig .tc .vmem S1x64x512 .f32) (harg51 : arg51.IsWhole) (arg52 : Memref sig .tc .vmem S1x64x512 .f32) (harg52 : arg52.IsWhole) (arg53 : Memref sig .tc .vmem S1x64x512 .f32) (harg53 : arg53.IsWhole) (arg54 : Memref sig .tc .vmem S1x64x512 .f32) (harg54 : arg54.IsWhole) (arg55 : Memref sig .tc .vmem S1x64x512 .f32) (harg55 : arg55.IsWhole) (arg56 : Memref sig .tc .vmem S1x64x512 .f32) (harg56 : arg56.IsWhole) (arg57 : Memref sig .tc .vmem S1x64x512 .f32) (harg57 : arg57.IsWhole) (arg58 : Memref sig .tc .vmem S1x64x512 .f32) (harg58 : arg58.IsWhole) (arg59 : Memref sig .tc .vmem S1x64x512 .f32) (harg59 : arg59.IsWhole) (arg60 : Memref sig .tc .vmem S1x64x512 .f32) (harg60 : arg60.IsWhole) (arg61 : Memref sig .tc .vmem S1x64x512 .f32) (harg61 : arg61.IsWhole) (arg62 : Memref sig .tc .vmem S1x64x512 .f32) (harg62 : arg62.IsWhole) (arg63 : Memref sig .tc .vmem S1x64x512 .f32) (harg63 : arg63.IsWhole) (arg64 : Memref sig .tc .vmem S1x64x512 .f32) (harg64 : arg64.IsWhole) (arg65 : Memref sig .tc .vmem S16x512x512 .bf16) (harg65 : arg65.IsWhole) (arg66 : Memref sig .tc .vmem S512 .f32) (harg66 : arg66.IsWhole) (arg67 : Memref sig .tc .vmem S4x64x512 .f32) (harg67 : arg67.IsWhole)
    (x1 : Vec F S1x64x512 .f32) (x2 : Vec F S1x64x512 .f32) (x3 : Vec F S1x64x512 .f32) (x4 : Vec F S1x64x512 .f32) (x5 : Vec F S1x64x512 .f32) (x6 : Vec F S1x64x512 .f32) (x7 : Vec F S1x64x512 .f32) (x8 : Vec F S1x64x512 .f32) (x9 : Vec F S1x64x512 .f32) (x10 : Vec F S1x64x512 .f32) (x11 : Vec F S1x64x512 .f32) (x12 : Vec F S1x64x512 .f32) (x13 : Vec F S1x64x512 .f32) (x14 : Vec F S1x64x512 .f32) (x15 : Vec F S1x64x512 .f32) (x16 : Vec F S1x64x512 .f32) (x17 : Vec F S1x64x512 .f32) (x18 : Vec F S1x64x512 .f32) (x19 : Vec F S1x64x512 .f32) (x20 : Vec F S1x64x512 .f32) (x21 : Vec F S1x64x512 .f32) (x22 : Vec F S1x64x512 .f32) (x23 : Vec F S1x64x512 .f32) (x24 : Vec F S1x64x512 .f32) (x25 : Vec F S1x64x512 .f32) (x26 : Vec F S1x64x512 .f32) (x27 : Vec F S1x64x512 .f32) (x28 : Vec F S1x64x512 .f32) (x29 : Vec F S1x64x512 .f32) (x30 : Vec F S1x64x512 .f32) (x31 : Vec F S1x64x512 .f32) (x32 : Vec F S1x64x512 .f32) (x33 : Vec F S1x64x512 .f32) (x34 : Vec F S1x64x512 .f32) (x35 : Vec F S1x64x512 .f32) (x36 : Vec F S1x64x512 .f32) (x37 : Vec F S1x64x512 .f32) (x38 : Vec F S1x64x512 .f32) (x39 : Vec F S1x64x512 .f32) (x40 : Vec F S1x64x512 .f32) (x41 : Vec F S1x64x512 .f32) (x42 : Vec F S1x64x512 .f32) (x43 : Vec F S1x64x512 .f32) (x44 : Vec F S1x64x512 .f32) (x45 : Vec F S1x64x512 .f32) (x46 : Vec F S1x64x512 .f32) (x47 : Vec F S1x64x512 .f32) (x48 : Vec F S1x64x512 .f32) (x49 : Vec F S1x64x512 .f32) (x50 : Vec F S1x64x512 .f32) (x51 : Vec F S1x64x512 .f32) (x52 : Vec F S1x64x512 .f32) (x53 : Vec F S1x64x512 .f32) (x54 : Vec F S1x64x512 .f32) (x55 : Vec F S1x64x512 .f32) (x56 : Vec F S1x64x512 .f32) (x57 : Vec F S1x64x512 .f32) (x58 : Vec F S1x64x512 .f32) (x59 : Vec F S1x64x512 .f32) (x60 : Vec F S1x64x512 .f32) (x61 : Vec F S1x64x512 .f32) (x62 : Vec F S1x64x512 .f32) (x63 : Vec F S1x64x512 .f32) (x64 : Vec F S1x64x512 .f32) (x65 : Vec F S16x512x512 .bf16) (x66 : Vec F S512 .f32) (y : S4x64x512.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66).1 S1x64x512.size (by sl_kernel_rfl) y

/-- The output window's view, for reading the pieces back. -/
abbrev VO : View sig .tc .vmem S4x64x512 .f32 := (Memref.whole cc0_stg66_0 : Memref sig .tc .vmem S4x64x512 .f32).view

/-- What the body leaves in the output buffer: its pieces read back over anything. -/
def out66 (c : Dev nD) (i : grid0.Coords) (arg1 : Memref sig .tc .vmem S1x64x512 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x64x512 .f32) (harg7 : arg7.IsWhole) (arg8 : Memref sig .tc .vmem S1x64x512 .f32) (harg8 : arg8.IsWhole) (arg9 : Memref sig .tc .vmem S1x64x512 .f32) (harg9 : arg9.IsWhole) (arg10 : Memref sig .tc .vmem S1x64x512 .f32) (harg10 : arg10.IsWhole) (arg11 : Memref sig .tc .vmem S1x64x512 .f32) (harg11 : arg11.IsWhole) (arg12 : Memref sig .tc .vmem S1x64x512 .f32) (harg12 : arg12.IsWhole) (arg13 : Memref sig .tc .vmem S1x64x512 .f32) (harg13 : arg13.IsWhole) (arg14 : Memref sig .tc .vmem S1x64x512 .f32) (harg14 : arg14.IsWhole) (arg15 : Memref sig .tc .vmem S1x64x512 .f32) (harg15 : arg15.IsWhole) (arg16 : Memref sig .tc .vmem S1x64x512 .f32) (harg16 : arg16.IsWhole) (arg17 : Memref sig .tc .vmem S1x64x512 .f32) (harg17 : arg17.IsWhole) (arg18 : Memref sig .tc .vmem S1x64x512 .f32) (harg18 : arg18.IsWhole) (arg19 : Memref sig .tc .vmem S1x64x512 .f32) (harg19 : arg19.IsWhole) (arg20 : Memref sig .tc .vmem S1x64x512 .f32) (harg20 : arg20.IsWhole) (arg21 : Memref sig .tc .vmem S1x64x512 .f32) (harg21 : arg21.IsWhole) (arg22 : Memref sig .tc .vmem S1x64x512 .f32) (harg22 : arg22.IsWhole) (arg23 : Memref sig .tc .vmem S1x64x512 .f32) (harg23 : arg23.IsWhole) (arg24 : Memref sig .tc .vmem S1x64x512 .f32) (harg24 : arg24.IsWhole) (arg25 : Memref sig .tc .vmem S1x64x512 .f32) (harg25 : arg25.IsWhole) (arg26 : Memref sig .tc .vmem S1x64x512 .f32) (harg26 : arg26.IsWhole) (arg27 : Memref sig .tc .vmem S1x64x512 .f32) (harg27 : arg27.IsWhole) (arg28 : Memref sig .tc .vmem S1x64x512 .f32) (harg28 : arg28.IsWhole) (arg29 : Memref sig .tc .vmem S1x64x512 .f32) (harg29 : arg29.IsWhole) (arg30 : Memref sig .tc .vmem S1x64x512 .f32) (harg30 : arg30.IsWhole) (arg31 : Memref sig .tc .vmem S1x64x512 .f32) (harg31 : arg31.IsWhole) (arg32 : Memref sig .tc .vmem S1x64x512 .f32) (harg32 : arg32.IsWhole) (arg33 : Memref sig .tc .vmem S1x64x512 .f32) (harg33 : arg33.IsWhole) (arg34 : Memref sig .tc .vmem S1x64x512 .f32) (harg34 : arg34.IsWhole) (arg35 : Memref sig .tc .vmem S1x64x512 .f32) (harg35 : arg35.IsWhole) (arg36 : Memref sig .tc .vmem S1x64x512 .f32) (harg36 : arg36.IsWhole) (arg37 : Memref sig .tc .vmem S1x64x512 .f32) (harg37 : arg37.IsWhole) (arg38 : Memref sig .tc .vmem S1x64x512 .f32) (harg38 : arg38.IsWhole) (arg39 : Memref sig .tc .vmem S1x64x512 .f32) (harg39 : arg39.IsWhole) (arg40 : Memref sig .tc .vmem S1x64x512 .f32) (harg40 : arg40.IsWhole) (arg41 : Memref sig .tc .vmem S1x64x512 .f32) (harg41 : arg41.IsWhole) (arg42 : Memref sig .tc .vmem S1x64x512 .f32) (harg42 : arg42.IsWhole) (arg43 : Memref sig .tc .vmem S1x64x512 .f32) (harg43 : arg43.IsWhole) (arg44 : Memref sig .tc .vmem S1x64x512 .f32) (harg44 : arg44.IsWhole) (arg45 : Memref sig .tc .vmem S1x64x512 .f32) (harg45 : arg45.IsWhole) (arg46 : Memref sig .tc .vmem S1x64x512 .f32) (harg46 : arg46.IsWhole) (arg47 : Memref sig .tc .vmem S1x64x512 .f32) (harg47 : arg47.IsWhole) (arg48 : Memref sig .tc .vmem S1x64x512 .f32) (harg48 : arg48.IsWhole) (arg49 : Memref sig .tc .vmem S1x64x512 .f32) (harg49 : arg49.IsWhole) (arg50 : Memref sig .tc .vmem S1x64x512 .f32) (harg50 : arg50.IsWhole) (arg51 : Memref sig .tc .vmem S1x64x512 .f32) (harg51 : arg51.IsWhole) (arg52 : Memref sig .tc .vmem S1x64x512 .f32) (harg52 : arg52.IsWhole) (arg53 : Memref sig .tc .vmem S1x64x512 .f32) (harg53 : arg53.IsWhole) (arg54 : Memref sig .tc .vmem S1x64x512 .f32) (harg54 : arg54.IsWhole) (arg55 : Memref sig .tc .vmem S1x64x512 .f32) (harg55 : arg55.IsWhole) (arg56 : Memref sig .tc .vmem S1x64x512 .f32) (harg56 : arg56.IsWhole) (arg57 : Memref sig .tc .vmem S1x64x512 .f32) (harg57 : arg57.IsWhole) (arg58 : Memref sig .tc .vmem S1x64x512 .f32) (harg58 : arg58.IsWhole) (arg59 : Memref sig .tc .vmem S1x64x512 .f32) (harg59 : arg59.IsWhole) (arg60 : Memref sig .tc .vmem S1x64x512 .f32) (harg60 : arg60.IsWhole) (arg61 : Memref sig .tc .vmem S1x64x512 .f32) (harg61 : arg61.IsWhole) (arg62 : Memref sig .tc .vmem S1x64x512 .f32) (harg62 : arg62.IsWhole) (arg63 : Memref sig .tc .vmem S1x64x512 .f32) (harg63 : arg63.IsWhole) (arg64 : Memref sig .tc .vmem S1x64x512 .f32) (harg64 : arg64.IsWhole) (arg65 : Memref sig .tc .vmem S16x512x512 .bf16) (harg65 : arg65.IsWhole) (arg66 : Memref sig .tc .vmem S512 .f32) (harg66 : arg66.IsWhole) (arg67 : Memref sig .tc .vmem S4x64x512 .f32) (harg67 : arg67.IsWhole)
    (x1 : Vec F S1x64x512 .f32) (x2 : Vec F S1x64x512 .f32) (x3 : Vec F S1x64x512 .f32) (x4 : Vec F S1x64x512 .f32) (x5 : Vec F S1x64x512 .f32) (x6 : Vec F S1x64x512 .f32) (x7 : Vec F S1x64x512 .f32) (x8 : Vec F S1x64x512 .f32) (x9 : Vec F S1x64x512 .f32) (x10 : Vec F S1x64x512 .f32) (x11 : Vec F S1x64x512 .f32) (x12 : Vec F S1x64x512 .f32) (x13 : Vec F S1x64x512 .f32) (x14 : Vec F S1x64x512 .f32) (x15 : Vec F S1x64x512 .f32) (x16 : Vec F S1x64x512 .f32) (x17 : Vec F S1x64x512 .f32) (x18 : Vec F S1x64x512 .f32) (x19 : Vec F S1x64x512 .f32) (x20 : Vec F S1x64x512 .f32) (x21 : Vec F S1x64x512 .f32) (x22 : Vec F S1x64x512 .f32) (x23 : Vec F S1x64x512 .f32) (x24 : Vec F S1x64x512 .f32) (x25 : Vec F S1x64x512 .f32) (x26 : Vec F S1x64x512 .f32) (x27 : Vec F S1x64x512 .f32) (x28 : Vec F S1x64x512 .f32) (x29 : Vec F S1x64x512 .f32) (x30 : Vec F S1x64x512 .f32) (x31 : Vec F S1x64x512 .f32) (x32 : Vec F S1x64x512 .f32) (x33 : Vec F S1x64x512 .f32) (x34 : Vec F S1x64x512 .f32) (x35 : Vec F S1x64x512 .f32) (x36 : Vec F S1x64x512 .f32) (x37 : Vec F S1x64x512 .f32) (x38 : Vec F S1x64x512 .f32) (x39 : Vec F S1x64x512 .f32) (x40 : Vec F S1x64x512 .f32) (x41 : Vec F S1x64x512 .f32) (x42 : Vec F S1x64x512 .f32) (x43 : Vec F S1x64x512 .f32) (x44 : Vec F S1x64x512 .f32) (x45 : Vec F S1x64x512 .f32) (x46 : Vec F S1x64x512 .f32) (x47 : Vec F S1x64x512 .f32) (x48 : Vec F S1x64x512 .f32) (x49 : Vec F S1x64x512 .f32) (x50 : Vec F S1x64x512 .f32) (x51 : Vec F S1x64x512 .f32) (x52 : Vec F S1x64x512 .f32) (x53 : Vec F S1x64x512 .f32) (x54 : Vec F S1x64x512 .f32) (x55 : Vec F S1x64x512 .f32) (x56 : Vec F S1x64x512 .f32) (x57 : Vec F S1x64x512 .f32) (x58 : Vec F S1x64x512 .f32) (x59 : Vec F S1x64x512 .f32) (x60 : Vec F S1x64x512 .f32) (x61 : Vec F S1x64x512 .f32) (x62 : Vec F S1x64x512 .f32) (x63 : Vec F S1x64x512 .f32) (x64 : Vec F S1x64x512 .f32) (x65 : Vec F S16x512x512 .bf16) (x66 : Vec F S512 .f32) : Vec F S4x64x512 .f32 :=
  VO.read (Elt F) (VO.writes (Elt F) VO.junk (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66).1)

/-! ## The proof data -/

/-- The share of the first argument's array that window w holds. -/
def winShare (w : Fin cfg0.W) : PosShare TreeShare :=
  if w.val < 64 then Cert.LibShareChain.deal fullShare 63 w.val else fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => iblk m c 44 t
    | ⟨45, _⟩ => iblk m c 45 t
    | ⟨46, _⟩ => iblk m c 46 t
    | ⟨47, _⟩ => iblk m c 47 t
    | ⟨48, _⟩ => iblk m c 48 t
    | ⟨49, _⟩ => iblk m c 49 t
    | ⟨50, _⟩ => iblk m c 50 t
    | ⟨51, _⟩ => iblk m c 51 t
    | ⟨52, _⟩ => iblk m c 52 t
    | ⟨53, _⟩ => iblk m c 53 t
    | ⟨54, _⟩ => iblk m c 54 t
    | ⟨55, _⟩ => iblk m c 55 t
    | ⟨56, _⟩ => iblk m c 56 t
    | ⟨57, _⟩ => iblk m c 57 t
    | ⟨58, _⟩ => iblk m c 58 t
    | ⟨59, _⟩ => iblk m c 59 t
    | ⟨60, _⟩ => iblk m c 60 t
    | ⟨61, _⟩ => iblk m c 61 t
    | ⟨62, _⟩ => iblk m c 62 t
    | ⟨63, _⟩ => iblk m c 63 t
    | ⟨64, _⟩ => iblk m c 64 t
    | ⟨65, _⟩ => iblk m c 65 t
    | ⟨66, _⟩ => out66 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) (ms36 t) (hs36 t) (ms37 t) (hs37 t) (ms38 t) (hs38 t) (ms39 t) (hs39 t) (ms40 t) (hs40 t) (ms41 t) (hs41 t) (ms42 t) (hs42 t) (ms43 t) (hs43 t) (ms44 t) (hs44 t) (ms45 t) (hs45 t) (ms46 t) (hs46 t) (ms47 t) (hs47 t) (ms48 t) (hs48 t) (ms49 t) (hs49 t) (ms50 t) (hs50 t) (ms51 t) (hs51 t) (ms52 t) (hs52 t) (ms53 t) (hs53 t) (ms54 t) (hs54 t) (ms55 t) (hs55 t) (ms56 t) (hs56 t) (ms57 t) (hs57 t) (ms58 t) (hs58 t) (ms59 t) (hs59 t) (ms60 t) (hs60 t) (ms61 t) (hs61 t) (ms62 t) (hs62 t) (ms63 t) (hs63 t) (ms64 t) (hs64 t) (ms65 t) (hs65 t) (ms66 t) (hs66 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) (iblk m c 47 t) (iblk m c 48 t) (iblk m c 49 t) (iblk m c 50 t) (iblk m c 51 t) (iblk m c 52 t) (iblk m c 53 t) (iblk m c 54 t) (iblk m c 55 t) (iblk m c 56 t) (iblk m c 57 t) (iblk m c 58 t) (iblk m c 59 t) (iblk m c 60 t) (iblk m c 61 t) (iblk m c 62 t) (iblk m c 63 t) (iblk m c 64 t) (iblk m c 65 t)
    | ⟨_ + 67, h⟩ => absurd h (Nat.not_lt.2 (Nat.le_add_left _ _))
  Φ _ := Pipeline.scopedRest (Ix := Unit) (Name := ℕ) (U := UR sig nD τ) (Lvl := ℕ) (Val := Elt F) spec0 c
  q w := winShare w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = iblk m c 28 t := by dsimp only [dats]
theorem after29 (c : Dev nD) (t : Fin cfg0.N) : (dats m 0 c).after 29 t = iblk m c 29 t := by dsimp only [dats]
theorem after30 (c : Dev nD) (t : Fin cfg0.N) : (dats m 0 c).after 30 t = iblk m c 30 t := by dsimp only [dats]
theorem after31 (c : Dev nD) (t : Fin cfg0.N) : (dats m 0 c).after 31 t = iblk m c 31 t := by dsimp only [dats]
theorem after32 (c : Dev nD) (t : Fin cfg0.N) : (dats m 0 c).after 32 t = iblk m c 32 t := by dsimp only [dats]
theorem after33 (c : Dev nD) (t : Fin cfg0.N) : (dats m 0 c).after 33 t = iblk m c 33 t := by dsimp only [dats]
theorem after34 (c : Dev nD) (t : Fin cfg0.N) : (dats m 0 c).after 34 t = iblk m c 34 t := by dsimp only [dats]
theorem after35 (c : Dev nD) (t : Fin cfg0.N) : (dats m 0 c).after 35 t = iblk m c 35 t := by dsimp only [dats]
theorem after36 (c : Dev nD) (t : Fin cfg0.N) : (dats m 0 c).after 36 t = iblk m c 36 t := by dsimp only [dats]
theorem after37 (c : Dev nD) (t : Fin cfg0.N) : (dats m 0 c).after 37 t = iblk m c 37 t := by dsimp only [dats]
theorem after38 (c : Dev nD) (t : Fin cfg0.N) : (dats m 0 c).after 38 t = iblk m c 38 t := by dsimp only [dats]
theorem after39 (c : Dev nD) (t : Fin cfg0.N) : (dats m 0 c).after 39 t = iblk m c 39 t := by dsimp only [dats]
theorem after40 (c : Dev nD) (t : Fin cfg0.N) : (dats m 0 c).after 40 t = iblk m c 40 t := by dsimp only [dats]
theorem after41 (c : Dev nD) (t : Fin cfg0.N) : (dats m 0 c).after 41 t = iblk m c 41 t := by dsimp only [dats]
theorem after42 (c : Dev nD) (t : Fin cfg0.N) : (dats m 0 c).after 42 t = iblk m c 42 t := by dsimp only [dats]
theorem after43 (c : Dev nD) (t : Fin cfg0.N) : (dats m 0 c).after 43 t = iblk m c 43 t := by dsimp only [dats]
theorem after44 (c : Dev nD) (t : Fin cfg0.N) : (dats m 0 c).after 44 t = iblk m c 44 t := by dsimp only [dats]
theorem after45 (c : Dev nD) (t : Fin cfg0.N) : (dats m 0 c).after 45 t = iblk m c 45 t := by dsimp only [dats]
theorem after46 (c : Dev nD) (t : Fin cfg0.N) : (dats m 0 c).after 46 t = iblk m c 46 t := by dsimp only [dats]
theorem after47 (c : Dev nD) (t : Fin cfg0.N) : (dats m 0 c).after 47 t = iblk m c 47 t := by dsimp only [dats]
theorem after48 (c : Dev nD) (t : Fin cfg0.N) : (dats m 0 c).after 48 t = iblk m c 48 t := by dsimp only [dats]
theorem after49 (c : Dev nD) (t : Fin cfg0.N) : (dats m 0 c).after 49 t = iblk m c 49 t := by dsimp only [dats]
theorem after50 (c : Dev nD) (t : Fin cfg0.N) : (dats m 0 c).after 50 t = iblk m c 50 t := by dsimp only [dats]
theorem after51 (c : Dev nD) (t : Fin cfg0.N) : (dats m 0 c).after 51 t = iblk m c 51 t := by dsimp only [dats]
theorem after52 (c : Dev nD) (t : Fin cfg0.N) : (dats m 0 c).after 52 t = iblk m c 52 t := by dsimp only [dats]
theorem after53 (c : Dev nD) (t : Fin cfg0.N) : (dats m 0 c).after 53 t = iblk m c 53 t := by dsimp only [dats]
theorem after54 (c : Dev nD) (t : Fin cfg0.N) : (dats m 0 c).after 54 t = iblk m c 54 t := by dsimp only [dats]
theorem after55 (c : Dev nD) (t : Fin cfg0.N) : (dats m 0 c).after 55 t = iblk m c 55 t := by dsimp only [dats]
theorem after56 (c : Dev nD) (t : Fin cfg0.N) : (dats m 0 c).after 56 t = iblk m c 56 t := by dsimp only [dats]
theorem after57 (c : Dev nD) (t : Fin cfg0.N) : (dats m 0 c).after 57 t = iblk m c 57 t := by dsimp only [dats]
theorem after58 (c : Dev nD) (t : Fin cfg0.N) : (dats m 0 c).after 58 t = iblk m c 58 t := by dsimp only [dats]
theorem after59 (c : Dev nD) (t : Fin cfg0.N) : (dats m 0 c).after 59 t = iblk m c 59 t := by dsimp only [dats]
theorem after60 (c : Dev nD) (t : Fin cfg0.N) : (dats m 0 c).after 60 t = iblk m c 60 t := by dsimp only [dats]
theorem after61 (c : Dev nD) (t : Fin cfg0.N) : (dats m 0 c).after 61 t = iblk m c 61 t := by dsimp only [dats]
theorem after62 (c : Dev nD) (t : Fin cfg0.N) : (dats m 0 c).after 62 t = iblk m c 62 t := by dsimp only [dats]
theorem after63 (c : Dev nD) (t : Fin cfg0.N) : (dats m 0 c).after 63 t = iblk m c 63 t := by dsimp only [dats]
theorem after64 (c : Dev nD) (t : Fin cfg0.N) : (dats m 0 c).after 64 t = iblk m c 64 t := by dsimp only [dats]
theorem after65 (c : Dev nD) (t : Fin cfg0.N) : (dats m 0 c).after 65 t = iblk m c 65 t := by dsimp only [dats]
theorem after66 (c : Dev nD) (t : Fin cfg0.N) : (dats m 0 c).after 66 t = out66 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) (ms36 t) (hs36 t) (ms37 t) (hs37 t) (ms38 t) (hs38 t) (ms39 t) (hs39 t) (ms40 t) (hs40 t) (ms41 t) (hs41 t) (ms42 t) (hs42 t) (ms43 t) (hs43 t) (ms44 t) (hs44 t) (ms45 t) (hs45 t) (ms46 t) (hs46 t) (ms47 t) (hs47 t) (ms48 t) (hs48 t) (ms49 t) (hs49 t) (ms50 t) (hs50 t) (ms51 t) (hs51 t) (ms52 t) (hs52 t) (ms53 t) (hs53 t) (ms54 t) (hs54 t) (ms55 t) (hs55 t) (ms56 t) (hs56 t) (ms57 t) (hs57 t) (ms58 t) (hs58 t) (ms59 t) (hs59 t) (ms60 t) (hs60 t) (ms61 t) (hs61 t) (ms62 t) (hs62 t) (ms63 t) (hs63 t) (ms64 t) (hs64 t) (ms65 t) (hs65 t) (ms66 t) (hs66 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) (iblk m c 47 t) (iblk m c 48 t) (iblk m c 49 t) (iblk m c 50 t) (iblk m c 51 t) (iblk m c 52 t) (iblk m c 53 t) (iblk m c 54 t) (iblk m c 55 t) (iblk m c 56 t) (iblk m c 57 t) (iblk m c 58 t) (iblk m c 59 t) (iblk m c 60 t) (iblk m c 61 t) (iblk m c 62 t) (iblk m c 63 t) (iblk m c 64 t) (iblk m c 65 t) := by dsimp only [dats]

/-! ## Each input's staging buffer holds its block at every point, fetched there or not -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
theorem before16 (c : Dev nD) (t : Fin cfg0.N) (d) : (dats m 0 c).before 16 t d = iblk m c 16 t :=
  ((dats m 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
theorem before17 (c : Dev nD) (t : Fin cfg0.N) (d) : (dats m 0 c).before 17 t d = iblk m c 17 t :=
  ((dats m 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)
theorem before18 (c : Dev nD) (t : Fin cfg0.N) (d) : (dats m 0 c).before 18 t d = iblk m c 18 t :=
  ((dats m 0 c).before_in_eq_fetched 18 rfl (fun _ => rfl) (fun _ _ _ => rfl) (fun t => by rw [after18]; unfold Dat.blockOf iblk; rw [A_eq]; try rfl) t d).trans
    (by unfold Dat.fetched Dat.blockOf iblk; rw [A_eq]; try rfl)
theorem before19 (c : Dev nD) (t : Fin cfg0.N) (d) : (dats m 0 c).before 19 t d = iblk m c 19 t :=
  ((dats m 0 c).before_in_eq_fetched 19 rfl (fun _ => rfl) (fun _ _ _ => rfl) (fun t => by rw [after19]; unfold Dat.blockOf iblk; rw [A_eq]; try rfl) t d).trans
    (by unfold Dat.fetched Dat.blockOf iblk; rw [A_eq]; try rfl)
theorem before20 (c : Dev nD) (t : Fin cfg0.N) (d) : (dats m 0 c).before 20 t d = iblk m c 20 t :=
  ((dats m 0 c).before_in_eq_fetched 20 rfl (fun _ => rfl) (fun _ _ _ => rfl) (fun t => by rw [after20]; unfold Dat.blockOf iblk; rw [A_eq]; try rfl) t d).trans
    (by unfold Dat.fetched Dat.blockOf iblk; rw [A_eq]; try rfl)
theorem before21 (c : Dev nD) (t : Fin cfg0.N) (d) : (dats m 0 c).before 21 t d = iblk m c 21 t :=
  ((dats m 0 c).before_in_eq_fetched 21 rfl (fun _ => rfl) (fun _ _ _ => rfl) (fun t => by rw [after21]; unfold Dat.blockOf iblk; rw [A_eq]; try rfl) t d).trans
    (by unfold Dat.fetched Dat.blockOf iblk; rw [A_eq]; try rfl)
theorem before22 (c : Dev nD) (t : Fin cfg0.N) (d) : (dats m 0 c).before 22 t d = iblk m c 22 t :=
  ((dats m 0 c).before_in_eq_fetched 22 rfl (fun _ => rfl) (fun _ _ _ => rfl) (fun t => by rw [after22]; unfold Dat.blockOf iblk; rw [A_eq]; try rfl) t d).trans
    (by unfold Dat.fetched Dat.blockOf iblk; rw [A_eq]; try rfl)
theorem before23 (c : Dev nD) (t : Fin cfg0.N) (d) : (dats m 0 c).before 23 t d = iblk m c 23 t :=
  ((dats m 0 c).before_in_eq_fetched 23 rfl (fun _ => rfl) (fun _ _ _ => rfl) (fun t => by rw [after23]; unfold Dat.blockOf iblk; rw [A_eq]; try rfl) t d).trans
    (by unfold Dat.fetched Dat.blockOf iblk; rw [A_eq]; try rfl)
theorem before24 (c : Dev nD) (t : Fin cfg0.N) (d) : (dats m 0 c).before 24 t d = iblk m c 24 t :=
  ((dats m 0 c).before_in_eq_fetched 24 rfl (fun _ => rfl) (fun _ _ _ => rfl) (fun t => by rw [after24]; unfold Dat.blockOf iblk; rw [A_eq]; try rfl) t d).trans
    (by unfold Dat.fetched Dat.blockOf iblk; rw [A_eq]; try rfl)
theorem before25 (c : Dev nD) (t : Fin cfg0.N) (d) : (dats m 0 c).before 25 t d = iblk m c 25 t :=
  ((dats m 0 c).before_in_eq_fetched 25 rfl (fun _ => rfl) (fun _ _ _ => rfl) (fun t => by rw [after25]; unfold Dat.blockOf iblk; rw [A_eq]; try rfl) t d).trans
    (by unfold Dat.fetched Dat.blockOf iblk; rw [A_eq]; try rfl)
theorem before26 (c : Dev nD) (t : Fin cfg0.N) (d) : (dats m 0 c).before 26 t d = iblk m c 26 t :=
  ((dats m 0 c).before_in_eq_fetched 26 rfl (fun _ => rfl) (fun _ _ _ => rfl) (fun t => by rw [after26]; unfold Dat.blockOf iblk; rw [A_eq]; try rfl) t d).trans
    (by unfold Dat.fetched Dat.blockOf iblk; rw [A_eq]; try rfl)
theorem before27 (c : Dev nD) (t : Fin cfg0.N) (d) : (dats m 0 c).before 27 t d = iblk m c 27 t :=
  ((dats m 0 c).before_in_eq_fetched 27 rfl (fun _ => rfl) (fun _ _ _ => rfl) (fun t => by rw [after27]; unfold Dat.blockOf iblk; rw [A_eq]; try rfl) t d).trans
    (by unfold Dat.fetched Dat.blockOf iblk; rw [A_eq]; try rfl)
theorem before28 (c : Dev nD) (t : Fin cfg0.N) (d) : (dats m 0 c).before 28 t d = iblk m c 28 t :=
  ((dats m 0 c).before_in_eq_fetched 28 rfl (fun _ => rfl) (fun _ _ _ => rfl) (fun t => by rw [after28]; unfold Dat.blockOf iblk; rw [A_eq]; try rfl) t d).trans
    (by unfold Dat.fetched Dat.blockOf iblk; rw [A_eq]; try rfl)
theorem before29 (c : Dev nD) (t : Fin cfg0.N) (d) : (dats m 0 c).before 29 t d = iblk m c 29 t :=
  ((dats m 0 c).before_in_eq_fetched 29 rfl (fun _ => rfl) (fun _ _ _ => rfl) (fun t => by rw [after29]; unfold Dat.blockOf iblk; rw [A_eq]; try rfl) t d).trans
    (by unfold Dat.fetched Dat.blockOf iblk; rw [A_eq]; try rfl)
theorem before30 (c : Dev nD) (t : Fin cfg0.N) (d) : (dats m 0 c).before 30 t d = iblk m c 30 t :=
  ((dats m 0 c).before_in_eq_fetched 30 rfl (fun _ => rfl) (fun _ _ _ => rfl) (fun t => by rw [after30]; unfold Dat.blockOf iblk; rw [A_eq]; try rfl) t d).trans
    (by unfold Dat.fetched Dat.blockOf iblk; rw [A_eq]; try rfl)
theorem before31 (c : Dev nD) (t : Fin cfg0.N) (d) : (dats m 0 c).before 31 t d = iblk m c 31 t :=
  ((dats m 0 c).before_in_eq_fetched 31 rfl (fun _ => rfl) (fun _ _ _ => rfl) (fun t => by rw [after31]; unfold Dat.blockOf iblk; rw [A_eq]; try rfl) t d).trans
    (by unfold Dat.fetched Dat.blockOf iblk; rw [A_eq]; try rfl)
theorem before32 (c : Dev nD) (t : Fin cfg0.N) (d) : (dats m 0 c).before 32 t d = iblk m c 32 t :=
  ((dats m 0 c).before_in_eq_fetched 32 rfl (fun _ => rfl) (fun _ _ _ => rfl) (fun t => by rw [after32]; unfold Dat.blockOf iblk; rw [A_eq]; try rfl) t d).trans
    (by unfold Dat.fetched Dat.blockOf iblk; rw [A_eq]; try rfl)
theorem before33 (c : Dev nD) (t : Fin cfg0.N) (d) : (dats m 0 c).before 33 t d = iblk m c 33 t :=
  ((dats m 0 c).before_in_eq_fetched 33 rfl (fun _ => rfl) (fun _ _ _ => rfl) (fun t => by rw [after33]; unfold Dat.blockOf iblk; rw [A_eq]; try rfl) t d).trans
    (by unfold Dat.fetched Dat.blockOf iblk; rw [A_eq]; try rfl)
theorem before34 (c : Dev nD) (t : Fin cfg0.N) (d) : (dats m 0 c).before 34 t d = iblk m c 34 t :=
  ((dats m 0 c).before_in_eq_fetched 34 rfl (fun _ => rfl) (fun _ _ _ => rfl) (fun t => by rw [after34]; unfold Dat.blockOf iblk; rw [A_eq]; try rfl) t d).trans
    (by unfold Dat.fetched Dat.blockOf iblk; rw [A_eq]; try rfl)
theorem before35 (c : Dev nD) (t : Fin cfg0.N) (d) : (dats m 0 c).before 35 t d = iblk m c 35 t :=
  ((dats m 0 c).before_in_eq_fetched 35 rfl (fun _ => rfl) (fun _ _ _ => rfl) (fun t => by rw [after35]; unfold Dat.blockOf iblk; rw [A_eq]; try rfl) t d).trans
    (by unfold Dat.fetched Dat.blockOf iblk; rw [A_eq]; try rfl)
theorem before36 (c : Dev nD) (t : Fin cfg0.N) (d) : (dats m 0 c).before 36 t d = iblk m c 36 t :=
  ((dats m 0 c).before_in_eq_fetched 36 rfl (fun _ => rfl) (fun _ _ _ => rfl) (fun t => by rw [after36]; unfold Dat.blockOf iblk; rw [A_eq]; try rfl) t d).trans
    (by unfold Dat.fetched Dat.blockOf iblk; rw [A_eq]; try rfl)
theorem before37 (c : Dev nD) (t : Fin cfg0.N) (d) : (dats m 0 c).before 37 t d = iblk m c 37 t :=
  ((dats m 0 c).before_in_eq_fetched 37 rfl (fun _ => rfl) (fun _ _ _ => rfl) (fun t => by rw [after37]; unfold Dat.blockOf iblk; rw [A_eq]; try rfl) t d).trans
    (by unfold Dat.fetched Dat.blockOf iblk; rw [A_eq]; try rfl)
theorem before38 (c : Dev nD) (t : Fin cfg0.N) (d) : (dats m 0 c).before 38 t d = iblk m c 38 t :=
  ((dats m 0 c).before_in_eq_fetched 38 rfl (fun _ => rfl) (fun _ _ _ => rfl) (fun t => by rw [after38]; unfold Dat.blockOf iblk; rw [A_eq]; try rfl) t d).trans
    (by unfold Dat.fetched Dat.blockOf iblk; rw [A_eq]; try rfl)
theorem before39 (c : Dev nD) (t : Fin cfg0.N) (d) : (dats m 0 c).before 39 t d = iblk m c 39 t :=
  ((dats m 0 c).before_in_eq_fetched 39 rfl (fun _ => rfl) (fun _ _ _ => rfl) (fun t => by rw [after39]; unfold Dat.blockOf iblk; rw [A_eq]; try rfl) t d).trans
    (by unfold Dat.fetched Dat.blockOf iblk; rw [A_eq]; try rfl)
theorem before40 (c : Dev nD) (t : Fin cfg0.N) (d) : (dats m 0 c).before 40 t d = iblk m c 40 t :=
  ((dats m 0 c).before_in_eq_fetched 40 rfl (fun _ => rfl) (fun _ _ _ => rfl) (fun t => by rw [after40]; unfold Dat.blockOf iblk; rw [A_eq]; try rfl) t d).trans
    (by unfold Dat.fetched Dat.blockOf iblk; rw [A_eq]; try rfl)
theorem before41 (c : Dev nD) (t : Fin cfg0.N) (d) : (dats m 0 c).before 41 t d = iblk m c 41 t :=
  ((dats m 0 c).before_in_eq_fetched 41 rfl (fun _ => rfl) (fun _ _ _ => rfl) (fun t => by rw [after41]; unfold Dat.blockOf iblk; rw [A_eq]; try rfl) t d).trans
    (by unfold Dat.fetched Dat.blockOf iblk; rw [A_eq]; try rfl)
theorem before42 (c : Dev nD) (t : Fin cfg0.N) (d) : (dats m 0 c).before 42 t d = iblk m c 42 t :=
  ((dats m 0 c).before_in_eq_fetched 42 rfl (fun _ => rfl) (fun _ _ _ => rfl) (fun t => by rw [after42]; unfold Dat.blockOf iblk; rw [A_eq]; try rfl) t d).trans
    (by unfold Dat.fetched Dat.blockOf iblk; rw [A_eq]; try rfl)
theorem before43 (c : Dev nD) (t : Fin cfg0.N) (d) : (dats m 0 c).before 43 t d = iblk m c 43 t :=
  ((dats m 0 c).before_in_eq_fetched 43 rfl (fun _ => rfl) (fun _ _ _ => rfl) (fun t => by rw [after43]; unfold Dat.blockOf iblk; rw [A_eq]; try rfl) t d).trans
    (by unfold Dat.fetched Dat.blockOf iblk; rw [A_eq]; try rfl)
theorem before44 (c : Dev nD) (t : Fin cfg0.N) (d) : (dats m 0 c).before 44 t d = iblk m c 44 t :=
  ((dats m 0 c).before_in_eq_fetched 44 rfl (fun _ => rfl) (fun _ _ _ => rfl) (fun t => by rw [after44]; unfold Dat.blockOf iblk; rw [A_eq]; try rfl) t d).trans
    (by unfold Dat.fetched Dat.blockOf iblk; rw [A_eq]; try rfl)
theorem before45 (c : Dev nD) (t : Fin cfg0.N) (d) : (dats m 0 c).before 45 t d = iblk m c 45 t :=
  ((dats m 0 c).before_in_eq_fetched 45 rfl (fun _ => rfl) (fun _ _ _ => rfl) (fun t => by rw [after45]; unfold Dat.blockOf iblk; rw [A_eq]; try rfl) t d).trans
    (by unfold Dat.fetched Dat.blockOf iblk; rw [A_eq]; try rfl)
theorem before46 (c : Dev nD) (t : Fin cfg0.N) (d) : (dats m 0 c).before 46 t d = iblk m c 46 t :=
  ((dats m 0 c).before_in_eq_fetched 46 rfl (fun _ => rfl) (fun _ _ _ => rfl) (fun t => by rw [after46]; unfold Dat.blockOf iblk; rw [A_eq]; try rfl) t d).trans
    (by unfold Dat.fetched Dat.blockOf iblk; rw [A_eq]; try rfl)
theorem before47 (c : Dev nD) (t : Fin cfg0.N) (d) : (dats m 0 c).before 47 t d = iblk m c 47 t :=
  ((dats m 0 c).before_in_eq_fetched 47 rfl (fun _ => rfl) (fun _ _ _ => rfl) (fun t => by rw [after47]; unfold Dat.blockOf iblk; rw [A_eq]; try rfl) t d).trans
    (by unfold Dat.fetched Dat.blockOf iblk; rw [A_eq]; try rfl)
theorem before48 (c : Dev nD) (t : Fin cfg0.N) (d) : (dats m 0 c).before 48 t d = iblk m c 48 t :=
  ((dats m 0 c).before_in_eq_fetched 48 rfl (fun _ => rfl) (fun _ _ _ => rfl) (fun t => by rw [after48]; unfold Dat.blockOf iblk; rw [A_eq]; try rfl) t d).trans
    (by unfold Dat.fetched Dat.blockOf iblk; rw [A_eq]; try rfl)
theorem before49 (c : Dev nD) (t : Fin cfg0.N) (d) : (dats m 0 c).before 49 t d = iblk m c 49 t :=
  ((dats m 0 c).before_in_eq_fetched 49 rfl (fun _ => rfl) (fun _ _ _ => rfl) (fun t => by rw [after49]; unfold Dat.blockOf iblk; rw [A_eq]; try rfl) t d).trans
    (by unfold Dat.fetched Dat.blockOf iblk; rw [A_eq]; try rfl)
theorem before50 (c : Dev nD) (t : Fin cfg0.N) (d) : (dats m 0 c).before 50 t d = iblk m c 50 t :=
  ((dats m 0 c).before_in_eq_fetched 50 rfl (fun _ => rfl) (fun _ _ _ => rfl) (fun t => by rw [after50]; unfold Dat.blockOf iblk; rw [A_eq]; try rfl) t d).trans
    (by unfold Dat.fetched Dat.blockOf iblk; rw [A_eq]; try rfl)
theorem before51 (c : Dev nD) (t : Fin cfg0.N) (d) : (dats m 0 c).before 51 t d = iblk m c 51 t :=
  ((dats m 0 c).before_in_eq_fetched 51 rfl (fun _ => rfl) (fun _ _ _ => rfl) (fun t => by rw [after51]; unfold Dat.blockOf iblk; rw [A_eq]; try rfl) t d).trans
    (by unfold Dat.fetched Dat.blockOf iblk; rw [A_eq]; try rfl)
theorem before52 (c : Dev nD) (t : Fin cfg0.N) (d) : (dats m 0 c).before 52 t d = iblk m c 52 t :=
  ((dats m 0 c).before_in_eq_fetched 52 rfl (fun _ => rfl) (fun _ _ _ => rfl) (fun t => by rw [after52]; unfold Dat.blockOf iblk; rw [A_eq]; try rfl) t d).trans
    (by unfold Dat.fetched Dat.blockOf iblk; rw [A_eq]; try rfl)
theorem before53 (c : Dev nD) (t : Fin cfg0.N) (d) : (dats m 0 c).before 53 t d = iblk m c 53 t :=
  ((dats m 0 c).before_in_eq_fetched 53 rfl (fun _ => rfl) (fun _ _ _ => rfl) (fun t => by rw [after53]; unfold Dat.blockOf iblk; rw [A_eq]; try rfl) t d).trans
    (by unfold Dat.fetched Dat.blockOf iblk; rw [A_eq]; try rfl)
theorem before54 (c : Dev nD) (t : Fin cfg0.N) (d) : (dats m 0 c).before 54 t d = iblk m c 54 t :=
  ((dats m 0 c).before_in_eq_fetched 54 rfl (fun _ => rfl) (fun _ _ _ => rfl) (fun t => by rw [after54]; unfold Dat.blockOf iblk; rw [A_eq]; try rfl) t d).trans
    (by unfold Dat.fetched Dat.blockOf iblk; rw [A_eq]; try rfl)
theorem before55 (c : Dev nD) (t : Fin cfg0.N) (d) : (dats m 0 c).before 55 t d = iblk m c 55 t :=
  ((dats m 0 c).before_in_eq_fetched 55 rfl (fun _ => rfl) (fun _ _ _ => rfl) (fun t => by rw [after55]; unfold Dat.blockOf iblk; rw [A_eq]; try rfl) t d).trans
    (by unfold Dat.fetched Dat.blockOf iblk; rw [A_eq]; try rfl)
theorem before56 (c : Dev nD) (t : Fin cfg0.N) (d) : (dats m 0 c).before 56 t d = iblk m c 56 t :=
  ((dats m 0 c).before_in_eq_fetched 56 rfl (fun _ => rfl) (fun _ _ _ => rfl) (fun t => by rw [after56]; unfold Dat.blockOf iblk; rw [A_eq]; try rfl) t d).trans
    (by unfold Dat.fetched Dat.blockOf iblk; rw [A_eq]; try rfl)
theorem before57 (c : Dev nD) (t : Fin cfg0.N) (d) : (dats m 0 c).before 57 t d = iblk m c 57 t :=
  ((dats m 0 c).before_in_eq_fetched 57 rfl (fun _ => rfl) (fun _ _ _ => rfl) (fun t => by rw [after57]; unfold Dat.blockOf iblk; rw [A_eq]; try rfl) t d).trans
    (by unfold Dat.fetched Dat.blockOf iblk; rw [A_eq]; try rfl)
theorem before58 (c : Dev nD) (t : Fin cfg0.N) (d) : (dats m 0 c).before 58 t d = iblk m c 58 t :=
  ((dats m 0 c).before_in_eq_fetched 58 rfl (fun _ => rfl) (fun _ _ _ => rfl) (fun t => by rw [after58]; unfold Dat.blockOf iblk; rw [A_eq]; try rfl) t d).trans
    (by unfold Dat.fetched Dat.blockOf iblk; rw [A_eq]; try rfl)
theorem before59 (c : Dev nD) (t : Fin cfg0.N) (d) : (dats m 0 c).before 59 t d = iblk m c 59 t :=
  ((dats m 0 c).before_in_eq_fetched 59 rfl (fun _ => rfl) (fun _ _ _ => rfl) (fun t => by rw [after59]; unfold Dat.blockOf iblk; rw [A_eq]; try rfl) t d).trans
    (by unfold Dat.fetched Dat.blockOf iblk; rw [A_eq]; try rfl)
theorem before60 (c : Dev nD) (t : Fin cfg0.N) (d) : (dats m 0 c).before 60 t d = iblk m c 60 t :=
  ((dats m 0 c).before_in_eq_fetched 60 rfl (fun _ => rfl) (fun _ _ _ => rfl) (fun t => by rw [after60]; unfold Dat.blockOf iblk; rw [A_eq]; try rfl) t d).trans
    (by unfold Dat.fetched Dat.blockOf iblk; rw [A_eq]; try rfl)
theorem before61 (c : Dev nD) (t : Fin cfg0.N) (d) : (dats m 0 c).before 61 t d = iblk m c 61 t :=
  ((dats m 0 c).before_in_eq_fetched 61 rfl (fun _ => rfl) (fun _ _ _ => rfl) (fun t => by rw [after61]; unfold Dat.blockOf iblk; rw [A_eq]; try rfl) t d).trans
    (by unfold Dat.fetched Dat.blockOf iblk; rw [A_eq]; try rfl)
theorem before62 (c : Dev nD) (t : Fin cfg0.N) (d) : (dats m 0 c).before 62 t d = iblk m c 62 t :=
  ((dats m 0 c).before_in_eq_fetched 62 rfl (fun _ => rfl) (fun _ _ _ => rfl) (fun t => by rw [after62]; unfold Dat.blockOf iblk; rw [A_eq]; try rfl) t d).trans
    (by unfold Dat.fetched Dat.blockOf iblk; rw [A_eq]; try rfl)
theorem before63 (c : Dev nD) (t : Fin cfg0.N) (d) : (dats m 0 c).before 63 t d = iblk m c 63 t :=
  ((dats m 0 c).before_in_eq_fetched 63 rfl (fun _ => rfl) (fun _ _ _ => rfl) (fun t => by rw [after63]; unfold Dat.blockOf iblk; rw [A_eq]; try rfl) t d).trans
    (by unfold Dat.fetched Dat.blockOf iblk; rw [A_eq]; try rfl)
theorem before64 (c : Dev nD) (t : Fin cfg0.N) (d) : (dats m 0 c).before 64 t d = iblk m c 64 t :=
  ((dats m 0 c).before_in_eq_fetched 64 rfl (fun _ => rfl) (fun _ _ _ => rfl) (fun t => by rw [after64]; unfold Dat.blockOf iblk; rw [A_eq]; try rfl) t d).trans
    (by unfold Dat.fetched Dat.blockOf iblk; rw [A_eq]; try rfl)
theorem before65 (c : Dev nD) (t : Fin cfg0.N) (d) : (dats m 0 c).before 65 t d = iblk m c 65 t :=
  ((dats m 0 c).before_in_eq_fetched 65 rfl (fun _ => rfl) (fun _ _ _ => rfl) (fun t => by rw [after65]; unfold Dat.blockOf iblk; rw [A_eq]; try rfl) t d).trans
    (by unfold Dat.fetched Dat.blockOf iblk; rw [A_eq]; try rfl)

end Cert.KernelIdeal.Hand

end
-- ==== Proof.KIFrame.lean ====
/-
  The frame of the pipelined region.

  The body obligation at every grid point is the symbolic run of the body on the point's staging buffers.  The
  launch hands the pipeline the four buffers behind the 67 windows' arrays, each whole; the first argument's is
  dealt to its 64 reading windows along the right-nested halving of its share.  The region then runs to the end,
  faults nowhere, and leaves every array of the pipeline at what the proof data computes and every other
  unscoped buffer as the region found it; the three arguments are inputs only, so they end as launched.
-/
import proofs.«155339_j73821897884183_2_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t))

set_option maxHeartbeats 4000000 in
/-- The body at any point: the inputs' buffers hold their blocks, so the symbolic run applies; the invariant and what
    the core owes pass through unread; the output buffer ends at its four pieces read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24, before25, before26, before27, before28, before29, before30, before31, before32, before33, before34, before35, before36, before37, before38, before39, before40, before41, before42, before43, before44, before45, before46, before47, before48, before49, before50, before51, before52, before53, before54, before55, before56, before57, before58, before59, before60, before61, before62, before63, before64, before65]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28, after29, after30, after31, after32, after33, after34, after35, after36, after37, after38, after39, after40, after41, after42, after43, after44, after45, after46, after47, after48, after49, after50, after51, after52, after53, after54, after55, after56, after57, after58, after59, after60, after61, after62, after63, after64, after65, after66]
  unfold out66
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩⟩
  iapply ((kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) (ms31 t) (hs31 t) (ms32 t) (hs32 t) (ms33 t) (hs33 t) (ms34 t) (hs34 t) (ms35 t) (hs35 t) (ms36 t) (hs36 t) (ms37 t) (hs37 t) (ms38 t) (hs38 t) (ms39 t) (hs39 t) (ms40 t) (hs40 t) (ms41 t) (hs41 t) (ms42 t) (hs42 t) (ms43 t) (hs43 t) (ms44 t) (hs44 t) (ms45 t) (hs45 t) (ms46 t) (hs46 t) (ms47 t) (hs47 t) (ms48 t) (hs48 t) (ms49 t) (hs49 t) (ms50 t) (hs50 t) (ms51 t) (hs51 t) (ms52 t) (hs52 t) (ms53 t) (hs53 t) (ms54 t) (hs54 t) (ms55 t) (hs55 t) (ms56 t) (hs56 t) (ms57 t) (hs57 t) (ms58 t) (hs58 t) (ms59 t) (hs59 t) (ms60 t) (hs60 t) (ms61 t) (hs61 t) (ms62 t) (hs62 t) (ms63 t) (hs63 t) (ms64 t) (hs64 t) (ms65 t) (hs65 t) (ms66 t) (hs66 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) (iblk m c 47 t) (iblk m c 48 t) (iblk m c 49 t) (iblk m c 50 t) (iblk m c 51 t) (iblk m c 52 t) (iblk m c 53 t) (iblk m c 54 t) (iblk m c 55 t) (iblk m c 56 t) (iblk m c 57 t) (iblk m c 58 t) (iblk m c 59 t) (iblk m c 60 t) (iblk m c 61 t) (iblk m c 62 t) (iblk m c 63 t) (iblk m c 64 t) (iblk m c 65 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexists _; iexact H66
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, ⟨%e66, H66⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  unfold owns; iexists _; isplitr
  swap; · iexact H66
  ipureintro; exact View.read_writes_of_cover _ _ _ _ _ (cover66 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
theorem body_obligation (c : Dev nD) : BodyObligation (dats (F := F) m 0 c) (defs₀ (F := F)) Variants.none () Set.univ := fun t => by
  rw [bigSep_W0, bigSep_W0]
  exact sound_body m c t

/-! ## Dealing the first argument's array to its 64 windows -/

/-- A buffer held at the full share is held by 64 holders at the dealt shares, side by side. -/
theorem deal64 {ℓ : Loc nD τ sig} (I : Finset (Idx ℓ)) (f : Buf (Elt F) ℓ) :
    (ℓ ↦[I]{fullShare} f : sProp 𝕄) ⊢ iprop((ℓ ↦[I]{Cert.LibShareChain.deal fullShare 63 0} f) ∗ (ℓ ↦[I]{Cert.LibShareChain.deal fullShare 63 1} f) ∗ (ℓ ↦[I]{Cert.LibShareChain.deal fullShare 63 2} f) ∗ (ℓ ↦[I]{Cert.LibShareChain.deal fullShare 63 3} f) ∗ (ℓ ↦[I]{Cert.LibShareChain.deal fullShare 63 4} f) ∗ (ℓ ↦[I]{Cert.LibShareChain.deal fullShare 63 5} f) ∗ (ℓ ↦[I]{Cert.LibShareChain.deal fullShare 63 6} f) ∗ (ℓ ↦[I]{Cert.LibShareChain.deal fullShare 63 7} f) ∗ (ℓ ↦[I]{Cert.LibShareChain.deal fullShare 63 8} f) ∗ (ℓ ↦[I]{Cert.LibShareChain.deal fullShare 63 9} f) ∗ (ℓ ↦[I]{Cert.LibShareChain.deal fullShare 63 10} f) ∗ (ℓ ↦[I]{Cert.LibShareChain.deal fullShare 63 11} f) ∗ (ℓ ↦[I]{Cert.LibShareChain.deal fullShare 63 12} f) ∗ (ℓ ↦[I]{Cert.LibShareChain.deal fullShare 63 13} f) ∗ (ℓ ↦[I]{Cert.LibShareChain.deal fullShare 63 14} f) ∗ (ℓ ↦[I]{Cert.LibShareChain.deal fullShare 63 15} f) ∗ (ℓ ↦[I]{Cert.LibShareChain.deal fullShare 63 16} f) ∗ (ℓ ↦[I]{Cert.LibShareChain.deal fullShare 63 17} f) ∗ (ℓ ↦[I]{Cert.LibShareChain.deal fullShare 63 18} f) ∗ (ℓ ↦[I]{Cert.LibShareChain.deal fullShare 63 19} f) ∗ (ℓ ↦[I]{Cert.LibShareChain.deal fullShare 63 20} f) ∗ (ℓ ↦[I]{Cert.LibShareChain.deal fullShare 63 21} f) ∗ (ℓ ↦[I]{Cert.LibShareChain.deal fullShare 63 22} f) ∗ (ℓ ↦[I]{Cert.LibShareChain.deal fullShare 63 23} f) ∗ (ℓ ↦[I]{Cert.LibShareChain.deal fullShare 63 24} f) ∗ (ℓ ↦[I]{Cert.LibShareChain.deal fullShare 63 25} f) ∗ (ℓ ↦[I]{Cert.LibShareChain.deal fullShare 63 26} f) ∗ (ℓ ↦[I]{Cert.LibShareChain.deal fullShare 63 27} f) ∗ (ℓ ↦[I]{Cert.LibShareChain.deal fullShare 63 28} f) ∗ (ℓ ↦[I]{Cert.LibShareChain.deal fullShare 63 29} f) ∗ (ℓ ↦[I]{Cert.LibShareChain.deal fullShare 63 30} f) ∗ (ℓ ↦[I]{Cert.LibShareChain.deal fullShare 63 31} f) ∗ (ℓ ↦[I]{Cert.LibShareChain.deal fullShare 63 32} f) ∗ (ℓ ↦[I]{Cert.LibShareChain.deal fullShare 63 33} f) ∗ (ℓ ↦[I]{Cert.LibShareChain.deal fullShare 63 34} f) ∗ (ℓ ↦[I]{Cert.LibShareChain.deal fullShare 63 35} f) ∗ (ℓ ↦[I]{Cert.LibShareChain.deal fullShare 63 36} f) ∗ (ℓ ↦[I]{Cert.LibShareChain.deal fullShare 63 37} f) ∗ (ℓ ↦[I]{Cert.LibShareChain.deal fullShare 63 38} f) ∗ (ℓ ↦[I]{Cert.LibShareChain.deal fullShare 63 39} f) ∗ (ℓ ↦[I]{Cert.LibShareChain.deal fullShare 63 40} f) ∗ (ℓ ↦[I]{Cert.LibShareChain.deal fullShare 63 41} f) ∗ (ℓ ↦[I]{Cert.LibShareChain.deal fullShare 63 42} f) ∗ (ℓ ↦[I]{Cert.LibShareChain.deal fullShare 63 43} f) ∗ (ℓ ↦[I]{Cert.LibShareChain.deal fullShare 63 44} f) ∗ (ℓ ↦[I]{Cert.LibShareChain.deal fullShare 63 45} f) ∗ (ℓ ↦[I]{Cert.LibShareChain.deal fullShare 63 46} f) ∗ (ℓ ↦[I]{Cert.LibShareChain.deal fullShare 63 47} f) ∗ (ℓ ↦[I]{Cert.LibShareChain.deal fullShare 63 48} f) ∗ (ℓ ↦[I]{Cert.LibShareChain.deal fullShare 63 49} f) ∗ (ℓ ↦[I]{Cert.LibShareChain.deal fullShare 63 50} f) ∗ (ℓ ↦[I]{Cert.LibShareChain.deal fullShare 63 51} f) ∗ (ℓ ↦[I]{Cert.LibShareChain.deal fullShare 63 52} f) ∗ (ℓ ↦[I]{Cert.LibShareChain.deal fullShare 63 53} f) ∗ (ℓ ↦[I]{Cert.LibShareChain.deal fullShare 63 54} f) ∗ (ℓ ↦[I]{Cert.LibShareChain.deal fullShare 63 55} f) ∗ (ℓ ↦[I]{Cert.LibShareChain.deal fullShare 63 56} f) ∗ (ℓ ↦[I]{Cert.LibShareChain.deal fullShare 63 57} f) ∗ (ℓ ↦[I]{Cert.LibShareChain.deal fullShare 63 58} f) ∗ (ℓ ↦[I]{Cert.LibShareChain.deal fullShare 63 59} f) ∗ (ℓ ↦[I]{Cert.LibShareChain.deal fullShare 63 60} f) ∗ (ℓ ↦[I]{Cert.LibShareChain.deal fullShare 63 61} f) ∗ (ℓ ↦[I]{Cert.LibShareChain.deal fullShare 63 62} f) ∗ (ℓ ↦[I]{Cert.LibShareChain.deal fullShare 63 63} f)) := by
  show (ℓ ↦[I]{Cert.LibShareChain.rest fullShare 0} f : sProp 𝕄) ⊢ iprop((ℓ ↦[I]{(Cert.LibShareChain.rest fullShare 0).left} f) ∗ (ℓ ↦[I]{(Cert.LibShareChain.rest fullShare 1).left} f) ∗ (ℓ ↦[I]{(Cert.LibShareChain.rest fullShare 2).left} f) ∗ (ℓ ↦[I]{(Cert.LibShareChain.rest fullShare 3).left} f) ∗ (ℓ ↦[I]{(Cert.LibShareChain.rest fullShare 4).left} f) ∗ (ℓ ↦[I]{(Cert.LibShareChain.rest fullShare 5).left} f) ∗ (ℓ ↦[I]{(Cert.LibShareChain.rest fullShare 6).left} f) ∗ (ℓ ↦[I]{(Cert.LibShareChain.rest fullShare 7).left} f) ∗ (ℓ ↦[I]{(Cert.LibShareChain.rest fullShare 8).left} f) ∗ (ℓ ↦[I]{(Cert.LibShareChain.rest fullShare 9).left} f) ∗ (ℓ ↦[I]{(Cert.LibShareChain.rest fullShare 10).left} f) ∗ (ℓ ↦[I]{(Cert.LibShareChain.rest fullShare 11).left} f) ∗ (ℓ ↦[I]{(Cert.LibShareChain.rest fullShare 12).left} f) ∗ (ℓ ↦[I]{(Cert.LibShareChain.rest fullShare 13).left} f) ∗ (ℓ ↦[I]{(Cert.LibShareChain.rest fullShare 14).left} f) ∗ (ℓ ↦[I]{(Cert.LibShareChain.rest fullShare 15).left} f) ∗ (ℓ ↦[I]{(Cert.LibShareChain.rest fullShare 16).left} f) ∗ (ℓ ↦[I]{(Cert.LibShareChain.rest fullShare 17).left} f) ∗ (ℓ ↦[I]{(Cert.LibShareChain.rest fullShare 18).left} f) ∗ (ℓ ↦[I]{(Cert.LibShareChain.rest fullShare 19).left} f) ∗ (ℓ ↦[I]{(Cert.LibShareChain.rest fullShare 20).left} f) ∗ (ℓ ↦[I]{(Cert.LibShareChain.rest fullShare 21).left} f) ∗ (ℓ ↦[I]{(Cert.LibShareChain.rest fullShare 22).left} f) ∗ (ℓ ↦[I]{(Cert.LibShareChain.rest fullShare 23).left} f) ∗ (ℓ ↦[I]{(Cert.LibShareChain.rest fullShare 24).left} f) ∗ (ℓ ↦[I]{(Cert.LibShareChain.rest fullShare 25).left} f) ∗ (ℓ ↦[I]{(Cert.LibShareChain.rest fullShare 26).left} f) ∗ (ℓ ↦[I]{(Cert.LibShareChain.rest fullShare 27).left} f) ∗ (ℓ ↦[I]{(Cert.LibShareChain.rest fullShare 28).left} f) ∗ (ℓ ↦[I]{(Cert.LibShareChain.rest fullShare 29).left} f) ∗ (ℓ ↦[I]{(Cert.LibShareChain.rest fullShare 30).left} f) ∗ (ℓ ↦[I]{(Cert.LibShareChain.rest fullShare 31).left} f) ∗ (ℓ ↦[I]{(Cert.LibShareChain.rest fullShare 32).left} f) ∗ (ℓ ↦[I]{(Cert.LibShareChain.rest fullShare 33).left} f) ∗ (ℓ ↦[I]{(Cert.LibShareChain.rest fullShare 34).left} f) ∗ (ℓ ↦[I]{(Cert.LibShareChain.rest fullShare 35).left} f) ∗ (ℓ ↦[I]{(Cert.LibShareChain.rest fullShare 36).left} f) ∗ (ℓ ↦[I]{(Cert.LibShareChain.rest fullShare 37).left} f) ∗ (ℓ ↦[I]{(Cert.LibShareChain.rest fullShare 38).left} f) ∗ (ℓ ↦[I]{(Cert.LibShareChain.rest fullShare 39).left} f) ∗ (ℓ ↦[I]{(Cert.LibShareChain.rest fullShare 40).left} f) ∗ (ℓ ↦[I]{(Cert.LibShareChain.rest fullShare 41).left} f) ∗ (ℓ ↦[I]{(Cert.LibShareChain.rest fullShare 42).left} f) ∗ (ℓ ↦[I]{(Cert.LibShareChain.rest fullShare 43).left} f) ∗ (ℓ ↦[I]{(Cert.LibShareChain.rest fullShare 44).left} f) ∗ (ℓ ↦[I]{(Cert.LibShareChain.rest fullShare 45).left} f) ∗ (ℓ ↦[I]{(Cert.LibShareChain.rest fullShare 46).left} f) ∗ (ℓ ↦[I]{(Cert.LibShareChain.rest fullShare 47).left} f) ∗ (ℓ ↦[I]{(Cert.LibShareChain.rest fullShare 48).left} f) ∗ (ℓ ↦[I]{(Cert.LibShareChain.rest fullShare 49).left} f) ∗ (ℓ ↦[I]{(Cert.LibShareChain.rest fullShare 50).left} f) ∗ (ℓ ↦[I]{(Cert.LibShareChain.rest fullShare 51).left} f) ∗ (ℓ ↦[I]{(Cert.LibShareChain.rest fullShare 52).left} f) ∗ (ℓ ↦[I]{(Cert.LibShareChain.rest fullShare 53).left} f) ∗ (ℓ ↦[I]{(Cert.LibShareChain.rest fullShare 54).left} f) ∗ (ℓ ↦[I]{(Cert.LibShareChain.rest fullShare 55).left} f) ∗ (ℓ ↦[I]{(Cert.LibShareChain.rest fullShare 56).left} f) ∗ (ℓ ↦[I]{(Cert.LibShareChain.rest fullShare 57).left} f) ∗ (ℓ ↦[I]{(Cert.LibShareChain.rest fullShare 58).left} f) ∗ (ℓ ↦[I]{(Cert.LibShareChain.rest fullShare 59).left} f) ∗ (ℓ ↦[I]{(Cert.LibShareChain.rest fullShare 60).left} f) ∗ (ℓ ↦[I]{(Cert.LibShareChain.rest fullShare 61).left} f) ∗ (ℓ ↦[I]{(Cert.LibShareChain.rest fullShare 62).left} f) ∗ (ℓ ↦[I]{Cert.LibShareChain.rest fullShare 63} f))
  refine (Cert.LibShareChain.pointsTo_rest_step I f fullShare 0).trans (sep_mono_r ?_)
  refine (Cert.LibShareChain.pointsTo_rest_step I f fullShare 1).trans (sep_mono_r ?_)
  refine (Cert.LibShareChain.pointsTo_rest_step I f fullShare 2).trans (sep_mono_r ?_)
  refine (Cert.LibShareChain.pointsTo_rest_step I f fullShare 3).trans (sep_mono_r ?_)
  refine (Cert.LibShareChain.pointsTo_rest_step I f fullShare 4).trans (sep_mono_r ?_)
  refine (Cert.LibShareChain.pointsTo_rest_step I f fullShare 5).trans (sep_mono_r ?_)
  refine (Cert.LibShareChain.pointsTo_rest_step I f fullShare 6).trans (sep_mono_r ?_)
  refine (Cert.LibShareChain.pointsTo_rest_step I f fullShare 7).trans (sep_mono_r ?_)
  refine (Cert.LibShareChain.pointsTo_rest_step I f fullShare 8).trans (sep_mono_r ?_)
  refine (Cert.LibShareChain.pointsTo_rest_step I f fullShare 9).trans (sep_mono_r ?_)
  refine (Cert.LibShareChain.pointsTo_rest_step I f fullShare 10).trans (sep_mono_r ?_)
  refine (Cert.LibShareChain.pointsTo_rest_step I f fullShare 11).trans (sep_mono_r ?_)
  refine (Cert.LibShareChain.pointsTo_rest_step I f fullShare 12).trans (sep_mono_r ?_)
  refine (Cert.LibShareChain.pointsTo_rest_step I f fullShare 13).trans (sep_mono_r ?_)
  refine (Cert.LibShareChain.pointsTo_rest_step I f fullShare 14).trans (sep_mono_r ?_)
  refine (Cert.LibShareChain.pointsTo_rest_step I f fullShare 15).trans (sep_mono_r ?_)
  refine (Cert.LibShareChain.pointsTo_rest_step I f fullShare 16).trans (sep_mono_r ?_)
  refine (Cert.LibShareChain.pointsTo_rest_step I f fullShare 17).trans (sep_mono_r ?_)
  refine (Cert.LibShareChain.pointsTo_rest_step I f fullShare 18).trans (sep_mono_r ?_)
  refine (Cert.LibShareChain.pointsTo_rest_step I f fullShare 19).trans (sep_mono_r ?_)
  refine (Cert.LibShareChain.pointsTo_rest_step I f fullShare 20).trans (sep_mono_r ?_)
  refine (Cert.LibShareChain.pointsTo_rest_step I f fullShare 21).trans (sep_mono_r ?_)
  refine (Cert.LibShareChain.pointsTo_rest_step I f fullShare 22).trans (sep_mono_r ?_)
  refine (Cert.LibShareChain.pointsTo_rest_step I f fullShare 23).trans (sep_mono_r ?_)
  refine (Cert.LibShareChain.pointsTo_rest_step I f fullShare 24).trans (sep_mono_r ?_)
  refine (Cert.LibShareChain.pointsTo_rest_step I f fullShare 25).trans (sep_mono_r ?_)
  refine (Cert.LibShareChain.pointsTo_rest_step I f fullShare 26).trans (sep_mono_r ?_)
  refine (Cert.LibShareChain.pointsTo_rest_step I f fullShare 27).trans (sep_mono_r ?_)
  refine (Cert.LibShareChain.pointsTo_rest_step I f fullShare 28).trans (sep_mono_r ?_)
  refine (Cert.LibShareChain.pointsTo_rest_step I f fullShare 29).trans (sep_mono_r ?_)
  refine (Cert.LibShareChain.pointsTo_rest_step I f fullShare 30).trans (sep_mono_r ?_)
  refine (Cert.LibShareChain.pointsTo_rest_step I f fullShare 31).trans (sep_mono_r ?_)
  refine (Cert.LibShareChain.pointsTo_rest_step I f fullShare 32).trans (sep_mono_r ?_)
  refine (Cert.LibShareChain.pointsTo_rest_step I f fullShare 33).trans (sep_mono_r ?_)
  refine (Cert.LibShareChain.pointsTo_rest_step I f fullShare 34).trans (sep_mono_r ?_)
  refine (Cert.LibShareChain.pointsTo_rest_step I f fullShare 35).trans (sep_mono_r ?_)
  refine (Cert.LibShareChain.pointsTo_rest_step I f fullShare 36).trans (sep_mono_r ?_)
  refine (Cert.LibShareChain.pointsTo_rest_step I f fullShare 37).trans (sep_mono_r ?_)
  refine (Cert.LibShareChain.pointsTo_rest_step I f fullShare 38).trans (sep_mono_r ?_)
  refine (Cert.LibShareChain.pointsTo_rest_step I f fullShare 39).trans (sep_mono_r ?_)
  refine (Cert.LibShareChain.pointsTo_rest_step I f fullShare 40).trans (sep_mono_r ?_)
  refine (Cert.LibShareChain.pointsTo_rest_step I f fullShare 41).trans (sep_mono_r ?_)
  refine (Cert.LibShareChain.pointsTo_rest_step I f fullShare 42).trans (sep_mono_r ?_)
  refine (Cert.LibShareChain.pointsTo_rest_step I f fullShare 43).trans (sep_mono_r ?_)
  refine (Cert.LibShareChain.pointsTo_rest_step I f fullShare 44).trans (sep_mono_r ?_)
  refine (Cert.LibShareChain.pointsTo_rest_step I f fullShare 45).trans (sep_mono_r ?_)
  refine (Cert.LibShareChain.pointsTo_rest_step I f fullShare 46).trans (sep_mono_r ?_)
  refine (Cert.LibShareChain.pointsTo_rest_step I f fullShare 47).trans (sep_mono_r ?_)
  refine (Cert.LibShareChain.pointsTo_rest_step I f fullShare 48).trans (sep_mono_r ?_)
  refine (Cert.LibShareChain.pointsTo_rest_step I f fullShare 49).trans (sep_mono_r ?_)
  refine (Cert.LibShareChain.pointsTo_rest_step I f fullShare 50).trans (sep_mono_r ?_)
  refine (Cert.LibShareChain.pointsTo_rest_step I f fullShare 51).trans (sep_mono_r ?_)
  refine (Cert.LibShareChain.pointsTo_rest_step I f fullShare 52).trans (sep_mono_r ?_)
  refine (Cert.LibShareChain.pointsTo_rest_step I f fullShare 53).trans (sep_mono_r ?_)
  refine (Cert.LibShareChain.pointsTo_rest_step I f fullShare 54).trans (sep_mono_r ?_)
  refine (Cert.LibShareChain.pointsTo_rest_step I f fullShare 55).trans (sep_mono_r ?_)
  refine (Cert.LibShareChain.pointsTo_rest_step I f fullShare 56).trans (sep_mono_r ?_)
  refine (Cert.LibShareChain.pointsTo_rest_step I f fullShare 57).trans (sep_mono_r ?_)
  refine (Cert.LibShareChain.pointsTo_rest_step I f fullShare 58).trans (sep_mono_r ?_)
  refine (Cert.LibShareChain.pointsTo_rest_step I f fullShare 59).trans (sep_mono_r ?_)
  refine (Cert.LibShareChain.pointsTo_rest_step I f fullShare 60).trans (sep_mono_r ?_)
  refine (Cert.LibShareChain.pointsTo_rest_step I f fullShare 61).trans (sep_mono_r ?_)
  refine (Cert.LibShareChain.pointsTo_rest_step I f fullShare 62).trans (sep_mono_r ?_)
  exact Entails.refl _

/-- The four buffers behind the windows' arrays. -/
theorem arrRefs_eq : Finset.univ.image (Pipeline.arrRef spec0) = ({main_arg0, main_v0, main_arg2, main_v1} : Finset (Ref sig .tc)) := by decide

set_option maxHeartbeats 4000000 in
/-- What the launch hands the pipeline, each array's buffer whole at the full share, makes the proof data's arrays at
    entry: the first argument's dealt to its 64 windows, the other three each to its one window. -/
theorem hsplit (c : Dev nD) : (Pipeline.arrBufs spec0 c (V m c) : sProp 𝕄) ⊢ (dats m 0 c).arrays (fun w => (dats m 0 c).arrAt w 0) := by
  have e : (dats m 0 c).arrays (fun w => (dats m 0 c).arrAt w 0)
      = bigSep Finset.univ fun w : Fin 67 => (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, bigSep_W0]
  unfold Pipeline.arrBufs
  rw [arrRefs_eq, bigSep_insert (by decide), bigSep_insert (by decide), bigSep_insert (by decide), bigSep_singleton]
  show iprop((((c.tc : Thread nD τ).loc main_arg0) ↦{fullShare} V m c main_arg0) ∗ (((c.tc : Thread nD τ).loc main_v0) ↦{fullShare} V m c main_v0) ∗ (((c.tc : Thread nD τ).loc main_arg2) ↦{fullShare} V m c main_arg2) ∗ (((c.tc : Thread nD τ).loc main_v1) ↦{fullShare} V m c main_v1))
    ⊢ iprop((((c.tc : Thread nD τ).loc main_arg0) ↦{Cert.LibShareChain.deal fullShare 63 0} V m c main_arg0) ∗ (((c.tc : Thread nD τ).loc main_arg0) ↦{Cert.LibShareChain.deal fullShare 63 1} V m c main_arg0) ∗ (((c.tc : Thread nD τ).loc main_arg0) ↦{Cert.LibShareChain.deal fullShare 63 2} V m c main_arg0) ∗ (((c.tc : Thread nD τ).loc main_arg0) ↦{Cert.LibShareChain.deal fullShare 63 3} V m c main_arg0) ∗ (((c.tc : Thread nD τ).loc main_arg0) ↦{Cert.LibShareChain.deal fullShare 63 4} V m c main_arg0) ∗ (((c.tc : Thread nD τ).loc main_arg0) ↦{Cert.LibShareChain.deal fullShare 63 5} V m c main_arg0) ∗ (((c.tc : Thread nD τ).loc main_arg0) ↦{Cert.LibShareChain.deal fullShare 63 6} V m c main_arg0) ∗ (((c.tc : Thread nD τ).loc main_arg0) ↦{Cert.LibShareChain.deal fullShare 63 7} V m c main_arg0) ∗ (((c.tc : Thread nD τ).loc main_arg0) ↦{Cert.LibShareChain.deal fullShare 63 8} V m c main_arg0) ∗ (((c.tc : Thread nD τ).loc main_arg0) ↦{Cert.LibShareChain.deal fullShare 63 9} V m c main_arg0) ∗ (((c.tc : Thread nD τ).loc main_arg0) ↦{Cert.LibShareChain.deal fullShare 63 10} V m c main_arg0) ∗ (((c.tc : Thread nD τ).loc main_arg0) ↦{Cert.LibShareChain.deal fullShare 63 11} V m c main_arg0) ∗ (((c.tc : Thread nD τ).loc main_arg0) ↦{Cert.LibShareChain.deal fullShare 63 12} V m c main_arg0) ∗ (((c.tc : Thread nD τ).loc main_arg0) ↦{Cert.LibShareChain.deal fullShare 63 13} V m c main_arg0) ∗ (((c.tc : Thread nD τ).loc main_arg0) ↦{Cert.LibShareChain.deal fullShare 63 14} V m c main_arg0) ∗ (((c.tc : Thread nD τ).loc main_arg0) ↦{Cert.LibShareChain.deal fullShare 63 15} V m c main_arg0) ∗ (((c.tc : Thread nD τ).loc main_arg0) ↦{Cert.LibShareChain.deal fullShare 63 16} V m c main_arg0) ∗ (((c.tc : Thread nD τ).loc main_arg0) ↦{Cert.LibShareChain.deal fullShare 63 17} V m c main_arg0) ∗ (((c.tc : Thread nD τ).loc main_arg0) ↦{Cert.LibShareChain.deal fullShare 63 18} V m c main_arg0) ∗ (((c.tc : Thread nD τ).loc main_arg0) ↦{Cert.LibShareChain.deal fullShare 63 19} V m c main_arg0) ∗ (((c.tc : Thread nD τ).loc main_arg0) ↦{Cert.LibShareChain.deal fullShare 63 20} V m c main_arg0) ∗ (((c.tc : Thread nD τ).loc main_arg0) ↦{Cert.LibShareChain.deal fullShare 63 21} V m c main_arg0) ∗ (((c.tc : Thread nD τ).loc main_arg0) ↦{Cert.LibShareChain.deal fullShare 63 22} V m c main_arg0) ∗ (((c.tc : Thread nD τ).loc main_arg0) ↦{Cert.LibShareChain.deal fullShare 63 23} V m c main_arg0) ∗ (((c.tc : Thread nD τ).loc main_arg0) ↦{Cert.LibShareChain.deal fullShare 63 24} V m c main_arg0) ∗ (((c.tc : Thread nD τ).loc main_arg0) ↦{Cert.LibShareChain.deal fullShare 63 25} V m c main_arg0) ∗ (((c.tc : Thread nD τ).loc main_arg0) ↦{Cert.LibShareChain.deal fullShare 63 26} V m c main_arg0) ∗ (((c.tc : Thread nD τ).loc main_arg0) ↦{Cert.LibShareChain.deal fullShare 63 27} V m c main_arg0) ∗ (((c.tc : Thread nD τ).loc main_arg0) ↦{Cert.LibShareChain.deal fullShare 63 28} V m c main_arg0) ∗ (((c.tc : Thread nD τ).loc main_arg0) ↦{Cert.LibShareChain.deal fullShare 63 29} V m c main_arg0) ∗ (((c.tc : Thread nD τ).loc main_arg0) ↦{Cert.LibShareChain.deal fullShare 63 30} V m c main_arg0) ∗ (((c.tc : Thread nD τ).loc main_arg0) ↦{Cert.LibShareChain.deal fullShare 63 31} V m c main_arg0) ∗ (((c.tc : Thread nD τ).loc main_arg0) ↦{Cert.LibShareChain.deal fullShare 63 32} V m c main_arg0) ∗ (((c.tc : Thread nD τ).loc main_arg0) ↦{Cert.LibShareChain.deal fullShare 63 33} V m c main_arg0) ∗ (((c.tc : Thread nD τ).loc main_arg0) ↦{Cert.LibShareChain.deal fullShare 63 34} V m c main_arg0) ∗ (((c.tc : Thread nD τ).loc main_arg0) ↦{Cert.LibShareChain.deal fullShare 63 35} V m c main_arg0) ∗ (((c.tc : Thread nD τ).loc main_arg0) ↦{Cert.LibShareChain.deal fullShare 63 36} V m c main_arg0) ∗ (((c.tc : Thread nD τ).loc main_arg0) ↦{Cert.LibShareChain.deal fullShare 63 37} V m c main_arg0) ∗ (((c.tc : Thread nD τ).loc main_arg0) ↦{Cert.LibShareChain.deal fullShare 63 38} V m c main_arg0) ∗ (((c.tc : Thread nD τ).loc main_arg0) ↦{Cert.LibShareChain.deal fullShare 63 39} V m c main_arg0) ∗ (((c.tc : Thread nD τ).loc main_arg0) ↦{Cert.LibShareChain.deal fullShare 63 40} V m c main_arg0) ∗ (((c.tc : Thread nD τ).loc main_arg0) ↦{Cert.LibShareChain.deal fullShare 63 41} V m c main_arg0) ∗ (((c.tc : Thread nD τ).loc main_arg0) ↦{Cert.LibShareChain.deal fullShare 63 42} V m c main_arg0) ∗ (((c.tc : Thread nD τ).loc main_arg0) ↦{Cert.LibShareChain.deal fullShare 63 43} V m c main_arg0) ∗ (((c.tc : Thread nD τ).loc main_arg0) ↦{Cert.LibShareChain.deal fullShare 63 44} V m c main_arg0) ∗ (((c.tc : Thread nD τ).loc main_arg0) ↦{Cert.LibShareChain.deal fullShare 63 45} V m c main_arg0) ∗ (((c.tc : Thread nD τ).loc main_arg0) ↦{Cert.LibShareChain.deal fullShare 63 46} V m c main_arg0) ∗ (((c.tc : Thread nD τ).loc main_arg0) ↦{Cert.LibShareChain.deal fullShare 63 47} V m c main_arg0) ∗ (((c.tc : Thread nD τ).loc main_arg0) ↦{Cert.LibShareChain.deal fullShare 63 48} V m c main_arg0) ∗ (((c.tc : Thread nD τ).loc main_arg0) ↦{Cert.LibShareChain.deal fullShare 63 49} V m c main_arg0) ∗ (((c.tc : Thread nD τ).loc main_arg0) ↦{Cert.LibShareChain.deal fullShare 63 50} V m c main_arg0) ∗ (((c.tc : Thread nD τ).loc main_arg0) ↦{Cert.LibShareChain.deal fullShare 63 51} V m c main_arg0) ∗ (((c.tc : Thread nD τ).loc main_arg0) ↦{Cert.LibShareChain.deal fullShare 63 52} V m c main_arg0) ∗ (((c.tc : Thread nD τ).loc main_arg0) ↦{Cert.LibShareChain.deal fullShare 63 53} V m c main_arg0) ∗ (((c.tc : Thread nD τ).loc main_arg0) ↦{Cert.LibShareChain.deal fullShare 63 54} V m c main_arg0) ∗ (((c.tc : Thread nD τ).loc main_arg0) ↦{Cert.LibShareChain.deal fullShare 63 55} V m c main_arg0) ∗ (((c.tc : Thread nD τ).loc main_arg0) ↦{Cert.LibShareChain.deal fullShare 63 56} V m c main_arg0) ∗ (((c.tc : Thread nD τ).loc main_arg0) ↦{Cert.LibShareChain.deal fullShare 63 57} V m c main_arg0) ∗ (((c.tc : Thread nD τ).loc main_arg0) ↦{Cert.LibShareChain.deal fullShare 63 58} V m c main_arg0) ∗ (((c.tc : Thread nD τ).loc main_arg0) ↦{Cert.LibShareChain.deal fullShare 63 59} V m c main_arg0) ∗ (((c.tc : Thread nD τ).loc main_arg0) ↦{Cert.LibShareChain.deal fullShare 63 60} V m c main_arg0) ∗ (((c.tc : Thread nD τ).loc main_arg0) ↦{Cert.LibShareChain.deal fullShare 63 61} V m c main_arg0) ∗ (((c.tc : Thread nD τ).loc main_arg0) ↦{Cert.LibShareChain.deal fullShare 63 62} V m c main_arg0) ∗ (((c.tc : Thread nD τ).loc main_arg0) ↦{Cert.LibShareChain.deal fullShare 63 63} V m c main_arg0) ∗ (((c.tc : Thread nD τ).loc main_v0) ↦{fullShare} V m c main_v0) ∗ (((c.tc : Thread nD τ).loc main_arg2) ↦{fullShare} V m c main_arg2) ∗ (((c.tc : Thread nD τ).loc main_v1) ↦{fullShare} V m c main_v1))
  refine (sep_mono_l (deal64 Finset.univ (V m c main_arg0))).trans ?_
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  refine sep_assoc.trans (sep_mono_r ?_)
  exact Entails.refl _

/-! ## The run -/

set_option backward.isDefEq.respectTransparency.types false in
set_option maxHeartbeats 4000000 in
/-- Every weakly fair execution of @main terminates, faults nowhere, and ends with every array of the pipeline at what
    the proof data computes and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0) (howed := fun _ _ => rfl)
    (u₀ := initOf (Pipeline.cells cfgs cellOf_inj) (Pipeline.launchToks cfgs cellOf_inj)) (hu₀ := Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => emp_sep_intro) (hin := fun c => emp_sep_elim) (hout := fun c => emp_sep_intro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME, at any float instance: the program runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (by decide)).trans (V_main_arg1 m c),
      ((h c).1 65).trans (((dats m 0 c).arrAt_in 65 rfl _).trans ((A_eq m c 65).trans (V_main_arg2 m c)))⟩) (run_main m ρ)

end Cert.KernelIdeal.Hand

end
-- ==== Proof.KIIndex.lean ====
/-
  Where each window's block sits in its array, at every grid point.

  The grid has sixteen points; point `t` computes output rows `4 t … 4 t + 3`.  Window `k = yl * 16 + w` (`k < 64`)
  stages the one input row that tap `w` of output row `4 t + yl` reads: its block index along the rows is
  `(4 t + yl + 1) (w + 1) - 1`, and `0` along the other two axes — decided over the sixteen points from the printed
  index maps (`idx_k`).  Windows 64 and 65 are the whole converted weights and the whole bias (block index 0);
  window 66 is the output's block `t` of four rows.  From these: block `k` at point `t`, read at `(0, n, e)`, is the
  first argument at `((4 t + yl + 1) (w + 1) - 1, n, e)` (`iblk_k_apply`, and `Xblk_apply` for the sixty-four blocks
  as one function of the block number); the weights' and the bias's blocks are their arrays.
-/
import proofs.«155339_j73821897884183_2_alg».proof.Proof.KIEntry
import Idealize.ShloMosaic.Lib.Pipeline.Value
import Idealize.ShloMosaic.Lib.ValueLayout

noncomputable section

namespace Cert.KernelIdeal.Hand

open Idealize.ShloMosaic Idealize.ShloMosaic.TcCoe Idealize.ShloMosaic.Tactic Idealize.SL.Sem Idealize.ShloMosaic.ValueIdx
open Idealize.ShloMosaic.Pipeline (Dat Cfg Window)
open Cert.KernelIdeal Cert.KernelIdeal.Gen

variable {F : FTy → Type} [FloatOps F]
variable (m : (ℓ : Loc nD τ sig) → Buf (Elt F) ℓ)

/-! ## The printed index maps, decided over the grid -/

theorem idx_0 : ∀ t : Fin cfg0.N, win0_0.index t (0 : Fin 3) = (4 * t.val + 0 + 1) * (0 + 1) - 1
    ∧ win0_0.index t (1 : Fin 3) = 0 ∧ win0_0.index t (2 : Fin 3) = 0 :=
  (by decide +kernel : ∀ t : Fin grid0.N, _)
theorem idx_1 : ∀ t : Fin cfg0.N, win0_1.index t (0 : Fin 3) = (4 * t.val + 0 + 1) * (1 + 1) - 1
    ∧ win0_1.index t (1 : Fin 3) = 0 ∧ win0_1.index t (2 : Fin 3) = 0 :=
  (by decide +kernel : ∀ t : Fin grid0.N, _)
theorem idx_2 : ∀ t : Fin cfg0.N, win0_2.index t (0 : Fin 3) = (4 * t.val + 0 + 1) * (2 + 1) - 1
    ∧ win0_2.index t (1 : Fin 3) = 0 ∧ win0_2.index t (2 : Fin 3) = 0 :=
  (by decide +kernel : ∀ t : Fin grid0.N, _)
theorem idx_3 : ∀ t : Fin cfg0.N, win0_3.index t (0 : Fin 3) = (4 * t.val + 0 + 1) * (3 + 1) - 1
    ∧ win0_3.index t (1 : Fin 3) = 0 ∧ win0_3.index t (2 : Fin 3) = 0 :=
  (by decide +kernel : ∀ t : Fin grid0.N, _)
theorem idx_4 : ∀ t : Fin cfg0.N, win0_4.index t (0 : Fin 3) = (4 * t.val + 0 + 1) * (4 + 1) - 1
    ∧ win0_4.index t (1 : Fin 3) = 0 ∧ win0_4.index t (2 : Fin 3) = 0 :=
  (by decide +kernel : ∀ t : Fin grid0.N, _)
theorem idx_5 : ∀ t : Fin cfg0.N, win0_5.index t (0 : Fin 3) = (4 * t.val + 0 + 1) * (5 + 1) - 1
    ∧ win0_5.index t (1 : Fin 3) = 0 ∧ win0_5.index t (2 : Fin 3) = 0 :=
  (by decide +kernel : ∀ t : Fin grid0.N, _)
theorem idx_6 : ∀ t : Fin cfg0.N, win0_6.index t (0 : Fin 3) = (4 * t.val + 0 + 1) * (6 + 1) - 1
    ∧ win0_6.index t (1 : Fin 3) = 0 ∧ win0_6.index t (2 : Fin 3) = 0 :=
  (by decide +kernel : ∀ t : Fin grid0.N, _)
theorem idx_7 : ∀ t : Fin cfg0.N, win0_7.index t (0 : Fin 3) = (4 * t.val + 0 + 1) * (7 + 1) - 1
    ∧ win0_7.index t (1 : Fin 3) = 0 ∧ win0_7.index t (2 : Fin 3) = 0 :=
  (by decide +kernel : ∀ t : Fin grid0.N, _)
theorem idx_8 : ∀ t : Fin cfg0.N, win0_8.index t (0 : Fin 3) = (4 * t.val + 0 + 1) * (8 + 1) - 1
    ∧ win0_8.index t (1 : Fin 3) = 0 ∧ win0_8.index t (2 : Fin 3) = 0 :=
  (by decide +kernel : ∀ t : Fin grid0.N, _)
theorem idx_9 : ∀ t : Fin cfg0.N, win0_9.index t (0 : Fin 3) = (4 * t.val + 0 + 1) * (9 + 1) - 1
    ∧ win0_9.index t (1 : Fin 3) = 0 ∧ win0_9.index t (2 : Fin 3) = 0 :=
  (by decide +kernel : ∀ t : Fin grid0.N, _)
theorem idx_10 : ∀ t : Fin cfg0.N, win0_10.index t (0 : Fin 3) = (4 * t.val + 0 + 1) * (10 + 1) - 1
    ∧ win0_10.index t (1 : Fin 3) = 0 ∧ win0_10.index t (2 : Fin 3) = 0 :=
  (by decide +kernel : ∀ t : Fin grid0.N, _)
theorem idx_11 : ∀ t : Fin cfg0.N, win0_11.index t (0 : Fin 3) = (4 * t.val + 0 + 1) * (11 + 1) - 1
    ∧ win0_11.index t (1 : Fin 3) = 0 ∧ win0_11.index t (2 : Fin 3) = 0 :=
  (by decide +kernel : ∀ t : Fin grid0.N, _)
theorem idx_12 : ∀ t : Fin cfg0.N, win0_12.index t (0 : Fin 3) = (4 * t.val + 0 + 1) * (12 + 1) - 1
    ∧ win0_12.index t (1 : Fin 3) = 0 ∧ win0_12.index t (2 : Fin 3) = 0 :=
  (by decide +kernel : ∀ t : Fin grid0.N, _)
theorem idx_13 : ∀ t : Fin cfg0.N, win0_13.index t (0 : Fin 3) = (4 * t.val + 0 + 1) * (13 + 1) - 1
    ∧ win0_13.index t (1 : Fin 3) = 0 ∧ win0_13.index t (2 : Fin 3) = 0 :=
  (by decide +kernel : ∀ t : Fin grid0.N, _)
theorem idx_14 : ∀ t : Fin cfg0.N, win0_14.index t (0 : Fin 3) = (4 * t.val + 0 + 1) * (14 + 1) - 1
    ∧ win0_14.index t (1 : Fin 3) = 0 ∧ win0_14.index t (2 : Fin 3) = 0 :=
  (by decide +kernel : ∀ t : Fin grid0.N, _)
theorem idx_15 : ∀ t : Fin cfg0.N, win0_15.index t (0 : Fin 3) = (4 * t.val + 0 + 1) * (15 + 1) - 1
    ∧ win0_15.index t (1 : Fin 3) = 0 ∧ win0_15.index t (2 : Fin 3) = 0 :=
  (by decide +kernel : ∀ t : Fin grid0.N, _)
theorem idx_16 : ∀ t : Fin cfg0.N, win0_16.index t (0 : Fin 3) = (4 * t.val + 1 + 1) * (0 + 1) - 1
    ∧ win0_16.index t (1 : Fin 3) = 0 ∧ win0_16.index t (2 : Fin 3) = 0 :=
  (by decide +kernel : ∀ t : Fin grid0.N, _)
theorem idx_17 : ∀ t : Fin cfg0.N, win0_17.index t (0 : Fin 3) = (4 * t.val + 1 + 1) * (1 + 1) - 1
    ∧ win0_17.index t (1 : Fin 3) = 0 ∧ win0_17.index t (2 : Fin 3) = 0 :=
  (by decide +kernel : ∀ t : Fin grid0.N, _)
theorem idx_18 : ∀ t : Fin cfg0.N, win0_18.index t (0 : Fin 3) = (4 * t.val + 1 + 1) * (2 + 1) - 1
    ∧ win0_18.index t (1 : Fin 3) = 0 ∧ win0_18.index t (2 : Fin 3) = 0 :=
  (by decide +kernel : ∀ t : Fin grid0.N, _)
theorem idx_19 : ∀ t : Fin cfg0.N, win0_19.index t (0 : Fin 3) = (4 * t.val + 1 + 1) * (3 + 1) - 1
    ∧ win0_19.index t (1 : Fin 3) = 0 ∧ win0_19.index t (2 : Fin 3) = 0 :=
  (by decide +kernel : ∀ t : Fin grid0.N, _)
theorem idx_20 : ∀ t : Fin cfg0.N, win0_20.index t (0 : Fin 3) = (4 * t.val + 1 + 1) * (4 + 1) - 1
    ∧ win0_20.index t (1 : Fin 3) = 0 ∧ win0_20.index t (2 : Fin 3) = 0 :=
  (by decide +kernel : ∀ t : Fin grid0.N, _)
theorem idx_21 : ∀ t : Fin cfg0.N, win0_21.index t (0 : Fin 3) = (4 * t.val + 1 + 1) * (5 + 1) - 1
    ∧ win0_21.index t (1 : Fin 3) = 0 ∧ win0_21.index t (2 : Fin 3) = 0 :=
  (by decide +kernel : ∀ t : Fin grid0.N, _)
theorem idx_22 : ∀ t : Fin cfg0.N, win0_22.index t (0 : Fin 3) = (4 * t.val + 1 + 1) * (6 + 1) - 1
    ∧ win0_22.index t (1 : Fin 3) = 0 ∧ win0_22.index t (2 : Fin 3) = 0 :=
  (by decide +kernel : ∀ t : Fin grid0.N, _)
theorem idx_23 : ∀ t : Fin cfg0.N, win0_23.index t (0 : Fin 3) = (4 * t.val + 1 + 1) * (7 + 1) - 1
    ∧ win0_23.index t (1 : Fin 3) = 0 ∧ win0_23.index t (2 : Fin 3) = 0 :=
  (by decide +kernel : ∀ t : Fin grid0.N, _)
theorem idx_24 : ∀ t : Fin cfg0.N, win0_24.index t (0 : Fin 3) = (4 * t.val + 1 + 1) * (8 + 1) - 1
    ∧ win0_24.index t (1 : Fin 3) = 0 ∧ win0_24.index t (2 : Fin 3) = 0 :=
  (by decide +kernel : ∀ t : Fin grid0.N, _)
theorem idx_25 : ∀ t : Fin cfg0.N, win0_25.index t (0 : Fin 3) = (4 * t.val + 1 + 1) * (9 + 1) - 1
    ∧ win0_25.index t (1 : Fin 3) = 0 ∧ win0_25.index t (2 : Fin 3) = 0 :=
  (by decide +kernel : ∀ t : Fin grid0.N, _)
theorem idx_26 : ∀ t : Fin cfg0.N, win0_26.index t (0 : Fin 3) = (4 * t.val + 1 + 1) * (10 + 1) - 1
    ∧ win0_26.index t (1 : Fin 3) = 0 ∧ win0_26.index t (2 : Fin 3) = 0 :=
  (by decide +kernel : ∀ t : Fin grid0.N, _)
theorem idx_27 : ∀ t : Fin cfg0.N, win0_27.index t (0 : Fin 3) = (4 * t.val + 1 + 1) * (11 + 1) - 1
    ∧ win0_27.index t (1 : Fin 3) = 0 ∧ win0_27.index t (2 : Fin 3) = 0 :=
  (by decide +kernel : ∀ t : Fin grid0.N, _)
theorem idx_28 : ∀ t : Fin cfg0.N, win0_28.index t (0 : Fin 3) = (4 * t.val + 1 + 1) * (12 + 1) - 1
    ∧ win0_28.index t (1 : Fin 3) = 0 ∧ win0_28.index t (2 : Fin 3) = 0 :=
  (by decide +kernel : ∀ t : Fin grid0.N, _)
theorem idx_29 : ∀ t : Fin cfg0.N, win0_29.index t (0 : Fin 3) = (4 * t.val + 1 + 1) * (13 + 1) - 1
    ∧ win0_29.index t (1 : Fin 3) = 0 ∧ win0_29.index t (2 : Fin 3) = 0 :=
  (by decide +kernel : ∀ t : Fin grid0.N, _)
theorem idx_30 : ∀ t : Fin cfg0.N, win0_30.index t (0 : Fin 3) = (4 * t.val + 1 + 1) * (14 + 1) - 1
    ∧ win0_30.index t (1 : Fin 3) = 0 ∧ win0_30.index t (2 : Fin 3) = 0 :=
  (by decide +kernel : ∀ t : Fin grid0.N, _)
theorem idx_31 : ∀ t : Fin cfg0.N, win0_31.index t (0 : Fin 3) = (4 * t.val + 1 + 1) * (15 + 1) - 1
    ∧ win0_31.index t (1 : Fin 3) = 0 ∧ win0_31.index t (2 : Fin 3) = 0 :=
  (by decide +kernel : ∀ t : Fin grid0.N, _)
theorem idx_32 : ∀ t : Fin cfg0.N, win0_32.index t (0 : Fin 3) = (4 * t.val + 2 + 1) * (0 + 1) - 1
    ∧ win0_32.index t (1 : Fin 3) = 0 ∧ win0_32.index t (2 : Fin 3) = 0 :=
  (by decide +kernel : ∀ t : Fin grid0.N, _)
theorem idx_33 : ∀ t : Fin cfg0.N, win0_33.index t (0 : Fin 3) = (4 * t.val + 2 + 1) * (1 + 1) - 1
    ∧ win0_33.index t (1 : Fin 3) = 0 ∧ win0_33.index t (2 : Fin 3) = 0 :=
  (by decide +kernel : ∀ t : Fin grid0.N, _)
theorem idx_34 : ∀ t : Fin cfg0.N, win0_34.index t (0 : Fin 3) = (4 * t.val + 2 + 1) * (2 + 1) - 1
    ∧ win0_34.index t (1 : Fin 3) = 0 ∧ win0_34.index t (2 : Fin 3) = 0 :=
  (by decide +kernel : ∀ t : Fin grid0.N, _)
theorem idx_35 : ∀ t : Fin cfg0.N, win0_35.index t (0 : Fin 3) = (4 * t.val + 2 + 1) * (3 + 1) - 1
    ∧ win0_35.index t (1 : Fin 3) = 0 ∧ win0_35.index t (2 : Fin 3) = 0 :=
  (by decide +kernel : ∀ t : Fin grid0.N, _)
theorem idx_36 : ∀ t : Fin cfg0.N, win0_36.index t (0 : Fin 3) = (4 * t.val + 2 + 1) * (4 + 1) - 1
    ∧ win0_36.index t (1 : Fin 3) = 0 ∧ win0_36.index t (2 : Fin 3) = 0 :=
  (by decide +kernel : ∀ t : Fin grid0.N, _)
theorem idx_37 : ∀ t : Fin cfg0.N, win0_37.index t (0 : Fin 3) = (4 * t.val + 2 + 1) * (5 + 1) - 1
    ∧ win0_37.index t (1 : Fin 3) = 0 ∧ win0_37.index t (2 : Fin 3) = 0 :=
  (by decide +kernel : ∀ t : Fin grid0.N, _)
theorem idx_38 : ∀ t : Fin cfg0.N, win0_38.index t (0 : Fin 3) = (4 * t.val + 2 + 1) * (6 + 1) - 1
    ∧ win0_38.index t (1 : Fin 3) = 0 ∧ win0_38.index t (2 : Fin 3) = 0 :=
  (by decide +kernel : ∀ t : Fin grid0.N, _)
theorem idx_39 : ∀ t : Fin cfg0.N, win0_39.index t (0 : Fin 3) = (4 * t.val + 2 + 1) * (7 + 1) - 1
    ∧ win0_39.index t (1 : Fin 3) = 0 ∧ win0_39.index t (2 : Fin 3) = 0 :=
  (by decide +kernel : ∀ t : Fin grid0.N, _)
theorem idx_40 : ∀ t : Fin cfg0.N, win0_40.index t (0 : Fin 3) = (4 * t.val + 2 + 1) * (8 + 1) - 1
    ∧ win0_40.index t (1 : Fin 3) = 0 ∧ win0_40.index t (2 : Fin 3) = 0 :=
  (by decide +kernel : ∀ t : Fin grid0.N, _)
theorem idx_41 : ∀ t : Fin cfg0.N, win0_41.index t (0 : Fin 3) = (4 * t.val + 2 + 1) * (9 + 1) - 1
    ∧ win0_41.index t (1 : Fin 3) = 0 ∧ win0_41.index t (2 : Fin 3) = 0 :=
  (by decide +kernel : ∀ t : Fin grid0.N, _)
theorem idx_42 : ∀ t : Fin cfg0.N, win0_42.index t (0 : Fin 3) = (4 * t.val + 2 + 1) * (10 + 1) - 1
    ∧ win0_42.index t (1 : Fin 3) = 0 ∧ win0_42.index t (2 : Fin 3) = 0 :=
  (by decide +kernel : ∀ t : Fin grid0.N, _)
theorem idx_43 : ∀ t : Fin cfg0.N, win0_43.index t (0 : Fin 3) = (4 * t.val + 2 + 1) * (11 + 1) - 1
    ∧ win0_43.index t (1 : Fin 3) = 0 ∧ win0_43.index t (2 : Fin 3) = 0 :=
  (by decide +kernel : ∀ t : Fin grid0.N, _)
theorem idx_44 : ∀ t : Fin cfg0.N, win0_44.index t (0 : Fin 3) = (4 * t.val + 2 + 1) * (12 + 1) - 1
    ∧ win0_44.index t (1 : Fin 3) = 0 ∧ win0_44.index t (2 : Fin 3) = 0 :=
  (by decide +kernel : ∀ t : Fin grid0.N, _)
theorem idx_45 : ∀ t : Fin cfg0.N, win0_45.index t (0 : Fin 3) = (4 * t.val + 2 + 1) * (13 + 1) - 1
    ∧ win0_45.index t (1 : Fin 3) = 0 ∧ win0_45.index t (2 : Fin 3) = 0 :=
  (by decide +kernel : ∀ t : Fin grid0.N, _)
theorem idx_46 : ∀ t : Fin cfg0.N, win0_46.index t (0 : Fin 3) = (4 * t.val + 2 + 1) * (14 + 1) - 1
    ∧ win0_46.index t (1 : Fin 3) = 0 ∧ win0_46.index t (2 : Fin 3) = 0 :=
  (by decide +kernel : ∀ t : Fin grid0.N, _)
theorem idx_47 : ∀ t : Fin cfg0.N, win0_47.index t (0 : Fin 3) = (4 * t.val + 2 + 1) * (15 + 1) - 1
    ∧ win0_47.index t (1 : Fin 3) = 0 ∧ win0_47.index t (2 : Fin 3) = 0 :=
  (by decide +kernel : ∀ t : Fin grid0.N, _)
theorem idx_48 : ∀ t : Fin cfg0.N, win0_48.index t (0 : Fin 3) = (4 * t.val + 3 + 1) * (0 + 1) - 1
    ∧ win0_48.index t (1 : Fin 3) = 0 ∧ win0_48.index t (2 : Fin 3) = 0 :=
  (by decide +kernel : ∀ t : Fin grid0.N, _)
theorem idx_49 : ∀ t : Fin cfg0.N, win0_49.index t (0 : Fin 3) = (4 * t.val + 3 + 1) * (1 + 1) - 1
    ∧ win0_49.index t (1 : Fin 3) = 0 ∧ win0_49.index t (2 : Fin 3) = 0 :=
  (by decide +kernel : ∀ t : Fin grid0.N, _)
theorem idx_50 : ∀ t : Fin cfg0.N, win0_50.index t (0 : Fin 3) = (4 * t.val + 3 + 1) * (2 + 1) - 1
    ∧ win0_50.index t (1 : Fin 3) = 0 ∧ win0_50.index t (2 : Fin 3) = 0 :=
  (by decide +kernel : ∀ t : Fin grid0.N, _)
theorem idx_51 : ∀ t : Fin cfg0.N, win0_51.index t (0 : Fin 3) = (4 * t.val + 3 + 1) * (3 + 1) - 1
    ∧ win0_51.index t (1 : Fin 3) = 0 ∧ win0_51.index t (2 : Fin 3) = 0 :=
  (by decide +kernel : ∀ t : Fin grid0.N, _)
theorem idx_52 : ∀ t : Fin cfg0.N, win0_52.index t (0 : Fin 3) = (4 * t.val + 3 + 1) * (4 + 1) - 1
    ∧ win0_52.index t (1 : Fin 3) = 0 ∧ win0_52.index t (2 : Fin 3) = 0 :=
  (by decide +kernel : ∀ t : Fin grid0.N, _)
theorem idx_53 : ∀ t : Fin cfg0.N, win0_53.index t (0 : Fin 3) = (4 * t.val + 3 + 1) * (5 + 1) - 1
    ∧ win0_53.index t (1 : Fin 3) = 0 ∧ win0_53.index t (2 : Fin 3) = 0 :=
  (by decide +kernel : ∀ t : Fin grid0.N, _)
theorem idx_54 : ∀ t : Fin cfg0.N, win0_54.index t (0 : Fin 3) = (4 * t.val + 3 + 1) * (6 + 1) - 1
    ∧ win0_54.index t (1 : Fin 3) = 0 ∧ win0_54.index t (2 : Fin 3) = 0 :=
  (by decide +kernel : ∀ t : Fin grid0.N, _)
theorem idx_55 : ∀ t : Fin cfg0.N, win0_55.index t (0 : Fin 3) = (4 * t.val + 3 + 1) * (7 + 1) - 1
    ∧ win0_55.index t (1 : Fin 3) = 0 ∧ win0_55.index t (2 : Fin 3) = 0 :=
  (by decide +kernel : ∀ t : Fin grid0.N, _)
theorem idx_56 : ∀ t : Fin cfg0.N, win0_56.index t (0 : Fin 3) = (4 * t.val + 3 + 1) * (8 + 1) - 1
    ∧ win0_56.index t (1 : Fin 3) = 0 ∧ win0_56.index t (2 : Fin 3) = 0 :=
  (by decide +kernel : ∀ t : Fin grid0.N, _)
theorem idx_57 : ∀ t : Fin cfg0.N, win0_57.index t (0 : Fin 3) = (4 * t.val + 3 + 1) * (9 + 1) - 1
    ∧ win0_57.index t (1 : Fin 3) = 0 ∧ win0_57.index t (2 : Fin 3) = 0 :=
  (by decide +kernel : ∀ t : Fin grid0.N, _)
theorem idx_58 : ∀ t : Fin cfg0.N, win0_58.index t (0 : Fin 3) = (4 * t.val + 3 + 1) * (10 + 1) - 1
    ∧ win0_58.index t (1 : Fin 3) = 0 ∧ win0_58.index t (2 : Fin 3) = 0 :=
  (by decide +kernel : ∀ t : Fin grid0.N, _)
theorem idx_59 : ∀ t : Fin cfg0.N, win0_59.index t (0 : Fin 3) = (4 * t.val + 3 + 1) * (11 + 1) - 1
    ∧ win0_59.index t (1 : Fin 3) = 0 ∧ win0_59.index t (2 : Fin 3) = 0 :=
  (by decide +kernel : ∀ t : Fin grid0.N, _)
theorem idx_60 : ∀ t : Fin cfg0.N, win0_60.index t (0 : Fin 3) = (4 * t.val + 3 + 1) * (12 + 1) - 1
    ∧ win0_60.index t (1 : Fin 3) = 0 ∧ win0_60.index t (2 : Fin 3) = 0 :=
  (by decide +kernel : ∀ t : Fin grid0.N, _)
theorem idx_61 : ∀ t : Fin cfg0.N, win0_61.index t (0 : Fin 3) = (4 * t.val + 3 + 1) * (13 + 1) - 1
    ∧ win0_61.index t (1 : Fin 3) = 0 ∧ win0_61.index t (2 : Fin 3) = 0 :=
  (by decide +kernel : ∀ t : Fin grid0.N, _)
theorem idx_62 : ∀ t : Fin cfg0.N, win0_62.index t (0 : Fin 3) = (4 * t.val + 3 + 1) * (14 + 1) - 1
    ∧ win0_62.index t (1 : Fin 3) = 0 ∧ win0_62.index t (2 : Fin 3) = 0 :=
  (by decide +kernel : ∀ t : Fin grid0.N, _)
theorem idx_63 : ∀ t : Fin cfg0.N, win0_63.index t (0 : Fin 3) = (4 * t.val + 3 + 1) * (15 + 1) - 1
    ∧ win0_63.index t (1 : Fin 3) = 0 ∧ win0_63.index t (2 : Fin 3) = 0 :=
  (by decide +kernel : ∀ t : Fin grid0.N, _)

theorem idx_64 : ∀ t : Fin cfg0.N, win0_64.index t (0 : Fin 3) = 0 ∧ win0_64.index t (1 : Fin 3) = 0
    ∧ win0_64.index t (2 : Fin 3) = 0 :=
  (by decide +kernel : ∀ t : Fin grid0.N, _)
theorem idx_65 : ∀ t : Fin cfg0.N, win0_65.index t (0 : Fin 1) = 0 :=
  (by decide +kernel : ∀ t : Fin grid0.N, _)
theorem idx_66 : ∀ t : Fin cfg0.N, win0_66.index t (0 : Fin 3) = t.val ∧ win0_66.index t (1 : Fin 3) = 0
    ∧ win0_66.index t (2 : Fin 3) = 0 :=
  (by decide +kernel : ∀ t : Fin grid0.N, _)

/-! ## Each input block as rows of its array -/

theorem iblk_0_apply (c : Dev nD) (t : Fin cfg0.N) (n : Fin 64) (e : Fin 512) (R : Fin 1024)
    (hR : R.val = (4 * t.val + 0 + 1) * (0 + 1) - 1) :
    (iblk m c 0 t : Vec F S1x64x512 .f32) (ix3 0 n e)
      = (m ((c : Thread nD τ).loc main_arg0) : S1024x64x512.Idx → Elt F .f32) (ix3 R n e) := by
  obtain ⟨h0, h1, h2⟩ := idx_0 t
  unfold iblk
  rw [View.read_apply]
  show V m c main_arg0 _ = _
  rw [V_main_arg0]
  congr 1
  funext a
  apply Fin.ext
  match a with
  | ⟨0, _⟩ => show win0_0.index t 0 * 1 + 1 * 0 = R.val; rw [h0, hR]; omega
  | ⟨1, _⟩ => show win0_0.index t 1 * 64 + 1 * n.val = n.val; rw [h1]; omega
  | ⟨2, _⟩ => show win0_0.index t 2 * 512 + 1 * e.val = e.val; rw [h2]; omega

theorem iblk_1_apply (c : Dev nD) (t : Fin cfg0.N) (n : Fin 64) (e : Fin 512) (R : Fin 1024)
    (hR : R.val = (4 * t.val + 0 + 1) * (1 + 1) - 1) :
    (iblk m c 1 t : Vec F S1x64x512 .f32) (ix3 0 n e)
      = (m ((c : Thread nD τ).loc main_arg0) : S1024x64x512.Idx → Elt F .f32) (ix3 R n e) := by
  obtain ⟨h0, h1, h2⟩ := idx_1 t
  unfold iblk
  rw [View.read_apply]
  show V m c main_arg0 _ = _
  rw [V_main_arg0]
  congr 1
  funext a
  apply Fin.ext
  match a with
  | ⟨0, _⟩ => show win0_1.index t 0 * 1 + 1 * 0 = R.val; rw [h0, hR]; omega
  | ⟨1, _⟩ => show win0_1.index t 1 * 64 + 1 * n.val = n.val; rw [h1]; omega
  | ⟨2, _⟩ => show win0_1.index t 2 * 512 + 1 * e.val = e.val; rw [h2]; omega

theorem iblk_2_apply (c : Dev nD) (t : Fin cfg0.N) (n : Fin 64) (e : Fin 512) (R : Fin 1024)
    (hR : R.val = (4 * t.val + 0 + 1) * (2 + 1) - 1) :
    (iblk m c 2 t : Vec F S1x64x512 .f32) (ix3 0 n e)
      = (m ((c : Thread nD τ).loc main_arg0) : S1024x64x512.Idx → Elt F .f32) (ix3 R n e) := by
  obtain ⟨h0, h1, h2⟩ := idx_2 t
  unfold iblk
  rw [View.read_apply]
  show V m c main_arg0 _ = _
  rw [V_main_arg0]
  congr 1
  funext a
  apply Fin.ext
  match a with
  | ⟨0, _⟩ => show win0_2.index t 0 * 1 + 1 * 0 = R.val; rw [h0, hR]; omega
  | ⟨1, _⟩ => show win0_2.index t 1 * 64 + 1 * n.val = n.val; rw [h1]; omega
  | ⟨2, _⟩ => show win0_2.index t 2 * 512 + 1 * e.val = e.val; rw [h2]; omega

theorem iblk_3_apply (c : Dev nD) (t : Fin cfg0.N) (n : Fin 64) (e : Fin 512) (R : Fin 1024)
    (hR : R.val = (4 * t.val + 0 + 1) * (3 + 1) - 1) :
    (iblk m c 3 t : Vec F S1x64x512 .f32) (ix3 0 n e)
      = (m ((c : Thread nD τ).loc main_arg0) : S1024x64x512.Idx → Elt F .f32) (ix3 R n e) := by
  obtain ⟨h0, h1, h2⟩ := idx_3 t
  unfold iblk
  rw [View.read_apply]
  show V m c main_arg0 _ = _
  rw [V_main_arg0]
  congr 1
  funext a
  apply Fin.ext
  match a with
  | ⟨0, _⟩ => show win0_3.index t 0 * 1 + 1 * 0 = R.val; rw [h0, hR]; omega
  | ⟨1, _⟩ => show win0_3.index t 1 * 64 + 1 * n.val = n.val; rw [h1]; omega
  | ⟨2, _⟩ => show win0_3.index t 2 * 512 + 1 * e.val = e.val; rw [h2]; omega

theorem iblk_4_apply (c : Dev nD) (t : Fin cfg0.N) (n : Fin 64) (e : Fin 512) (R : Fin 1024)
    (hR : R.val = (4 * t.val + 0 + 1) * (4 + 1) - 1) :
    (iblk m c 4 t : Vec F S1x64x512 .f32) (ix3 0 n e)
      = (m ((c : Thread nD τ).loc main_arg0) : S1024x64x512.Idx → Elt F .f32) (ix3 R n e) := by
  obtain ⟨h0, h1, h2⟩ := idx_4 t
  unfold iblk
  rw [View.read_apply]
  show V m c main_arg0 _ = _
  rw [V_main_arg0]
  congr 1
  funext a
  apply Fin.ext
  match a with
  | ⟨0, _⟩ => show win0_4.index t 0 * 1 + 1 * 0 = R.val; rw [h0, hR]; omega
  | ⟨1, _⟩ => show win0_4.index t 1 * 64 + 1 * n.val = n.val; rw [h1]; omega
  | ⟨2, _⟩ => show win0_4.index t 2 * 512 + 1 * e.val = e.val; rw [h2]; omega

theorem iblk_5_apply (c : Dev nD) (t : Fin cfg0.N) (n : Fin 64) (e : Fin 512) (R : Fin 1024)
    (hR : R.val = (4 * t.val + 0 + 1) * (5 + 1) - 1) :
    (iblk m c 5 t : Vec F S1x64x512 .f32) (ix3 0 n e)
      = (m ((c : Thread nD τ).loc main_arg0) : S1024x64x512.Idx → Elt F .f32) (ix3 R n e) := by
  obtain ⟨h0, h1, h2⟩ := idx_5 t
  unfold iblk
  rw [View.read_apply]
  show V m c main_arg0 _ = _
  rw [V_main_arg0]
  congr 1
  funext a
  apply Fin.ext
  match a with
  | ⟨0, _⟩ => show win0_5.index t 0 * 1 + 1 * 0 = R.val; rw [h0, hR]; omega
  | ⟨1, _⟩ => show win0_5.index t 1 * 64 + 1 * n.val = n.val; rw [h1]; omega
  | ⟨2, _⟩ => show win0_5.index t 2 * 512 + 1 * e.val = e.val; rw [h2]; omega

theorem iblk_6_apply (c : Dev nD) (t : Fin cfg0.N) (n : Fin 64) (e : Fin 512) (R : Fin 1024)
    (hR : R.val = (4 * t.val + 0 + 1) * (6 + 1) - 1) :
    (iblk m c 6 t : Vec F S1x64x512 .f32) (ix3 0 n e)
      = (m ((c : Thread nD τ).loc main_arg0) : S1024x64x512.Idx → Elt F .f32) (ix3 R n e) := by
  obtain ⟨h0, h1, h2⟩ := idx_6 t
  unfold iblk
  rw [View.read_apply]
  show V m c main_arg0 _ = _
  rw [V_main_arg0]
  congr 1
  funext a
  apply Fin.ext
  match a with
  | ⟨0, _⟩ => show win0_6.index t 0 * 1 + 1 * 0 = R.val; rw [h0, hR]; omega
  | ⟨1, _⟩ => show win0_6.index t 1 * 64 + 1 * n.val = n.val; rw [h1]; omega
  | ⟨2, _⟩ => show win0_6.index t 2 * 512 + 1 * e.val = e.val; rw [h2]; omega

theorem iblk_7_apply (c : Dev nD) (t : Fin cfg0.N) (n : Fin 64) (e : Fin 512) (R : Fin 1024)
    (hR : R.val = (4 * t.val + 0 + 1) * (7 + 1) - 1) :
    (iblk m c 7 t : Vec F S1x64x512 .f32) (ix3 0 n e)
      = (m ((c : Thread nD τ).loc main_arg0) : S1024x64x512.Idx → Elt F .f32) (ix3 R n e) := by
  obtain ⟨h0, h1, h2⟩ := idx_7 t
  unfold iblk
  rw [View.read_apply]
  show V m c main_arg0 _ = _
  rw [V_main_arg0]
  congr 1
  funext a
  apply Fin.ext
  match a with
  | ⟨0, _⟩ => show win0_7.index t 0 * 1 + 1 * 0 = R.val; rw [h0, hR]; omega
  | ⟨1, _⟩ => show win0_7.index t 1 * 64 + 1 * n.val = n.val; rw [h1]; omega
  | ⟨2, _⟩ => show win0_7.index t 2 * 512 + 1 * e.val = e.val; rw [h2]; omega

theorem iblk_8_apply (c : Dev nD) (t : Fin cfg0.N) (n : Fin 64) (e : Fin 512) (R : Fin 1024)
    (hR : R.val = (4 * t.val + 0 + 1) * (8 + 1) - 1) :
    (iblk m c 8 t : Vec F S1x64x512 .f32) (ix3 0 n e)
      = (m ((c : Thread nD τ).loc main_arg0) : S1024x64x512.Idx → Elt F .f32) (ix3 R n e) := by
  obtain ⟨h0, h1, h2⟩ := idx_8 t
  unfold iblk
  rw [View.read_apply]
  show V m c main_arg0 _ = _
  rw [V_main_arg0]
  congr 1
  funext a
  apply Fin.ext
  match a with
  | ⟨0, _⟩ => show win0_8.index t 0 * 1 + 1 * 0 = R.val; rw [h0, hR]; omega
  | ⟨1, _⟩ => show win0_8.index t 1 * 64 + 1 * n.val = n.val; rw [h1]; omega
  | ⟨2, _⟩ => show win0_8.index t 2 * 512 + 1 * e.val = e.val; rw [h2]; omega

theorem iblk_9_apply (c : Dev nD) (t : Fin cfg0.N) (n : Fin 64) (e : Fin 512) (R : Fin 1024)
    (hR : R.val = (4 * t.val + 0 + 1) * (9 + 1) - 1) :
    (iblk m c 9 t : Vec F S1x64x512 .f32) (ix3 0 n e)
      = (m ((c : Thread nD τ).loc main_arg0) : S1024x64x512.Idx → Elt F .f32) (ix3 R n e) := by
  obtain ⟨h0, h1, h2⟩ := idx_9 t
  unfold iblk
  rw [View.read_apply]
  show V m c main_arg0 _ = _
  rw [V_main_arg0]
  congr 1
  funext a
  apply Fin.ext
  match a with
  | ⟨0, _⟩ => show win0_9.index t 0 * 1 + 1 * 0 = R.val; rw [h0, hR]; omega
  | ⟨1, _⟩ => show win0_9.index t 1 * 64 + 1 * n.val = n.val; rw [h1]; omega
  | ⟨2, _⟩ => show win0_9.index t 2 * 512 + 1 * e.val = e.val; rw [h2]; omega

theorem iblk_10_apply (c : Dev nD) (t : Fin cfg0.N) (n : Fin 64) (e : Fin 512) (R : Fin 1024)
    (hR : R.val = (4 * t.val + 0 + 1) * (10 + 1) - 1) :
    (iblk m c 10 t : Vec F S1x64x512 .f32) (ix3 0 n e)
      = (m ((c : Thread nD τ).loc main_arg0) : S1024x64x512.Idx → Elt F .f32) (ix3 R n e) := by
  obtain ⟨h0, h1, h2⟩ := idx_10 t
  unfold iblk
  rw [View.read_apply]
  show V m c main_arg0 _ = _
  rw [V_main_arg0]
  congr 1
  funext a
  apply Fin.ext
  match a with
  | ⟨0, _⟩ => show win0_10.index t 0 * 1 + 1 * 0 = R.val; rw [h0, hR]; omega
  | ⟨1, _⟩ => show win0_10.index t 1 * 64 + 1 * n.val = n.val; rw [h1]; omega
  | ⟨2, _⟩ => show win0_10.index t 2 * 512 + 1 * e.val = e.val; rw [h2]; omega

theorem iblk_11_apply (c : Dev nD) (t : Fin cfg0.N) (n : Fin 64) (e : Fin 512) (R : Fin 1024)
    (hR : R.val = (4 * t.val + 0 + 1) * (11 + 1) - 1) :
    (iblk m c 11 t : Vec F S1x64x512 .f32) (ix3 0 n e)
      = (m ((c : Thread nD τ).loc main_arg0) : S1024x64x512.Idx → Elt F .f32) (ix3 R n e) := by
  obtain ⟨h0, h1, h2⟩ := idx_11 t
  unfold iblk
  rw [View.read_apply]
  show V m c main_arg0 _ = _
  rw [V_main_arg0]
  congr 1
  funext a
  apply Fin.ext
  match a with
  | ⟨0, _⟩ => show win0_11.index t 0 * 1 + 1 * 0 = R.val; rw [h0, hR]; omega
  | ⟨1, _⟩ => show win0_11.index t 1 * 64 + 1 * n.val = n.val; rw [h1]; omega
  | ⟨2, _⟩ => show win0_11.index t 2 * 512 + 1 * e.val = e.val; rw [h2]; omega

theorem iblk_12_apply (c : Dev nD) (t : Fin cfg0.N) (n : Fin 64) (e : Fin 512) (R : Fin 1024)
    (hR : R.val = (4 * t.val + 0 + 1) * (12 + 1) - 1) :
    (iblk m c 12 t : Vec F S1x64x512 .f32) (ix3 0 n e)
      = (m ((c : Thread nD τ).loc main_arg0) : S1024x64x512.Idx → Elt F .f32) (ix3 R n e) := by
  obtain ⟨h0, h1, h2⟩ := idx_12 t
  unfold iblk
  rw [View.read_apply]
  show V m c main_arg0 _ = _
  rw [V_main_arg0]
  congr 1
  funext a
  apply Fin.ext
  match a with
  | ⟨0, _⟩ => show win0_12.index t 0 * 1 + 1 * 0 = R.val; rw [h0, hR]; omega
  | ⟨1, _⟩ => show win0_12.index t 1 * 64 + 1 * n.val = n.val; rw [h1]; omega
  | ⟨2, _⟩ => show win0_12.index t 2 * 512 + 1 * e.val = e.val; rw [h2]; omega

theorem iblk_13_apply (c : Dev nD) (t : Fin cfg0.N) (n : Fin 64) (e : Fin 512) (R : Fin 1024)
    (hR : R.val = (4 * t.val + 0 + 1) * (13 + 1) - 1) :
    (iblk m c 13 t : Vec F S1x64x512 .f32) (ix3 0 n e)
      = (m ((c : Thread nD τ).loc main_arg0) : S1024x64x512.Idx → Elt F .f32) (ix3 R n e) := by
  obtain ⟨h0, h1, h2⟩ := idx_13 t
  unfold iblk
  rw [View.read_apply]
  show V m c main_arg0 _ = _
  rw [V_main_arg0]
  congr 1
  funext a
  apply Fin.ext
  match a with
  | ⟨0, _⟩ => show win0_13.index t 0 * 1 + 1 * 0 = R.val; rw [h0, hR]; omega
  | ⟨1, _⟩ => show win0_13.index t 1 * 64 + 1 * n.val = n.val; rw [h1]; omega
  | ⟨2, _⟩ => show win0_13.index t 2 * 512 + 1 * e.val = e.val; rw [h2]; omega

theorem iblk_14_apply (c : Dev nD) (t : Fin cfg0.N) (n : Fin 64) (e : Fin 512) (R : Fin 1024)
    (hR : R.val = (4 * t.val + 0 + 1) * (14 + 1) - 1) :
    (iblk m c 14 t : Vec F S1x64x512 .f32) (ix3 0 n e)
      = (m ((c : Thread nD τ).loc main_arg0) : S1024x64x512.Idx → Elt F .f32) (ix3 R n e) := by
  obtain ⟨h0, h1, h2⟩ := idx_14 t
  unfold iblk
  rw [View.read_apply]
  show V m c main_arg0 _ = _
  rw [V_main_arg0]
  congr 1
  funext a
  apply Fin.ext
  match a with
  | ⟨0, _⟩ => show win0_14.index t 0 * 1 + 1 * 0 = R.val; rw [h0, hR]; omega
  | ⟨1, _⟩ => show win0_14.index t 1 * 64 + 1 * n.val = n.val; rw [h1]; omega
  | ⟨2, _⟩ => show win0_14.index t 2 * 512 + 1 * e.val = e.val; rw [h2]; omega

theorem iblk_15_apply (c : Dev nD) (t : Fin cfg0.N) (n : Fin 64) (e : Fin 512) (R : Fin 1024)
    (hR : R.val = (4 * t.val + 0 + 1) * (15 + 1) - 1) :
    (iblk m c 15 t : Vec F S1x64x512 .f32) (ix3 0 n e)
      = (m ((c : Thread nD τ).loc main_arg0) : S1024x64x512.Idx → Elt F .f32) (ix3 R n e) := by
  obtain ⟨h0, h1, h2⟩ := idx_15 t
  unfold iblk
  rw [View.read_apply]
  show V m c main_arg0 _ = _
  rw [V_main_arg0]
  congr 1
  funext a
  apply Fin.ext
  match a with
  | ⟨0, _⟩ => show win0_15.index t 0 * 1 + 1 * 0 = R.val; rw [h0, hR]; omega
  | ⟨1, _⟩ => show win0_15.index t 1 * 64 + 1 * n.val = n.val; rw [h1]; omega
  | ⟨2, _⟩ => show win0_15.index t 2 * 512 + 1 * e.val = e.val; rw [h2]; omega

theorem iblk_16_apply (c : Dev nD) (t : Fin cfg0.N) (n : Fin 64) (e : Fin 512) (R : Fin 1024)
    (hR : R.val = (4 * t.val + 1 + 1) * (0 + 1) - 1) :
    (iblk m c 16 t : Vec F S1x64x512 .f32) (ix3 0 n e)
      = (m ((c : Thread nD τ).loc main_arg0) : S1024x64x512.Idx → Elt F .f32) (ix3 R n e) := by
  obtain ⟨h0, h1, h2⟩ := idx_16 t
  unfold iblk
  rw [View.read_apply]
  show V m c main_arg0 _ = _
  rw [V_main_arg0]
  congr 1
  funext a
  apply Fin.ext
  match a with
  | ⟨0, _⟩ => show win0_16.index t 0 * 1 + 1 * 0 = R.val; rw [h0, hR]; omega
  | ⟨1, _⟩ => show win0_16.index t 1 * 64 + 1 * n.val = n.val; rw [h1]; omega
  | ⟨2, _⟩ => show win0_16.index t 2 * 512 + 1 * e.val = e.val; rw [h2]; omega

theorem iblk_17_apply (c : Dev nD) (t : Fin cfg0.N) (n : Fin 64) (e : Fin 512) (R : Fin 1024)
    (hR : R.val = (4 * t.val + 1 + 1) * (1 + 1) - 1) :
    (iblk m c 17 t : Vec F S1x64x512 .f32) (ix3 0 n e)
      = (m ((c : Thread nD τ).loc main_arg0) : S1024x64x512.Idx → Elt F .f32) (ix3 R n e) := by
  obtain ⟨h0, h1, h2⟩ := idx_17 t
  unfold iblk
  rw [View.read_apply]
  show V m c main_arg0 _ = _
  rw [V_main_arg0]
  congr 1
  funext a
  apply Fin.ext
  match a with
  | ⟨0, _⟩ => show win0_17.index t 0 * 1 + 1 * 0 = R.val; rw [h0, hR]; omega
  | ⟨1, _⟩ => show win0_17.index t 1 * 64 + 1 * n.val = n.val; rw [h1]; omega
  | ⟨2, _⟩ => show win0_17.index t 2 * 512 + 1 * e.val = e.val; rw [h2]; omega

theorem iblk_18_apply (c : Dev nD) (t : Fin cfg0.N) (n : Fin 64) (e : Fin 512) (R : Fin 1024)
    (hR : R.val = (4 * t.val + 1 + 1) * (2 + 1) - 1) :
    (iblk m c 18 t : Vec F S1x64x512 .f32) (ix3 0 n e)
      = (m ((c : Thread nD τ).loc main_arg0) : S1024x64x512.Idx → Elt F .f32) (ix3 R n e) := by
  obtain ⟨h0, h1, h2⟩ := idx_18 t
  unfold iblk
  rw [View.read_apply]
  show V m c main_arg0 _ = _
  rw [V_main_arg0]
  congr 1
  funext a
  apply Fin.ext
  match a with
  | ⟨0, _⟩ => show win0_18.index t 0 * 1 + 1 * 0 = R.val; rw [h0, hR]; omega
  | ⟨1, _⟩ => show win0_18.index t 1 * 64 + 1 * n.val = n.val; rw [h1]; omega
  | ⟨2, _⟩ => show win0_18.index t 2 * 512 + 1 * e.val = e.val; rw [h2]; omega

theorem iblk_19_apply (c : Dev nD) (t : Fin cfg0.N) (n : Fin 64) (e : Fin 512) (R : Fin 1024)
    (hR : R.val = (4 * t.val + 1 + 1) * (3 + 1) - 1) :
    (iblk m c 19 t : Vec F S1x64x512 .f32) (ix3 0 n e)
      = (m ((c : Thread nD τ).loc main_arg0) : S1024x64x512.Idx → Elt F .f32) (ix3 R n e) := by
  obtain ⟨h0, h1, h2⟩ := idx_19 t
  unfold iblk
  rw [View.read_apply]
  show V m c main_arg0 _ = _
  rw [V_main_arg0]
  congr 1
  funext a
  apply Fin.ext
  match a with
  | ⟨0, _⟩ => show win0_19.index t 0 * 1 + 1 * 0 = R.val; rw [h0, hR]; omega
  | ⟨1, _⟩ => show win0_19.index t 1 * 64 + 1 * n.val = n.val; rw [h1]; omega
  | ⟨2, _⟩ => show win0_19.index t 2 * 512 + 1 * e.val = e.val; rw [h2]; omega

theorem iblk_20_apply (c : Dev nD) (t : Fin cfg0.N) (n : Fin 64) (e : Fin 512) (R : Fin 1024)
    (hR : R.val = (4 * t.val + 1 + 1) * (4 + 1) - 1) :
    (iblk m c 20 t : Vec F S1x64x512 .f32) (ix3 0 n e)
      = (m ((c : Thread nD τ).loc main_arg0) : S1024x64x512.Idx → Elt F .f32) (ix3 R n e) := by
  obtain ⟨h0, h1, h2⟩ := idx_20 t
  unfold iblk
  rw [View.read_apply]
  show V m c main_arg0 _ = _
  rw [V_main_arg0]
  congr 1
  funext a
  apply Fin.ext
  match a with
  | ⟨0, _⟩ => show win0_20.index t 0 * 1 + 1 * 0 = R.val; rw [h0, hR]; omega
  | ⟨1, _⟩ => show win0_20.index t 1 * 64 + 1 * n.val = n.val; rw [h1]; omega
  | ⟨2, _⟩ => show win0_20.index t 2 * 512 + 1 * e.val = e.val; rw [h2]; omega

theorem iblk_21_apply (c : Dev nD) (t : Fin cfg0.N) (n : Fin 64) (e : Fin 512) (R : Fin 1024)
    (hR : R.val = (4 * t.val + 1 + 1) * (5 + 1) - 1) :
    (iblk m c 21 t : Vec F S1x64x512 .f32) (ix3 0 n e)
      = (m ((c : Thread nD τ).loc main_arg0) : S1024x64x512.Idx → Elt F .f32) (ix3 R n e) := by
  obtain ⟨h0, h1, h2⟩ := idx_21 t
  unfold iblk
  rw [View.read_apply]
  show V m c main_arg0 _ = _
  rw [V_main_arg0]
  congr 1
  funext a
  apply Fin.ext
  match a with
  | ⟨0, _⟩ => show win0_21.index t 0 * 1 + 1 * 0 = R.val; rw [h0, hR]; omega
  | ⟨1, _⟩ => show win0_21.index t 1 * 64 + 1 * n.val = n.val; rw [h1]; omega
  | ⟨2, _⟩ => show win0_21.index t 2 * 512 + 1 * e.val = e.val; rw [h2]; omega

theorem iblk_22_apply (c : Dev nD) (t : Fin cfg0.N) (n : Fin 64) (e : Fin 512) (R : Fin 1024)
    (hR : R.val = (4 * t.val + 1 + 1) * (6 + 1) - 1) :
    (iblk m c 22 t : Vec F S1x64x512 .f32) (ix3 0 n e)
      = (m ((c : Thread nD τ).loc main_arg0) : S1024x64x512.Idx → Elt F .f32) (ix3 R n e) := by
  obtain ⟨h0, h1, h2⟩ := idx_22 t
  unfold iblk
  rw [View.read_apply]
  show V m c main_arg0 _ = _
  rw [V_main_arg0]
  congr 1
  funext a
  apply Fin.ext
  match a with
  | ⟨0, _⟩ => show win0_22.index t 0 * 1 + 1 * 0 = R.val; rw [h0, hR]; omega
  | ⟨1, _⟩ => show win0_22.index t 1 * 64 + 1 * n.val = n.val; rw [h1]; omega
  | ⟨2, _⟩ => show win0_22.index t 2 * 512 + 1 * e.val = e.val; rw [h2]; omega

theorem iblk_23_apply (c : Dev nD) (t : Fin cfg0.N) (n : Fin 64) (e : Fin 512) (R : Fin 1024)
    (hR : R.val = (4 * t.val + 1 + 1) * (7 + 1) - 1) :
    (iblk m c 23 t : Vec F S1x64x512 .f32) (ix3 0 n e)
      = (m ((c : Thread nD τ).loc main_arg0) : S1024x64x512.Idx → Elt F .f32) (ix3 R n e) := by
  obtain ⟨h0, h1, h2⟩ := idx_23 t
  unfold iblk
  rw [View.read_apply]
  show V m c main_arg0 _ = _
  rw [V_main_arg0]
  congr 1
  funext a
  apply Fin.ext
  match a with
  | ⟨0, _⟩ => show win0_23.index t 0 * 1 + 1 * 0 = R.val; rw [h0, hR]; omega
  | ⟨1, _⟩ => show win0_23.index t 1 * 64 + 1 * n.val = n.val; rw [h1]; omega
  | ⟨2, _⟩ => show win0_23.index t 2 * 512 + 1 * e.val = e.val; rw [h2]; omega

theorem iblk_24_apply (c : Dev nD) (t : Fin cfg0.N) (n : Fin 64) (e : Fin 512) (R : Fin 1024)
    (hR : R.val = (4 * t.val + 1 + 1) * (8 + 1) - 1) :
    (iblk m c 24 t : Vec F S1x64x512 .f32) (ix3 0 n e)
      = (m ((c : Thread nD τ).loc main_arg0) : S1024x64x512.Idx → Elt F .f32) (ix3 R n e) := by
  obtain ⟨h0, h1, h2⟩ := idx_24 t
  unfold iblk
  rw [View.read_apply]
  show V m c main_arg0 _ = _
  rw [V_main_arg0]
  congr 1
  funext a
  apply Fin.ext
  match a with
  | ⟨0, _⟩ => show win0_24.index t 0 * 1 + 1 * 0 = R.val; rw [h0, hR]; omega
  | ⟨1, _⟩ => show win0_24.index t 1 * 64 + 1 * n.val = n.val; rw [h1]; omega
  | ⟨2, _⟩ => show win0_24.index t 2 * 512 + 1 * e.val = e.val; rw [h2]; omega

theorem iblk_25_apply (c : Dev nD) (t : Fin cfg0.N) (n : Fin 64) (e : Fin 512) (R : Fin 1024)
    (hR : R.val = (4 * t.val + 1 + 1) * (9 + 1) - 1) :
    (iblk m c 25 t : Vec F S1x64x512 .f32) (ix3 0 n e)
      = (m ((c : Thread nD τ).loc main_arg0) : S1024x64x512.Idx → Elt F .f32) (ix3 R n e) := by
  obtain ⟨h0, h1, h2⟩ := idx_25 t
  unfold iblk
  rw [View.read_apply]
  show V m c main_arg0 _ = _
  rw [V_main_arg0]
  congr 1
  funext a
  apply Fin.ext
  match a with
  | ⟨0, _⟩ => show win0_25.index t 0 * 1 + 1 * 0 = R.val; rw [h0, hR]; omega
  | ⟨1, _⟩ => show win0_25.index t 1 * 64 + 1 * n.val = n.val; rw [h1]; omega
  | ⟨2, _⟩ => show win0_25.index t 2 * 512 + 1 * e.val = e.val; rw [h2]; omega

theorem iblk_26_apply (c : Dev nD) (t : Fin cfg0.N) (n : Fin 64) (e : Fin 512) (R : Fin 1024)
    (hR : R.val = (4 * t.val + 1 + 1) * (10 + 1) - 1) :
    (iblk m c 26 t : Vec F S1x64x512 .f32) (ix3 0 n e)
      = (m ((c : Thread nD τ).loc main_arg0) : S1024x64x512.Idx → Elt F .f32) (ix3 R n e) := by
  obtain ⟨h0, h1, h2⟩ := idx_26 t
  unfold iblk
  rw [View.read_apply]
  show V m c main_arg0 _ = _
  rw [V_main_arg0]
  congr 1
  funext a
  apply Fin.ext
  match a with
  | ⟨0, _⟩ => show win0_26.index t 0 * 1 + 1 * 0 = R.val; rw [h0, hR]; omega
  | ⟨1, _⟩ => show win0_26.index t 1 * 64 + 1 * n.val = n.val; rw [h1]; omega
  | ⟨2, _⟩ => show win0_26.index t 2 * 512 + 1 * e.val = e.val; rw [h2]; omega

theorem iblk_27_apply (c : Dev nD) (t : Fin cfg0.N) (n : Fin 64) (e : Fin 512) (R : Fin 1024)
    (hR : R.val = (4 * t.val + 1 + 1) * (11 + 1) - 1) :
    (iblk m c 27 t : Vec F S1x64x512 .f32) (ix3 0 n e)
      = (m ((c : Thread nD τ).loc main_arg0) : S1024x64x512.Idx → Elt F .f32) (ix3 R n e) := by
  obtain ⟨h0, h1, h2⟩ := idx_27 t
  unfold iblk
  rw [View.read_apply]
  show V m c main_arg0 _ = _
  rw [V_main_arg0]
  congr 1
  funext a
  apply Fin.ext
  match a with
  | ⟨0, _⟩ => show win0_27.index t 0 * 1 + 1 * 0 = R.val; rw [h0, hR]; omega
  | ⟨1, _⟩ => show win0_27.index t 1 * 64 + 1 * n.val = n.val; rw [h1]; omega
  | ⟨2, _⟩ => show win0_27.index t 2 * 512 + 1 * e.val = e.val; rw [h2]; omega

theorem iblk_28_apply (c : Dev nD) (t : Fin cfg0.N) (n : Fin 64) (e : Fin 512) (R : Fin 1024)
    (hR : R.val = (4 * t.val + 1 + 1) * (12 + 1) - 1) :
    (iblk m c 28 t : Vec F S1x64x512 .f32) (ix3 0 n e)
      = (m ((c : Thread nD τ).loc main_arg0) : S1024x64x512.Idx → Elt F .f32) (ix3 R n e) := by
  obtain ⟨h0, h1, h2⟩ := idx_28 t
  unfold iblk
  rw [View.read_apply]
  show V m c main_arg0 _ = _
  rw [V_main_arg0]
  congr 1
  funext a
  apply Fin.ext
  match a with
  | ⟨0, _⟩ => show win0_28.index t 0 * 1 + 1 * 0 = R.val; rw [h0, hR]; omega
  | ⟨1, _⟩ => show win0_28.index t 1 * 64 + 1 * n.val = n.val; rw [h1]; omega
  | ⟨2, _⟩ => show win0_28.index t 2 * 512 + 1 * e.val = e.val; rw [h2]; omega

theorem iblk_29_apply (c : Dev nD) (t : Fin cfg0.N) (n : Fin 64) (e : Fin 512) (R : Fin 1024)
    (hR : R.val = (4 * t.val + 1 + 1) * (13 + 1) - 1) :
    (iblk m c 29 t : Vec F S1x64x512 .f32) (ix3 0 n e)
      = (m ((c : Thread nD τ).loc main_arg0) : S1024x64x512.Idx → Elt F .f32) (ix3 R n e) := by
  obtain ⟨h0, h1, h2⟩ := idx_29 t
  unfold iblk
  rw [View.read_apply]
  show V m c main_arg0 _ = _
  rw [V_main_arg0]
  congr 1
  funext a
  apply Fin.ext
  match a with
  | ⟨0, _⟩ => show win0_29.index t 0 * 1 + 1 * 0 = R.val; rw [h0, hR]; omega
  | ⟨1, _⟩ => show win0_29.index t 1 * 64 + 1 * n.val = n.val; rw [h1]; omega
  | ⟨2, _⟩ => show win0_29.index t 2 * 512 + 1 * e.val = e.val; rw [h2]; omega

theorem iblk_30_apply (c : Dev nD) (t : Fin cfg0.N) (n : Fin 64) (e : Fin 512) (R : Fin 1024)
    (hR : R.val = (4 * t.val + 1 + 1) * (14 + 1) - 1) :
    (iblk m c 30 t : Vec F S1x64x512 .f32) (ix3 0 n e)
      = (m ((c : Thread nD τ).loc main_arg0) : S1024x64x512.Idx → Elt F .f32) (ix3 R n e) := by
  obtain ⟨h0, h1, h2⟩ := idx_30 t
  unfold iblk
  rw [View.read_apply]
  show V m c main_arg0 _ = _
  rw [V_main_arg0]
  congr 1
  funext a
  apply Fin.ext
  match a with
  | ⟨0, _⟩ => show win0_30.index t 0 * 1 + 1 * 0 = R.val; rw [h0, hR]; omega
  | ⟨1, _⟩ => show win0_30.index t 1 * 64 + 1 * n.val = n.val; rw [h1]; omega
  | ⟨2, _⟩ => show win0_30.index t 2 * 512 + 1 * e.val = e.val; rw [h2]; omega

theorem iblk_31_apply (c : Dev nD) (t : Fin cfg0.N) (n : Fin 64) (e : Fin 512) (R : Fin 1024)
    (hR : R.val = (4 * t.val + 1 + 1) * (15 + 1) - 1) :
    (iblk m c 31 t : Vec F S1x64x512 .f32) (ix3 0 n e)
      = (m ((c : Thread nD τ).loc main_arg0) : S1024x64x512.Idx → Elt F .f32) (ix3 R n e) := by
  obtain ⟨h0, h1, h2⟩ := idx_31 t
  unfold iblk
  rw [View.read_apply]
  show V m c main_arg0 _ = _
  rw [V_main_arg0]
  congr 1
  funext a
  apply Fin.ext
  match a with
  | ⟨0, _⟩ => show win0_31.index t 0 * 1 + 1 * 0 = R.val; rw [h0, hR]; omega
  | ⟨1, _⟩ => show win0_31.index t 1 * 64 + 1 * n.val = n.val; rw [h1]; omega
  | ⟨2, _⟩ => show win0_31.index t 2 * 512 + 1 * e.val = e.val; rw [h2]; omega

theorem iblk_32_apply (c : Dev nD) (t : Fin cfg0.N) (n : Fin 64) (e : Fin 512) (R : Fin 1024)
    (hR : R.val = (4 * t.val + 2 + 1) * (0 + 1) - 1) :
    (iblk m c 32 t : Vec F S1x64x512 .f32) (ix3 0 n e)
      = (m ((c : Thread nD τ).loc main_arg0) : S1024x64x512.Idx → Elt F .f32) (ix3 R n e) := by
  obtain ⟨h0, h1, h2⟩ := idx_32 t
  unfold iblk
  rw [View.read_apply]
  show V m c main_arg0 _ = _
  rw [V_main_arg0]
  congr 1
  funext a
  apply Fin.ext
  match a with
  | ⟨0, _⟩ => show win0_32.index t 0 * 1 + 1 * 0 = R.val; rw [h0, hR]; omega
  | ⟨1, _⟩ => show win0_32.index t 1 * 64 + 1 * n.val = n.val; rw [h1]; omega
  | ⟨2, _⟩ => show win0_32.index t 2 * 512 + 1 * e.val = e.val; rw [h2]; omega

theorem iblk_33_apply (c : Dev nD) (t : Fin cfg0.N) (n : Fin 64) (e : Fin 512) (R : Fin 1024)
    (hR : R.val = (4 * t.val + 2 + 1) * (1 + 1) - 1) :
    (iblk m c 33 t : Vec F S1x64x512 .f32) (ix3 0 n e)
      = (m ((c : Thread nD τ).loc main_arg0) : S1024x64x512.Idx → Elt F .f32) (ix3 R n e) := by
  obtain ⟨h0, h1, h2⟩ := idx_33 t
  unfold iblk
  rw [View.read_apply]
  show V m c main_arg0 _ = _
  rw [V_main_arg0]
  congr 1
  funext a
  apply Fin.ext
  match a with
  | ⟨0, _⟩ => show win0_33.index t 0 * 1 + 1 * 0 = R.val; rw [h0, hR]; omega
  | ⟨1, _⟩ => show win0_33.index t 1 * 64 + 1 * n.val = n.val; rw [h1]; omega
  | ⟨2, _⟩ => show win0_33.index t 2 * 512 + 1 * e.val = e.val; rw [h2]; omega

theorem iblk_34_apply (c : Dev nD) (t : Fin cfg0.N) (n : Fin 64) (e : Fin 512) (R : Fin 1024)
    (hR : R.val = (4 * t.val + 2 + 1) * (2 + 1) - 1) :
    (iblk m c 34 t : Vec F S1x64x512 .f32) (ix3 0 n e)
      = (m ((c : Thread nD τ).loc main_arg0) : S1024x64x512.Idx → Elt F .f32) (ix3 R n e) := by
  obtain ⟨h0, h1, h2⟩ := idx_34 t
  unfold iblk
  rw [View.read_apply]
  show V m c main_arg0 _ = _
  rw [V_main_arg0]
  congr 1
  funext a
  apply Fin.ext
  match a with
  | ⟨0, _⟩ => show win0_34.index t 0 * 1 + 1 * 0 = R.val; rw [h0, hR]; omega
  | ⟨1, _⟩ => show win0_34.index t 1 * 64 + 1 * n.val = n.val; rw [h1]; omega
  | ⟨2, _⟩ => show win0_34.index t 2 * 512 + 1 * e.val = e.val; rw [h2]; omega

theorem iblk_35_apply (c : Dev nD) (t : Fin cfg0.N) (n : Fin 64) (e : Fin 512) (R : Fin 1024)
    (hR : R.val = (4 * t.val + 2 + 1) * (3 + 1) - 1) :
    (iblk m c 35 t : Vec F S1x64x512 .f32) (ix3 0 n e)
      = (m ((c : Thread nD τ).loc main_arg0) : S1024x64x512.Idx → Elt F .f32) (ix3 R n e) := by
  obtain ⟨h0, h1, h2⟩ := idx_35 t
  unfold iblk
  rw [View.read_apply]
  show V m c main_arg0 _ = _
  rw [V_main_arg0]
  congr 1
  funext a
  apply Fin.ext
  match a with
  | ⟨0, _⟩ => show win0_35.index t 0 * 1 + 1 * 0 = R.val; rw [h0, hR]; omega
  | ⟨1, _⟩ => show win0_35.index t 1 * 64 + 1 * n.val = n.val; rw [h1]; omega
  | ⟨2, _⟩ => show win0_35.index t 2 * 512 + 1 * e.val = e.val; rw [h2]; omega

theorem iblk_36_apply (c : Dev nD) (t : Fin cfg0.N) (n : Fin 64) (e : Fin 512) (R : Fin 1024)
    (hR : R.val = (4 * t.val + 2 + 1) * (4 + 1) - 1) :
    (iblk m c 36 t : Vec F S1x64x512 .f32) (ix3 0 n e)
      = (m ((c : Thread nD τ).loc main_arg0) : S1024x64x512.Idx → Elt F .f32) (ix3 R n e) := by
  obtain ⟨h0, h1, h2⟩ := idx_36 t
  unfold iblk
  rw [View.read_apply]
  show V m c main_arg0 _ = _
  rw [V_main_arg0]
  congr 1
  funext a
  apply Fin.ext
  match a with
  | ⟨0, _⟩ => show win0_36.index t 0 * 1 + 1 * 0 = R.val; rw [h0, hR]; omega
  | ⟨1, _⟩ => show win0_36.index t 1 * 64 + 1 * n.val = n.val; rw [h1]; omega
  | ⟨2, _⟩ => show win0_36.index t 2 * 512 + 1 * e.val = e.val; rw [h2]; omega

theorem iblk_37_apply (c : Dev nD) (t : Fin cfg0.N) (n : Fin 64) (e : Fin 512) (R : Fin 1024)
    (hR : R.val = (4 * t.val + 2 + 1) * (5 + 1) - 1) :
    (iblk m c 37 t : Vec F S1x64x512 .f32) (ix3 0 n e)
      = (m ((c : Thread nD τ).loc main_arg0) : S1024x64x512.Idx → Elt F .f32) (ix3 R n e) := by
  obtain ⟨h0, h1, h2⟩ := idx_37 t
  unfold iblk
  rw [View.read_apply]
  show V m c main_arg0 _ = _
  rw [V_main_arg0]
  congr 1
  funext a
  apply Fin.ext
  match a with
  | ⟨0, _⟩ => show win0_37.index t 0 * 1 + 1 * 0 = R.val; rw [h0, hR]; omega
  | ⟨1, _⟩ => show win0_37.index t 1 * 64 + 1 * n.val = n.val; rw [h1]; omega
  | ⟨2, _⟩ => show win0_37.index t 2 * 512 + 1 * e.val = e.val; rw [h2]; omega

theorem iblk_38_apply (c : Dev nD) (t : Fin cfg0.N) (n : Fin 64) (e : Fin 512) (R : Fin 1024)
    (hR : R.val = (4 * t.val + 2 + 1) * (6 + 1) - 1) :
    (iblk m c 38 t : Vec F S1x64x512 .f32) (ix3 0 n e)
      = (m ((c : Thread nD τ).loc main_arg0) : S1024x64x512.Idx → Elt F .f32) (ix3 R n e) := by
  obtain ⟨h0, h1, h2⟩ := idx_38 t
  unfold iblk
  rw [View.read_apply]
  show V m c main_arg0 _ = _
  rw [V_main_arg0]
  congr 1
  funext a
  apply Fin.ext
  match a with
  | ⟨0, _⟩ => show win0_38.index t 0 * 1 + 1 * 0 = R.val; rw [h0, hR]; omega
  | ⟨1, _⟩ => show win0_38.index t 1 * 64 + 1 * n.val = n.val; rw [h1]; omega
  | ⟨2, _⟩ => show win0_38.index t 2 * 512 + 1 * e.val = e.val; rw [h2]; omega

theorem iblk_39_apply (c : Dev nD) (t : Fin cfg0.N) (n : Fin 64) (e : Fin 512) (R : Fin 1024)
    (hR : R.val = (4 * t.val + 2 + 1) * (7 + 1) - 1) :
    (iblk m c 39 t : Vec F S1x64x512 .f32) (ix3 0 n e)
      = (m ((c : Thread nD τ).loc main_arg0) : S1024x64x512.Idx → Elt F .f32) (ix3 R n e) := by
  obtain ⟨h0, h1, h2⟩ := idx_39 t
  unfold iblk
  rw [View.read_apply]
  show V m c main_arg0 _ = _
  rw [V_main_arg0]
  congr 1
  funext a
  apply Fin.ext
  match a with
  | ⟨0, _⟩ => show win0_39.index t 0 * 1 + 1 * 0 = R.val; rw [h0, hR]; omega
  | ⟨1, _⟩ => show win0_39.index t 1 * 64 + 1 * n.val = n.val; rw [h1]; omega
  | ⟨2, _⟩ => show win0_39.index t 2 * 512 + 1 * e.val = e.val; rw [h2]; omega

theorem iblk_40_apply (c : Dev nD) (t : Fin cfg0.N) (n : Fin 64) (e : Fin 512) (R : Fin 1024)
    (hR : R.val = (4 * t.val + 2 + 1) * (8 + 1) - 1) :
    (iblk m c 40 t : Vec F S1x64x512 .f32) (ix3 0 n e)
      = (m ((c : Thread nD τ).loc main_arg0) : S1024x64x512.Idx → Elt F .f32) (ix3 R n e) := by
  obtain ⟨h0, h1, h2⟩ := idx_40 t
  unfold iblk
  rw [View.read_apply]
  show V m c main_arg0 _ = _
  rw [V_main_arg0]
  congr 1
  funext a
  apply Fin.ext
  match a with
  | ⟨0, _⟩ => show win0_40.index t 0 * 1 + 1 * 0 = R.val; rw [h0, hR]; omega
  | ⟨1, _⟩ => show win0_40.index t 1 * 64 + 1 * n.val = n.val; rw [h1]; omega
  | ⟨2, _⟩ => show win0_40.index t 2 * 512 + 1 * e.val = e.val; rw [h2]; omega

theorem iblk_41_apply (c : Dev nD) (t : Fin cfg0.N) (n : Fin 64) (e : Fin 512) (R : Fin 1024)
    (hR : R.val = (4 * t.val + 2 + 1) * (9 + 1) - 1) :
    (iblk m c 41 t : Vec F S1x64x512 .f32) (ix3 0 n e)
      = (m ((c : Thread nD τ).loc main_arg0) : S1024x64x512.Idx → Elt F .f32) (ix3 R n e) := by
  obtain ⟨h0, h1, h2⟩ := idx_41 t
  unfold iblk
  rw [View.read_apply]
  show V m c main_arg0 _ = _
  rw [V_main_arg0]
  congr 1
  funext a
  apply Fin.ext
  match a with
  | ⟨0, _⟩ => show win0_41.index t 0 * 1 + 1 * 0 = R.val; rw [h0, hR]; omega
  | ⟨1, _⟩ => show win0_41.index t 1 * 64 + 1 * n.val = n.val; rw [h1]; omega
  | ⟨2, _⟩ => show win0_41.index t 2 * 512 + 1 * e.val = e.val; rw [h2]; omega

theorem iblk_42_apply (c : Dev nD) (t : Fin cfg0.N) (n : Fin 64) (e : Fin 512) (R : Fin 1024)
    (hR : R.val = (4 * t.val + 2 + 1) * (10 + 1) - 1) :
    (iblk m c 42 t : Vec F S1x64x512 .f32) (ix3 0 n e)
      = (m ((c : Thread nD τ).loc main_arg0) : S1024x64x512.Idx → Elt F .f32) (ix3 R n e) := by
  obtain ⟨h0, h1, h2⟩ := idx_42 t
  unfold iblk
  rw [View.read_apply]
  show V m c main_arg0 _ = _
  rw [V_main_arg0]
  congr 1
  funext a
  apply Fin.ext
  match a with
  | ⟨0, _⟩ => show win0_42.index t 0 * 1 + 1 * 0 = R.val; rw [h0, hR]; omega
  | ⟨1, _⟩ => show win0_42.index t 1 * 64 + 1 * n.val = n.val; rw [h1]; omega
  | ⟨2, _⟩ => show win0_42.index t 2 * 512 + 1 * e.val = e.val; rw [h2]; omega

theorem iblk_43_apply (c : Dev nD) (t : Fin cfg0.N) (n : Fin 64) (e : Fin 512) (R : Fin 1024)
    (hR : R.val = (4 * t.val + 2 + 1) * (11 + 1) - 1) :
    (iblk m c 43 t : Vec F S1x64x512 .f32) (ix3 0 n e)
      = (m ((c : Thread nD τ).loc main_arg0) : S1024x64x512.Idx → Elt F .f32) (ix3 R n e) := by
  obtain ⟨h0, h1, h2⟩ := idx_43 t
  unfold iblk
  rw [View.read_apply]
  show V m c main_arg0 _ = _
  rw [V_main_arg0]
  congr 1
  funext a
  apply Fin.ext
  match a with
  | ⟨0, _⟩ => show win0_43.index t 0 * 1 + 1 * 0 = R.val; rw [h0, hR]; omega
  | ⟨1, _⟩ => show win0_43.index t 1 * 64 + 1 * n.val = n.val; rw [h1]; omega
  | ⟨2, _⟩ => show win0_43.index t 2 * 512 + 1 * e.val = e.val; rw [h2]; omega

theorem iblk_44_apply (c : Dev nD) (t : Fin cfg0.N) (n : Fin 64) (e : Fin 512) (R : Fin 1024)
    (hR : R.val = (4 * t.val + 2 + 1) * (12 + 1) - 1) :
    (iblk m c 44 t : Vec F S1x64x512 .f32) (ix3 0 n e)
      = (m ((c : Thread nD τ).loc main_arg0) : S1024x64x512.Idx → Elt F .f32) (ix3 R n e) := by
  obtain ⟨h0, h1, h2⟩ := idx_44 t
  unfold iblk
  rw [View.read_apply]
  show V m c main_arg0 _ = _
  rw [V_main_arg0]
  congr 1
  funext a
  apply Fin.ext
  match a with
  | ⟨0, _⟩ => show win0_44.index t 0 * 1 + 1 * 0 = R.val; rw [h0, hR]; omega
  | ⟨1, _⟩ => show win0_44.index t 1 * 64 + 1 * n.val = n.val; rw [h1]; omega
  | ⟨2, _⟩ => show win0_44.index t 2 * 512 + 1 * e.val = e.val; rw [h2]; omega

theorem iblk_45_apply (c : Dev nD) (t : Fin cfg0.N) (n : Fin 64) (e : Fin 512) (R : Fin 1024)
    (hR : R.val = (4 * t.val + 2 + 1) * (13 + 1) - 1) :
    (iblk m c 45 t : Vec F S1x64x512 .f32) (ix3 0 n e)
      = (m ((c : Thread nD τ).loc main_arg0) : S1024x64x512.Idx → Elt F .f32) (ix3 R n e) := by
  obtain ⟨h0, h1, h2⟩ := idx_45 t
  unfold iblk
  rw [View.read_apply]
  show V m c main_arg0 _ = _
  rw [V_main_arg0]
  congr 1
  funext a
  apply Fin.ext
  match a with
  | ⟨0, _⟩ => show win0_45.index t 0 * 1 + 1 * 0 = R.val; rw [h0, hR]; omega
  | ⟨1, _⟩ => show win0_45.index t 1 * 64 + 1 * n.val = n.val; rw [h1]; omega
  | ⟨2, _⟩ => show win0_45.index t 2 * 512 + 1 * e.val = e.val; rw [h2]; omega

theorem iblk_46_apply (c : Dev nD) (t : Fin cfg0.N) (n : Fin 64) (e : Fin 512) (R : Fin 1024)
    (hR : R.val = (4 * t.val + 2 + 1) * (14 + 1) - 1) :
    (iblk m c 46 t : Vec F S1x64x512 .f32) (ix3 0 n e)
      = (m ((c : Thread nD τ).loc main_arg0) : S1024x64x512.Idx → Elt F .f32) (ix3 R n e) := by
  obtain ⟨h0, h1, h2⟩ := idx_46 t
  unfold iblk
  rw [View.read_apply]
  show V m c main_arg0 _ = _
  rw [V_main_arg0]
  congr 1
  funext a
  apply Fin.ext
  match a with
  | ⟨0, _⟩ => show win0_46.index t 0 * 1 + 1 * 0 = R.val; rw [h0, hR]; omega
  | ⟨1, _⟩ => show win0_46.index t 1 * 64 + 1 * n.val = n.val; rw [h1]; omega
  | ⟨2, _⟩ => show win0_46.index t 2 * 512 + 1 * e.val = e.val; rw [h2]; omega

theorem iblk_47_apply (c : Dev nD) (t : Fin cfg0.N) (n : Fin 64) (e : Fin 512) (R : Fin 1024)
    (hR : R.val = (4 * t.val + 2 + 1) * (15 + 1) - 1) :
    (iblk m c 47 t : Vec F S1x64x512 .f32) (ix3 0 n e)
      = (m ((c : Thread nD τ).loc main_arg0) : S1024x64x512.Idx → Elt F .f32) (ix3 R n e) := by
  obtain ⟨h0, h1, h2⟩ := idx_47 t
  unfold iblk
  rw [View.read_apply]
  show V m c main_arg0 _ = _
  rw [V_main_arg0]
  congr 1
  funext a
  apply Fin.ext
  match a with
  | ⟨0, _⟩ => show win0_47.index t 0 * 1 + 1 * 0 = R.val; rw [h0, hR]; omega
  | ⟨1, _⟩ => show win0_47.index t 1 * 64 + 1 * n.val = n.val; rw [h1]; omega
  | ⟨2, _⟩ => show win0_47.index t 2 * 512 + 1 * e.val = e.val; rw [h2]; omega

theorem iblk_48_apply (c : Dev nD) (t : Fin cfg0.N) (n : Fin 64) (e : Fin 512) (R : Fin 1024)
    (hR : R.val = (4 * t.val + 3 + 1) * (0 + 1) - 1) :
    (iblk m c 48 t : Vec F S1x64x512 .f32) (ix3 0 n e)
      = (m ((c : Thread nD τ).loc main_arg0) : S1024x64x512.Idx → Elt F .f32) (ix3 R n e) := by
  obtain ⟨h0, h1, h2⟩ := idx_48 t
  unfold iblk
  rw [View.read_apply]
  show V m c main_arg0 _ = _
  rw [V_main_arg0]
  congr 1
  funext a
  apply Fin.ext
  match a with
  | ⟨0, _⟩ => show win0_48.index t 0 * 1 + 1 * 0 = R.val; rw [h0, hR]; omega
  | ⟨1, _⟩ => show win0_48.index t 1 * 64 + 1 * n.val = n.val; rw [h1]; omega
  | ⟨2, _⟩ => show win0_48.index t 2 * 512 + 1 * e.val = e.val; rw [h2]; omega

theorem iblk_49_apply (c : Dev nD) (t : Fin cfg0.N) (n : Fin 64) (e : Fin 512) (R : Fin 1024)
    (hR : R.val = (4 * t.val + 3 + 1) * (1 + 1) - 1) :
    (iblk m c 49 t : Vec F S1x64x512 .f32) (ix3 0 n e)
      = (m ((c : Thread nD τ).loc main_arg0) : S1024x64x512.Idx → Elt F .f32) (ix3 R n e) := by
  obtain ⟨h0, h1, h2⟩ := idx_49 t
  unfold iblk
  rw [View.read_apply]
  show V m c main_arg0 _ = _
  rw [V_main_arg0]
  congr 1
  funext a
  apply Fin.ext
  match a with
  | ⟨0, _⟩ => show win0_49.index t 0 * 1 + 1 * 0 = R.val; rw [h0, hR]; omega
  | ⟨1, _⟩ => show win0_49.index t 1 * 64 + 1 * n.val = n.val; rw [h1]; omega
  | ⟨2, _⟩ => show win0_49.index t 2 * 512 + 1 * e.val = e.val; rw [h2]; omega

theorem iblk_50_apply (c : Dev nD) (t : Fin cfg0.N) (n : Fin 64) (e : Fin 512) (R : Fin 1024)
    (hR : R.val = (4 * t.val + 3 + 1) * (2 + 1) - 1) :
    (iblk m c 50 t : Vec F S1x64x512 .f32) (ix3 0 n e)
      = (m ((c : Thread nD τ).loc main_arg0) : S1024x64x512.Idx → Elt F .f32) (ix3 R n e) := by
  obtain ⟨h0, h1, h2⟩ := idx_50 t
  unfold iblk
  rw [View.read_apply]
  show V m c main_arg0 _ = _
  rw [V_main_arg0]
  congr 1
  funext a
  apply Fin.ext
  match a with
  | ⟨0, _⟩ => show win0_50.index t 0 * 1 + 1 * 0 = R.val; rw [h0, hR]; omega
  | ⟨1, _⟩ => show win0_50.index t 1 * 64 + 1 * n.val = n.val; rw [h1]; omega
  | ⟨2, _⟩ => show win0_50.index t 2 * 512 + 1 * e.val = e.val; rw [h2]; omega

theorem iblk_51_apply (c : Dev nD) (t : Fin cfg0.N) (n : Fin 64) (e : Fin 512) (R : Fin 1024)
    (hR : R.val = (4 * t.val + 3 + 1) * (3 + 1) - 1) :
    (iblk m c 51 t : Vec F S1x64x512 .f32) (ix3 0 n e)
      = (m ((c : Thread nD τ).loc main_arg0) : S1024x64x512.Idx → Elt F .f32) (ix3 R n e) := by
  obtain ⟨h0, h1, h2⟩ := idx_51 t
  unfold iblk
  rw [View.read_apply]
  show V m c main_arg0 _ = _
  rw [V_main_arg0]
  congr 1
  funext a
  apply Fin.ext
  match a with
  | ⟨0, _⟩ => show win0_51.index t 0 * 1 + 1 * 0 = R.val; rw [h0, hR]; omega
  | ⟨1, _⟩ => show win0_51.index t 1 * 64 + 1 * n.val = n.val; rw [h1]; omega
  | ⟨2, _⟩ => show win0_51.index t 2 * 512 + 1 * e.val = e.val; rw [h2]; omega

theorem iblk_52_apply (c : Dev nD) (t : Fin cfg0.N) (n : Fin 64) (e : Fin 512) (R : Fin 1024)
    (hR : R.val = (4 * t.val + 3 + 1) * (4 + 1) - 1) :
    (iblk m c 52 t : Vec F S1x64x512 .f32) (ix3 0 n e)
      = (m ((c : Thread nD τ).loc main_arg0) : S1024x64x512.Idx → Elt F .f32) (ix3 R n e) := by
  obtain ⟨h0, h1, h2⟩ := idx_52 t
  unfold iblk
  rw [View.read_apply]
  show V m c main_arg0 _ = _
  rw [V_main_arg0]
  congr 1
  funext a
  apply Fin.ext
  match a with
  | ⟨0, _⟩ => show win0_52.index t 0 * 1 + 1 * 0 = R.val; rw [h0, hR]; omega
  | ⟨1, _⟩ => show win0_52.index t 1 * 64 + 1 * n.val = n.val; rw [h1]; omega
  | ⟨2, _⟩ => show win0_52.index t 2 * 512 + 1 * e.val = e.val; rw [h2]; omega

theorem iblk_53_apply (c : Dev nD) (t : Fin cfg0.N) (n : Fin 64) (e : Fin 512) (R : Fin 1024)
    (hR : R.val = (4 * t.val + 3 + 1) * (5 + 1) - 1) :
    (iblk m c 53 t : Vec F S1x64x512 .f32) (ix3 0 n e)
      = (m ((c : Thread nD τ).loc main_arg0) : S1024x64x512.Idx → Elt F .f32) (ix3 R n e) := by
  obtain ⟨h0, h1, h2⟩ := idx_53 t
  unfold iblk
  rw [View.read_apply]
  show V m c main_arg0 _ = _
  rw [V_main_arg0]
  congr 1
  funext a
  apply Fin.ext
  match a with
  | ⟨0, _⟩ => show win0_53.index t 0 * 1 + 1 * 0 = R.val; rw [h0, hR]; omega
  | ⟨1, _⟩ => show win0_53.index t 1 * 64 + 1 * n.val = n.val; rw [h1]; omega
  | ⟨2, _⟩ => show win0_53.index t 2 * 512 + 1 * e.val = e.val; rw [h2]; omega

theorem iblk_54_apply (c : Dev nD) (t : Fin cfg0.N) (n : Fin 64) (e : Fin 512) (R : Fin 1024)
    (hR : R.val = (4 * t.val + 3 + 1) * (6 + 1) - 1) :
    (iblk m c 54 t : Vec F S1x64x512 .f32) (ix3 0 n e)
      = (m ((c : Thread nD τ).loc main_arg0) : S1024x64x512.Idx → Elt F .f32) (ix3 R n e) := by
  obtain ⟨h0, h1, h2⟩ := idx_54 t
  unfold iblk
  rw [View.read_apply]
  show V m c main_arg0 _ = _
  rw [V_main_arg0]
  congr 1
  funext a
  apply Fin.ext
  match a with
  | ⟨0, _⟩ => show win0_54.index t 0 * 1 + 1 * 0 = R.val; rw [h0, hR]; omega
  | ⟨1, _⟩ => show win0_54.index t 1 * 64 + 1 * n.val = n.val; rw [h1]; omega
  | ⟨2, _⟩ => show win0_54.index t 2 * 512 + 1 * e.val = e.val; rw [h2]; omega

theorem iblk_55_apply (c : Dev nD) (t : Fin cfg0.N) (n : Fin 64) (e : Fin 512) (R : Fin 1024)
    (hR : R.val = (4 * t.val + 3 + 1) * (7 + 1) - 1) :
    (iblk m c 55 t : Vec F S1x64x512 .f32) (ix3 0 n e)
      = (m ((c : Thread nD τ).loc main_arg0) : S1024x64x512.Idx → Elt F .f32) (ix3 R n e) := by
  obtain ⟨h0, h1, h2⟩ := idx_55 t
  unfold iblk
  rw [View.read_apply]
  show V m c main_arg0 _ = _
  rw [V_main_arg0]
  congr 1
  funext a
  apply Fin.ext
  match a with
  | ⟨0, _⟩ => show win0_55.index t 0 * 1 + 1 * 0 = R.val; rw [h0, hR]; omega
  | ⟨1, _⟩ => show win0_55.index t 1 * 64 + 1 * n.val = n.val; rw [h1]; omega
  | ⟨2, _⟩ => show win0_55.index t 2 * 512 + 1 * e.val = e.val; rw [h2]; omega

theorem iblk_56_apply (c : Dev nD) (t : Fin cfg0.N) (n : Fin 64) (e : Fin 512) (R : Fin 1024)
    (hR : R.val = (4 * t.val + 3 + 1) * (8 + 1) - 1) :
    (iblk m c 56 t : Vec F S1x64x512 .f32) (ix3 0 n e)
      = (m ((c : Thread nD τ).loc main_arg0) : S1024x64x512.Idx → Elt F .f32) (ix3 R n e) := by
  obtain ⟨h0, h1, h2⟩ := idx_56 t
  unfold iblk
  rw [View.read_apply]
  show V m c main_arg0 _ = _
  rw [V_main_arg0]
  congr 1
  funext a
  apply Fin.ext
  match a with
  | ⟨0, _⟩ => show win0_56.index t 0 * 1 + 1 * 0 = R.val; rw [h0, hR]; omega
  | ⟨1, _⟩ => show win0_56.index t 1 * 64 + 1 * n.val = n.val; rw [h1]; omega
  | ⟨2, _⟩ => show win0_56.index t 2 * 512 + 1 * e.val = e.val; rw [h2]; omega

theorem iblk_57_apply (c : Dev nD) (t : Fin cfg0.N) (n : Fin 64) (e : Fin 512) (R : Fin 1024)
    (hR : R.val = (4 * t.val + 3 + 1) * (9 + 1) - 1) :
    (iblk m c 57 t : Vec F S1x64x512 .f32) (ix3 0 n e)
      = (m ((c : Thread nD τ).loc main_arg0) : S1024x64x512.Idx → Elt F .f32) (ix3 R n e) := by
  obtain ⟨h0, h1, h2⟩ := idx_57 t
  unfold iblk
  rw [View.read_apply]
  show V m c main_arg0 _ = _
  rw [V_main_arg0]
  congr 1
  funext a
  apply Fin.ext
  match a with
  | ⟨0, _⟩ => show win0_57.index t 0 * 1 + 1 * 0 = R.val; rw [h0, hR]; omega
  | ⟨1, _⟩ => show win0_57.index t 1 * 64 + 1 * n.val = n.val; rw [h1]; omega
  | ⟨2, _⟩ => show win0_57.index t 2 * 512 + 1 * e.val = e.val; rw [h2]; omega

theorem iblk_58_apply (c : Dev nD) (t : Fin cfg0.N) (n : Fin 64) (e : Fin 512) (R : Fin 1024)
    (hR : R.val = (4 * t.val + 3 + 1) * (10 + 1) - 1) :
    (iblk m c 58 t : Vec F S1x64x512 .f32) (ix3 0 n e)
      = (m ((c : Thread nD τ).loc main_arg0) : S1024x64x512.Idx → Elt F .f32) (ix3 R n e) := by
  obtain ⟨h0, h1, h2⟩ := idx_58 t
  unfold iblk
  rw [View.read_apply]
  show V m c main_arg0 _ = _
  rw [V_main_arg0]
  congr 1
  funext a
  apply Fin.ext
  match a with
  | ⟨0, _⟩ => show win0_58.index t 0 * 1 + 1 * 0 = R.val; rw [h0, hR]; omega
  | ⟨1, _⟩ => show win0_58.index t 1 * 64 + 1 * n.val = n.val; rw [h1]; omega
  | ⟨2, _⟩ => show win0_58.index t 2 * 512 + 1 * e.val = e.val; rw [h2]; omega

theorem iblk_59_apply (c : Dev nD) (t : Fin cfg0.N) (n : Fin 64) (e : Fin 512) (R : Fin 1024)
    (hR : R.val = (4 * t.val + 3 + 1) * (11 + 1) - 1) :
    (iblk m c 59 t : Vec F S1x64x512 .f32) (ix3 0 n e)
      = (m ((c : Thread nD τ).loc main_arg0) : S1024x64x512.Idx → Elt F .f32) (ix3 R n e) := by
  obtain ⟨h0, h1, h2⟩ := idx_59 t
  unfold iblk
  rw [View.read_apply]
  show V m c main_arg0 _ = _
  rw [V_main_arg0]
  congr 1
  funext a
  apply Fin.ext
  match a with
  | ⟨0, _⟩ => show win0_59.index t 0 * 1 + 1 * 0 = R.val; rw [h0, hR]; omega
  | ⟨1, _⟩ => show win0_59.index t 1 * 64 + 1 * n.val = n.val; rw [h1]; omega
  | ⟨2, _⟩ => show win0_59.index t 2 * 512 + 1 * e.val = e.val; rw [h2]; omega

theorem iblk_60_apply (c : Dev nD) (t : Fin cfg0.N) (n : Fin 64) (e : Fin 512) (R : Fin 1024)
    (hR : R.val = (4 * t.val + 3 + 1) * (12 + 1) - 1) :
    (iblk m c 60 t : Vec F S1x64x512 .f32) (ix3 0 n e)
      = (m ((c : Thread nD τ).loc main_arg0) : S1024x64x512.Idx → Elt F .f32) (ix3 R n e) := by
  obtain ⟨h0, h1, h2⟩ := idx_60 t
  unfold iblk
  rw [View.read_apply]
  show V m c main_arg0 _ = _
  rw [V_main_arg0]
  congr 1
  funext a
  apply Fin.ext
  match a with
  | ⟨0, _⟩ => show win0_60.index t 0 * 1 + 1 * 0 = R.val; rw [h0, hR]; omega
  | ⟨1, _⟩ => show win0_60.index t 1 * 64 + 1 * n.val = n.val; rw [h1]; omega
  | ⟨2, _⟩ => show win0_60.index t 2 * 512 + 1 * e.val = e.val; rw [h2]; omega

theorem iblk_61_apply (c : Dev nD) (t : Fin cfg0.N) (n : Fin 64) (e : Fin 512) (R : Fin 1024)
    (hR : R.val = (4 * t.val + 3 + 1) * (13 + 1) - 1) :
    (iblk m c 61 t : Vec F S1x64x512 .f32) (ix3 0 n e)
      = (m ((c : Thread nD τ).loc main_arg0) : S1024x64x512.Idx → Elt F .f32) (ix3 R n e) := by
  obtain ⟨h0, h1, h2⟩ := idx_61 t
  unfold iblk
  rw [View.read_apply]
  show V m c main_arg0 _ = _
  rw [V_main_arg0]
  congr 1
  funext a
  apply Fin.ext
  match a with
  | ⟨0, _⟩ => show win0_61.index t 0 * 1 + 1 * 0 = R.val; rw [h0, hR]; omega
  | ⟨1, _⟩ => show win0_61.index t 1 * 64 + 1 * n.val = n.val; rw [h1]; omega
  | ⟨2, _⟩ => show win0_61.index t 2 * 512 + 1 * e.val = e.val; rw [h2]; omega

theorem iblk_62_apply (c : Dev nD) (t : Fin cfg0.N) (n : Fin 64) (e : Fin 512) (R : Fin 1024)
    (hR : R.val = (4 * t.val + 3 + 1) * (14 + 1) - 1) :
    (iblk m c 62 t : Vec F S1x64x512 .f32) (ix3 0 n e)
      = (m ((c : Thread nD τ).loc main_arg0) : S1024x64x512.Idx → Elt F .f32) (ix3 R n e) := by
  obtain ⟨h0, h1, h2⟩ := idx_62 t
  unfold iblk
  rw [View.read_apply]
  show V m c main_arg0 _ = _
  rw [V_main_arg0]
  congr 1
  funext a
  apply Fin.ext
  match a with
  | ⟨0, _⟩ => show win0_62.index t 0 * 1 + 1 * 0 = R.val; rw [h0, hR]; omega
  | ⟨1, _⟩ => show win0_62.index t 1 * 64 + 1 * n.val = n.val; rw [h1]; omega
  | ⟨2, _⟩ => show win0_62.index t 2 * 512 + 1 * e.val = e.val; rw [h2]; omega

theorem iblk_63_apply (c : Dev nD) (t : Fin cfg0.N) (n : Fin 64) (e : Fin 512) (R : Fin 1024)
    (hR : R.val = (4 * t.val + 3 + 1) * (15 + 1) - 1) :
    (iblk m c 63 t : Vec F S1x64x512 .f32) (ix3 0 n e)
      = (m ((c : Thread nD τ).loc main_arg0) : S1024x64x512.Idx → Elt F .f32) (ix3 R n e) := by
  obtain ⟨h0, h1, h2⟩ := idx_63 t
  unfold iblk
  rw [View.read_apply]
  show V m c main_arg0 _ = _
  rw [V_main_arg0]
  congr 1
  funext a
  apply Fin.ext
  match a with
  | ⟨0, _⟩ => show win0_63.index t 0 * 1 + 1 * 0 = R.val; rw [h0, hR]; omega
  | ⟨1, _⟩ => show win0_63.index t 1 * 64 + 1 * n.val = n.val; rw [h1]; omega
  | ⟨2, _⟩ => show win0_63.index t 2 * 512 + 1 * e.val = e.val; rw [h2]; omega

/-- The converted weights' block is the whole converted array. -/
theorem iblk_64_apply (c : Dev nD) (t : Fin cfg0.N) (w : Fin 16) (e : Fin 512) (o : Fin 512) :
    (iblk m c 64 t : Vec F S16x512x512 .bf16) (ix3 w e o)
      = (V m c main_v0 : S16x512x512.Idx → Elt F .bf16) (ix3 w e o) := by
  obtain ⟨h0, h1, h2⟩ := idx_64 t
  unfold iblk
  rw [View.read_apply]
  show V m c main_v0 _ = _
  congr 1
  funext a
  apply Fin.ext
  match a with
  | ⟨0, _⟩ => show win0_64.index t 0 * 16 + 1 * w.val = w.val; rw [h0]; omega
  | ⟨1, _⟩ => show win0_64.index t 1 * 512 + 1 * e.val = e.val; rw [h1]; omega
  | ⟨2, _⟩ => show win0_64.index t 2 * 512 + 1 * o.val = o.val; rw [h2]; omega

/-- The bias's block is the whole third argument. -/
theorem iblk_65_apply (c : Dev nD) (t : Fin cfg0.N) (o : Fin 512) :
    (iblk m c 65 t : Vec F S512 .f32) (ix1 o)
      = (m ((c : Thread nD τ).loc main_arg2) : S512.Idx → Elt F .f32) (ix1 o) := by
  have h0 := idx_65 t
  unfold iblk
  rw [View.read_apply]
  show V m c main_arg2 _ = _
  rw [V_main_arg2]
  congr 1
  funext a
  apply Fin.ext
  match a with
  | ⟨0, _⟩ => show win0_65.index t 0 * 512 + 1 * o.val = o.val; rw [h0]; omega

/-! ## The sixty-four blocks as one function of the block number -/

/-- Sixty-four row blocks as a function of their number. -/
def Xof (x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 : Vec F S1x64x512 .f32) :
    Fin 64 → Vec F S1x64x512 .f32 :=
  fun
  | 0 => x1
  | 1 => x2
  | 2 => x3
  | 3 => x4
  | 4 => x5
  | 5 => x6
  | 6 => x7
  | 7 => x8
  | 8 => x9
  | 9 => x10
  | 10 => x11
  | 11 => x12
  | 12 => x13
  | 13 => x14
  | 14 => x15
  | 15 => x16
  | 16 => x17
  | 17 => x18
  | 18 => x19
  | 19 => x20
  | 20 => x21
  | 21 => x22
  | 22 => x23
  | 23 => x24
  | 24 => x25
  | 25 => x26
  | 26 => x27
  | 27 => x28
  | 28 => x29
  | 29 => x30
  | 30 => x31
  | 31 => x32
  | 32 => x33
  | 33 => x34
  | 34 => x35
  | 35 => x36
  | 36 => x37
  | 37 => x38
  | 38 => x39
  | 39 => x40
  | 40 => x41
  | 41 => x42
  | 42 => x43
  | 43 => x44
  | 44 => x45
  | 45 => x46
  | 46 => x47
  | 47 => x48
  | 48 => x49
  | 49 => x50
  | 50 => x51
  | 51 => x52
  | 52 => x53
  | 53 => x54
  | 54 => x55
  | 55 => x56
  | 56 => x57
  | 57 => x58
  | 58 => x59
  | 59 => x60
  | 60 => x61
  | 61 => x62
  | 62 => x63
  | 63 => x64
  | ⟨_ + 64, h⟩ => absurd h (Nat.not_lt.2 (Nat.le_add_left _ _))

/-- The sixty-four staged blocks of point `t`. -/
abbrev Xblk (c : Dev nD) (t : Fin cfg0.N) : Fin 64 → Vec F S1x64x512 .f32 :=
  Xof (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) (iblk m c 47 t) (iblk m c 48 t) (iblk m c 49 t) (iblk m c 50 t) (iblk m c 51 t) (iblk m c 52 t) (iblk m c 53 t) (iblk m c 54 t) (iblk m c 55 t) (iblk m c 56 t) (iblk m c 57 t) (iblk m c 58 t) (iblk m c 59 t) (iblk m c 60 t) (iblk m c 61 t) (iblk m c 62 t) (iblk m c 63 t)

/-- Block `k = yl * 16 + w` of point `t` is row `(4 t + yl + 1) (w + 1) - 1` of the first argument. -/
theorem Xblk_apply (c : Dev nD) (t : Fin cfg0.N) (k : Fin 64) (n : Fin 64) (e : Fin 512) (R : Fin 1024)
    (hR : R.val = (4 * t.val + k.val / 16 + 1) * (k.val % 16 + 1) - 1) :
    Xblk m c t k (ix3 0 n e) = (m ((c : Thread nD τ).loc main_arg0) : S1024x64x512.Idx → Elt F .f32) (ix3 R n e) :=
  match k, hR with
  | 0, hR => iblk_0_apply m c t n e R hR
  | 1, hR => iblk_1_apply m c t n e R hR
  | 2, hR => iblk_2_apply m c t n e R hR
  | 3, hR => iblk_3_apply m c t n e R hR
  | 4, hR => iblk_4_apply m c t n e R hR
  | 5, hR => iblk_5_apply m c t n e R hR
  | 6, hR => iblk_6_apply m c t n e R hR
  | 7, hR => iblk_7_apply m c t n e R hR
  | 8, hR => iblk_8_apply m c t n e R hR
  | 9, hR => iblk_9_apply m c t n e R hR
  | 10, hR => iblk_10_apply m c t n e R hR
  | 11, hR => iblk_11_apply m c t n e R hR
  | 12, hR => iblk_12_apply m c t n e R hR
  | 13, hR => iblk_13_apply m c t n e R hR
  | 14, hR => iblk_14_apply m c t n e R hR
  | 15, hR => iblk_15_apply m c t n e R hR
  | 16, hR => iblk_16_apply m c t n e R hR
  | 17, hR => iblk_17_apply m c t n e R hR
  | 18, hR => iblk_18_apply m c t n e R hR
  | 19, hR => iblk_19_apply m c t n e R hR
  | 20, hR => iblk_20_apply m c t n e R hR
  | 21, hR => iblk_21_apply m c t n e R hR
  | 22, hR => iblk_22_apply m c t n e R hR
  | 23, hR => iblk_23_apply m c t n e R hR
  | 24, hR => iblk_24_apply m c t n e R hR
  | 25, hR => iblk_25_apply m c t n e R hR
  | 26, hR => iblk_26_apply m c t n e R hR
  | 27, hR => iblk_27_apply m c t n e R hR
  | 28, hR => iblk_28_apply m c t n e R hR
  | 29, hR => iblk_29_apply m c t n e R hR
  | 30, hR => iblk_30_apply m c t n e R hR
  | 31, hR => iblk_31_apply m c t n e R hR
  | 32, hR => iblk_32_apply m c t n e R hR
  | 33, hR => iblk_33_apply m c t n e R hR
  | 34, hR => iblk_34_apply m c t n e R hR
  | 35, hR => iblk_35_apply m c t n e R hR
  | 36, hR => iblk_36_apply m c t n e R hR
  | 37, hR => iblk_37_apply m c t n e R hR
  | 38, hR => iblk_38_apply m c t n e R hR
  | 39, hR => iblk_39_apply m c t n e R hR
  | 40, hR => iblk_40_apply m c t n e R hR
  | 41, hR => iblk_41_apply m c t n e R hR
  | 42, hR => iblk_42_apply m c t n e R hR
  | 43, hR => iblk_43_apply m c t n e R hR
  | 44, hR => iblk_44_apply m c t n e R hR
  | 45, hR => iblk_45_apply m c t n e R hR
  | 46, hR => iblk_46_apply m c t n e R hR
  | 47, hR => iblk_47_apply m c t n e R hR
  | 48, hR => iblk_48_apply m c t n e R hR
  | 49, hR => iblk_49_apply m c t n e R hR
  | 50, hR => iblk_50_apply m c t n e R hR
  | 51, hR => iblk_51_apply m c t n e R hR
  | 52, hR => iblk_52_apply m c t n e R hR
  | 53, hR => iblk_53_apply m c t n e R hR
  | 54, hR => iblk_54_apply m c t n e R hR
  | 55, hR => iblk_55_apply m c t n e R hR
  | 56, hR => iblk_56_apply m c t n e R hR
  | 57, hR => iblk_57_apply m c t n e R hR
  | 58, hR => iblk_58_apply m c t n e R hR
  | 59, hR => iblk_59_apply m c t n e R hR
  | 60, hR => iblk_60_apply m c t n e R hR
  | 61, hR => iblk_61_apply m c t n e R hR
  | 62, hR => iblk_62_apply m c t n e R hR
  | 63, hR => iblk_63_apply m c t n e R hR
  | ⟨_ + 64, h⟩, _ => absurd h (Nat.not_lt.2 (Nat.le_add_left _ _))

end Cert.KernelIdeal.Hand

end
-- ==== Proof.BodyTerm.lean ====
/-
  The kernel body's arithmetic as one term over what the body loads.

  At one grid point the body loads sixty-four row blocks `X k` (block `k = yl * 16 + w` is the input row that tap `w`
  of output row `yl` reads), sixteen weight slices `Wt w` and the bias `Bv`, and stores four row blocks cut from one
  accumulator.  This module writes that accumulator over the named payloads exactly as the skeleton composes them
  (`acc`), names the regular shape it has — sixteen products `tap4`, each of the four row blocks of one tap stacked
  and multiplied by that tap's weights into a zero accumulator, added from the left to a zero start, then the bias row
  added to every row (`acc_eq`) —, and names the four stored pieces (`piece`).  Everything here holds at any float
  instance, by unfolding.
-/
import proofs.«155339_j73821897884183_2_alg».proof.Proof.Gen.KernelIdeal.Skeleton

noncomputable section

namespace Cert.KernelIdeal.Body

open Idealize.ShloMosaic Idealize.SL.Sem
open Cert.KernelIdeal Cert.KernelIdeal.Gen

variable {F : FTy → Type} [FloatOps F]

/-! ## The accumulator and the stored pieces, over the payloads -/

/-- The accumulator after the sixteen taps and the bias: the payloads composed as the body's skeleton composes them,
    `X k` being what the load of staged block `k` returned, `Wt w` the load of weight slice `w`, `Bv` the bias load. -/
def acc (X : Fin 64 → Vec F S1x64x512 .f32) (Wt : Fin 16 → Vec F S1x512x512 .bf16) (Bv : Vec F S512 .f32) :
    FVec F S256x512 .f32 :=
  let v17 := k0_pay5 (X 0) (X 16) (X 32) (X 48) (Wt 0)
  let v20 := k0_pay6 (X 1)
  let v23 := k0_pay7 (X 17)
  let v26 := k0_pay8 (X 33)
  let v29 := k0_pay9 (X 49)
  let v51 := k0_pay10 v17 v20 v23 v26 v29 (Wt 1) (X 2) (X 18) (X 34) (X 50) (Wt 2)
  let v54 := k0_pay11 (X 3)
  let v57 := k0_pay12 (X 19)
  let v60 := k0_pay13 (X 35)
  let v85 := k0_pay14 v51 v54 v57 v60 (X 51) (Wt 3) (X 4) (X 20) (X 36) (X 52) (Wt 4)
  let v88 := k0_pay15 (X 5)
  let v91 := k0_pay16 (X 21)
  let v119 := k0_pay17 v85 v88 v91 (X 37) (X 53) (Wt 5) (X 6) (X 22) (X 38) (X 54) (Wt 6)
  let v122 := k0_pay18 (X 7)
  let v153 := k0_pay19 v119 v122 (X 23) (X 39) (X 55) (Wt 7) (X 8) (X 24) (X 40) (X 56) (Wt 8)
  let v170 := k0_pay20 v153 (X 9) (X 25) (X 41) (X 57) (Wt 9)
  let v183 := k0_pay21 (X 10) (X 26) (X 42) (X 58)
  let v204 := k0_pay22 v170 v183 (Wt 10) (X 11) (X 27) (X 43) (X 59) (Wt 11)
  let v207 := k0_pay23 (X 12)
  let v210 := k0_pay24 (X 28)
  let v213 := k0_pay25 (X 44)
  let v238 := k0_pay26 v204 v207 v210 v213 (X 60) (Wt 12) (X 13) (X 29) (X 45) (X 61) (Wt 13)
  let v241 := k0_pay27 (X 14)
  let v244 := k0_pay28 (X 30)
  k0_pay29 v238 v241 v244 (X 46) (X 62) (Wt 14) (X 15) (X 31) (X 47) (X 63) (Wt 15) Bv

/-- The first stored piece's operand: rows 0 to 63 of the accumulator, as the skeleton names them (a payload of
    its own over the same values as the accumulator's). -/
def rows0 (X : Fin 64 → Vec F S1x64x512 .f32) (Wt : Fin 16 → Vec F S1x512x512 .bf16) (Bv : Vec F S512 .f32) :
    FVec F S64x512 .f32 :=
  let v17 := k0_pay5 (X 0) (X 16) (X 32) (X 48) (Wt 0)
  let v20 := k0_pay6 (X 1)
  let v23 := k0_pay7 (X 17)
  let v26 := k0_pay8 (X 33)
  let v29 := k0_pay9 (X 49)
  let v51 := k0_pay10 v17 v20 v23 v26 v29 (Wt 1) (X 2) (X 18) (X 34) (X 50) (Wt 2)
  let v54 := k0_pay11 (X 3)
  let v57 := k0_pay12 (X 19)
  let v60 := k0_pay13 (X 35)
  let v85 := k0_pay14 v51 v54 v57 v60 (X 51) (Wt 3) (X 4) (X 20) (X 36) (X 52) (Wt 4)
  let v88 := k0_pay15 (X 5)
  let v91 := k0_pay16 (X 21)
  let v119 := k0_pay17 v85 v88 v91 (X 37) (X 53) (Wt 5) (X 6) (X 22) (X 38) (X 54) (Wt 6)
  let v122 := k0_pay18 (X 7)
  let v153 := k0_pay19 v119 v122 (X 23) (X 39) (X 55) (Wt 7) (X 8) (X 24) (X 40) (X 56) (Wt 8)
  let v170 := k0_pay20 v153 (X 9) (X 25) (X 41) (X 57) (Wt 9)
  let v183 := k0_pay21 (X 10) (X 26) (X 42) (X 58)
  let v204 := k0_pay22 v170 v183 (Wt 10) (X 11) (X 27) (X 43) (X 59) (Wt 11)
  let v207 := k0_pay23 (X 12)
  let v210 := k0_pay24 (X 28)
  let v213 := k0_pay25 (X 44)
  let v238 := k0_pay26 v204 v207 v210 v213 (X 60) (Wt 12) (X 13) (X 29) (X 45) (X 61) (Wt 13)
  let v241 := k0_pay27 (X 14)
  let v244 := k0_pay28 (X 30)
  k0_pay30 v238 v241 v244 (X 46) (X 62) (Wt 14) (X 15) (X 31) (X 47) (X 63) (Wt 15) Bv

/-- The first stored piece's operand is the accumulator's rows from 0. -/
theorem rows0_eq (X : Fin 64 → Vec F S1x64x512 .f32) (Wt : Fin 16 → Vec F S1x512x512 .bf16) (Bv : Vec F S512 .f32) :
    rows0 X Wt Bv = extractStridedSlice S64x512 ![0, 0] (acc X Wt Bv) slices_S256x512_o0_0_S64x512 := rfl

/-- The block stored at row `yl` of the output block: rows `64 * yl` to `64 * yl + 63` of the accumulator, with a
    leading unit axis. -/
def piece (yl : Fin 4) (X : Fin 64 → Vec F S1x64x512 .f32) (Wt : Fin 16 → Vec F S1x512x512 .bf16)
    (Bv : Vec F S512 .f32) : FVec F S1x64x512 .f32 :=
  match yl with
  | 0 => k0_pay1 (rows0 X Wt Bv)
  | 1 => k0_pay2 (acc X Wt Bv)
  | 2 => k0_pay3 (acc X Wt Bv)
  | 3 => k0_pay4 (acc X Wt Bv)

theorem piece_zero (X : Fin 64 → Vec F S1x64x512 .f32) (Wt : Fin 16 → Vec F S1x512x512 .bf16) (Bv : Vec F S512 .f32) :
    piece 0 X Wt Bv = k0_pay1 (rows0 X Wt Bv) := rfl
theorem piece_one (X : Fin 64 → Vec F S1x64x512 .f32) (Wt : Fin 16 → Vec F S1x512x512 .bf16) (Bv : Vec F S512 .f32) :
    piece 1 X Wt Bv = k0_pay2 (acc X Wt Bv) := rfl
theorem piece_two (X : Fin 64 → Vec F S1x64x512 .f32) (Wt : Fin 16 → Vec F S1x512x512 .bf16) (Bv : Vec F S512 .f32) :
    piece 2 X Wt Bv = k0_pay3 (acc X Wt Bv) := rfl
theorem piece_three (X : Fin 64 → Vec F S1x64x512 .f32) (Wt : Fin 16 → Vec F S1x512x512 .bf16) (Bv : Vec F S512 .f32) :
    piece 3 X Wt Bv = k0_pay4 (acc X Wt Bv) := rfl

/-! ## The regular shape of the accumulator -/

/-- One staged row block as the matrix unit reads it: the unit axis dropped, the format narrowed. -/
def tr (v : Vec F S1x64x512 .f32) : FVec F S64x512 .bf16 :=
  truncf .bf16 (shapeCast S64x512 v shapeCasts_S1x64x512_S64x512) bitsLt_bf16_f32

/-- Four row blocks stacked along the rows. -/
def cat (a b c d : FVec F S64x512 .bf16) : FVec F S256x512 .bf16 :=
  concatenate S256x512 0 [⟨S64x512, a⟩, ⟨S64x512, b⟩, ⟨S64x512, c⟩, ⟨S64x512, d⟩]
    concatenates_S64x512_S64x512_S64x512_S64x512_S256x512_d0

/-- The product of a stacked left operand with one weight slice, into a zero accumulator. -/
def prod (L : FVec F S256x512 .bf16) (w : Vec F S1x512x512 .bf16) : FVec F S256x512 .f32 :=
  matmul dot_S256x512_S512x512_S256x512_1_0_0_1_n_n none L (shapeCast S512x512 w shapeCasts_S1x512x512_S512x512)
    (constant S256x512 .f32 0x00000000#32)

/-- One tap: its four row blocks (one per output row of the grid point) against its weight slice. -/
def tap4 (a b c d : Vec F S1x64x512 .f32) (w : Vec F S1x512x512 .bf16) : FVec F S256x512 .f32 :=
  prod (cat (tr a) (tr b) (tr c) (tr d)) w

/-- The zero the sum starts from. -/
def zero : FVec F S256x512 .f32 := broadcast S256x512 (Scalar.ofBits .f32 0x00000000#32)

/-- The bias, one row repeated over the 256 rows. -/
def biasRows (Bv : Vec F S512 .f32) : FVec F S256x512 .f32 :=
  broadcastTo S256x512 (shapeCast S1x512 (shapeCast S1x512 Bv shapeCasts_S512_S1x512) shapeCasts_S1x512_S1x512)
    broadcasts_S1x512_S256x512

/-- The accumulator is the sixteen taps' products added one after the other to zero, then the bias rows. -/
theorem acc_eq (X : Fin 64 → Vec F S1x64x512 .f32) (Wt : Fin 16 → Vec F S1x512x512 .bf16) (Bv : Vec F S512 .f32) :
    acc X Wt Bv =
      addf (addf (addf (addf (addf (addf (addf (addf (addf (addf (addf (addf (addf (addf (addf (addf (addf zero
        (tap4 (X 0) (X 16) (X 32) (X 48) (Wt 0)))
        (tap4 (X 1) (X 17) (X 33) (X 49) (Wt 1)))
        (tap4 (X 2) (X 18) (X 34) (X 50) (Wt 2)))
        (tap4 (X 3) (X 19) (X 35) (X 51) (Wt 3)))
        (tap4 (X 4) (X 20) (X 36) (X 52) (Wt 4)))
        (tap4 (X 5) (X 21) (X 37) (X 53) (Wt 5)))
        (tap4 (X 6) (X 22) (X 38) (X 54) (Wt 6)))
        (tap4 (X 7) (X 23) (X 39) (X 55) (Wt 7)))
        (tap4 (X 8) (X 24) (X 40) (X 56) (Wt 8)))
        (tap4 (X 9) (X 25) (X 41) (X 57) (Wt 9)))
        (tap4 (X 10) (X 26) (X 42) (X 58) (Wt 10)))
        (tap4 (X 11) (X 27) (X 43) (X 59) (Wt 11)))
        (tap4 (X 12) (X 28) (X 44) (X 60) (Wt 12)))
        (tap4 (X 13) (X 29) (X 45) (X 61) (Wt 13)))
        (tap4 (X 14) (X 30) (X 46) (X 62) (Wt 14)))
        (tap4 (X 15) (X 31) (X 47) (X 63) (Wt 15)))
        (biasRows Bv) := rfl

end Cert.KernelIdeal.Body

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.BodyOps.lean ====
/-
  The body's operations read at an index, over the extended reals.

  Over the extended reals a change of float format is the identity and every operation is exact, so each piece of the
  accumulator has a closed form at an index: a staged row block narrowed for the matrix unit still reads the block
  (`tr_apply`); four blocks stacked along the rows read, at row `64 * yl + n`, block `yl` at row `n` (`cat_apply`); the
  product into a zero accumulator is the plain sum over the 512 contracted columns (`prod_apply`); the zero start is
  `0` and the bias rows read the bias at the column (`zero_apply`, `biasRows_apply`).  Together: one tap's product at
  row `64 * yl + n` and column `o` is `∑ c, a_yl (0, n, c) * w (0, c, o)` for the tap's block `a_yl` of output row `yl`
  (`tap4_apply`).
-/
import proofs.«155339_j73821897884183_2_alg».proof.Proof.BodyTerm
import proofs.«155339_j73821897884183_2_alg».proof.Proof.LibPlainDot
import Idealize.ShloMosaic.Lib.ValueLayout

noncomputable section

namespace Cert.KernelIdeal.Body

open Idealize.ShloMosaic Idealize.ShloMosaic.ValueIdx Idealize.SL.Sem
open Cert.KernelIdeal Cert.KernelIdeal.Gen
open scoped BigOperators

/-- One of four things, chosen by the output row of the grid point. -/
def sel4 {α : Type} (yl : Fin 4) (a b c d : α) : α :=
  match yl with
  | 0 => a
  | 1 => b
  | 2 => c
  | 3 => d

/-- A staged row block narrowed for the matrix unit reads the block itself. -/
theorem tr_apply (v : Vec Ideal S1x64x512 .f32) (n : Fin 64) (c : Fin 512) :
    tr (F := Ideal) v (ix2 n c) = v (ix3 0 n c) :=
  shapeCast_1ab_ab_apply v shapeCasts_S1x64x512_S64x512 n c

/-- A weight slice with its unit axis dropped reads the slice itself. -/
theorem wcast_apply (w : Vec Ideal S1x512x512 .bf16) (c : Fin 512) (o : Fin 512) :
    shapeCast S512x512 w shapeCasts_S1x512x512_S512x512 (ix2 c o) = w (ix3 0 c o) :=
  shapeCast_1ab_ab_apply w shapeCasts_S1x512x512_S512x512 c o

/-! ## Four row blocks stacked along the rows -/

section Cat
variable (a b c d : FVec Ideal S64x512 .bf16) (r : Fin 256) (n : Fin 64) (e : Fin 512)

theorem cat_apply0 (hr : r.val = n.val) : cat a b c d (ix2 r e) = a (ix2 n e) :=
  concatenate_apply_piece (t := S256x512) 0 _ _ (ix2 r e) 0 (by show (0 : Nat) < 4; omega) S64x512 a rfl rfl 0 rfl (ix2 n e)
    (fun ax hax => by
      match ax with
      | ⟨0, _⟩ => exact absurd rfl hax
      | ⟨1, _⟩ => rfl)
    (by show 0 + n.val = r.val; omega)

theorem cat_apply1 (hr : r.val = 64 + n.val) : cat a b c d (ix2 r e) = b (ix2 n e) :=
  concatenate_apply_piece (t := S256x512) 0 _ _ (ix2 r e) 1 (by show (1 : Nat) < 4; omega) S64x512 b rfl rfl 64 rfl (ix2 n e)
    (fun ax hax => by
      match ax with
      | ⟨0, _⟩ => exact absurd rfl hax
      | ⟨1, _⟩ => rfl)
    (by show 64 + n.val = r.val; omega)

theorem cat_apply2 (hr : r.val = 128 + n.val) : cat a b c d (ix2 r e) = c (ix2 n e) :=
  concatenate_apply_piece (t := S256x512) 0 _ _ (ix2 r e) 2 (by show (2 : Nat) < 4; omega) S64x512 c rfl rfl 128 rfl (ix2 n e)
    (fun ax hax => by
      match ax with
      | ⟨0, _⟩ => exact absurd rfl hax
      | ⟨1, _⟩ => rfl)
    (by show 128 + n.val = r.val; omega)

theorem cat_apply3 (hr : r.val = 192 + n.val) : cat a b c d (ix2 r e) = d (ix2 n e) :=
  concatenate_apply_piece (t := S256x512) 0 _ _ (ix2 r e) 3 (by show (3 : Nat) < 4; omega) S64x512 d rfl rfl 192 rfl (ix2 n e)
    (fun ax hax => by
      match ax with
      | ⟨0, _⟩ => exact absurd rfl hax
      | ⟨1, _⟩ => rfl)
    (by show 192 + n.val = r.val; omega)

/-- The stack of four row blocks read at row `64 * yl + n` is block `yl` at row `n`. -/
theorem cat_apply (yl : Fin 4) (hr : r.val = 64 * yl.val + n.val) :
    cat a b c d (ix2 r e) = sel4 yl a b c d (ix2 n e) :=
  match yl, hr with
  | 0, hr => cat_apply0 a b c d r n e (by simpa using hr)
  | 1, hr => cat_apply1 a b c d r n e (by simpa using hr)
  | 2, hr => cat_apply2 a b c d r n e (by simpa using hr)
  | 3, hr => cat_apply3 a b c d r n e (by simpa using hr)

end Cat

/-! ## The product, the zero start, the bias rows -/

/-- The product of a stacked left operand with one weight slice into a zero accumulator, at row `r` and column `o`:
    the sum over the 512 contracted columns. -/
theorem prod_apply (L : FVec Ideal S256x512 .bf16) (w : Vec Ideal S1x512x512 .bf16) (r : Fin 256) (o : Fin 512) :
    prod (F := Ideal) L w (ix2 r o) = ∑ c : Fin 512, L (ix2 r c) * w (ix3 0 c o) := by
  refine (LibPlainDot.matmul_zero_apply dot_S256x512_S512x512_S256x512_1_0_0_1_n_n ⟨rfl, rfl, rfl, rfl, rfl, rfl⟩ none L
    (shapeCast S512x512 w shapeCasts_S1x512x512_S512x512) r o).trans ?_
  exact Finset.sum_congr rfl fun c _ => congrArg (L (ix2 r c) * ·) (wcast_apply w c o)

/-- The sum starts from zero. -/
theorem zero_apply (r : Fin 256) (o : Fin 512) : zero (F := Ideal) (ix2 r o) = 0 := Ideal.ofBits_zero_f32

/-- The bias rows read the bias at the column. -/
theorem biasRows_apply (Bv : Vec Ideal S512 .f32) (r : Fin 256) (o : Fin 512) :
    biasRows (F := Ideal) Bv (ix2 r o) = Bv (ix1 o) := by
  refine (broadcastTo_1b_ab_apply _ broadcasts_S1x512_S256x512 r o).trans ?_
  rw [shapeCast_self]
  exact shapeCast_a_1a_apply Bv shapeCasts_S512_S1x512 0 o

/-! ## One tap at an index -/

/-- One tap's product at row `64 * yl + n`, column `o`: the tap's row block of output row `yl`, row `n`, against
    the tap's weights' column `o`. -/
theorem tap4_apply (a b c d : Vec Ideal S1x64x512 .f32) (w : Vec Ideal S1x512x512 .bf16) (yl : Fin 4) (n : Fin 64)
    (o : Fin 512) (r : Fin 256) (hr : r.val = 64 * yl.val + n.val) :
    tap4 (F := Ideal) a b c d w (ix2 r o) = ∑ e : Fin 512, sel4 yl a b c d (ix3 0 n e) * w (ix3 0 e o) := by
  refine (prod_apply _ w r o).trans (Finset.sum_congr rfl fun e _ => ?_)
  refine congrArg (· * w (ix3 0 e o)) ?_
  refine (cat_apply (tr a) (tr b) (tr c) (tr d) r n e yl hr).trans ?_
  match yl with
  | 0 => exact tr_apply a n e
  | 1 => exact tr_apply b n e
  | 2 => exact tr_apply c n e
  | 3 => exact tr_apply d n e

end Cert.KernelIdeal.Body

end
-- ==== Proof.BodyValue.lean ====
/-
  The stored pieces at an index, over the extended reals.

  Row `64 * yl + n`, column `o` of the accumulator is the sixteen taps' contributions
  `∑ c, X (yl * 16 + w) (0, n, c) * Wt w (0, c, o)` added from the left to zero, then the bias at `o`: the left fold of
  sixteen terms is their sum (`sum16`), so the entry is `(∑ w < 16, ∑ c < 512, …) + Bv o` (`acc_apply`).  The piece
  stored at row `yl` of the output block is rows `64 * yl …` of the accumulator with a unit axis in front
  (`piece_apply`).
-/
import proofs.«155339_j73821897884183_2_alg».proof.Proof.BodyOps

noncomputable section

namespace Cert.KernelIdeal.Body

open Idealize.ShloMosaic Idealize.ShloMosaic.ValueIdx Idealize.SL.Sem
open Cert.KernelIdeal Cert.KernelIdeal.Gen
open scoped BigOperators

/-- The staged block that tap `w` of output row `yl` reads: block `yl * 16 + w`. -/
abbrev blk (yl : Fin 4) (w : Fin 16) : Fin 64 :=
  ⟨yl.val * 16 + w.val, by have := yl.isLt; have := w.isLt; omega⟩

/-- Sixteen terms added one after the other to zero are their sum. -/
theorem sum16 {M : Type} [AddCommMonoid M] (f : Fin 16 → M) :
    ∑ w : Fin 16, f w
      = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

/-- Among the four blocks of tap `w`, the one of output row `yl` is block `yl * 16 + w`. -/
theorem sel4_blk {α : Type} (X : Fin 64 → α) (yl : Fin 4) (w : Fin 16) :
    sel4 yl (X (blk 0 w)) (X (blk 1 w)) (X (blk 2 w)) (X (blk 3 w)) = X (blk yl w) :=
  match yl with
  | 0 => rfl
  | 1 => rfl
  | 2 => rfl
  | 3 => rfl

/-- What tap `w` contributes to output row `yl` at row `n`, column `o`. -/
def tapSum (X : Fin 64 → FVec Ideal S1x64x512 .f32) (Wt : Fin 16 → FVec Ideal S1x512x512 .bf16) (yl : Fin 4)
    (n : Fin 64) (o : Fin 512) (w : Fin 16) : EReal :=
  ∑ c : Fin 512, X (blk yl w) (ix3 0 n c) * Wt w (ix3 0 c o)

/-- Tap `w`'s product at row `64 * yl + n`, column `o`, is its contribution to output row `yl`. -/
theorem tap_apply (X : Fin 64 → FVec Ideal S1x64x512 .f32) (Wt : Fin 16 → FVec Ideal S1x512x512 .bf16) (yl : Fin 4)
    (n : Fin 64) (o : Fin 512) (r : Fin 256) (hr : r.val = 64 * yl.val + n.val) (w : Fin 16) :
    tap4 (F := Ideal) (X (blk 0 w)) (X (blk 1 w)) (X (blk 2 w)) (X (blk 3 w)) (Wt w) (ix2 r o) = tapSum X Wt yl n o w := by
  refine (tap4_apply _ _ _ _ (Wt w) yl n o r hr).trans ?_
  unfold tapSum
  rw [sel4_blk X yl w]

/-- The accumulator at row `64 * yl + n`, column `o`. -/
theorem acc_apply (X : Fin 64 → FVec Ideal S1x64x512 .f32) (Wt : Fin 16 → FVec Ideal S1x512x512 .bf16)
    (Bv : FVec Ideal S512 .f32) (yl : Fin 4) (n : Fin 64) (o : Fin 512) (r : Fin 256) (hr : r.val = 64 * yl.val + n.val) :
    acc (F := Ideal) X Wt Bv (ix2 r o)
      = (∑ w : Fin 16, ∑ c : Fin 512, X (blk yl w) (ix3 0 n c) * Wt w (ix3 0 c o)) + Bv (ix1 o) := by
  have h0 : tap4 (F := Ideal) (X 0) (X 16) (X 32) (X 48) (Wt 0) (ix2 r o) = tapSum X Wt yl n o 0 :=
    tap_apply X Wt yl n o r hr 0
  have h1 : tap4 (F := Ideal) (X 1) (X 17) (X 33) (X 49) (Wt 1) (ix2 r o) = tapSum X Wt yl n o 1 :=
    tap_apply X Wt yl n o r hr 1
  have h2 : tap4 (F := Ideal) (X 2) (X 18) (X 34) (X 50) (Wt 2) (ix2 r o) = tapSum X Wt yl n o 2 :=
    tap_apply X Wt yl n o r hr 2
  have h3 : tap4 (F := Ideal) (X 3) (X 19) (X 35) (X 51) (Wt 3) (ix2 r o) = tapSum X Wt yl n o 3 :=
    tap_apply X Wt yl n o r hr 3
  have h4 : tap4 (F := Ideal) (X 4) (X 20) (X 36) (X 52) (Wt 4) (ix2 r o) = tapSum X Wt yl n o 4 :=
    tap_apply X Wt yl n o r hr 4
  have h5 : tap4 (F := Ideal) (X 5) (X 21) (X 37) (X 53) (Wt 5) (ix2 r o) = tapSum X Wt yl n o 5 :=
    tap_apply X Wt yl n o r hr 5
  have h6 : tap4 (F := Ideal) (X 6) (X 22) (X 38) (X 54) (Wt 6) (ix2 r o) = tapSum X Wt yl n o 6 :=
    tap_apply X Wt yl n o r hr 6
  have h7 : tap4 (F := Ideal) (X 7) (X 23) (X 39) (X 55) (Wt 7) (ix2 r o) = tapSum X Wt yl n o 7 :=
    tap_apply X Wt yl n o r hr 7
  have h8 : tap4 (F := Ideal) (X 8) (X 24) (X 40) (X 56) (Wt 8) (ix2 r o) = tapSum X Wt yl n o 8 :=
    tap_apply X Wt yl n o r hr 8
  have h9 : tap4 (F := Ideal) (X 9) (X 25) (X 41) (X 57) (Wt 9) (ix2 r o) = tapSum X Wt yl n o 9 :=
    tap_apply X Wt yl n o r hr 9
  have h10 : tap4 (F := Ideal) (X 10) (X 26) (X 42) (X 58) (Wt 10) (ix2 r o) = tapSum X Wt yl n o 10 :=
    tap_apply X Wt yl n o r hr 10
  have h11 : tap4 (F := Ideal) (X 11) (X 27) (X 43) (X 59) (Wt 11) (ix2 r o) = tapSum X Wt yl n o 11 :=
    tap_apply X Wt yl n o r hr 11
  have h12 : tap4 (F := Ideal) (X 12) (X 28) (X 44) (X 60) (Wt 12) (ix2 r o) = tapSum X Wt yl n o 12 :=
    tap_apply X Wt yl n o r hr 12
  have h13 : tap4 (F := Ideal) (X 13) (X 29) (X 45) (X 61) (Wt 13) (ix2 r o) = tapSum X Wt yl n o 13 :=
    tap_apply X Wt yl n o r hr 13
  have h14 : tap4 (F := Ideal) (X 14) (X 30) (X 46) (X 62) (Wt 14) (ix2 r o) = tapSum X Wt yl n o 14 :=
    tap_apply X Wt yl n o r hr 14
  have h15 : tap4 (F := Ideal) (X 15) (X 31) (X 47) (X 63) (Wt 15) (ix2 r o) = tapSum X Wt yl n o 15 :=
    tap_apply X Wt yl n o r hr 15
  rw [acc_eq]
  simp only [addf_apply]
  rw [h0, h1, h2, h3, h4, h5, h6, h7, h8, h9, h10, h11, h12, h13, h14, h15, zero_apply, biasRows_apply]
  exact congrArg (· + Bv (ix1 o)) (sum16 (tapSum X Wt yl n o)).symm

/-- **The piece stored at row `yl` of the output block, at `(0, n, o)`**: the sixteen taps' sums over the 512
    contracted columns, each tap reading its block `yl * 16 + w`, plus the bias at `o`. -/
theorem piece_apply (X : Fin 64 → FVec Ideal S1x64x512 .f32) (Wt : Fin 16 → FVec Ideal S1x512x512 .bf16)
    (Bv : FVec Ideal S512 .f32) (yl : Fin 4) (n : Fin 64) (o : Fin 512) :
    piece (F := Ideal) yl X Wt Bv (ix3 0 n o)
      = (∑ w : Fin 16, ∑ c : Fin 512, X (blk yl w) (ix3 0 n c) * Wt w (ix3 0 c o)) + Bv (ix1 o) := by
  match yl with
  | 0 =>
    show shapeCast S1x64x512 (rows0 (F := Ideal) X Wt Bv) shapeCasts_S64x512_S1x64x512 (ix3 0 n o) = _
    refine (shapeCast_ab_1ab_apply _ shapeCasts_S64x512_S1x64x512 0 n o).trans ?_
    rw [rows0_eq]
    refine (slice2_axis0_apply 0 _ slices_S256x512_o0_0_S64x512 n o ⟨n.val, by omega⟩ (by simp)).trans ?_
    exact acc_apply X Wt Bv 0 n o _ (by simp)
  | 1 =>
    show shapeCast S1x64x512 (extractStridedSlice S64x512 ![64, 0] (acc (F := Ideal) X Wt Bv) slices_S256x512_o64_0_S64x512)
      shapeCasts_S64x512_S1x64x512 (ix3 0 n o) = _
    refine (shapeCast_ab_1ab_apply _ shapeCasts_S64x512_S1x64x512 0 n o).trans ?_
    refine (slice2_axis0_apply 64 _ slices_S256x512_o64_0_S64x512 n o ⟨64 + n.val, by omega⟩ rfl).trans ?_
    exact acc_apply X Wt Bv 1 n o _ (by simp)
  | 2 =>
    show shapeCast S1x64x512 (extractStridedSlice S64x512 ![128, 0] (acc (F := Ideal) X Wt Bv) slices_S256x512_o128_0_S64x512)
      shapeCasts_S64x512_S1x64x512 (ix3 0 n o) = _
    refine (shapeCast_ab_1ab_apply _ shapeCasts_S64x512_S1x64x512 0 n o).trans ?_
    refine (slice2_axis0_apply 128 _ slices_S256x512_o128_0_S64x512 n o ⟨128 + n.val, by omega⟩ rfl).trans ?_
    exact acc_apply X Wt Bv 2 n o _ (by simp)
  | 3 =>
    show shapeCast S1x64x512 (extractStridedSlice S64x512 ![192, 0] (acc (F := Ideal) X Wt Bv) slices_S256x512_o192_0_S64x512)
      shapeCasts_S64x512_S1x64x512 (ix3 0 n o) = _
    refine (shapeCast_ab_1ab_apply _ shapeCasts_S64x512_S1x64x512 0 n o).trans ?_
    refine (slice2_axis0_apply 192 _ slices_S256x512_o192_0_S64x512 n o ⟨192 + n.val, by omega⟩ rfl).trans ?_
    exact acc_apply X Wt Bv 3 n o _ (by simp)

end Cert.KernelIdeal.Body

end
-- ==== Proof.Spec.lean ====
/-
  The function both programs compute, index by index, over the extended reals.

  Output row `y` (of 64) is built from sixteen input rows: tap `w` reads row `(y + 1) * (w + 1) - 1` of the
  1024 input rows.  With `x` the input f32[1024, 64, 512], `k` the taps' weights f32[16, 512, 512] and `b` the bias
  f32[512],

      out[y, n, o] = (∑ w < 16, ∑ c < 512, x[(y + 1) * (w + 1) - 1, n, c] * k[w, c, o]) + b[o].

  Addition on the extended reals is commutative and associative, so any grouping or order of these 16 * 512
  products gives the same value; no finiteness of the inputs is needed to regroup them.
-/
import Idealize.ShloMosaic.Lib.ValueIdx

noncomputable section

namespace Cert.Spec

open Idealize.ShloMosaic Idealize.ShloMosaic.ValueIdx
open scoped BigOperators

/-- The input row that tap `w` of output row `y` reads: `(y + 1) * (w + 1) - 1`, at most `64 * 16 - 1`. -/
def tapRow (y : Fin 64) (w : Fin 16) : Fin 1024 :=
  ⟨(y.val + 1) * (w.val + 1) - 1, by
    have h1 : (y.val + 1) * (w.val + 1) ≤ 64 * 16 := Nat.mul_le_mul (by omega) (by omega)
    have h2 : 0 < (y.val + 1) * (w.val + 1) := Nat.mul_pos (by omega) (by omega)
    omega⟩

theorem tapRow_val (y : Fin 64) (w : Fin 16) : (tapRow y w).val = (y.val + 1) * (w.val + 1) - 1 := rfl

/-- The result as one function of the three argument arrays. -/
def G (x : (⟨3, ![1024, 64, 512]⟩ : Shape).Idx → EReal) (k : (⟨3, ![16, 512, 512]⟩ : Shape).Idx → EReal)
    (b : (⟨1, ![512]⟩ : Shape).Idx → EReal) : (⟨3, ![64, 64, 512]⟩ : Shape).Idx → EReal :=
  fun i => (∑ w : Fin 16, ∑ c : Fin 512, x (ix3 (tapRow (i 0) w) (i 1) c) * k (ix3 w c (i 2))) + b (ix1 (i 2))

theorem G_apply (x : (⟨3, ![1024, 64, 512]⟩ : Shape).Idx → EReal) (k : (⟨3, ![16, 512, 512]⟩ : Shape).Idx → EReal)
    (b : (⟨1, ![512]⟩ : Shape).Idx → EReal) (y : Fin 64) (n : Fin 64) (o : Fin 512) :
    G x k b (ix3 y n o) = (∑ w : Fin 16, ∑ c : Fin 512, x (ix3 (tapRow y w) n c) * k (ix3 w c o)) + b (ix1 o) := rfl

end Cert.Spec

end
-- ==== Proof.KIValue.lean ====
/-
  The kernel's value: after the run the output array is the specification of the three argument arrays.

  At grid point `t` the body leaves four pieces in the output window's buffer, one per output row `4 t + yl`; they are
  the pieces of the body's arithmetic (`Body.piece`) of the sixty-four staged row blocks, the sixteen slices of the
  weights' block and the bias's block (`pieces_eq`, `out66_eq`).  Over the extended reals piece `yl` at `(0, n, o)`
  is `(∑ w < 16, ∑ e < 512, X (yl * 16 + w) (0, n, e) * W w (0, e, o)) + B o`; block `yl * 16 + w` is row
  `(4 t + yl + 1) (w + 1) - 1` of the first argument, the weights' block is the second argument (its conversion to
  the narrower format is the identity there), the bias's block the third: so what point `t` writes back is block `t`
  of the specification (`flushed_eq`).  The sixteen blocks of four rows tile the sixty-four output rows
  (`cover_out`), hence the whole array is the specification (`final`).
-/
import proofs.«155339_j73821897884183_2_alg».proof.Proof.KIData
import proofs.«155339_j73821897884183_2_alg».proof.Proof.KIIndex
import proofs.«155339_j73821897884183_2_alg».proof.Proof.BodyValue
import proofs.«155339_j73821897884183_2_alg».proof.Proof.Spec

set_option maxRecDepth 16384

noncomputable section

namespace Cert.KernelIdeal.Hand

open Idealize.ShloMosaic Idealize.ShloMosaic.TcCoe Idealize.ShloMosaic.Tactic Idealize.SL.Sem Idealize.ShloMosaic.ValueIdx
open Idealize.ShloMosaic.Pipeline (Dat Cfg Window)
open Cert.KernelIdeal Cert.KernelIdeal.Gen
open scoped BigOperators

section AnyFloat
variable {F : FTy → Type} [FloatOps F]

/-! ## The pieces the body stores -/

theorem hz3 : (![0, 0, 0] : Fin 3 → Nat) = fun _ => 0 := funext fun a => by fin_cases a <;> rfl
theorem hz1 : (![0] : Fin 1 → Nat) = fun _ => 0 := funext fun a => by fin_cases a <;> rfl

/-- Slice `w` of the weights lies inside them. -/
theorem inbW (w : Fin 16) : ∀ a, (![w.val, 0, 0] : Fin 3 → Nat) a + S1x512x512.size a ≤ S16x512x512.size a := fun a => by
  have := w.isLt
  match a with
  | ⟨0, _⟩ => show w.val + 1 ≤ 16; omega
  | ⟨1, _⟩ => show 0 + 512 ≤ 512; omega
  | ⟨2, _⟩ => show 0 + 512 ≤ 512; omega

/-- The sixteen weight slices the body loads, as a function of the tap. -/
def Wof (x65 : Vec F S16x512x512 .bf16) : Fin 16 → Vec F S1x512x512 .bf16 :=
  fun w => View.ld x65 (Rect.unit (s := S16x512x512) ![w.val, 0, 0] S1x512x512.size (inbW w))

/-- Slice `w` read at `(0, e, o)` is the weights at `(w, e, o)`. -/
theorem Wof_apply (x65 : Vec F S16x512x512 .bf16) (w : Fin 16) (e : Fin 512) (o : Fin 512) :
    Wof x65 w (ix3 0 e o) = x65 (ix3 w e o) := by
  show x65 ((Rect.unit (s := S16x512x512) ![w.val, 0, 0] S1x512x512.size (inbW w)).emb (ix3 0 e o)) = _
  congr 1
  funext a
  apply Fin.ext
  match a with
  | ⟨0, _⟩ => show w.val + 1 * 0 = w.val; omega
  | ⟨1, _⟩ => show 0 + 1 * e.val = e.val; omega
  | ⟨2, _⟩ => show 0 + 1 * o.val = o.val; omega

/-- The four stored pieces as one function of the index in the output block: row `yl` of the block is piece `yl`. -/
def Gblk (X : Fin 64 → Vec F S1x64x512 .f32) (Wt : Fin 16 → Vec F S1x512x512 .bf16) (Bv : Vec F S512 .f32) :
    S4x64x512.Idx → Elt F .f32 :=
  fun y => Body.piece (y 0) X Wt Bv (ix3 0 (y 1) (y 2))

/-- The rectangle of the piece stored at row `k` of the output block sends `(0, n, o)` to `(k, n, o)`. -/
theorem emb_piece (k : Fin 4) (n : Fin 64) (o : Fin 512)
    (inb : ∀ a, (![k.val, 0, 0] : Fin 3 → Nat) a + (![1, 64, 512] : Fin 3 → Nat) a ≤ S4x64x512.size a) :
    (Rect.unit (s := S4x64x512) ![k.val, 0, 0] ![1, 64, 512] inb).emb (ix3 0 n o) = ix3 k n o := by
  funext a
  apply Fin.ext
  match a with
  | ⟨0, _⟩ => show k.val + 1 * 0 = k.val; omega
  | ⟨1, _⟩ => show 0 + 1 * n.val = n.val; omega
  | ⟨2, _⟩ => show 0 + 1 * o.val = o.val; omega

set_option maxHeartbeats 1600000 in
/-- Each piece the run found is the body's arithmetic of the loaded blocks, where its rectangle sits. -/
theorem pieces_eq (c : Dev nD) (i : grid0.Coords) (arg1 : Memref sig .tc .vmem S1x64x512 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x64x512 .f32) (harg7 : arg7.IsWhole) (arg8 : Memref sig .tc .vmem S1x64x512 .f32) (harg8 : arg8.IsWhole) (arg9 : Memref sig .tc .vmem S1x64x512 .f32) (harg9 : arg9.IsWhole) (arg10 : Memref sig .tc .vmem S1x64x512 .f32) (harg10 : arg10.IsWhole) (arg11 : Memref sig .tc .vmem S1x64x512 .f32) (harg11 : arg11.IsWhole) (arg12 : Memref sig .tc .vmem S1x64x512 .f32) (harg12 : arg12.IsWhole) (arg13 : Memref sig .tc .vmem S1x64x512 .f32) (harg13 : arg13.IsWhole) (arg14 : Memref sig .tc .vmem S1x64x512 .f32) (harg14 : arg14.IsWhole) (arg15 : Memref sig .tc .vmem S1x64x512 .f32) (harg15 : arg15.IsWhole) (arg16 : Memref sig .tc .vmem S1x64x512 .f32) (harg16 : arg16.IsWhole) (arg17 : Memref sig .tc .vmem S1x64x512 .f32) (harg17 : arg17.IsWhole) (arg18 : Memref sig .tc .vmem S1x64x512 .f32) (harg18 : arg18.IsWhole) (arg19 : Memref sig .tc .vmem S1x64x512 .f32) (harg19 : arg19.IsWhole) (arg20 : Memref sig .tc .vmem S1x64x512 .f32) (harg20 : arg20.IsWhole) (arg21 : Memref sig .tc .vmem S1x64x512 .f32) (harg21 : arg21.IsWhole) (arg22 : Memref sig .tc .vmem S1x64x512 .f32) (harg22 : arg22.IsWhole) (arg23 : Memref sig .tc .vmem S1x64x512 .f32) (harg23 : arg23.IsWhole) (arg24 : Memref sig .tc .vmem S1x64x512 .f32) (harg24 : arg24.IsWhole) (arg25 : Memref sig .tc .vmem S1x64x512 .f32) (harg25 : arg25.IsWhole) (arg26 : Memref sig .tc .vmem S1x64x512 .f32) (harg26 : arg26.IsWhole) (arg27 : Memref sig .tc .vmem S1x64x512 .f32) (harg27 : arg27.IsWhole) (arg28 : Memref sig .tc .vmem S1x64x512 .f32) (harg28 : arg28.IsWhole) (arg29 : Memref sig .tc .vmem S1x64x512 .f32) (harg29 : arg29.IsWhole) (arg30 : Memref sig .tc .vmem S1x64x512 .f32) (harg30 : arg30.IsWhole) (arg31 : Memref sig .tc .vmem S1x64x512 .f32) (harg31 : arg31.IsWhole) (arg32 : Memref sig .tc .vmem S1x64x512 .f32) (harg32 : arg32.IsWhole) (arg33 : Memref sig .tc .vmem S1x64x512 .f32) (harg33 : arg33.IsWhole) (arg34 : Memref sig .tc .vmem S1x64x512 .f32) (harg34 : arg34.IsWhole) (arg35 : Memref sig .tc .vmem S1x64x512 .f32) (harg35 : arg35.IsWhole) (arg36 : Memref sig .tc .vmem S1x64x512 .f32) (harg36 : arg36.IsWhole) (arg37 : Memref sig .tc .vmem S1x64x512 .f32) (harg37 : arg37.IsWhole) (arg38 : Memref sig .tc .vmem S1x64x512 .f32) (harg38 : arg38.IsWhole) (arg39 : Memref sig .tc .vmem S1x64x512 .f32) (harg39 : arg39.IsWhole) (arg40 : Memref sig .tc .vmem S1x64x512 .f32) (harg40 : arg40.IsWhole) (arg41 : Memref sig .tc .vmem S1x64x512 .f32) (harg41 : arg41.IsWhole) (arg42 : Memref sig .tc .vmem S1x64x512 .f32) (harg42 : arg42.IsWhole) (arg43 : Memref sig .tc .vmem S1x64x512 .f32) (harg43 : arg43.IsWhole) (arg44 : Memref sig .tc .vmem S1x64x512 .f32) (harg44 : arg44.IsWhole) (arg45 : Memref sig .tc .vmem S1x64x512 .f32) (harg45 : arg45.IsWhole) (arg46 : Memref sig .tc .vmem S1x64x512 .f32) (harg46 : arg46.IsWhole) (arg47 : Memref sig .tc .vmem S1x64x512 .f32) (harg47 : arg47.IsWhole) (arg48 : Memref sig .tc .vmem S1x64x512 .f32) (harg48 : arg48.IsWhole) (arg49 : Memref sig .tc .vmem S1x64x512 .f32) (harg49 : arg49.IsWhole) (arg50 : Memref sig .tc .vmem S1x64x512 .f32) (harg50 : arg50.IsWhole) (arg51 : Memref sig .tc .vmem S1x64x512 .f32) (harg51 : arg51.IsWhole) (arg52 : Memref sig .tc .vmem S1x64x512 .f32) (harg52 : arg52.IsWhole) (arg53 : Memref sig .tc .vmem S1x64x512 .f32) (harg53 : arg53.IsWhole) (arg54 : Memref sig .tc .vmem S1x64x512 .f32) (harg54 : arg54.IsWhole) (arg55 : Memref sig .tc .vmem S1x64x512 .f32) (harg55 : arg55.IsWhole) (arg56 : Memref sig .tc .vmem S1x64x512 .f32) (harg56 : arg56.IsWhole) (arg57 : Memref sig .tc .vmem S1x64x512 .f32) (harg57 : arg57.IsWhole) (arg58 : Memref sig .tc .vmem S1x64x512 .f32) (harg58 : arg58.IsWhole) (arg59 : Memref sig .tc .vmem S1x64x512 .f32) (harg59 : arg59.IsWhole) (arg60 : Memref sig .tc .vmem S1x64x512 .f32) (harg60 : arg60.IsWhole) (arg61 : Memref sig .tc .vmem S1x64x512 .f32) (harg61 : arg61.IsWhole) (arg62 : Memref sig .tc .vmem S1x64x512 .f32) (harg62 : arg62.IsWhole) (arg63 : Memref sig .tc .vmem S1x64x512 .f32) (harg63 : arg63.IsWhole) (arg64 : Memref sig .tc .vmem S1x64x512 .f32) (harg64 : arg64.IsWhole) (arg65 : Memref sig .tc .vmem S16x512x512 .bf16) (harg65 : arg65.IsWhole) (arg66 : Memref sig .tc .vmem S512 .f32) (harg66 : arg66.IsWhole) (arg67 : Memref sig .tc .vmem S4x64x512 .f32) (harg67 : arg67.IsWhole)
    (x1 : Vec F S1x64x512 .f32) (x2 : Vec F S1x64x512 .f32) (x3 : Vec F S1x64x512 .f32) (x4 : Vec F S1x64x512 .f32) (x5 : Vec F S1x64x512 .f32) (x6 : Vec F S1x64x512 .f32) (x7 : Vec F S1x64x512 .f32) (x8 : Vec F S1x64x512 .f32) (x9 : Vec F S1x64x512 .f32) (x10 : Vec F S1x64x512 .f32) (x11 : Vec F S1x64x512 .f32) (x12 : Vec F S1x64x512 .f32) (x13 : Vec F S1x64x512 .f32) (x14 : Vec F S1x64x512 .f32) (x15 : Vec F S1x64x512 .f32) (x16 : Vec F S1x64x512 .f32) (x17 : Vec F S1x64x512 .f32) (x18 : Vec F S1x64x512 .f32) (x19 : Vec F S1x64x512 .f32) (x20 : Vec F S1x64x512 .f32) (x21 : Vec F S1x64x512 .f32) (x22 : Vec F S1x64x512 .f32) (x23 : Vec F S1x64x512 .f32) (x24 : Vec F S1x64x512 .f32) (x25 : Vec F S1x64x512 .f32) (x26 : Vec F S1x64x512 .f32) (x27 : Vec F S1x64x512 .f32) (x28 : Vec F S1x64x512 .f32) (x29 : Vec F S1x64x512 .f32) (x30 : Vec F S1x64x512 .f32) (x31 : Vec F S1x64x512 .f32) (x32 : Vec F S1x64x512 .f32) (x33 : Vec F S1x64x512 .f32) (x34 : Vec F S1x64x512 .f32) (x35 : Vec F S1x64x512 .f32) (x36 : Vec F S1x64x512 .f32) (x37 : Vec F S1x64x512 .f32) (x38 : Vec F S1x64x512 .f32) (x39 : Vec F S1x64x512 .f32) (x40 : Vec F S1x64x512 .f32) (x41 : Vec F S1x64x512 .f32) (x42 : Vec F S1x64x512 .f32) (x43 : Vec F S1x64x512 .f32) (x44 : Vec F S1x64x512 .f32) (x45 : Vec F S1x64x512 .f32) (x46 : Vec F S1x64x512 .f32) (x47 : Vec F S1x64x512 .f32) (x48 : Vec F S1x64x512 .f32) (x49 : Vec F S1x64x512 .f32) (x50 : Vec F S1x64x512 .f32) (x51 : Vec F S1x64x512 .f32) (x52 : Vec F S1x64x512 .f32) (x53 : Vec F S1x64x512 .f32) (x54 : Vec F S1x64x512 .f32) (x55 : Vec F S1x64x512 .f32) (x56 : Vec F S1x64x512 .f32) (x57 : Vec F S1x64x512 .f32) (x58 : Vec F S1x64x512 .f32) (x59 : Vec F S1x64x512 .f32) (x60 : Vec F S1x64x512 .f32) (x61 : Vec F S1x64x512 .f32) (x62 : Vec F S1x64x512 .f32) (x63 : Vec F S1x64x512 .f32) (x64 : Vec F S1x64x512 .f32) (x65 : Vec F S16x512x512 .bf16) (x66 : Vec F S512 .f32) :
    ∀ p ∈ (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66).1, ∀ x : p.1.shape.Idx,
      p.2 x = Gblk (Xof x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64) (Wof x65) x66 (p.1.emb x) := by
  unfold kernelRun
  dsimp only
  intro p hp
  rcases List.mem_cons.mp hp with rfl | hp
  ·
    intro x
    obtain ⟨u, n, o, rfl⟩ : ∃ (u : Fin 1) (n : Fin 64) (o : Fin 512), x = ix3 u n o := ⟨x 0, x 1, x 2, eq_ix3 x⟩
    obtain rfl : u = 0 := Subsingleton.elim _ _
    refine Eq.trans ?_ (congrArg (Gblk _ _ _) (emb_piece 3 n o inb_S4x64x512_S1x64x512_3_0_0).symm)
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, harg45.read_unread, harg46.read_unread, harg47.read_unread, harg48.read_unread, harg49.read_unread, harg50.read_unread, harg51.read_unread, harg52.read_unread, harg53.read_unread, harg54.read_unread, harg55.read_unread, harg56.read_unread, harg57.read_unread, harg58.read_unread, harg59.read_unread, harg60.read_unread, harg61.read_unread, harg62.read_unread, harg63.read_unread, harg64.read_unread, harg65.read_unread, harg66.read_unread,
      View.ld_unit_zero (S := S1x64x512) hz3, View.ld_unit_zero (S := S512) hz1]
    rfl
  rcases List.mem_cons.mp hp with rfl | hp
  ·
    intro x
    obtain ⟨u, n, o, rfl⟩ : ∃ (u : Fin 1) (n : Fin 64) (o : Fin 512), x = ix3 u n o := ⟨x 0, x 1, x 2, eq_ix3 x⟩
    obtain rfl : u = 0 := Subsingleton.elim _ _
    refine Eq.trans ?_ (congrArg (Gblk _ _ _) (emb_piece 2 n o inb_S4x64x512_S1x64x512_2_0_0).symm)
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, harg45.read_unread, harg46.read_unread, harg47.read_unread, harg48.read_unread, harg49.read_unread, harg50.read_unread, harg51.read_unread, harg52.read_unread, harg53.read_unread, harg54.read_unread, harg55.read_unread, harg56.read_unread, harg57.read_unread, harg58.read_unread, harg59.read_unread, harg60.read_unread, harg61.read_unread, harg62.read_unread, harg63.read_unread, harg64.read_unread, harg65.read_unread, harg66.read_unread,
      View.ld_unit_zero (S := S1x64x512) hz3, View.ld_unit_zero (S := S512) hz1]
    rfl
  rcases List.mem_cons.mp hp with rfl | hp
  ·
    intro x
    obtain ⟨u, n, o, rfl⟩ : ∃ (u : Fin 1) (n : Fin 64) (o : Fin 512), x = ix3 u n o := ⟨x 0, x 1, x 2, eq_ix3 x⟩
    obtain rfl : u = 0 := Subsingleton.elim _ _
    refine Eq.trans ?_ (congrArg (Gblk _ _ _) (emb_piece 1 n o inb_S4x64x512_S1x64x512_1_0_0).symm)
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, harg45.read_unread, harg46.read_unread, harg47.read_unread, harg48.read_unread, harg49.read_unread, harg50.read_unread, harg51.read_unread, harg52.read_unread, harg53.read_unread, harg54.read_unread, harg55.read_unread, harg56.read_unread, harg57.read_unread, harg58.read_unread, harg59.read_unread, harg60.read_unread, harg61.read_unread, harg62.read_unread, harg63.read_unread, harg64.read_unread, harg65.read_unread, harg66.read_unread,
      View.ld_unit_zero (S := S1x64x512) hz3, View.ld_unit_zero (S := S512) hz1]
    rfl
  rcases List.mem_cons.mp hp with rfl | hp
  ·
    intro x
    obtain ⟨u, n, o, rfl⟩ : ∃ (u : Fin 1) (n : Fin 64) (o : Fin 512), x = ix3 u n o := ⟨x 0, x 1, x 2, eq_ix3 x⟩
    obtain rfl : u = 0 := Subsingleton.elim _ _
    refine Eq.trans ?_ (congrArg (Gblk _ _ _) (emb_piece 0 n o inb_S4x64x512_S1x64x512_0_0_0).symm)
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, harg38.read_unread, harg39.read_unread, harg40.read_unread, harg41.read_unread, harg42.read_unread, harg43.read_unread, harg44.read_unread, harg45.read_unread, harg46.read_unread, harg47.read_unread, harg48.read_unread, harg49.read_unread, harg50.read_unread, harg51.read_unread, harg52.read_unread, harg53.read_unread, harg54.read_unread, harg55.read_unread, harg56.read_unread, harg57.read_unread, harg58.read_unread, harg59.read_unread, harg60.read_unread, harg61.read_unread, harg62.read_unread, harg63.read_unread, harg64.read_unread, harg65.read_unread, harg66.read_unread,
      View.ld_unit_zero (S := S1x64x512) hz3, View.ld_unit_zero (S := S512) hz1]
    rfl
  exact absurd hp List.not_mem_nil

/-! ## Where the blocks sit -/

/-- Where the output block of point `t` sits: rows `4 t … 4 t + 3`. -/
theorem emb66 (t : Fin cfg0.N) (yl : Fin 4) (n : Fin 64) (o : Fin 512) (y : Fin 64) (hy : y.val = 4 * t.val + yl.val) :
    ((cfg0.win 66).blk t).view.emb (ix3 yl n o) = (ix3 y n o : S64x64x512.Idx) := by
  obtain ⟨h0, h1, h2⟩ := idx_66 t
  funext a
  apply Fin.ext
  match a with
  | ⟨0, _⟩ => show win0_66.index t 0 * 4 + 1 * yl.val = y.val; rw [h0, hy]; omega
  | ⟨1, _⟩ => show win0_66.index t 1 * 64 + 1 * n.val = n.val; rw [h1]; omega
  | ⟨2, _⟩ => show win0_66.index t 2 * 512 + 1 * o.val = o.val; rw [h2]; omega

/-- Every index of the output array is in the block of the point that computes its row. -/
theorem cover_out (i : S64x64x512.Idx) :
    ∃ t : Fin cfg0.N, (cfg0.win 66).flush t = true ∧ i ∈ ((cfg0.win 66).blk t).view.set := by
  have hi0 : (i 0).val < 64 := (i 0).isLt
  have hi1 : (i 1).val < 64 := (i 1).isLt
  have hi2 : (i 2).val < 512 := (i 2).isLt
  have hN : cfg0.N = 16 := N_0
  let t : Fin cfg0.N := ⟨(i 0).val / 4, by rw [hN]; omega⟩
  have ht : t.val = (i 0).val / 4 := rfl
  obtain ⟨h0, h1, h2⟩ := idx_66 t
  refine ⟨t, flush0_66 t, ?_⟩
  show i ∈ ((View.whole main_v1).slice (win0_66.rect t)).set
  rw [View.set_slice_whole, Rect.mem_set_unit]
  intro a
  match a with
  | ⟨0, _⟩ => show win0_66.index t 0 * 4 ≤ (i 0).val ∧ (i 0).val < win0_66.index t 0 * 4 + 4; rw [h0, ht]; omega
  | ⟨1, _⟩ => show win0_66.index t 1 * 64 ≤ (i 1).val ∧ (i 1).val < win0_66.index t 1 * 64 + 64; rw [h1]; omega
  | ⟨2, _⟩ => show win0_66.index t 2 * 512 ≤ (i 2).val ∧ (i 2).val < win0_66.index t 2 * 512 + 512; rw [h2]; omega

/-- What the body leaves in the output window's buffer: the four pieces, as one function of the block index. -/
theorem out66_eq (c : Dev nD) (i : grid0.Coords) (arg1 : Memref sig .tc .vmem S1x64x512 .f32) (harg1 : arg1.IsWhole) (arg2 : Memref sig .tc .vmem S1x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S1x64x512 .f32) (harg5 : arg5.IsWhole) (arg6 : Memref sig .tc .vmem S1x64x512 .f32) (harg6 : arg6.IsWhole) (arg7 : Memref sig .tc .vmem S1x64x512 .f32) (harg7 : arg7.IsWhole) (arg8 : Memref sig .tc .vmem S1x64x512 .f32) (harg8 : arg8.IsWhole) (arg9 : Memref sig .tc .vmem S1x64x512 .f32) (harg9 : arg9.IsWhole) (arg10 : Memref sig .tc .vmem S1x64x512 .f32) (harg10 : arg10.IsWhole) (arg11 : Memref sig .tc .vmem S1x64x512 .f32) (harg11 : arg11.IsWhole) (arg12 : Memref sig .tc .vmem S1x64x512 .f32) (harg12 : arg12.IsWhole) (arg13 : Memref sig .tc .vmem S1x64x512 .f32) (harg13 : arg13.IsWhole) (arg14 : Memref sig .tc .vmem S1x64x512 .f32) (harg14 : arg14.IsWhole) (arg15 : Memref sig .tc .vmem S1x64x512 .f32) (harg15 : arg15.IsWhole) (arg16 : Memref sig .tc .vmem S1x64x512 .f32) (harg16 : arg16.IsWhole) (arg17 : Memref sig .tc .vmem S1x64x512 .f32) (harg17 : arg17.IsWhole) (arg18 : Memref sig .tc .vmem S1x64x512 .f32) (harg18 : arg18.IsWhole) (arg19 : Memref sig .tc .vmem S1x64x512 .f32) (harg19 : arg19.IsWhole) (arg20 : Memref sig .tc .vmem S1x64x512 .f32) (harg20 : arg20.IsWhole) (arg21 : Memref sig .tc .vmem S1x64x512 .f32) (harg21 : arg21.IsWhole) (arg22 : Memref sig .tc .vmem S1x64x512 .f32) (harg22 : arg22.IsWhole) (arg23 : Memref sig .tc .vmem S1x64x512 .f32) (harg23 : arg23.IsWhole) (arg24 : Memref sig .tc .vmem S1x64x512 .f32) (harg24 : arg24.IsWhole) (arg25 : Memref sig .tc .vmem S1x64x512 .f32) (harg25 : arg25.IsWhole) (arg26 : Memref sig .tc .vmem S1x64x512 .f32) (harg26 : arg26.IsWhole) (arg27 : Memref sig .tc .vmem S1x64x512 .f32) (harg27 : arg27.IsWhole) (arg28 : Memref sig .tc .vmem S1x64x512 .f32) (harg28 : arg28.IsWhole) (arg29 : Memref sig .tc .vmem S1x64x512 .f32) (harg29 : arg29.IsWhole) (arg30 : Memref sig .tc .vmem S1x64x512 .f32) (harg30 : arg30.IsWhole) (arg31 : Memref sig .tc .vmem S1x64x512 .f32) (harg31 : arg31.IsWhole) (arg32 : Memref sig .tc .vmem S1x64x512 .f32) (harg32 : arg32.IsWhole) (arg33 : Memref sig .tc .vmem S1x64x512 .f32) (harg33 : arg33.IsWhole) (arg34 : Memref sig .tc .vmem S1x64x512 .f32) (harg34 : arg34.IsWhole) (arg35 : Memref sig .tc .vmem S1x64x512 .f32) (harg35 : arg35.IsWhole) (arg36 : Memref sig .tc .vmem S1x64x512 .f32) (harg36 : arg36.IsWhole) (arg37 : Memref sig .tc .vmem S1x64x512 .f32) (harg37 : arg37.IsWhole) (arg38 : Memref sig .tc .vmem S1x64x512 .f32) (harg38 : arg38.IsWhole) (arg39 : Memref sig .tc .vmem S1x64x512 .f32) (harg39 : arg39.IsWhole) (arg40 : Memref sig .tc .vmem S1x64x512 .f32) (harg40 : arg40.IsWhole) (arg41 : Memref sig .tc .vmem S1x64x512 .f32) (harg41 : arg41.IsWhole) (arg42 : Memref sig .tc .vmem S1x64x512 .f32) (harg42 : arg42.IsWhole) (arg43 : Memref sig .tc .vmem S1x64x512 .f32) (harg43 : arg43.IsWhole) (arg44 : Memref sig .tc .vmem S1x64x512 .f32) (harg44 : arg44.IsWhole) (arg45 : Memref sig .tc .vmem S1x64x512 .f32) (harg45 : arg45.IsWhole) (arg46 : Memref sig .tc .vmem S1x64x512 .f32) (harg46 : arg46.IsWhole) (arg47 : Memref sig .tc .vmem S1x64x512 .f32) (harg47 : arg47.IsWhole) (arg48 : Memref sig .tc .vmem S1x64x512 .f32) (harg48 : arg48.IsWhole) (arg49 : Memref sig .tc .vmem S1x64x512 .f32) (harg49 : arg49.IsWhole) (arg50 : Memref sig .tc .vmem S1x64x512 .f32) (harg50 : arg50.IsWhole) (arg51 : Memref sig .tc .vmem S1x64x512 .f32) (harg51 : arg51.IsWhole) (arg52 : Memref sig .tc .vmem S1x64x512 .f32) (harg52 : arg52.IsWhole) (arg53 : Memref sig .tc .vmem S1x64x512 .f32) (harg53 : arg53.IsWhole) (arg54 : Memref sig .tc .vmem S1x64x512 .f32) (harg54 : arg54.IsWhole) (arg55 : Memref sig .tc .vmem S1x64x512 .f32) (harg55 : arg55.IsWhole) (arg56 : Memref sig .tc .vmem S1x64x512 .f32) (harg56 : arg56.IsWhole) (arg57 : Memref sig .tc .vmem S1x64x512 .f32) (harg57 : arg57.IsWhole) (arg58 : Memref sig .tc .vmem S1x64x512 .f32) (harg58 : arg58.IsWhole) (arg59 : Memref sig .tc .vmem S1x64x512 .f32) (harg59 : arg59.IsWhole) (arg60 : Memref sig .tc .vmem S1x64x512 .f32) (harg60 : arg60.IsWhole) (arg61 : Memref sig .tc .vmem S1x64x512 .f32) (harg61 : arg61.IsWhole) (arg62 : Memref sig .tc .vmem S1x64x512 .f32) (harg62 : arg62.IsWhole) (arg63 : Memref sig .tc .vmem S1x64x512 .f32) (harg63 : arg63.IsWhole) (arg64 : Memref sig .tc .vmem S1x64x512 .f32) (harg64 : arg64.IsWhole) (arg65 : Memref sig .tc .vmem S16x512x512 .bf16) (harg65 : arg65.IsWhole) (arg66 : Memref sig .tc .vmem S512 .f32) (harg66 : arg66.IsWhole) (arg67 : Memref sig .tc .vmem S4x64x512 .f32) (harg67 : arg67.IsWhole)
    (x1 : Vec F S1x64x512 .f32) (x2 : Vec F S1x64x512 .f32) (x3 : Vec F S1x64x512 .f32) (x4 : Vec F S1x64x512 .f32) (x5 : Vec F S1x64x512 .f32) (x6 : Vec F S1x64x512 .f32) (x7 : Vec F S1x64x512 .f32) (x8 : Vec F S1x64x512 .f32) (x9 : Vec F S1x64x512 .f32) (x10 : Vec F S1x64x512 .f32) (x11 : Vec F S1x64x512 .f32) (x12 : Vec F S1x64x512 .f32) (x13 : Vec F S1x64x512 .f32) (x14 : Vec F S1x64x512 .f32) (x15 : Vec F S1x64x512 .f32) (x16 : Vec F S1x64x512 .f32) (x17 : Vec F S1x64x512 .f32) (x18 : Vec F S1x64x512 .f32) (x19 : Vec F S1x64x512 .f32) (x20 : Vec F S1x64x512 .f32) (x21 : Vec F S1x64x512 .f32) (x22 : Vec F S1x64x512 .f32) (x23 : Vec F S1x64x512 .f32) (x24 : Vec F S1x64x512 .f32) (x25 : Vec F S1x64x512 .f32) (x26 : Vec F S1x64x512 .f32) (x27 : Vec F S1x64x512 .f32) (x28 : Vec F S1x64x512 .f32) (x29 : Vec F S1x64x512 .f32) (x30 : Vec F S1x64x512 .f32) (x31 : Vec F S1x64x512 .f32) (x32 : Vec F S1x64x512 .f32) (x33 : Vec F S1x64x512 .f32) (x34 : Vec F S1x64x512 .f32) (x35 : Vec F S1x64x512 .f32) (x36 : Vec F S1x64x512 .f32) (x37 : Vec F S1x64x512 .f32) (x38 : Vec F S1x64x512 .f32) (x39 : Vec F S1x64x512 .f32) (x40 : Vec F S1x64x512 .f32) (x41 : Vec F S1x64x512 .f32) (x42 : Vec F S1x64x512 .f32) (x43 : Vec F S1x64x512 .f32) (x44 : Vec F S1x64x512 .f32) (x45 : Vec F S1x64x512 .f32) (x46 : Vec F S1x64x512 .f32) (x47 : Vec F S1x64x512 .f32) (x48 : Vec F S1x64x512 .f32) (x49 : Vec F S1x64x512 .f32) (x50 : Vec F S1x64x512 .f32) (x51 : Vec F S1x64x512 .f32) (x52 : Vec F S1x64x512 .f32) (x53 : Vec F S1x64x512 .f32) (x54 : Vec F S1x64x512 .f32) (x55 : Vec F S1x64x512 .f32) (x56 : Vec F S1x64x512 .f32) (x57 : Vec F S1x64x512 .f32) (x58 : Vec F S1x64x512 .f32) (x59 : Vec F S1x64x512 .f32) (x60 : Vec F S1x64x512 .f32) (x61 : Vec F S1x64x512 .f32) (x62 : Vec F S1x64x512 .f32) (x63 : Vec F S1x64x512 .f32) (x64 : Vec F S1x64x512 .f32) (x65 : Vec F S16x512x512 .bf16) (x66 : Vec F S512 .f32) :
    out66 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66
      = Gblk (Xof x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64) (Wof x65) x66 := by
  unfold out66
  rw [View.read_writes_eq_canon _ _ _ (cover66 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66)]
  funext y
  exact View.canon_apply_of_pieces _ _ (pieces_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66) y
    (cover66 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 y)

end AnyFloat

/-! ## Over the extended reals: the blocks are blocks of the specification -/

variable (m : (ℓ : Loc nD τ sig) → Buf (Elt Ideal) ℓ)

/-- Over the extended reals the converted weights are the second argument. -/
theorem V_main_v0_ideal (c : Dev nD) :
    (V (F := Ideal) m c main_v0 : S16x512x512.Idx → EReal)
      = (m ((c : Thread nD τ).loc main_arg1) : S16x512x512.Idx → EReal) := by
  dsimp only [V, hostOps0]
  after_results
  rfl

/-- WHAT POINT `t` WRITES BACK is block `t` of the specification of the three arguments: at `(yl, n, o)` of the block,
    piece `yl` at `(0, n, o)`, whose sixteen taps read rows `(4 t + yl + 1) (w + 1) - 1` of the first argument, the
    weights of the second and the bias of the third. -/
theorem flushed_eq (c : Dev nD) (t : Fin cfg0.N) :
    (dats (F := Ideal) m 0 c).flushed 66 t
      = ((cfg0.win 66).blk t).view.read (Elt Ideal)
          (Cert.Spec.G (m ((c : Thread nD τ).loc main_arg0)) (m ((c : Thread nD τ).loc main_arg1))
            (m ((c : Thread nD τ).loc main_arg2))) := by
  show (cfg0.win 66).cut (grid0.coords t) ((dats (F := Ideal) m 0 c).after 66 t) = _
  rw [after66, out66_eq]
  funext y
  obtain ⟨yl, n, o, rfl⟩ : ∃ (yl : Fin 4) (n : Fin 64) (o : Fin 512), y = ix3 yl n o := ⟨y 0, y 1, y 2, eq_ix3 y⟩
  have ht : t.val < 16 := lt_of_lt_of_eq t.isLt N_0
  have hyl := yl.isLt
  rw [View.read_apply, emb66 t yl n o ⟨4 * t.val + yl.val, by omega⟩ rfl, Cert.Spec.G_apply]
  show Body.piece (F := Ideal) yl (Xblk m c t) (Wof (iblk m c 64 t)) (iblk m c 65 t) (ix3 0 n o) = _
  rw [Body.piece_apply]
  congr 1
  · refine Finset.sum_congr rfl fun w _ => Finset.sum_congr rfl fun e _ => ?_
    congr 1
    · refine Xblk_apply m c t (Body.blk yl w) n e _ ?_
      have hw := w.isLt
      have h1 : (yl.val * 16 + w.val) / 16 = yl.val := by omega
      have h2 : (yl.val * 16 + w.val) % 16 = w.val := by omega
      rw [Cert.Spec.tapRow_val]
      show (4 * t.val + yl.val + 1) * (w.val + 1) - 1
        = (4 * t.val + (yl.val * 16 + w.val) / 16 + 1) * ((yl.val * 16 + w.val) % 16 + 1) - 1
      rw [h1, h2]
    · rw [Wof_apply, iblk_64_apply, V_main_v0_ideal]
  · exact iblk_65_apply m c t o

/-- **The output array after the run is the specification of the three argument arrays.** -/
theorem final (c : Dev nD) :
    (dats (F := Ideal) m 0 c).arrAt 66 cfg0.N
      = Cert.Spec.G (m ((c : Thread nD τ).loc main_arg0)) (m ((c : Thread nD τ).loc main_arg1))
          (m ((c : Thread nD τ).loc main_arg2)) :=
  (dats (F := Ideal) m 0 c).arrAt_eq_of_cover 66 _ (fun t _ => flushed_eq m c t) cover_out

end Cert.KernelIdeal.Hand

end
-- ==== Proof.KIRunG.lean ====
/-
  The idealized kernel's run with its result named: every weakly fair execution terminates, faults nowhere, leaves
  the three arguments as launched and the result array at the specification's function of them (the frame run's
  final contents of the output window's array, read through the blocks the sixteen grid points wrote back).
-/
import proofs.«155339_j73821897884183_2_alg».proof.Proof.KIFrame
import proofs.«155339_j73821897884183_2_alg».proof.Proof.KIValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

theorem run_G : θ_run (defs (F := Ideal)) (onTc (τ := τ) (main (F := Ideal))) ⟨m, fun _ => 0, ρ⟩ (fun r => ∀ c : Dev nD,
      r.2.mem ((c.tc : Thread nD τ).loc main_v1) = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 66).trans (final m c),
      ((h c).1 0).trans (((dats m 0 c).arrAt_in 0 rfl _).trans ((A_eq m c 0).trans (V_main_arg0 m c))),
      ((h c).2 main_arg1 (by decide)).trans (V_main_arg1 m c),
      ((h c).1 65).trans (((dats m 0 c).arrAt_in 65 rfl _).trans ((A_eq m c 65).trans (V_main_arg2 m c)))⟩) (run_main (F := Ideal) m ρ)

end Cert.KernelIdeal.Hand

end
-- ==== Proof.RefRun.lean ====
/-
  The reference program's run, read back as one pure term of its three arguments.

  The program is a straight line of 25 host operations.  Every weakly fair execution of it terminates, leaves
  the three arguments as they were, and leaves the result buffer at the operations' composition `refTerm`
  applied to the arguments' launch contents.
-/
import proofs.«155339_j73821897884183_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 25 operations, in order. -/
abbrev ops : List (HloOp τ sig (Elt F)) :=
  [ nullary main_c (fun i => lit0 (S1024.rowMajor i)),
    nullary main_c_0 (constantI S1024 1 0#1),
    nullary main_c_1 (fun i => lit1 (S1024.rowMajor i)),
    nullary main_c_2 (constantI S1024 1 0#1),
    nullary main_c_3 (fun i => lit2 (S1024.rowMajor i)),
    nullary main_c_4 (constantI S_ 32 1024#32),
    unary main_c_4 main_v0 (broadcastInDim S1024 ![] bcast_S_S1024 : (⟨S_, .i32⟩ : BufTy).Contents (Elt F) → (⟨S1024, .i32⟩ : BufTy).Contents (Elt F)),
    binary main_c main_v0 main_v1 (addi : (⟨S1024, .i32⟩ : BufTy).Contents (Elt F) → (⟨S1024, .i32⟩ : BufTy).Contents (Elt F) → (⟨S1024, .i32⟩ : BufTy).Contents (Elt F)),
    ternary main_c_0 main_v1 main_c main_v2 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v2 main_v3 (broadcastInDim S1024x1 ![0] bcast_S1024_S1024x1_0 : (⟨S1024, .i32⟩ : BufTy).Contents (Elt F) → (⟨S1024x1, .i32⟩ : BufTy).Contents (Elt F)),
    binary main_arg0 main_v3 main_v4 ((fun x i => Host.gather gather_S1024x64x512_S1024x1_S1024x64x512_12_0_n_n_0_1_164512 x i) : (⟨S1024x64x512, .f32⟩ : BufTy).Contents (Elt F) → (⟨S1024x1, .i32⟩ : BufTy).Contents (Elt F) → (⟨S1024x64x512, .f32⟩ : BufTy).Contents (Elt F)),
    nullary main_c_5 (constantI S_ 32 16#32),
    unary main_c_5 main_v5 (broadcastInDim S1024 ![] bcast_S_S1024 : (⟨S_, .i32⟩ : BufTy).Contents (Elt F) → (⟨S1024, .i32⟩ : BufTy).Contents (Elt F)),
    binary main_c_1 main_v5 main_v6 (addi : (⟨S1024, .i32⟩ : BufTy).Contents (Elt F) → (⟨S1024, .i32⟩ : BufTy).Contents (Elt F) → (⟨S1024, .i32⟩ : BufTy).Contents (Elt F)),
    ternary main_c_2 main_v6 main_c_1 main_v7 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v7 main_v8 (broadcastInDim S1024x1 ![0] bcast_S1024_S1024x1_0 : (⟨S1024, .i32⟩ : BufTy).Contents (Elt F) → (⟨S1024x1, .i32⟩ : BufTy).Contents (Elt F)),
    binary main_arg1 main_v8 main_v9 ((fun x i => Host.gather gather_S16x512x512_S1024x1_S1024x512x512_12_0_n_n_0_1_1512512 x i) : (⟨S16x512x512, .f32⟩ : BufTy).Contents (Elt F) → (⟨S1024x1, .i32⟩ : BufTy).Contents (Elt F) → (⟨S1024x512x512, .f32⟩ : BufTy).Contents (Elt F)),
    binary main_v4 main_v9 main_v10 ((fun l r => Host.dotGeneral dot_S1024x64x512_S1024x512x512_S1024x64x512_2_1_1_2_0_0 none l r) : (⟨S1024x64x512, .f32⟩ : BufTy).Contents (Elt F) → (⟨S1024x512x512, .f32⟩ : BufTy).Contents (Elt F) → (⟨S1024x64x512, .f32⟩ : BufTy).Contents (Elt F)),
    nullary main_cst (constant S_ .f32 0x00000000#32),
    unary main_cst main_v11 (broadcastInDim S64x64x512 ![] bcast_S_S64x64x512 : (⟨S_, .f32⟩ : BufTy).Contents (Elt F) → (⟨S64x64x512, .f32⟩ : BufTy).Contents (Elt F)),
    unary main_c_3 main_v12 (broadcastInDim S1024x1 ![0] bcast_S1024_S1024x1_0 : (⟨S1024, .i32⟩ : BufTy).Contents (Elt F) → (⟨S1024x1, .i32⟩ : BufTy).Contents (Elt F)),
    ternary main_v11 main_v12 main_v10 main_v13 ((fun x i u => Host.scatterAdd scatter_S64x64x512_S1024x1_S1024x64x512_12_0_0_1 x i u) : (⟨S64x64x512, .f32⟩ : BufTy).Contents (Elt F) → (⟨S1024x1, .i32⟩ : BufTy).Contents (Elt F) → (⟨S1024x64x512, .f32⟩ : BufTy).Contents (Elt F) → (⟨S64x64x512, .f32⟩ : BufTy).Contents (Elt F)),
    unary main_arg2 main_v14 (broadcastInDim S1x1x512 ![2] bcast_S512_S1x1x512_2 : (⟨S512, .f32⟩ : BufTy).Contents (Elt F) → (⟨S1x1x512, .f32⟩ : BufTy).Contents (Elt F)),
    unary main_v14 main_v15 (broadcastInDim S64x64x512 ![0, 1, 2] bcast_S1x1x512_S64x64x512_0_1_2 : (⟨S1x1x512, .f32⟩ : BufTy).Contents (Elt F) → (⟨S64x64x512, .f32⟩ : BufTy).Contents (Elt F)),
    binary main_v13 main_v15 main_v16 (addf : (⟨S64x64x512, .f32⟩ : BufTy).Contents (Elt F) → (⟨S64x64x512, .f32⟩ : BufTy).Contents (Elt F) → (⟨S64x64x512, .f32⟩ : BufTy).Contents (Elt F)) ]

/-- The table of input rows, one per (output row, tap) pair. -/
abbrev xsT : (⟨S1024, .i32⟩ : BufTy).Contents (Elt F) := fun i => lit0 (S1024.rowMajor i)
/-- The table of taps, one per pair. -/
abbrev wsT : (⟨S1024, .i32⟩ : BufTy).Contents (Elt F) := fun i => lit1 (S1024.rowMajor i)
/-- The table of output rows, one per pair. -/
abbrev ysT : (⟨S1024, .i32⟩ : BufTy).Contents (Elt F) := fun i => lit2 (S1024.rowMajor i)

/-- The index words of the first gather: the input-row table, wrapped by the length where negative (never),
    as a column. -/
def xsIdx : (⟨S1024x1, .i32⟩ : BufTy).Contents (Elt F) :=
  broadcastInDim S1024x1 ![0] bcast_S1024_S1024x1_0
    (select (constantI S1024 1 0#1 : (⟨S1024, .i1⟩ : BufTy).Contents (Elt F))
      (addi (xsT : (⟨S1024, .i32⟩ : BufTy).Contents (Elt F)) (broadcastInDim S1024 ![] bcast_S_S1024 (constantI S_ 32 1024#32 : (⟨S_, .i32⟩ : BufTy).Contents (Elt F))))
      (xsT : (⟨S1024, .i32⟩ : BufTy).Contents (Elt F)))

/-- The index words of the second gather: the tap table, likewise. -/
def wsIdx : (⟨S1024x1, .i32⟩ : BufTy).Contents (Elt F) :=
  broadcastInDim S1024x1 ![0] bcast_S1024_S1024x1_0
    (select (constantI S1024 1 0#1 : (⟨S1024, .i1⟩ : BufTy).Contents (Elt F))
      (addi (wsT : (⟨S1024, .i32⟩ : BufTy).Contents (Elt F)) (broadcastInDim S1024 ![] bcast_S_S1024 (constantI S_ 32 16#32 : (⟨S_, .i32⟩ : BufTy).Contents (Elt F))))
      (wsT : (⟨S1024, .i32⟩ : BufTy).Contents (Elt F)))

/-- The index words of the scatter: the output-row table as a column. -/
def ysIdx : (⟨S1024x1, .i32⟩ : BufTy).Contents (Elt F) :=
  broadcastInDim S1024x1 ![0] bcast_S1024_S1024x1_0 (ysT : (⟨S1024, .i32⟩ : BufTy).Contents (Elt F))

/-- The 1024 per-pair products: pair `e`'s input row times pair `e`'s tap matrix. -/
def prodT (x : (⟨S1024x64x512, .f32⟩ : BufTy).Contents (Elt F)) (k : (⟨S16x512x512, .f32⟩ : BufTy).Contents (Elt F)) :
    (⟨S1024x64x512, .f32⟩ : BufTy).Contents (Elt F) :=
  Host.dotGeneral dot_S1024x64x512_S1024x512x512_S1024x64x512_2_1_1_2_0_0 none
    (Host.gather gather_S1024x64x512_S1024x1_S1024x64x512_12_0_n_n_0_1_164512 x (xsIdx (F := F)))
    (Host.gather gather_S16x512x512_S1024x1_S1024x512x512_12_0_n_n_0_1_1512512 k (wsIdx (F := F)))

/-- The products accumulated into zeros by output row. -/
def accT (x : (⟨S1024x64x512, .f32⟩ : BufTy).Contents (Elt F)) (k : (⟨S16x512x512, .f32⟩ : BufTy).Contents (Elt F)) :
    (⟨S64x64x512, .f32⟩ : BufTy).Contents (Elt F) :=
  Host.scatterAdd scatter_S64x64x512_S1024x1_S1024x64x512_12_0_0_1
    (broadcastInDim S64x64x512 ![] bcast_S_S64x64x512 (constant S_ .f32 0x00000000#32 : (⟨S_, .f32⟩ : BufTy).Contents (Elt F)))
    (ysIdx (F := F)) (prodT x k)

/-- The bias along the last axis. -/
def biasT (b : (⟨S512, .f32⟩ : BufTy).Contents (Elt F)) : (⟨S64x64x512, .f32⟩ : BufTy).Contents (Elt F) :=
  broadcastInDim S64x64x512 ![0, 1, 2] bcast_S1x1x512_S64x64x512_0_1_2 (broadcastInDim S1x1x512 ![2] bcast_S512_S1x1x512_2 b)

/-- The whole program as one term of its arguments. -/
def refTerm (x : (⟨S1024x64x512, .f32⟩ : BufTy).Contents (Elt F)) (k : (⟨S16x512x512, .f32⟩ : BufTy).Contents (Elt F))
    (b : (⟨S512, .f32⟩ : BufTy).Contents (Elt F)) : (⟨S64x64x512, .f32⟩ : BufTy).Contents (Elt F) :=
  addf (accT x k) (biasT b)

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., unary_bufs_sub .., binary_bufs_sub ..⟩

set_option maxHeartbeats 2000000 in
/-- On every device, for any float values, from any memory with zero counters: every weakly fair execution of
    the program terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v16).trans (by after_results_simp; rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Cert.ReferenceIdeal.Hand

end
-- ==== Proof.RefRows.lean ====
/-
  Two host operations on whole rows, read at an index.

  A gather whose start indices are one word per result row copies operand rows: result row `e` is the operand row
  named by word `e` (read signed, clamped into the operand).  An accumulating scatter whose indices are one word per
  update row adds update rows into operand rows: at the exact values, operand row `y` ends as itself plus the sum of
  the update rows whose word is `y`.
-/
import Idealize.ShloMosaic.Lib.ValueIdx
import Idealize.ShloMosaic.PureOps.Ideal.Laws

noncomputable section

namespace Cert.ReferenceIdeal.Hand

open Idealize.ShloMosaic Idealize.ShloMosaic.ValueIdx
open scoped BigOperators

section GatherRows
variable {α : Type}

/-- The dimension numbers of a gather of whole rows: operand `[N, A, B]`, start indices `[E, 1]`, result `[E, A, B]`. -/
abbrev gatherRowsDims (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The gather of rows read at `(e, a, b)`: the operand's row at the start index `idx[e, 0]`, read signed and
    clamped into `[0, N - 1]`, at `(a, b)`. -/
theorem gather_rows_apply {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (gatherRowsDims N E A B wf) x idx (ix3 e a b)
      = x (ix3 ⟨min (idx (ix2 e 0)).toInt.toNat (N - 1), by omega⟩ a b) := by
  have h0 : (gatherRowsDims N E A B wf).start (ix3 e a b) idx (0 : Fin 3) + (gatherRowsDims N E A B wf).batchCoord (ix3 e a b) (0 : Fin 3)
      + (gatherRowsDims N E A B wf).offCoord (ix3 e a b) (0 : Fin 3) = min (idx (ix2 e 0)).toInt.toNat (N - 1) := by
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (0 : Fin 3) ∈ ([0] : List (Fin 3)) from List.mem_singleton.mpr rfl)]
    have hsi : (gatherRowsDims N E A B wf).siIdx (ix3 e a b) ⟨List.idxOf (0 : Fin 3) ([0] : List (Fin 3)),
        List.idxOf_lt_length_iff.2 (List.mem_singleton.mpr rfl)⟩ = ix2 e 0 := by
      funext c; refine Fin.ext ?_
      match c with
      | ⟨0, _⟩ => rfl
      | ⟨1, _⟩ => rfl
    rw [hsi]
    rfl
  have h1 : (gatherRowsDims N E A B wf).start (ix3 e a b) idx (1 : Fin 3) + (gatherRowsDims N E A B wf).batchCoord (ix3 e a b) (1 : Fin 3)
      + (gatherRowsDims N E A B wf).offCoord (ix3 e a b) (1 : Fin 3) = a.val := by
    rw [GatherDims.batchCoord_eq_zero _ _ _ List.not_mem_nil, Nat.add_zero]
    have hs : (gatherRowsDims N E A B wf).start (ix3 e a b) idx (1 : Fin 3) = 0 := by
      unfold GatherDims.start; rw [dif_neg (show ¬ (1 : Fin 3) ∈ ([0] : List (Fin 3)) by decide)]
    have ho : (gatherRowsDims N E A B wf).offCoord (ix3 e a b) (1 : Fin 3) = a.val := by
      unfold GatherDims.offCoord; rw [dif_pos ((GatherDims.mem_sKept _ _).mpr ⟨(show ¬ (1 : Fin 3) ∈ ([0] : List (Fin 3)) by decide), List.not_mem_nil⟩)]; rfl
    rw [hs, ho, Nat.zero_add]
  have h2 : (gatherRowsDims N E A B wf).start (ix3 e a b) idx (2 : Fin 3) + (gatherRowsDims N E A B wf).batchCoord (ix3 e a b) (2 : Fin 3)
      + (gatherRowsDims N E A B wf).offCoord (ix3 e a b) (2 : Fin 3) = b.val := by
    rw [GatherDims.batchCoord_eq_zero _ _ _ List.not_mem_nil, Nat.add_zero]
    have hs : (gatherRowsDims N E A B wf).start (ix3 e a b) idx (2 : Fin 3) = 0 := by
      unfold GatherDims.start; rw [dif_neg (show ¬ (2 : Fin 3) ∈ ([0] : List (Fin 3)) by decide)]
    have ho : (gatherRowsDims N E A B wf).offCoord (ix3 e a b) (2 : Fin 3) = b.val := by
      unfold GatherDims.offCoord; rw [dif_pos ((GatherDims.mem_sKept _ _).mpr ⟨(show ¬ (2 : Fin 3) ∈ ([0] : List (Fin 3)) by decide), List.not_mem_nil⟩)]; rfl
    rw [hs, ho, Nat.zero_add]
  unfold Host.gather
  congr 1
  funext ax
  refine Fin.ext ?_
  match ax with
  | ⟨0, _⟩ => exact h0
  | ⟨1, _⟩ => exact h1
  | ⟨2, _⟩ => exact h2

end GatherRows

section ScatterRows

/-- The dimension numbers of a scatter of whole rows: operand `[Y, A, B]`, scatter indices `[E, 1]`, updates `[E, A, B]`. -/
abbrev scatterRowsDims (Y E A B : Nat)
    (wf : ScatterDims.WF ⟨3, ![Y, A, B]⟩ ⟨2, ![E, 1]⟩ ⟨3, ![E, A, B]⟩ [1, 2] [0] [0] 1) :
    ScatterDims ⟨3, ![Y, A, B]⟩ ⟨2, ![E, 1]⟩ ⟨3, ![E, A, B]⟩ where
  updateWindowDims := [1, 2]
  insertedWindowDims := [0]
  scatterDimsToOperandDims := [0]
  indexVectorDim := 1
  wf := wf

variable {Y E A B w : Nat} (wf : ScatterDims.WF ⟨3, ![Y, A, B]⟩ ⟨2, ![E, 1]⟩ ⟨3, ![E, A, B]⟩ [1, 2] [0] [0] 1)
  (idx : IVec ⟨2, ![E, 1]⟩ w) (e : Fin E) (a : Fin A) (b : Fin B)

theorem scatterRows_start0 :
    (scatterRowsDims Y E A B wf).start (ix3 e a b) idx (0 : Fin 3) = (idx (ix2 e 0)).toInt := by
  unfold ScatterDims.start
  rw [dif_pos (show (0 : Fin 3) ∈ ([0] : List (Fin 3)) from List.mem_singleton.mpr rfl)]
  have hsi : (scatterRowsDims Y E A B wf).siIdx (ix3 e a b) ⟨List.idxOf (0 : Fin 3) ([0] : List (Fin 3)),
      List.idxOf_lt_length_iff.2 (List.mem_singleton.mpr rfl)⟩ = ix2 e 0 := by
    funext c; refine Fin.ext ?_
    match c with
    | ⟨0, _⟩ => rfl
    | ⟨1, _⟩ => rfl
  rw [hsi]

theorem scatterRows_start1 : (scatterRowsDims Y E A B wf).start (ix3 e a b) idx (1 : Fin 3) = 0 := by
  unfold ScatterDims.start; rw [dif_neg (show ¬ (1 : Fin 3) ∈ ([0] : List (Fin 3)) by decide)]

theorem scatterRows_start2 : (scatterRowsDims Y E A B wf).start (ix3 e a b) idx (2 : Fin 3) = 0 := by
  unfold ScatterDims.start; rw [dif_neg (show ¬ (2 : Fin 3) ∈ ([0] : List (Fin 3)) by decide)]

theorem scatterRows_window0 : (scatterRowsDims Y E A B wf).window (ix3 e a b) (0 : Fin 3) = 0 := by
  unfold ScatterDims.window; rw [dif_neg (show ¬ (0 : Fin 3) ∈ ((⟨3, ![Y, A, B]⟩ : Shape).kept [0]) by simp [Shape.kept])]

theorem scatterRows_window1 : (scatterRowsDims Y E A B wf).window (ix3 e a b) (1 : Fin 3) = a.val := by
  unfold ScatterDims.window; rw [dif_pos (show (1 : Fin 3) ∈ ((⟨3, ![Y, A, B]⟩ : Shape).kept [0]) by simp [Shape.kept])]; rfl

theorem scatterRows_window2 : (scatterRowsDims Y E A B wf).window (ix3 e a b) (2 : Fin 3) = b.val := by
  unfold ScatterDims.window; rw [dif_pos (show (2 : Fin 3) ∈ ((⟨3, ![Y, A, B]⟩ : Shape).kept [0]) by simp [Shape.kept])]; rfl

/-- An update row whose index word is the row `y` of the operand lands, element by element, on that row. -/
theorem scatterRows_resultIdx (y : Fin Y) (h : (idx (ix2 e 0)).toInt = (y.val : Int)) :
    (scatterRowsDims Y E A B wf).resultIdx? (ix3 e a b) idx = some (ix3 y a b) := by
  have e0 : (scatterRowsDims Y E A B wf).start (ix3 e a b) idx (0 : Fin 3) + ((scatterRowsDims Y E A B wf).window (ix3 e a b) (0 : Fin 3) : Nat)
      = (y.val : Int) := by rw [scatterRows_start0, scatterRows_window0, h]; simp
  have e1 : (scatterRowsDims Y E A B wf).start (ix3 e a b) idx (1 : Fin 3) + ((scatterRowsDims Y E A B wf).window (ix3 e a b) (1 : Fin 3) : Nat)
      = (a.val : Int) := by rw [scatterRows_start1, scatterRows_window1]; simp
  have e2 : (scatterRowsDims Y E A B wf).start (ix3 e a b) idx (2 : Fin 3) + ((scatterRowsDims Y E A B wf).window (ix3 e a b) (2 : Fin 3) : Nat)
      = (b.val : Int) := by rw [scatterRows_start2, scatterRows_window2]; simp
  have hall : ∀ ax : Fin 3, 0 ≤ (scatterRowsDims Y E A B wf).start (ix3 e a b) idx ax + ((scatterRowsDims Y E A B wf).window (ix3 e a b) ax : Nat)
      ∧ (scatterRowsDims Y E A B wf).start (ix3 e a b) idx ax + ((scatterRowsDims Y E A B wf).window (ix3 e a b) ax : Nat)
        < (((⟨3, ![Y, A, B]⟩ : Shape).size ax : Nat) : Int) := by
    intro ax
    match ax with
    | ⟨0, _⟩ => exact (show _ from by rw [show (⟨0, by omega⟩ : Fin 3) = 0 from rfl, e0]; exact ⟨by omega, by exact_mod_cast y.isLt⟩)
    | ⟨1, _⟩ => exact (show _ from by rw [show (⟨1, by omega⟩ : Fin 3) = 1 from rfl, e1]; exact ⟨by omega, by exact_mod_cast a.isLt⟩)
    | ⟨2, _⟩ => exact (show _ from by rw [show (⟨2, by omega⟩ : Fin 3) = 2 from rfl, e2]; exact ⟨by omega, by exact_mod_cast b.isLt⟩)
  unfold ScatterDims.resultIdx?
  rw [dif_pos hall]
  congr 1
  funext ax
  refine Fin.ext ?_
  match ax with
  | ⟨0, _⟩ => exact (show ((scatterRowsDims Y E A B wf).start (ix3 e a b) idx (0 : Fin 3) + ((scatterRowsDims Y E A B wf).window (ix3 e a b) (0 : Fin 3) : Nat)).toNat = y.val by rw [e0]; simp)
  | ⟨1, _⟩ => exact (show ((scatterRowsDims Y E A B wf).start (ix3 e a b) idx (1 : Fin 3) + ((scatterRowsDims Y E A B wf).window (ix3 e a b) (1 : Fin 3) : Nat)).toNat = a.val by rw [e1]; simp)
  | ⟨2, _⟩ => exact (show ((scatterRowsDims Y E A B wf).start (ix3 e a b) idx (2 : Fin 3) + ((scatterRowsDims Y E A B wf).window (ix3 e a b) (2 : Fin 3) : Nat)).toNat = b.val by rw [e2]; simp)

/-- The accumulating scatter of rows at the exact values, read at `(y, a, b)`: the operand there plus the sum, over the
    update rows whose index word is `y`, of the update at `(·, a, b)`.  `row` names the index words, all inside the
    operand. -/
theorem scatterAdd_rows_apply (x : (⟨3, ![Y, A, B]⟩ : Shape).Idx → EReal) (upd : (⟨3, ![E, A, B]⟩ : Shape).Idx → EReal)
    (row : Fin E → Fin Y) (hrow : ∀ e, (idx (ix2 e 0)).toInt = ((row e).val : Int)) (y : Fin Y) :
    Ideal.hostScatterAdd (scatterRowsDims Y E A B wf) x idx upd (ix3 y a b)
      = x (ix3 y a b) + ∑ e ∈ Finset.univ.filter (fun e => row e = y), upd (ix3 e a b) := by
  have key : ∀ (e' : Fin E) (a' : Fin A) (b' : Fin B),
      (scatterRowsDims Y E A B wf).resultIdx? (ix3 e' a' b') idx = some (ix3 y a b) ↔ row e' = y ∧ a' = a ∧ b' = b := by
    intro e' a' b'
    rw [scatterRows_resultIdx wf idx e' a' b' (row e') (hrow e')]
    constructor
    · intro h
      have h' := Option.some.inj h
      exact ⟨congrFun h' 0, congrFun h' 1, congrFun h' 2⟩
    · rintro ⟨h0, h1, h2⟩
      rw [h0, h1, h2]
  have hix : ∀ j : (⟨3, ![E, A, B]⟩ : Shape).Idx, ∃ (e' : Fin E) (a' : Fin A) (b' : Fin B), j = ix3 e' a' b' :=
    fun j => ⟨j 0, j 1, j 2, eq_ix3 j⟩
  show x (ix3 y a b) + _ = _
  congr 1
  refine Finset.sum_nbij' (fun j => (j 0 : Fin E)) (fun e => ix3 e a b) ?_ ?_ ?_ ?_ ?_
  · intro j hj
    obtain ⟨e', a', b', rfl⟩ := hix j
    exact Finset.mem_filter.mpr ⟨Finset.mem_univ _, ((key e' a' b').mp (Finset.mem_filter.mp hj).2).1⟩
  · intro e he
    exact Finset.mem_filter.mpr ⟨Finset.mem_univ _, (key e a b).mpr ⟨(Finset.mem_filter.mp he).2, rfl, rfl⟩⟩
  · intro j hj
    obtain ⟨e', a', b', rfl⟩ := hix j
    obtain ⟨_, h1, h2⟩ := (key e' a' b').mp (Finset.mem_filter.mp hj).2
    subst h1 h2
    rfl
  · intro e _
    rfl
  · intro j hj
    obtain ⟨e', a', b', rfl⟩ := hix j
    obtain ⟨_, h1, h2⟩ := (key e' a' b').mp (Finset.mem_filter.mp hj).2
    subst h1 h2
    rfl

end ScatterRows

end Cert.ReferenceIdeal.Hand

end
-- ==== Proof.RefIndex.lean ====
/-
  The reference program's stages, each read at an index.

  The three literal tables list, for entry `e = 16 * y + w` of 1024, the input row `(y + 1) * (w + 1) - 1`, the tap
  `w` and the output row `y`.  So gathered row `e` of the input is its row `(y + 1) * (w + 1) - 1`, gathered row
  `e` of the weights is tap `w`, product `e` is that row times that tap's matrix, and the scatter adds product `e`
  into output row `y`.
-/
import proofs.«155339_j73821897884183_2_alg».proof.Proof.Spec
import proofs.«155339_j73821897884183_2_alg».proof.Proof.RefRun
import proofs.«155339_j73821897884183_2_alg».proof.Proof.RefRows
import Idealize.ShloMosaic.Lib.StackMember
import Idealize.ShloMosaic.Lib.IdealHost

noncomputable section

namespace Cert.ReferenceIdeal.Hand

open Cert.ReferenceIdeal Cert.ReferenceIdeal.Gen Idealize.ShloMosaic Idealize.ShloMosaic.ValueIdx Idealize.SL.Sem
open scoped BigOperators

/-! ## The three tables -/

theorem lit0_toNat : ∀ e : Fin 1024, (lit0 e).toNat = (e.val / 16 + 1) * (e.val % 16 + 1) - 1 := by decide +kernel
theorem lit1_toNat : ∀ e : Fin 1024, (lit1 e).toNat = e.val % 16 := by decide +kernel
theorem lit2_toNat : ∀ e : Fin 1024, (lit2 e).toNat = e.val / 16 := by decide +kernel

/-- Entry `e`'s output row `e / 16`. -/
def yrow (e : Fin 1024) : Fin 64 := ⟨e.val / 16, by have := e.isLt; omega⟩
/-- Entry `e`'s tap `e % 16`. -/
def wrow (e : Fin 1024) : Fin 16 := ⟨e.val % 16, by omega⟩
/-- Entry `e`'s input row. -/
def xrow (e : Fin 1024) : Fin 1024 := Cert.Spec.tapRow (yrow e) (wrow e)

theorem xrow_val (e : Fin 1024) : (xrow e).val = (e.val / 16 + 1) * (e.val % 16 + 1) - 1 := rfl

/-- A 32-bit word below `2 ^ 31` read signed is its value. -/
theorem toInt_of_lt (v : BitVec 32) {n : Nat} (hv : v.toNat = n) (hn : n < 1024) : v.toInt = (n : Int) := by
  rw [BitVec.toInt_eq_toNat_of_lt (by omega), hv]

/-! ## The index words -/

variable (F : FTy → Type) [FloatOps F]

/-- A table as a column, at row `e`. -/
theorem col_apply (v : IVec S1024 32) (e : Fin 1024) :
    broadcastInDim S1024x1 ![0] bcast_S1024_S1024x1_0 v (ix2 e 0) = v (ix1 e) := by
  unfold broadcastInDim
  congr 1
  funext a
  obtain rfl : a = 0 := Subsingleton.elim _ _
  rw [dif_neg (by decide)]
  rfl

theorem rowMajor_ix1 (e : Fin 1024) : S1024.rowMajor (ix1 e) = e := Fin.ext (Shape.rowMajor_val_one _)

theorem xsIdx_apply (e : Fin 1024) : (xsIdx (F := F)) (ix2 e 0) = lit0 e := by
  unfold xsIdx
  rw [col_apply, select_apply]
  show Scalar.select 0#1 _ (lit0 (S1024.rowMajor (ix1 e))) = _
  rw [select_zero, rowMajor_ix1]

theorem wsIdx_apply (e : Fin 1024) : (wsIdx (F := F)) (ix2 e 0) = lit1 e := by
  unfold wsIdx
  rw [col_apply, select_apply]
  show Scalar.select 0#1 _ (lit1 (S1024.rowMajor (ix1 e))) = _
  rw [select_zero, rowMajor_ix1]

theorem ysIdx_apply (e : Fin 1024) : (ysIdx (F := F)) (ix2 e 0) = lit2 e := by
  unfold ysIdx
  rw [col_apply]
  show lit2 (S1024.rowMajor (ix1 e)) = _
  rw [rowMajor_ix1]

/-! ## The stages at the exact values -/

/-- Gathered row `e` of the input is its row `xrow e`. -/
theorem gatherX_apply (x : S1024x64x512.Idx → EReal) (e : Fin 1024) (n : Fin 64) (c : Fin 512) :
    Host.gather gather_S1024x64x512_S1024x1_S1024x64x512_12_0_n_n_0_1_164512 x (xsIdx (F := Ideal)) (ix3 e n c)
      = x (ix3 (xrow e) n c) := by
  refine (gather_rows_apply (by decide) _ x (xsIdx (F := Ideal)) e n c).trans ?_
  congr 2
  refine Fin.ext ?_
  show min ((xsIdx (F := Ideal)) (ix2 e 0)).toInt.toNat (1024 - 1) = (xrow e).val
  have hlt := (xrow e).isLt
  rw [xsIdx_apply, toInt_of_lt _ ((lit0_toNat e).trans (xrow_val e).symm) hlt, Int.toNat_natCast]
  omega

/-- Gathered row `e` of the weights is tap `wrow e`. -/
theorem gatherK_apply (k : S16x512x512.Idx → EReal) (e : Fin 1024) (c : Fin 512) (o : Fin 512) :
    Host.gather gather_S16x512x512_S1024x1_S1024x512x512_12_0_n_n_0_1_1512512 k (wsIdx (F := Ideal)) (ix3 e c o)
      = k (ix3 (wrow e) c o) := by
  refine (gather_rows_apply (by decide) _ k (wsIdx (F := Ideal)) e c o).trans ?_
  congr 2
  refine Fin.ext ?_
  show min ((wsIdx (F := Ideal)) (ix2 e 0)).toInt.toNat (16 - 1) = (wrow e).val
  have hlt := (wrow e).isLt
  rw [wsIdx_apply, toInt_of_lt _ (lit1_toNat e) (show e.val % 16 < 1024 by omega), Int.toNat_natCast]
  show min (e.val % 16) (16 - 1) = e.val % 16
  omega

/-- Product `e`: row `xrow e` of the input times tap `wrow e`'s matrix. -/
theorem prodT_apply (x : S1024x64x512.Idx → EReal) (k : S16x512x512.Idx → EReal) (e : Fin 1024) (n : Fin 64) (o : Fin 512) :
    prodT (F := Ideal) x k (ix3 e n o) = ∑ c : Fin 512, x (ix3 (xrow e) n c) * k (ix3 (wrow e) c o) := by
  unfold prodT
  refine (StackMember.dotGeneral_stack_apply (G := 1024) (m := 64) (n := 512) (k := 512)
    dot_S1024x64x512_S1024x512x512_S1024x64x512_2_1_1_2_0_0_wf none _ _ e n o).trans ?_
  refine Finset.sum_congr rfl fun c _ => ?_
  rw [gatherX_apply, gatherK_apply]

/-- The accumulated products at `(y, n, o)`: the sum over the entries whose output row is `y`. -/
theorem accT_apply (x : S1024x64x512.Idx → EReal) (k : S16x512x512.Idx → EReal) (y : Fin 64) (n : Fin 64) (o : Fin 512) :
    accT (F := Ideal) x k (ix3 y n o)
      = ∑ e ∈ Finset.univ.filter (fun e => yrow e = y), ∑ c : Fin 512, x (ix3 (xrow e) n c) * k (ix3 (wrow e) c o) := by
  unfold accT
  have hrow : ∀ e : Fin 1024, ((ysIdx (F := Ideal)) (ix2 e 0)).toInt = ((yrow e).val : Int) := fun e => by
    rw [ysIdx_apply]; exact toInt_of_lt _ (lit2_toNat e) (by have := e.isLt; omega)
  refine (scatterAdd_rows_apply scatter_S64x64x512_S1024x1_S1024x64x512_12_0_0_1_wf (ysIdx (F := Ideal)) n o _ _ yrow hrow y).trans ?_
  rw [broadcastInDim_scalar_apply, constant_apply, Ideal.ofBits_zero_f32, zero_add]
  exact Finset.sum_congr rfl fun e _ => prodT_apply x k e n o

/-- The bias at `(y, n, o)`. -/
theorem biasT_apply (b : S512.Idx → EReal) (y : Fin 64) (n : Fin 64) (o : Fin 512) :
    biasT (F := Ideal) b (ix3 y n o) = b (ix1 o) := by
  unfold biasT broadcastInDim
  congr 1
  funext a
  obtain rfl : a = 0 := Subsingleton.elim _ _
  rfl

end Cert.ReferenceIdeal.Hand

end
-- ==== Proof.RefValue.lean ====
/-
  The reference program computes the specification function.

  The scatter adds product `e` into output row `e / 16`; the entries with output row `y` are `16 * y + w`,
  `w < 16`, and entry `16 * y + w` multiplies input row `(y + 1) * (w + 1) - 1` by tap `w`'s matrix.  So the sum
  over those entries is the specification's sum over the sixteen taps, and the bias is added last in both.
-/
import proofs.«155339_j73821897884183_2_alg».proof.Proof.Spec
import proofs.«155339_j73821897884183_2_alg».proof.Proof.RefIndex

noncomputable section

namespace Cert.ReferenceIdeal.Hand

open Cert.ReferenceIdeal Cert.ReferenceIdeal.Gen Idealize.ShloMosaic Idealize.ShloMosaic.ValueIdx Idealize.ShloMosaic.TcCoe Idealize.SL.Sem
open scoped BigOperators

/-- Entry `16 * y + w`. -/
def entry (y : Fin 64) (w : Fin 16) : Fin 1024 := ⟨16 * y.val + w.val, by have := y.isLt; have := w.isLt; omega⟩

theorem yrow_entry (y : Fin 64) (w : Fin 16) : yrow (entry y w) = y :=
  Fin.ext (show (16 * y.val + w.val) / 16 = y.val by have := w.isLt; omega)

theorem wrow_entry (y : Fin 64) (w : Fin 16) : wrow (entry y w) = w :=
  Fin.ext (show (16 * y.val + w.val) % 16 = w.val by have := w.isLt; omega)

theorem xrow_entry (y : Fin 64) (w : Fin 16) : xrow (entry y w) = Cert.Spec.tapRow y w := by
  unfold xrow; rw [yrow_entry, wrow_entry]

theorem entry_of_yrow {e : Fin 1024} {y : Fin 64} (h : yrow e = y) : entry y (wrow e) = e := by
  have h' : e.val / 16 = y.val := congrArg Fin.val h
  exact Fin.ext (show 16 * y.val + e.val % 16 = e.val by omega)

/-- A sum over the entries whose output row is `y` is the sum over the sixteen taps. -/
theorem sum_filter_yrow {M : Type} [AddCommMonoid M] (f : Fin 1024 → M) (y : Fin 64) :
    ∑ e ∈ Finset.univ.filter (fun e => yrow e = y), f e = ∑ w : Fin 16, f (entry y w) := by
  refine Finset.sum_nbij' (fun e => wrow e) (fun w => entry y w) ?_ ?_ ?_ ?_ ?_
  · intro e _; exact Finset.mem_univ _
  · intro w _; exact Finset.mem_filter.mpr ⟨Finset.mem_univ _, yrow_entry y w⟩
  · intro e he; exact entry_of_yrow (Finset.mem_filter.mp he).2
  · intro w _; exact wrow_entry y w
  · intro e he; rw [entry_of_yrow (Finset.mem_filter.mp he).2]

/-- The program's term is the specification function. -/
theorem refTerm_eq (x : S1024x64x512.Idx → EReal) (k : S16x512x512.Idx → EReal) (b : S512.Idx → EReal) :
    refTerm (F := Ideal) x k b = Cert.Spec.G x k b := by
  funext i
  obtain ⟨y, n, o, rfl⟩ : ∃ (y : Fin 64) (n : Fin 64) (o : Fin 512), i = ix3 y n o := ⟨i 0, i 1, i 2, eq_ix3 i⟩
  rw [Cert.Spec.G_apply]
  unfold refTerm
  rw [addf_apply, accT_apply, biasT_apply, sum_filter_yrow]
  congr 1
  refine Finset.sum_congr rfl fun w _ => ?_
  rw [xrow_entry, wrow_entry]

/-- On every device, from any memory with zero counters: every weakly fair execution of the reference program
    terminates with its result the specification function of its three arguments, and the arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v16)
            = Cert.Spec.G (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans (refTerm_eq _ _ _), (h c).2⟩)
    (run (F := Ideal) m ρ)

end Cert.ReferenceIdeal.Hand

end
-- ==== Proof.lean ====
/-
  The certificate: a pipelined kernel that builds each of 64 output rows from sixteen irregularly placed input
  rows, against a gather / batched-product / segment-sum reference.

  Output row y, tap w reads input row (y + 1) * (w + 1) - 1.  Both programs compute, index by index,
      out[y, n, o] = (∑ w < 16, ∑ c < 512, x[(y + 1) * (w + 1) - 1, n, c] * k[w, c, o]) + b[o]
  (Spec.lean).  The kernel takes four output rows per grid point, reads their 64 input rows through 64 windows of
  the one input array, and accumulates sixteen products of a [256, 512] stack of rows with a [512, 512] slice of the
  weights; the reference gathers the 1024 (row, tap) pairs from three literal tables, multiplies them in one
  batched product and adds the sixteen products of each output row by a scatter-add into zeros.  Over the extended
  reals the narrowing of the products' operands is the identity, and the two results are the same sum regrouped:
  only commutativity and associativity of addition are used, so the inputs' finiteness is never needed.

  The three frames: each program runs to the end, faults nowhere and leaves its arguments unchanged (the kernel's
  at both float instances from one development generic in the instance; the reference's is its run with the result
  dropped).  The idealization rewrote nothing, so that conjunct is trivial.
-/
import proofs.«155339_j73821897884183_2_alg».proof.Defs
import proofs.«155339_j73821897884183_2_alg».proof.Proof.Gen.Kernel
import proofs.«155339_j73821897884183_2_alg».proof.Proof.Gen.KernelIdeal
import proofs.«155339_j73821897884183_2_alg».proof.Proof.Gen.ReferenceIdeal
import proofs.«155339_j73821897884183_2_alg».proof.Proof.Gen.Pre_finite_inputs
import proofs.«155339_j73821897884183_2_alg».proof.Proof.KFrame
import proofs.«155339_j73821897884183_2_alg».proof.Proof.KIFrame
import proofs.«155339_j73821897884183_2_alg».proof.Proof.KIRunG
import proofs.«155339_j73821897884183_2_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Hand.run_G m ρ)

/-- Both programs end with the specification's function of the arguments, which agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.run_G m ρ, ?_⟩
  refine (θ_run Cert.ReferenceIdeal.defs _ _).mono (fun _ h c => ⟨(h c).1.trans ?_, (h c).2⟩) (Cert.ReferenceIdeal.Hand.run_G m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
